-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_v72) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000x128 : Shape := ⟨2, ![640000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128x128 .f32) (main_arg6 : FVec F S128x128 .f32) (main_arg7 : FVec F S128x128 .f32) (main_arg8 : FVec F S128 .f32) (main_arg9 : FVec F S128 .f32) (main_arg10 : FVec F S128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : FVec F S640000x128 .f32) (main_arg2 : IVec S2x640000 32) (main_arg3 : FVec F S128x128 .f32) (main_arg4 : FVec F S128x128 .f32) (main_arg5 : FVec F S128x128 .f32) (main_arg6 : FVec F S128x128 .f32) (main_arg7 : FVec F S128x128 .f32) (main_arg8 : FVec F S128 .f32) (main_arg9 : FVec F S128 .f32) (main_arg10 : FVec F S128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S640000x128 : Shape := ⟨2, ![640000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S16x128 : Shape := ⟨2, ![16, 128]⟩
abbrev S4000x128 : Shape := ⟨2, ![4000, 128]⟩
abbrev S8x128 : Shape := ⟨2, ![8, 128]⟩
abbrev S1x128 : Shape := ⟨2, ![1, 128]⟩
abbrev S5000x128 : Shape := ⟨2, ![5000, 128]⟩

abbrev nBuf : Space → Nat
  | .hbm => 103
  | .vmem => 49
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S2x640000, .i32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S50000x128, .bf16⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .bf16⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000x128, .bf16⟩
  | .hbm, ⟨35, _⟩ => ⟨S128x128, .f32⟩
  | .hbm, ⟨36, _⟩ => ⟨S128x128, .bf16⟩
  | .hbm, ⟨37, _⟩ => ⟨S128x128, .f32⟩
  | .hbm, ⟨38, _⟩ => ⟨S128x128, .bf16⟩
  | .hbm, ⟨39, _⟩ => ⟨S128x128, .f32⟩
  | .hbm, ⟨40, _⟩ => ⟨S128x128, .bf16⟩
  | .hbm, ⟨41, _⟩ => ⟨S128x128, .f32⟩
  | .hbm, ⟨42, _⟩ => ⟨S128x128, .bf16⟩
  | .hbm, ⟨43, _⟩ => ⟨S128x128, .f32⟩
  | .hbm, ⟨44, _⟩ => ⟨S128x128, .bf16⟩
  | .hbm, ⟨45, _⟩ => ⟨S640000x128, .f32⟩
  | .hbm, ⟨46, _⟩ => ⟨S640000x128, .f32⟩
  | .hbm, ⟨47, _⟩ => ⟨S16x128, .f32⟩
  | .hbm, ⟨48, _⟩ => ⟨S16x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S_, .f32⟩
  | .hbm, ⟨56, _⟩ => ⟨S1x128, .f32⟩
  | .hbm, ⟨57, _⟩ => ⟨S1x128, .f32⟩
  | .hbm, ⟨58, _⟩ => ⟨S_, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S_, .f32⟩
  | .hbm, ⟨64, _⟩ => ⟨S1x128, .f32⟩
  | .hbm, ⟨65, _⟩ => ⟨S1x128, .f32⟩
  | .hbm, ⟨66, _⟩ => ⟨S_, .f32⟩
  | .hbm, ⟨67, _⟩ => ⟨S50000x128, .f32⟩
  | .hbm, ⟨68, _⟩ => ⟨S_, .i32⟩
  | .hbm, ⟨69, _⟩ => ⟨S640000, .i32⟩
  | .hbm, ⟨70, _⟩ => ⟨S640000, .i1⟩
  | .hbm, ⟨71, _⟩ => ⟨S_, .i32⟩
  | .hbm, ⟨72, _⟩ => ⟨S640000, .i32⟩
  | .hbm, ⟨73, _⟩ => ⟨S640000, .i32⟩
  | .hbm, ⟨74, _⟩ => ⟨S640000, .i32⟩
  | .hbm, ⟨75, _⟩ => ⟨S640000x1, .i32⟩
  | .hbm, ⟨76, _⟩ => ⟨S50000x128, .f32⟩
  | .hbm, ⟨77, _⟩ => ⟨S50000x128, .f32⟩
  | .hbm, ⟨78, _⟩ => ⟨S16x128, .f32⟩
  | .hbm, ⟨79, _⟩ => ⟨S16x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S_, .f32⟩
  | .hbm, ⟨87, _⟩ => ⟨S1x128, .f32⟩
  | .hbm, ⟨88, _⟩ => ⟨S1x128, .f32⟩
  | .hbm, ⟨89, _⟩ => ⟨S_, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S_, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S1x128, .f32⟩
  | .hbm, ⟨100, _⟩ => ⟨S1x128, .f32⟩
  | .hbm, ⟨101, _⟩ => ⟨S50000x128, .f32⟩
  | .hbm, ⟨102, _⟩ => ⟨S640000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x128, .f32⟩
  | .local _ .vmem, ⟨5, _⟩ => ⟨S4000x128, .f32⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .bf16⟩
  | .local _ .vmem, ⟨23, _⟩ => ⟨S5000x128, .f32⟩
  | .local _ .vmem, ⟨24, _⟩ => ⟨S5000x128, .f32⟩
  | .local _ .vmem, ⟨25, _⟩ => ⟨S8x128, .f32⟩
  | .local _ .vmem, ⟨26, _⟩ => ⟨S8x128, .f32⟩
  | .local _ .vmem, ⟨27, _⟩ => ⟨S8x128, .f32⟩
  | .local _ .vmem, ⟨28, _⟩ => ⟨S8x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | .local _ .vmem, ⟨39, _⟩ => ⟨S4000x128, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S4000x128, .f32⟩
  | .local _ .vmem, ⟨48, _⟩ => ⟨S4000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v29_2 : Ref sig .tc := ⟨.hbm, 47, rfl⟩
abbrev main_v29_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst : Ref sig .tc := ⟨.hbm, 55, rfl⟩
abbrev main_v36 : Ref sig .tc := ⟨.hbm, 56, rfl⟩
abbrev main_v37 : Ref sig .tc := ⟨.hbm, 57, rfl⟩
abbrev main_cst_3 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_4 : Ref sig .tc := ⟨.hbm, 63, rfl⟩
abbrev main_v42 : Ref sig .tc := ⟨.hbm, 64, rfl⟩
abbrev main_v43 : Ref sig .tc := ⟨.hbm, 65, rfl⟩
abbrev main_cst_5 : Ref sig .tc := ⟨.hbm, 66, rfl⟩
abbrev main_v44 : Ref sig .tc := ⟨.hbm, 67, rfl⟩
abbrev main_c_6 : Ref sig .tc := ⟨.hbm, 68, rfl⟩
abbrev main_v45 : Ref sig .tc := ⟨.hbm, 69, rfl⟩
abbrev main_v46 : Ref sig .tc := ⟨.hbm, 70, rfl⟩
abbrev main_c_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52_0 : Ref sig .tc := ⟨.hbm, 77, rfl⟩
abbrev main_v52_1 : Ref sig .tc := ⟨.hbm, 78, rfl⟩
abbrev main_v52_2 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_8 : Ref sig .tc := ⟨.hbm, 86, rfl⟩
abbrev main_v59 : Ref sig .tc := ⟨.hbm, 87, rfl⟩
abbrev main_v60 : Ref sig .tc := ⟨.hbm, 88, rfl⟩
abbrev main_cst_9 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_10 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg6_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg6_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem5_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem6_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem3_0 : DmaSem sig := 44
abbrev cc3_sem4_0 : DmaSem sig := 45
abbrev cc3_sem5_0 : DmaSem sig := 46
abbrev cc3_sem6_0 : DmaSem sig := 47
abbrev cc3_sem6_1 : DmaSem sig := 48

abbrev nD : Nat := 1
abbrev τ : Topo := Topo.v7x

variable {F : FTy → Type} [FloatOps F]

abbrev grid0 : Pipeline.Grid := ⟨2, ![2, 80], ![false, false]⟩

def cc0_transform_0 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.muli arg0 c80_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.muli arg0 c80_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.muli arg0 c80_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.muli arg0 c80_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.muli arg0 c80_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := ⟨2, ![2, 5], ![false, false]⟩

def cc1_transform_0 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![160], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  transposes_S128x128_S128x128_1_0 : S128x128.Transposes [1, 0] S128x128
  inb_S8x128_S8x128_0_0 : ∀ a, (![0, 0] : Fin 2 → Nat) a + S8x128.size a ≤ S8x128.size a
  h_S8x128 : 0 < S8x128.numel
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S4000x128_S128 : S4000x128.Reduces [0] S128
  shapeCasts_S128_S1x128 : S128.ShapeCasts S1x128
  shapeCasts_S8x128_S8x128 : S8x128.ShapeCasts S8x128
  shapeCasts_S1x128_S1x128 : S1x128.ShapeCasts S1x128
  broadcasts_S1x128_S8x128 : S1x128.Broadcasts S8x128
  slices_S16x128_S1x128_0_0 : S16x128.Slices ![0, 0] S1x128
  slices_S16x128_S1x128_8_0 : S16x128.Slices ![8, 0] S1x128
  bcast_S_S1x128 : S_.BroadcastsInDim S1x128 (![] : Fin 0 → Fin S1x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S128 : S5000x128.Reduces [0] S128
  inb_S1x128_S1x128_0_0 : ∀ a, (![0, 0] : Fin 2 → Nat) a + S1x128.size a ≤ S1x128.size a
  h_S1x128 : 0 < S1x128.numel
  broadcasts_S1x128_S5000x128 : S1x128.Broadcasts S5000x128
  broadcasts_S1x128_S4000x128 : S1x128.Broadcasts S4000x128
  gather_S50000x128_S640000x1_S640000x128_1_0_n_n_0_1_1128_wf : GatherDims.WF S50000x128 S640000x1 S640000x128 [1] [0] [] [0] [] 1 ![1, 128]
  dot_S4000x128_S128x128_S4000x128_1_0_0_1_n_n_wf : DotDims.WF S4000x128 S128x128 S4000x128 [1] [0] [0] [1] [] []
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S640000x128.size a
  hwx0_0 : ∀ i : grid0.Coords, EltTy.bits .bf16 = 32 ∨ (Rect.block (s := S640000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S640000x128.size a
  hwx0_1 : ∀ i : grid0.Coords, EltTy.bits .bf16 = 32 ∨ (Rect.block (s := S640000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S640000x128.size a
  hwx0_2 : ∀ i : grid0.Coords, EltTy.bits .f32 = 32 ∨ (Rect.block (s := S640000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S640000x128.size a
  hwx0_7 : ∀ i : grid0.Coords, EltTy.bits .f32 = 32 ∨ (Rect.block (s := S640000x128) S4000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S640000x128.size a
  hwx0_8 : ∀ i : grid0.Coords, EltTy.bits .f32 = 32 ∨ (Rect.block (s := S640000x128) S4000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x128.size a ≤ S16x128.size a
  hwx0_9 : ∀ i : grid0.Coords, EltTy.bits .f32 = 32 ∨ (Rect.block (s := S16x128) S8x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x128.size a ≤ S16x128.size a
  hwx0_10 : ∀ i : grid0.Coords, EltTy.bits .f32 = 32 ∨ (Rect.block (s := S16x128) S8x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S16x128.size a
  hwx1_4 : ∀ i : grid1.Coords, EltTy.bits .f32 = 32 ∨ (Rect.block (s := S16x128) S8x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x128.size a ≤ S16x128.size a
  hwx1_5 : ∀ i : grid1.Coords, EltTy.bits .f32 = 32 ∨ (Rect.block (s := S16x128) S8x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S640000x128.size a
  hwx3_0 : ∀ i : grid3.Coords, EltTy.bits .f32 = 32 ∨ (Rect.block (s := S640000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S640000x128.size a
  hwx3_1 : ∀ i : grid3.Coords, EltTy.bits .f32 = 32 ∨ (Rect.block (s := S640000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S640000x128.size a
  hwx3_6 : ∀ i : grid3.Coords, EltTy.bits .f32 = 32 ∨ (Rect.block (s := S640000x128) S4000x128.size (cc3_transform_6 i) (hinb3_6 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v11) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29_0) S4000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v29_1) S4000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v29_2) S8x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v29_3) S8x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v52_1) S8x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v52_2) S8x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52_0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg1) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29_1) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v70) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v72) S4000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S640000x128 : Shape := ⟨2, ![640000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x128 : Shape := ⟨2, ![1, 128]⟩

abbrev nBuf : Space → Nat
  | .hbm => 164
  | .vmem => 0
  | .smem => 0
  | _ => 0

abbrev hbmTy0_0 (i : Nat) : BufTy := match i % 128 with
  | 0 => ⟨S50000x128, .f32⟩
  | 1 => ⟨S640000x128, .f32⟩
  | 2 => ⟨S2x640000, .i32⟩
  | 3 => ⟨S128x128, .f32⟩
  | 4 => ⟨S128x128, .f32⟩
  | 5 => ⟨S128x128, .f32⟩
  | 6 => ⟨S128x128, .f32⟩
  | 7 => ⟨S128x128, .f32⟩
  | 8 => ⟨S128, .f32⟩
  | 9 => ⟨S128, .f32⟩
  | 10 => ⟨S128, .f32⟩
  | 11 => ⟨S128, .f32⟩
  | 12 => ⟨S1x640000, .i32⟩
  | 13 => ⟨S640000, .i32⟩
  | 14 => ⟨S1x640000, .i32⟩
  | 15 => ⟨S640000, .i32⟩
  | 16 => ⟨S_, .i32⟩
  | 17 => ⟨S640000, .i32⟩
  | 18 => ⟨S640000, .i1⟩
  | 19 => ⟨S_, .i32⟩
  | 20 => ⟨S640000, .i32⟩
  | 21 => ⟨S640000, .i32⟩
  | 22 => ⟨S640000, .i32⟩
  | 23 => ⟨S640000x1, .i32⟩
  | 24 => ⟨S640000x128, .f32⟩
  | 25 => ⟨S128x128, .f32⟩
  | 26 => ⟨S640000x128, .f32⟩
  | 27 => ⟨S640000x128, .f32⟩
  | 28 => ⟨S_, .f32⟩
  | 29 => ⟨S50000x128, .f32⟩
  | 30 => ⟨S_, .i32⟩
  | 31 => ⟨S640000, .i32⟩
  | 32 => ⟨S640000, .i1⟩
  | 33 => ⟨S_, .i32⟩
  | 34 => ⟨S640000, .i32⟩
  | 35 => ⟨S640000, .i32⟩
  | 36 => ⟨S640000, .i32⟩
  | 37 => ⟨S640000x1, .i32⟩
  | 38 => ⟨S50000x128, .f32⟩
  | 39 => ⟨S128x128, .f32⟩
  | 40 => ⟨S50000x128, .f32⟩
  | 41 => ⟨S50000x128, .f32⟩
  | 42 => ⟨S_, .f32⟩
  | 43 => ⟨S128, .f32⟩
  | 44 => ⟨S_, .f32⟩
  | 45 => ⟨S128, .f32⟩
  | 46 => ⟨S128, .f32⟩
  | 47 => ⟨S_, .i32⟩
  | 48 => ⟨S_, .f32⟩
  | 49 => ⟨S128, .f32⟩
  | 50 => ⟨S1x128, .f32⟩
  | 51 => ⟨S_, .f32⟩
  | 52 => ⟨S1x128, .f32⟩
  | 53 => ⟨S1x128, .f32⟩
  | 54 => ⟨S50000x128, .f32⟩
  | 55 => ⟨S50000x128, .f32⟩
  | 56 => ⟨S50000x128, .f32⟩
  | 57 => ⟨S_, .f32⟩
  | 58 => ⟨S_, .f32⟩
  | 59 => ⟨S_, .f32⟩
  | 60 => ⟨S_, .f32⟩
  | 61 => ⟨S128, .f32⟩
  | 62 => ⟨S128, .f32⟩
  | 63 => ⟨S128, .f32⟩
  | 64 => ⟨S_, .f32⟩
  | 65 => ⟨S_, .i1⟩
  | 66 => ⟨S_, .f32⟩
  | 67 => ⟨S_, .f32⟩
  | 68 => ⟨S128, .f32⟩
  | 69 => ⟨S128, .f32⟩
  | 70 => ⟨S1x128, .f32⟩
  | 71 => ⟨S50000x128, .f32⟩
  | 72 => ⟨S50000x128, .f32⟩
  | 73 => ⟨S_, .f32⟩
  | 74 => ⟨S128, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S50000x128, .f32⟩
  | 90 => ⟨S128x128, .f32⟩
  | 91 => ⟨S640000x128, .f32⟩
  | 92 => ⟨S_, .i32⟩
  | 93 => ⟨S640000, .i32⟩
  | 94 => ⟨S640000, .i1⟩
  | 95 => ⟨S_, .i32⟩
  | 96 => ⟨S640000, .i32⟩
  | 97 => ⟨S640000, .i32⟩
  | 98 => ⟨S640000, .i32⟩
  | 99 => ⟨S640000x1, .i32⟩
  | 100 => ⟨S640000x128, .f32⟩
  | 101 => ⟨S128x128, .f32⟩
  | 102 => ⟨S640000x128, .f32⟩
  | 103 => ⟨S640000x128, .f32⟩
  | 104 => ⟨S_, .i32⟩
  | 105 => ⟨S640000, .i32⟩
  | 106 => ⟨S640000, .i1⟩
  | 107 => ⟨S_, .i32⟩
  | 108 => ⟨S640000, .i32⟩
  | 109 => ⟨S640000, .i32⟩
  | 110 => ⟨S640000, .i32⟩
  | 111 => ⟨S640000x1, .i32⟩
  | 112 => ⟨S640000x128, .f32⟩
  | 113 => ⟨S128x128, .f32⟩
  | 114 => ⟨S640000x128, .f32⟩
  | 115 => ⟨S640000x128, .f32⟩
  | 116 => ⟨S_, .f32⟩
  | 117 => ⟨S128, .f32⟩
  | 118 => ⟨S_, .f32⟩
  | 119 => ⟨S128, .f32⟩
  | 120 => ⟨S128, .f32⟩
  | 121 => ⟨S_, .i32⟩
  | 122 => ⟨S_, .f32⟩
  | 123 => ⟨S128, .f32⟩
  | 124 => ⟨S1x128, .f32⟩
  | 125 => ⟨S_, .f32⟩
  | 126 => ⟨S1x128, .f32⟩
  | 127 => ⟨S1x128, .f32⟩
  | _ => ⟨S50000x128, .f32⟩

abbrev hbmTy0_1 (i : Nat) : BufTy := match i % 128 with
  | 0 => ⟨S640000x128, .f32⟩
  | 1 => ⟨S640000x128, .f32⟩
  | 2 => ⟨S640000x128, .f32⟩
  | 3 => ⟨S_, .f32⟩
  | 4 => ⟨S_, .f32⟩
  | 5 => ⟨S_, .f32⟩
  | 6 => ⟨S_, .f32⟩
  | 7 => ⟨S128, .f32⟩
  | 8 => ⟨S128, .f32⟩
  | 9 => ⟨S128, .f32⟩
  | 10 => ⟨S_, .f32⟩
  | 11 => ⟨S_, .i1⟩
  | 12 => ⟨S_, .f32⟩
  | 13 => ⟨S_, .f32⟩
  | 14 => ⟨S128, .f32⟩
  | 15 => ⟨S128, .f32⟩
  | 16 => ⟨S1x128, .f32⟩
  | 17 => ⟨S640000x128, .f32⟩
  | 18 => ⟨S640000x128, .f32⟩
  | 19 => ⟨S_, .f32⟩
  | 20 => ⟨S128, .f32⟩
  | 21 => ⟨S128, .f32⟩
  | 22 => ⟨S128, .f32⟩
  | 23 => ⟨S1x128, .f32⟩
  | 24 => ⟨S640000x128, .f32⟩
  | 25 => ⟨S640000x128, .f32⟩
  | 26 => ⟨S1x128, .f32⟩
  | 27 => ⟨S640000x128, .f32⟩
  | 28 => ⟨S640000x128, .f32⟩
  | 29 => ⟨S1x128, .f32⟩
  | 30 => ⟨S640000x128, .f32⟩
  | 31 => ⟨S640000x128, .f32⟩
  | 32 => ⟨S_, .f32⟩
  | 33 => ⟨S640000x128, .f32⟩
  | 34 => ⟨S640000x128, .f32⟩
  | 35 => ⟨S640000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_cst_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_cst_1 : Ref sig .tc := ⟨.hbm, 58, rfl⟩
abbrev main_call0_v8 : Ref sig .tc := ⟨.hbm, 59, rfl⟩
abbrev main_call0_cst_2 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_cst_3 : Ref sig .tc := ⟨.hbm, 64, rfl⟩
abbrev main_call0_v12 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_cst_6 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_call1_cst : Ref sig .tc := ⟨.hbm, 86, rfl⟩
abbrev main_call1_v0 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_c_7 : Ref sig .tc := ⟨.hbm, 92, rfl⟩
abbrev main_v48 : Ref sig .tc := ⟨.hbm, 93, rfl⟩
abbrev main_v49 : Ref sig .tc := ⟨.hbm, 94, rfl⟩
abbrev main_c_8 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_c_9 : Ref sig .tc := ⟨.hbm, 104, rfl⟩
abbrev main_v58 : Ref sig .tc := ⟨.hbm, 105, rfl⟩
abbrev main_v59 : Ref sig .tc := ⟨.hbm, 106, rfl⟩
abbrev main_c_10 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst_11 : Ref sig .tc := ⟨.hbm, 116, rfl⟩
abbrev main_v68 : Ref sig .tc := ⟨.hbm, 117, rfl⟩
abbrev main_cst_12 : Ref sig .tc := ⟨.hbm, 118, rfl⟩
abbrev main_v69 : Ref sig .tc := ⟨.hbm, 119, rfl⟩
abbrev main_v70 : Ref sig .tc := ⟨.hbm, 120, rfl⟩
abbrev main_c_13 : Ref sig .tc := ⟨.hbm, 121, rfl⟩
abbrev main_call2_cst : Ref sig .tc := ⟨.hbm, 122, rfl⟩
abbrev main_call2_v0 : Ref sig .tc := ⟨.hbm, 123, rfl⟩
abbrev main_call2_v1 : Ref sig .tc := ⟨.hbm, 124, rfl⟩
abbrev main_call2_cst_0 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_call2_v5 : Ref sig .tc := ⟨.hbm, 129, rfl⟩
abbrev main_call2_v6 : Ref sig .tc := ⟨.hbm, 130, rfl⟩
abbrev main_call2_v7 : Ref sig .tc := ⟨.hbm, 131, rfl⟩
abbrev main_call2_cst_1 : Ref sig .tc := ⟨.hbm, 132, rfl⟩
abbrev main_call2_v8 : Ref sig .tc := ⟨.hbm, 133, rfl⟩
abbrev main_call2_cst_2 : Ref sig .tc := ⟨.hbm, 134, rfl⟩
abbrev main_call2_v9 : Ref sig .tc := ⟨.hbm, 135, rfl⟩
abbrev main_call2_v10 : Ref sig .tc := ⟨.hbm, 136, rfl⟩
abbrev main_call2_v11 : Ref sig .tc := ⟨.hbm, 137, rfl⟩
abbrev main_call2_cst_3 : Ref sig .tc := ⟨.hbm, 138, rfl⟩
abbrev main_call2_v12 : Ref sig .tc := ⟨.hbm, 139, rfl⟩
abbrev main_call2_cst_4 : Ref sig .tc := ⟨.hbm, 140, rfl⟩
abbrev main_call2_call0_v0 : Ref sig .tc := ⟨.hbm, 141, rfl⟩
abbrev main_call2_call0_v1 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_cst_14 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_call3_cst : Ref sig .tc := ⟨.hbm, 160, rfl⟩
abbrev main_call3_v0 : Ref sig .tc := ⟨.hbm, 161, rfl⟩
abbrev main_v87 : Ref sig .tc := ⟨.hbm, 162, rfl⟩
abbrev main_v88 : Ref sig .tc := ⟨.hbm, 163, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  transposes_S128x128_S128x128_1_0 : S128x128.Transposes [1, 0] S128x128
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  reducesTo_S640000x128_S128_d0 : S640000x128.ReducesTo [0] S128
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  gather_S50000x128_S640000x1_S640000x128_1_0_n_n_0_1_1128_wf : GatherDims.WF S50000x128 S640000x1 S640000x128 [1] [0] [] [0] [] 1 ![1, 128]
  dot_S640000x128_S128x128_S640000x128_1_0_0_1_n_n_wf : DotDims.WF S640000x128 S128x128 S640000x128 [1] [0] [0] [1] [] []
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The idealized kernel's run with its two results named.

  The program is four pipelined regions among three stretches of host operations. The generated frame certificate
  names the buffer contents at every boundary (the launch memory, then each stretch's operations applied, then each
  region's arrays at what its write-backs leave) and runs the whole program over them; its last boundary's contents
  are what every unscoped buffer holds in the final state. Read at the two result buffers instead of only at the
  arguments, the same run says what the results are: the last boundary's contents at those two buffers.
-/
import proofs.«137949_j58935541236529_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; in the final state the two result buffers
    hold the last boundary's contents and the twelve argument arrays are as launched. -/
theorem run_vals : θ_run defs (onTc (τ := τ) (main (F := F))) ⟨m, fun _ => 0, ρ⟩ (fun r => ∀ c : Dev nD,
      r.2.mem ((c.tc : Thread nD τ).loc main_v71) = W7 m ρ c (Proc.devRef .tc main_v71)
      ∧ r.2.mem ((c.tc : Thread nD τ).loc main_v72) = W7 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v71 (by decide)),
       h c _ (mem_uc main_v72 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.KRun

end
-- ==== Proof.KChainA.lean ====
import proofs.«137949_j58935541236529_2_alg».proof.Proof.Gen.KernelIdeal.Frame
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KChain

open Idealize.ShloMosaic Idealize.ShloMosaic.TcCoe Idealize.ShloMosaic.Tactic Idealize.ShloMosaic.StableHlo Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)
set_option maxHeartbeats 1000000

/-! ## The host stages as pure functions -/

/-- Row 0 (sources) and row 1 (destinations) of the edge index, as vectors. -/
def vec0 (I : IVec S2x640000 32) : IVec S640000 32 :=
  shapeCast S640000 (extractStridedSlice S1x640000 ![0, 0] I slices_S2x640000_S1x640000_0_0) shapeCasts_S1x640000_S640000
def vec1 (I : IVec S2x640000 32) : IVec S640000 32 :=
  shapeCast S640000 (extractStridedSlice S1x640000 ![1, 0] I slices_S2x640000_S1x640000_1_0) shapeCasts_S1x640000_S640000
/-- A vector of node numbers, negative ones counted from the end, as an index column. -/
def wrapCol (v : IVec S640000 32) : IVec S640000x1 32 :=
  broadcastInDim S640000x1 ![0] bcast_S640000_S640000x1_0
    (select (cmpi .slt v (broadcastInDim S640000 ![] bcast_S_S640000 (constantI S_ 32 0#32)))
      (addi v (broadcastInDim S640000 ![] bcast_S_S640000 (constantI S_ 32 50000#32))) v)
/-- The rows of the node features picked by an index column. -/
def gath (x : FVec Ideal S50000x128 .f32) (col : IVec S640000x1 32) : FVec Ideal S640000x128 .bf16 :=
  Host.gather gather_S50000x128_S640000x1_S640000x128_1_0_n_n_0_1_1128 (truncf .bf16 x bitsLt_bf16_f32) col
/-- A weight matrix transposed. -/
def wT (W : FVec Ideal S128x128 .f32) : FVec Ideal S128x128 .bf16 :=
  truncf .bf16 (transpose S128x128 [1, 0] W transposes_S128x128_S128x128_1_0) bitsLt_bf16_f32
/-- The two cores' partial sums (rows 0 and 8) added and divided by the row count. -/
def meanOf (S : FVec Ideal S16x128 .f32) (w : BitVec 32) : FVec Ideal S1x128 .f32 :=
  Host.divf (addf (extractStridedSlice S1x128 ![0, 0] S slices_S16x128_S1x128_0_0)
      (extractStridedSlice S1x128 ![8, 0] S slices_S16x128_S1x128_8_0))
    (broadcastInDim S1x128 ![] bcast_S_S1x128 (constant S_ .f32 w))
/-- The mean of the squares minus the squared mean, clipped at zero. -/
def varOf (S SS : FVec Ideal S16x128 .f32) (w : BitVec 32) : FVec Ideal S1x128 .f32 :=
  maximumf (subf (meanOf SS w) (mulf (meanOf S w) (meanOf S w))) (broadcastInDim S1x128 ![] bcast_S_S1x128 (constant S_ .f32 0#32))
/-- The messages added up at their destination nodes. -/
def aggOf (col : IVec S640000x1 32) (u : FVec Ideal S640000x128 .f32) : FVec Ideal S50000x128 .f32 :=
  Host.scatterAdd scatter_S50000x128_S640000x1_S640000x128_1_0_0_1
    (broadcastInDim S50000x128 ![] bcast_S_S50000x128 (constant S_ .f32 0#32)) col u
/-- A vector as one row. -/
def row1 (g : FVec Ideal S128 .f32) : FVec Ideal S1x128 .f32 := shapeCast S1x128 g shapeCasts_S128_S1x128

/-! ## After the first stretch of host operations -/
theorem W1_main_arg0 : W1 m ρ c (Proc.devRef .tc main_arg0) = W0 m ρ c (Proc.devRef .tc main_arg0) := by
  show StableHlo.after hostOps0 (W0 m ρ c) _ = _
  after_results_simp
  try rfl
theorem W1_main_arg1 : W1 m ρ c (Proc.devRef .tc main_arg1) = W0 m ρ c (Proc.devRef .tc main_arg1) := by
  show StableHlo.after hostOps0 (W0 m ρ c) _ = _
  after_results_simp
  try rfl
theorem W1_main_arg8 : W1 m ρ c (Proc.devRef .tc main_arg8) = W0 m ρ c (Proc.devRef .tc main_arg8) := by
  show StableHlo.after hostOps0 (W0 m ρ c) _ = _
  after_results_simp
  try rfl
theorem W1_main_arg9 : W1 m ρ c (Proc.devRef .tc main_arg9) = W0 m ρ c (Proc.devRef .tc main_arg9) := by
  show StableHlo.after hostOps0 (W0 m ρ c) _ = _
  after_results_simp
  try rfl
theorem W1_main_arg10 : W1 m ρ c (Proc.devRef .tc main_arg10) = W0 m ρ c (Proc.devRef .tc main_arg10) := by
  show StableHlo.after hostOps0 (W0 m ρ c) _ = _
  after_results_simp
  try rfl
theorem W1_main_arg11 : W1 m ρ c (Proc.devRef .tc main_arg11) = W0 m ρ c (Proc.devRef .tc main_arg11) := by
  show StableHlo.after hostOps0 (W0 m ρ c) _ = _
  after_results_simp
  try rfl
theorem W1_v3 : W1 m ρ c (Proc.devRef .tc main_v3) = vec1 (W0 m ρ c (Proc.devRef .tc main_arg2)) := by
  show StableHlo.after hostOps0 (W0 m ρ c) _ = _
  after_results_simp
  try rfl
theorem W1_v11 : W1 m ρ c (Proc.devRef .tc main_v11) = gath (W0 m ρ c (Proc.devRef .tc main_arg0)) (wrapCol (vec0 (W0 m ρ c (Proc.devRef .tc main_arg2)))) := by
  show StableHlo.after hostOps0 (W0 m ρ c) _ = _
  after_results_simp
  try rfl
theorem W1_v18 : W1 m ρ c (Proc.devRef .tc main_v18) = gath (W0 m ρ c (Proc.devRef .tc main_arg0)) (wrapCol (vec1 (W0 m ρ c (Proc.devRef .tc main_arg2)))) := by
  show StableHlo.after hostOps0 (W0 m ρ c) _ = _
  after_results_simp
  try rfl
theorem W1_main_v20 : W1 m ρ c (Proc.devRef .tc main_v20) = wT (W0 m ρ c (Proc.devRef .tc main_arg3)) := by
  show StableHlo.after hostOps0 (W0 m ρ c) _ = _
  after_results_simp
  try rfl
theorem W1_main_v22 : W1 m ρ c (Proc.devRef .tc main_v22) = wT (W0 m ρ c (Proc.devRef .tc main_arg4)) := by
  show StableHlo.after hostOps0 (W0 m ρ c) _ = _
  after_results_simp
  try rfl
theorem W1_main_v24 : W1 m ρ c (Proc.devRef .tc main_v24) = wT (W0 m ρ c (Proc.devRef .tc main_arg5)) := by
  show StableHlo.after hostOps0 (W0 m ρ c) _ = _
  after_results_simp
  try rfl
theorem W1_main_v26 : W1 m ρ c (Proc.devRef .tc main_v26) = wT (W0 m ρ c (Proc.devRef .tc main_arg6)) := by
  show StableHlo.after hostOps0 (W0 m ρ c) _ = _
  after_results_simp
  try rfl
theorem W1_main_v28 : W1 m ρ c (Proc.devRef .tc main_v28) = wT (W0 m ρ c (Proc.devRef .tc main_arg7)) := by
  show StableHlo.after hostOps0 (W0 m ρ c) _ = _
  after_results_simp
  try rfl

end Cert.KernelIdeal.KChain

end
-- ==== Proof.KChainB.lean ====
import proofs.«137949_j58935541236529_2_alg».proof.Proof.Gen.KernelIdeal.Frame
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import proofs.«137949_j58935541236529_2_alg».proof.Proof.KChainA
set_option maxRecDepth 16384

noncomputable section

namespace Cert.KernelIdeal.KChain

open Idealize.ShloMosaic Idealize.ShloMosaic.TcCoe Idealize.ShloMosaic.Tactic Idealize.ShloMosaic.StableHlo Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)
set_option maxHeartbeats 1000000

/-! ## After the first region, and after the second stretch -/
theorem W2_main_v29_0 : W2 m ρ c (Proc.devRef .tc main_v29_0) = (dat0 (V1 m ρ) c).arrAt 7 cfg0.N := W2_arr m ρ c 7
theorem W2_main_v29_1 : W2 m ρ c (Proc.devRef .tc main_v29_1) = (dat0 (V1 m ρ) c).arrAt 8 cfg0.N := W2_arr m ρ c 8
theorem W2_main_v29_2 : W2 m ρ c (Proc.devRef .tc main_v29_2) = (dat0 (V1 m ρ) c).arrAt 9 cfg0.N := W2_arr m ρ c 9
theorem W2_main_v29_3 : W2 m ρ c (Proc.devRef .tc main_v29_3) = (dat0 (V1 m ρ) c).arrAt 10 cfg0.N := W2_arr m ρ c 10
theorem W2_main_arg0 : W2 m ρ c (Proc.devRef .tc main_arg0) = W1 m ρ c (Proc.devRef .tc main_arg0) := W2_of_ne m ρ c main_arg0 (by decide)
theorem W2_main_v3 : W2 m ρ c (Proc.devRef .tc main_v3) = W1 m ρ c (Proc.devRef .tc main_v3) := W2_of_ne m ρ c main_v3 (by decide)
theorem W2_main_v20 : W2 m ρ c (Proc.devRef .tc main_v20) = W1 m ρ c (Proc.devRef .tc main_v20) := W2_of_ne m ρ c main_v20 (by decide)
theorem W2_main_arg8 : W2 m ρ c (Proc.devRef .tc main_arg8) = W1 m ρ c (Proc.devRef .tc main_arg8) := W2_of_ne m ρ c main_arg8 (by decide)
theorem W2_main_arg9 : W2 m ρ c (Proc.devRef .tc main_arg9) = W1 m ρ c (Proc.devRef .tc main_arg9) := W2_of_ne m ρ c main_arg9 (by decide)
theorem W2_main_arg10 : W2 m ρ c (Proc.devRef .tc main_arg10) = W1 m ρ c (Proc.devRef .tc main_arg10) := W2_of_ne m ρ c main_arg10 (by decide)
theorem W2_main_arg11 : W2 m ρ c (Proc.devRef .tc main_arg11) = W1 m ρ c (Proc.devRef .tc main_arg11) := W2_of_ne m ρ c main_arg11 (by decide)
theorem W2_main_arg1 : W2 m ρ c (Proc.devRef .tc main_arg1) = W1 m ρ c (Proc.devRef .tc main_arg1) :=
  (W2_arr m ρ c 2).trans (((dat0 (V1 m ρ) c).arrAt_in 2 rfl _).trans (A_eq0 (V1 m ρ) c 2))
theorem W3_v37 : W3 m ρ c (Proc.devRef .tc main_v37) = meanOf (W2 m ρ c (Proc.devRef .tc main_v29_2)) 0x491C4000#32 := by
  show StableHlo.after hostOps1 (W2 m ρ c) _ = _
  after_results_simp
  try rfl
theorem W3_v43 : W3 m ρ c (Proc.devRef .tc main_v43) = varOf (W2 m ρ c (Proc.devRef .tc main_v29_2)) (W2 m ρ c (Proc.devRef .tc main_v29_3)) 0x491C4000#32 := by
  show StableHlo.after hostOps1 (W2 m ρ c) _ = _
  after_results_simp
  try rfl
theorem W3_v51 : W3 m ρ c (Proc.devRef .tc main_v51) = aggOf (wrapCol (W2 m ρ c (Proc.devRef .tc main_v3))) (W2 m ρ c (Proc.devRef .tc main_v29_0)) := by
  show StableHlo.after hostOps1 (W2 m ρ c) _ = _
  after_results_simp
  try rfl
theorem W3_main_arg0 : W3 m ρ c (Proc.devRef .tc main_arg0) = W2 m ρ c (Proc.devRef .tc main_arg0) := by
  show StableHlo.after hostOps1 (W2 m ρ c) _ = _
  after_results_simp
  try rfl
theorem W3_main_arg1 : W3 m ρ c (Proc.devRef .tc main_arg1) = W2 m ρ c (Proc.devRef .tc main_arg1) := by
  show StableHlo.after hostOps1 (W2 m ρ c) _ = _
  after_results_simp
  try rfl
theorem W3_main_v20 : W3 m ρ c (Proc.devRef .tc main_v20) = W2 m ρ c (Proc.devRef .tc main_v20) := by
  show StableHlo.after hostOps1 (W2 m ρ c) _ = _
  after_results_simp
  try rfl
theorem W3_main_v29_1 : W3 m ρ c (Proc.devRef .tc main_v29_1) = W2 m ρ c (Proc.devRef .tc main_v29_1) := by
  show StableHlo.after hostOps1 (W2 m ρ c) _ = _
  after_results_simp
  try rfl
theorem W3_main_arg8 : W3 m ρ c (Proc.devRef .tc main_arg8) = W2 m ρ c (Proc.devRef .tc main_arg8) := by
  show StableHlo.after hostOps1 (W2 m ρ c) _ = _
  after_results_simp
  try rfl
theorem W3_main_arg9 : W3 m ρ c (Proc.devRef .tc main_arg9) = W2 m ρ c (Proc.devRef .tc main_arg9) := by
  show StableHlo.after hostOps1 (W2 m ρ c) _ = _
  after_results_simp
  try rfl
theorem W3_main_arg10 : W3 m ρ c (Proc.devRef .tc main_arg10) = W2 m ρ c (Proc.devRef .tc main_arg10) := by
  show StableHlo.after hostOps1 (W2 m ρ c) _ = _
  after_results_simp
  try rfl
theorem W3_main_arg11 : W3 m ρ c (Proc.devRef .tc main_arg11) = W2 m ρ c (Proc.devRef .tc main_arg11) := by
  show StableHlo.after hostOps1 (W2 m ρ c) _ = _
  after_results_simp
  try rfl

end Cert.KernelIdeal.KChain

end
-- ==== Proof.KChainC.lean ====
import proofs.«137949_j58935541236529_2_alg».proof.Proof.Gen.KernelIdeal.Frame
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import proofs.«137949_j58935541236529_2_alg».proof.Proof.KChainA
set_option maxRecDepth 16384

noncomputable section

namespace Cert.KernelIdeal.KChain

open Idealize.ShloMosaic Idealize.ShloMosaic.TcCoe Idealize.ShloMosaic.Tactic Idealize.ShloMosaic.StableHlo Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)
set_option maxHeartbeats 1000000

/-! ## After the second region, and after the third stretch -/
theorem W4_main_v52_0 : W4 m ρ c (Proc.devRef .tc main_v52_0) = (dat1 (V3 m ρ) c).arrAt 3 cfg1.N := W4_arr m ρ c 3
theorem W4_main_v52_1 : W4 m ρ c (Proc.devRef .tc main_v52_1) = (dat1 (V3 m ρ) c).arrAt 4 cfg1.N := W4_arr m ρ c 4
theorem W4_main_v52_2 : W4 m ρ c (Proc.devRef .tc main_v52_2) = (dat1 (V3 m ρ) c).arrAt 5 cfg1.N := W4_arr m ρ c 5
theorem W4_main_arg1 : W4 m ρ c (Proc.devRef .tc main_arg1) = W3 m ρ c (Proc.devRef .tc main_arg1) := W4_of_ne m ρ c main_arg1 (by decide)
theorem W4_main_v29_1 : W4 m ρ c (Proc.devRef .tc main_v29_1) = W3 m ρ c (Proc.devRef .tc main_v29_1) := W4_of_ne m ρ c main_v29_1 (by decide)
theorem W4_main_v37 : W4 m ρ c (Proc.devRef .tc main_v37) = W3 m ρ c (Proc.devRef .tc main_v37) := W4_of_ne m ρ c main_v37 (by decide)
theorem W4_main_v43 : W4 m ρ c (Proc.devRef .tc main_v43) = W3 m ρ c (Proc.devRef .tc main_v43) := W4_of_ne m ρ c main_v43 (by decide)
theorem W4_main_arg8 : W4 m ρ c (Proc.devRef .tc main_arg8) = W3 m ρ c (Proc.devRef .tc main_arg8) := W4_of_ne m ρ c main_arg8 (by decide)
theorem W4_main_arg9 : W4 m ρ c (Proc.devRef .tc main_arg9) = W3 m ρ c (Proc.devRef .tc main_arg9) := W4_of_ne m ρ c main_arg9 (by decide)
theorem W4_main_arg10 : W4 m ρ c (Proc.devRef .tc main_arg10) = W3 m ρ c (Proc.devRef .tc main_arg10) := W4_of_ne m ρ c main_arg10 (by decide)
theorem W4_main_arg11 : W4 m ρ c (Proc.devRef .tc main_arg11) = W3 m ρ c (Proc.devRef .tc main_arg11) := W4_of_ne m ρ c main_arg11 (by decide)
theorem W4_main_arg0 : W4 m ρ c (Proc.devRef .tc main_arg0) = W3 m ρ c (Proc.devRef .tc main_arg0) :=
  (W4_arr m ρ c 0).trans (((dat1 (V3 m ρ) c).arrAt_in 0 rfl _).trans (A_eq1 (V3 m ρ) c 0))
theorem W5_v60 : W5 m ρ c (Proc.devRef .tc main_v60) = meanOf (W4 m ρ c (Proc.devRef .tc main_v52_1)) 0x47435000#32 := by
  show StableHlo.after hostOps2 (W4 m ρ c) _ = _
  after_results_simp
  try rfl
theorem W5_v66 : W5 m ρ c (Proc.devRef .tc main_v66) = varOf (W4 m ρ c (Proc.devRef .tc main_v52_1)) (W4 m ρ c (Proc.devRef .tc main_v52_2)) 0x47435000#32 := by
  show StableHlo.after hostOps2 (W4 m ρ c) _ = _
  after_results_simp
  try rfl
theorem W5_main_v67 : W5 m ρ c (Proc.devRef .tc main_v67) = row1 (W4 m ρ c (Proc.devRef .tc main_arg8)) := by
  show StableHlo.after hostOps2 (W4 m ρ c) _ = _
  after_results_simp
  try rfl
theorem W5_main_v68 : W5 m ρ c (Proc.devRef .tc main_v68) = row1 (W4 m ρ c (Proc.devRef .tc main_arg9)) := by
  show StableHlo.after hostOps2 (W4 m ρ c) _ = _
  after_results_simp
  try rfl
theorem W5_main_v69 : W5 m ρ c (Proc.devRef .tc main_v69) = row1 (W4 m ρ c (Proc.devRef .tc main_arg10)) := by
  show StableHlo.after hostOps2 (W4 m ρ c) _ = _
  after_results_simp
  try rfl
theorem W5_main_v70 : W5 m ρ c (Proc.devRef .tc main_v70) = row1 (W4 m ρ c (Proc.devRef .tc main_arg11)) := by
  show StableHlo.after hostOps2 (W4 m ρ c) _ = _
  after_results_simp
  try rfl
theorem W5_main_arg0 : W5 m ρ c (Proc.devRef .tc main_arg0) = W4 m ρ c (Proc.devRef .tc main_arg0) := by
  show StableHlo.after hostOps2 (W4 m ρ c) _ = _
  after_results_simp
  try rfl
theorem W5_main_arg1 : W5 m ρ c (Proc.devRef .tc main_arg1) = W4 m ρ c (Proc.devRef .tc main_arg1) := by
  show StableHlo.after hostOps2 (W4 m ρ c) _ = _
  after_results_simp
  try rfl
theorem W5_main_v52_0 : W5 m ρ c (Proc.devRef .tc main_v52_0) = W4 m ρ c (Proc.devRef .tc main_v52_0) := by
  show StableHlo.after hostOps2 (W4 m ρ c) _ = _
  after_results_simp
  try rfl
theorem W5_main_v29_1 : W5 m ρ c (Proc.devRef .tc main_v29_1) = W4 m ρ c (Proc.devRef .tc main_v29_1) := by
  show StableHlo.after hostOps2 (W4 m ρ c) _ = _
  after_results_simp
  try rfl
theorem W5_main_v37 : W5 m ρ c (Proc.devRef .tc main_v37) = W4 m ρ c (Proc.devRef .tc main_v37) := by
  show StableHlo.after hostOps2 (W4 m ρ c) _ = _
  after_results_simp
  try rfl
theorem W5_main_v43 : W5 m ρ c (Proc.devRef .tc main_v43) = W4 m ρ c (Proc.devRef .tc main_v43) := by
  show StableHlo.after hostOps2 (W4 m ρ c) _ = _
  after_results_simp
  try rfl

/-! ## After the third and the fourth region -/
theorem W6_main_v71 : W6 m ρ c (Proc.devRef .tc main_v71) = (dat2 (V5 m ρ) c).arrAt 6 cfg2.N := W6_arr m ρ c 6
theorem W6_main_arg1 : W6 m ρ c (Proc.devRef .tc main_arg1) = W5 m ρ c (Proc.devRef .tc main_arg1) := W6_of_ne m ρ c main_arg1 (by decide)
theorem W6_main_v29_1 : W6 m ρ c (Proc.devRef .tc main_v29_1) = W5 m ρ c (Proc.devRef .tc main_v29_1) := W6_of_ne m ρ c main_v29_1 (by decide)
theorem W6_main_v37 : W6 m ρ c (Proc.devRef .tc main_v37) = W5 m ρ c (Proc.devRef .tc main_v37) := W6_of_ne m ρ c main_v37 (by decide)
theorem W6_main_v43 : W6 m ρ c (Proc.devRef .tc main_v43) = W5 m ρ c (Proc.devRef .tc main_v43) := W6_of_ne m ρ c main_v43 (by decide)
theorem W6_main_v69 : W6 m ρ c (Proc.devRef .tc main_v69) = W5 m ρ c (Proc.devRef .tc main_v69) := W6_of_ne m ρ c main_v69 (by decide)
theorem W6_main_v70 : W6 m ρ c (Proc.devRef .tc main_v70) = W5 m ρ c (Proc.devRef .tc main_v70) := W6_of_ne m ρ c main_v70 (by decide)
theorem W7_main_v72 : W7 m ρ c (Proc.devRef .tc main_v72) = (dat3 (V6 m ρ) c).arrAt 6 cfg3.N := W7_arr m ρ c 6
theorem W7_main_v71 : W7 m ρ c (Proc.devRef .tc main_v71) = W6 m ρ c (Proc.devRef .tc main_v71) := W7_of_ne m ρ c main_v71 (by decide)

end Cert.KernelIdeal.KChain

end
-- ==== Proof.KChainAll.lean ====
import proofs.«137949_j58935541236529_2_alg».proof.Proof.Gen.KernelIdeal.Frame
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import proofs.«137949_j58935541236529_2_alg».proof.Proof.KChainA
import proofs.«137949_j58935541236529_2_alg».proof.Proof.KChainB
import proofs.«137949_j58935541236529_2_alg».proof.Proof.KChainC
set_option maxRecDepth 16384

noncomputable section

namespace Cert.KernelIdeal.KChain

open Idealize.ShloMosaic Idealize.ShloMosaic.TcCoe Idealize.ShloMosaic.Tactic Idealize.ShloMosaic.StableHlo Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-! ## What each region finds in its windows' arrays, and the two results, traced back to the launch memory -/

theorem at6_arg1 : W6 m ρ c (Proc.devRef .tc main_arg1) = W0 m ρ c (Proc.devRef .tc main_arg1) := by
  rw [W6_main_arg1, W5_main_arg1, W4_main_arg1, W3_main_arg1, W2_main_arg1, W1_main_arg1]
theorem at6_v29_1 : W6 m ρ c (Proc.devRef .tc main_v29_1) = (dat0 (V1 m ρ) c).arrAt 8 cfg0.N := by
  rw [W6_main_v29_1, W5_main_v29_1, W4_main_v29_1, W3_main_v29_1, W2_main_v29_1]
theorem at6_v37 : W6 m ρ c (Proc.devRef .tc main_v37) = meanOf ((dat0 (V1 m ρ) c).arrAt 9 cfg0.N) 0x491C4000#32 := by
  rw [W6_main_v37, W5_main_v37, W4_main_v37, W3_v37, W2_main_v29_2]
theorem at6_v43 : W6 m ρ c (Proc.devRef .tc main_v43) = varOf ((dat0 (V1 m ρ) c).arrAt 9 cfg0.N) ((dat0 (V1 m ρ) c).arrAt 10 cfg0.N) 0x491C4000#32 := by
  rw [W6_main_v43, W5_main_v43, W4_main_v43, W3_v43, W2_main_v29_2, W2_main_v29_3]
theorem at6_v69 : W6 m ρ c (Proc.devRef .tc main_v69) = row1 (W0 m ρ c (Proc.devRef .tc main_arg10)) := by
  rw [W6_main_v69, W5_main_v69, W4_main_arg10, W3_main_arg10, W2_main_arg10, W1_main_arg10]
theorem at6_v70 : W6 m ρ c (Proc.devRef .tc main_v70) = row1 (W0 m ρ c (Proc.devRef .tc main_arg11)) := by
  rw [W6_main_v70, W5_main_v70, W4_main_arg11, W3_main_arg11, W2_main_arg11, W1_main_arg11]

theorem at5_arg0 : W5 m ρ c (Proc.devRef .tc main_arg0) = W0 m ρ c (Proc.devRef .tc main_arg0) := by
  rw [W5_main_arg0, W4_main_arg0, W3_main_arg0, W2_main_arg0, W1_main_arg0]
theorem at5_v52_0 : W5 m ρ c (Proc.devRef .tc main_v52_0) = (dat1 (V3 m ρ) c).arrAt 3 cfg1.N := by
  rw [W5_main_v52_0, W4_main_v52_0]
theorem at5_v60 : W5 m ρ c (Proc.devRef .tc main_v60) = meanOf ((dat1 (V3 m ρ) c).arrAt 4 cfg1.N) 0x47435000#32 := by
  rw [W5_v60, W4_main_v52_1]
theorem at5_v66 : W5 m ρ c (Proc.devRef .tc main_v66) = varOf ((dat1 (V3 m ρ) c).arrAt 4 cfg1.N) ((dat1 (V3 m ρ) c).arrAt 5 cfg1.N) 0x47435000#32 := by
  rw [W5_v66, W4_main_v52_1, W4_main_v52_2]
theorem at5_v67 : W5 m ρ c (Proc.devRef .tc main_v67) = row1 (W0 m ρ c (Proc.devRef .tc main_arg8)) := by
  rw [W5_main_v67, W4_main_arg8, W3_main_arg8, W2_main_arg8, W1_main_arg8]
theorem at5_v68 : W5 m ρ c (Proc.devRef .tc main_v68) = row1 (W0 m ρ c (Proc.devRef .tc main_arg9)) := by
  rw [W5_main_v68, W4_main_arg9, W3_main_arg9, W2_main_arg9, W1_main_arg9]

theorem at3_arg0 : W3 m ρ c (Proc.devRef .tc main_arg0) = W0 m ρ c (Proc.devRef .tc main_arg0) := by
  rw [W3_main_arg0, W2_main_arg0, W1_main_arg0]
theorem at3_v51 : W3 m ρ c (Proc.devRef .tc main_v51) = aggOf (wrapCol (vec1 (W0 m ρ c (Proc.devRef .tc main_arg2)))) ((dat0 (V1 m ρ) c).arrAt 7 cfg0.N) := by
  rw [W3_v51, W2_main_v3, W1_v3, W2_main_v29_0]
theorem at3_v20 : W3 m ρ c (Proc.devRef .tc main_v20) = wT (W0 m ρ c (Proc.devRef .tc main_arg3)) := by
  rw [W3_main_v20, W2_main_v20, W1_main_v20]

theorem res71 : W7 m ρ c (Proc.devRef .tc main_v71) = (dat2 (V5 m ρ) c).arrAt 6 cfg2.N := by
  rw [W7_main_v71, W6_main_v71]
theorem res72 : W7 m ρ c (Proc.devRef .tc main_v72) = (dat3 (V6 m ρ) c).arrAt 6 cfg3.N := W7_main_v72 m ρ c

end Cert.KernelIdeal.KChain

end
-- ==== Proof.LibLay.lean ====
import Idealize.ShloMosaic.Lib.ValueIdx
import Idealize.ShloMosaic.Lib.ValueLayout
import Idealize.ShloMosaic.Lib.Pipeline.Value

/-!
# Rows, columns and scalars spread over a matrix, read at an entry

A vector laid along the columns of one row, a row repeated down the rows, a vector laid down one column, a
column repeated across the columns, a scalar everywhere: each read at an entry is the operand at the
evident place.
-/

namespace Cert.Lay

open Idealize.ShloMosaic Idealize.ShloMosaic.ValueIdx

variable {α : Type}

/-- A scalar spread over any shape reads the scalar everywhere. -/
theorem scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector of length b as the one row of a [1, b] matrix. -/
theorem vecRow_apply {b : Nat} (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x _ _ fun a => ?_
  match a with
  | ⟨0, _⟩ =>
    show c.val = if b = 1 then 0 else c.val
    split
    · have := c.isLt; omega
    · rfl

/-- One row repeated down a rows. -/
theorem rowRep_apply {a b : Nat} (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x _ _ fun ax => ?_
  match ax with
  | ⟨0, _⟩ => rfl
  | ⟨1, _⟩ =>
    show c.val = if b = 1 then 0 else c.val
    split
    · have := c.isLt; omega
    · rfl

/-- A vector of length a as the one column of an [a, 1] matrix (by broadcasting). -/
theorem vecCol_apply {a : Nat} (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x _ _ fun ax => ?_
  match ax with
  | ⟨0, _⟩ =>
    show p.val = if a = 1 then 0 else p.val
    split
    · have := p.isLt; omega
    · rfl

/-- A vector of length a recast as an [a, 1] matrix. -/
theorem vecColCast_apply {a : Nat} (h : (⟨1, ![a]⟩ : Shape).ShapeCasts ⟨2, ![a, 1]⟩)
    (x : (⟨1, ![a]⟩ : Shape).Idx → α) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- One column repeated across b columns. -/
theorem colRep_apply {a b : Nat} (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x _ _ fun ax => ?_
  match ax with
  | ⟨0, _⟩ =>
    show p.val = if a = 1 then 0 else p.val
    split
    · have := p.isLt; omega
    · rfl
  | ⟨1, _⟩ => rfl

end Cert.Lay
-- ==== Proof.LibRowIndex.lean ====
import Idealize.ShloMosaic.PureOps.Ideal
import Idealize.ShloMosaic.Lib.ValueIdx

/-!
# Rows picked by an index column: a gather of rows, a gather of entries, a scatter of rows

An array of E start indices, laid out as a column [E, 1], picks for each e one row of an operand with N rows.
A gather reads the start index as a signed integer and clamps it into [0, N − 1]; a scatter reads it signed and
does not clamp: an update whose row falls outside [0, N) lands nowhere. The three facts below read the two
gathers at an index and say which updates of the scatter land on a given entry.
-/

noncomputable section

namespace Cert.RowIndex

open Idealize.ShloMosaic Idealize.ShloMosaic.ValueIdx

/-- The row a start index selects in a gather: read signed, clamped into [0, N − 1]. -/
def clampRow {w : Nat} (N : Nat) (hN : 0 < N) (b : BitVec w) : Fin N := ⟨min b.toInt.toNat (N - 1), by omega⟩

/-- Dimension numbers of a gather of whole rows: operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Dimension numbers of a gather of single entries of a vector: operand [N], start indices [E, 1], result [E]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of a scatter of whole rows: operand [N, C], scatter indices [E, 1], updates [E, C]. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- A gather of rows at (e, c): the operand at the clamped row of the e-th start index, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (clampRow N hN (idx (ix2 e (0 : Fin 1)))) c) := by
  unfold Host.gather
  congr 1
  funext a
  refine Fin.ext ?_
  match a with
  | ⟨0, _⟩ =>
    show (rowGatherDims N E C wf).start (ix2 e c) idx 0 + (rowGatherDims N E C wf).batchCoord (ix2 e c) 0
        + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
        + (rowGatherDims N E C wf).offCoord (ix2 e c) 1 = _
    rw [GatherDims.batchCoord_eq_zero _ _ _ List.not_mem_nil]
    have h1 : (1 : Fin 2) ∉ (rowGatherDims N E C wf).startIndexMap := by
      intro h; exact absurd (congrArg Fin.val (List.mem_singleton.mp h)) Nat.one_ne_zero
    unfold GatherDims.start
    rw [dif_neg h1]
    simp only [Nat.add_zero, Nat.zero_add]
    rfl

/-- A gather of entries at e: the operand at the clamped e-th start index. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Update (e, c) of a scatter of rows lands on entry (p, q) exactly when the e-th scatter index, read signed,
    is p, and the columns agree. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (p : Fin N) (q : Fin C) :
    (rowScatterDims N E C wf).resultIdx? (ix2 e c) idx = some (ix2 p q)
      ↔ (idx (ix2 e (0 : Fin 1))).toInt = (p.val : ℤ) ∧ c = q := by
  have hw0 : (rowScatterDims N E C wf).window (ix2 e c) 0 = 0 := by
    unfold ScatterDims.window
    rw [dif_neg]
    intro h
    have h' := (List.mem_filter.mp h).2
    simp at h'
  have hst0 : (rowScatterDims N E C wf).start (ix2 e c) idx 0 = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c)
        ⟨List.idxOf (0 : Fin 2) (rowScatterDims N E C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hst1 : (rowScatterDims N E C wf).start (ix2 e c) idx 1 = 0 := by
    unfold ScatterDims.start
    rw [dif_neg]
    intro h
    exact absurd (congrArg Fin.val (List.mem_singleton.mp h)) Nat.one_ne_zero
  have hw1 : (rowScatterDims N E C wf).window (ix2 e c) 1 = c.val := by
    unfold ScatterDims.window
    rw [dif_pos]
    · rfl
    · refine List.mem_filter.mpr ⟨List.mem_finRange _, ?_⟩
      apply decide_eq_true
      intro h
      exact absurd (congrArg Fin.val (List.mem_singleton.mp h)) Nat.one_ne_zero
  have hsum0 : (rowScatterDims N E C wf).start (ix2 e c) idx 0
      + (((rowScatterDims N E C wf).window (ix2 e c) 0 : ℕ) : ℤ) = (idx (ix2 e (0 : Fin 1))).toInt := by
    rw [hst0, hw0]; simp
  have hsum1 : (rowScatterDims N E C wf).start (ix2 e c) idx 1
      + (((rowScatterDims N E C wf).window (ix2 e c) 1 : ℕ) : ℤ) = (c.val : ℤ) := by
    rw [hst1, hw1]; simp
  unfold ScatterDims.resultIdx?
  split
  · rename_i h
    rw [Option.some.injEq]
    constructor
    · intro hf
      have h0 : ((rowScatterDims N E C wf).start (ix2 e c) idx 0
          + (((rowScatterDims N E C wf).window (ix2 e c) 0 : ℕ) : ℤ)).toNat = p.val :=
        congrArg (fun f => (f 0).val) hf
      have h1 : ((rowScatterDims N E C wf).start (ix2 e c) idx 1
          + (((rowScatterDims N E C wf).window (ix2 e c) 1 : ℕ) : ℤ)).toNat = q.val :=
        congrArg (fun f => (f 1).val) hf
      have hh := (h 0).1
      rw [hsum0] at h0 hh
      rw [hsum1] at h1
      exact ⟨by omega, Fin.ext (by omega)⟩
    · rintro ⟨hp, rfl⟩
      funext a; refine Fin.ext ?_
      match a with
      | ⟨0, _⟩ =>
        show ((rowScatterDims N E C wf).start (ix2 e c) idx 0
          + (((rowScatterDims N E C wf).window (ix2 e c) 0 : ℕ) : ℤ)).toNat = p.val
        rw [hsum0, hp]; simp
      | ⟨1, _⟩ =>
        show ((rowScatterDims N E C wf).start (ix2 e c) idx 1
          + (((rowScatterDims N E C wf).window (ix2 e c) 1 : ℕ) : ℤ)).toNat = c.val
        rw [hsum1]; simp
  · rename_i h
    constructor
    · intro hf; exact absurd hf (by simp)
    · rintro ⟨hp, rfl⟩
      exfalso; apply h
      intro a
      match a with
      | ⟨0, _⟩ =>
        show 0 ≤ (rowScatterDims N E C wf).start (ix2 e c) idx 0
              + (((rowScatterDims N E C wf).window (ix2 e c) 0 : ℕ) : ℤ)
          ∧ (rowScatterDims N E C wf).start (ix2 e c) idx 0
              + (((rowScatterDims N E C wf).window (ix2 e c) 0 : ℕ) : ℤ) < (N : ℤ)
        rw [hsum0, hp]
        have := p.isLt
        omega
      | ⟨1, _⟩ =>
        show 0 ≤ (rowScatterDims N E C wf).start (ix2 e c) idx 1
              + (((rowScatterDims N E C wf).window (ix2 e c) 1 : ℕ) : ℤ)
          ∧ (rowScatterDims N E C wf).start (ix2 e c) idx 1
              + (((rowScatterDims N E C wf).window (ix2 e c) 1 : ℕ) : ℤ) < (C : ℤ)
        rw [hsum1]
        have := c.isLt
        omega

end Cert.RowIndex

end
-- ==== Proof.LibReal.lean ====
import Mathlib.Data.EReal.Inv
import Idealize.ShloMosaic.PureOps.Ideal

/-!
# Real-valued extended reals

An extended real is *real* when it is the image of a real number, that is when it is neither
of the two infinities. The sum, difference, product, maximum and finite sums of real extended
reals are real, and so is the quotient of one by a nonzero real; a coercion of a finite sum of
reals is the sum of the coercions. The last sections read a few `f32` bit patterns as the
extended reals they denote, and read back the comparison `|x| < +∞`.
-/

noncomputable section

namespace Cert.GinMath

open Idealize.ShloMosaic
open scoped BigOperators

/-- An extended real is *real* when it is the image of a real number. -/
def IsReal (x : EReal) : Prop := ∃ r : ℝ, x = (r : EReal)

/-- The image of a real number is real. -/
theorem IsReal.coe (r : ℝ) : IsReal (r : EReal) := ⟨r, rfl⟩

/-- Zero is real. -/
theorem isReal_zero : IsReal 0 := ⟨0, rfl⟩

/-- One is real. -/
theorem isReal_one : IsReal 1 := ⟨1, rfl⟩

/-- An extended real is real exactly when it is neither `⊤` nor `⊥`. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | coe r => exact ⟨r, rfl⟩
    | top => exact absurd rfl ht

/-- An extended real strictly between `⊥` and `⊤` is real. -/
theorem isReal_of_lt {x : EReal} (hb : ⊥ < x) (ht : x < ⊤) : IsReal x :=
  isReal_iff.mpr ⟨ne_of_lt ht, ne_of_gt hb⟩

/-- The sum of two real extended reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real extended reals is real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real extended reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real extended real is real. -/
theorem IsReal.neg {x : EReal} (hx : IsReal x) : IsReal (-x) := by
  obtain ⟨a, rfl⟩ := hx
  exact ⟨-a, (EReal.coe_neg a).symm⟩

/-- The maximum of two real extended reals is real. -/
theorem IsReal.max {x y : EReal} (hx : IsReal x) (hy : IsReal y) : IsReal (max x y) := by
  rcases max_choice x y with h | h <;> rw [h] <;> assumption

/-- A finite sum of real extended reals is real. -/
theorem IsReal.sum {ι : Type*} {s : Finset ι} {f : ι → EReal} (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih fun i hi => h i (Finset.mem_insert_of_mem hi))

/-- The quotient of a real extended real by a nonzero real is real. -/
theorem IsReal.div_coe {x : EReal} {y : ℝ} (hy : y ≠ 0) (hx : IsReal x) :
    IsReal (Ideal.div x (y : EReal)) := by
  rw [Ideal.div_coe hy]
  exact hx.mul (IsReal.coe _)

/-- The quotient of two reals, the divisor not zero, as an extended real. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real extended reals is the coercion of a family of reals. -/
theorem exists_real_fun {ι : Type*} {f : ι → EReal} (h : ∀ i, IsReal (f i)) :
    ∃ g : ι → ℝ, ∀ i, f i = (g i : EReal) :=
  ⟨fun i => Classical.choose (h i), fun i => Classical.choose_spec (h i)⟩

/-! ### A few `f32` patterns -/

/-- The pattern of `+0.0` denotes zero. -/
theorem ofBits_zero : Ideal.ofBits .f32 0x00000000#32 = 0 := by
  simp [Ideal.ofBits, Ideal.ieee]

/-- The pattern `0x3F800000` denotes one. -/
theorem ofBits_one : Ideal.ofBits .f32 0x3F800000#32 = ((1 : ℝ) : EReal) := by
  simp [Ideal.ofBits, Ideal.ieee, -EReal.coe_mul]; norm_num

/-- The pattern `0x47C35000` denotes `100000 = (2^23 + 4411392) · 2^(-7)`. -/
theorem ofBits_1e5 : Ideal.ofBits .f32 0x47C35000#32 = ((100000 : ℝ) : EReal) := by
  simp [Ideal.ofBits, Ideal.ieee, -EReal.coe_mul]; norm_num

/-- The pattern `0x3727C5AC` (the `f32` nearest `10⁻⁵`) has an exponent field that is neither
all zeros nor all ones, so it denotes a real number. -/
theorem isReal_ofBits_eps : IsReal (Ideal.ofBits .f32 0x3727C5AC#32) := by
  simp [Ideal.ofBits, Ideal.ieee, -EReal.coe_mul]
  exact ⟨_, rfl⟩

/-- The pattern `0x7F800000` (sign clear, exponent all ones, fraction zero) denotes `⊤`. -/
theorem ofBits_inf : Ideal.ofBits .f32 0x7F800000#32 = ⊤ := by
  simp [Ideal.ofBits, Ideal.ieee]

/-! ### A finiteness test read back -/

/-- A one-bit word made from a Boolean is `1` exactly when the Boolean is true. -/
theorem ofBool_eq_one_iff (b : Bool) : BitVec.ofBool b = 1#1 ↔ b = true := by
  cases b <;> decide

/-- An extended real whose absolute value `max x (-x)` is below `⊤` is real: `x < ⊤` excludes
`⊤`, and `-x < ⊤` excludes `⊥`. -/
theorem isReal_of_abs_lt_top {x : EReal} (h : max x (-x) < ⊤) : IsReal x := by
  rw [max_lt_iff] at h
  refine isReal_iff.mpr ⟨ne_of_lt h.1, ?_⟩
  rintro rfl
  simp at h

/-- The comparison `|x| < +∞` against the pattern of `+∞`, answered `1`, says `x` is real. -/
theorem isReal_of_cmp_abs_lt_inf {x : EReal}
    (h : Ideal.cmp .olt (max x (-x)) (Ideal.ofBits .f32 0x7F800000#32) = 1#1) : IsReal x := by
  rw [ofBits_inf] at h
  have e : Ideal.cmp .olt (max x (-x)) ⊤ = BitVec.ofBool (decide (max x (-x) < ⊤)) := rfl
  rw [e, ofBool_eq_one_iff, decide_eq_true_eq] at h
  exact isReal_of_abs_lt_top h

end Cert.GinMath

end
-- ==== Proof.KStage.lean ====
import proofs.«137949_j58935541236529_2_alg».proof.Proof.Gen.KernelIdeal.Frame
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import proofs.«137949_j58935541236529_2_alg».proof.Proof.KChainA
import proofs.«137949_j58935541236529_2_alg».proof.Proof.LibLay
import proofs.«137949_j58935541236529_2_alg».proof.Proof.LibRowIndex
import proofs.«137949_j58935541236529_2_alg».proof.Proof.LibReal
set_option maxRecDepth 16384

noncomputable section

namespace Cert.KernelIdeal.KChain

open Idealize.ShloMosaic Idealize.ShloMosaic.TcCoe Idealize.ShloMosaic.Tactic Idealize.ShloMosaic.StableHlo Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

open Cert.GinMath

/-! ## The host stages read at an entry -/

/-- The f32 word 0x491C4000 is 640000 and 0x47435000 is 50000. -/
theorem ofBits_640000 : Ideal.ofBits .f32 0x491C4000#32 = ((640000 : ℝ) : EReal) := by
  simp [Ideal.ofBits, Ideal.ieee, -EReal.coe_mul]; norm_num
theorem ofBits_50000 : Ideal.ofBits .f32 0x47435000#32 = ((50000 : ℝ) : EReal) := by
  simp [Ideal.ofBits, Ideal.ieee, -EReal.coe_mul]; norm_num

theorem meanOf_apply (S : FVec Ideal S16x128 .f32) (w : BitVec 32) (j : Fin 128) :
    meanOf S w (ix2 (0 : Fin 1) j) = Ideal.div (S (ix2 (0 : Fin 16) j) + S (ix2 (8 : Fin 16) j)) (Ideal.ofBits .f32 w) := by
  unfold meanOf
  rw [hostDivf_apply, addf_apply, slice2_axis0_apply 0 S _ (0 : Fin 1) j (0 : Fin 16) rfl, slice2_axis0_apply 8 S _ (0 : Fin 1) j (8 : Fin 16) rfl,
    Cert.Lay.scalar_apply, constant_apply]

theorem varOf_apply (S SS : FVec Ideal S16x128 .f32) (w : BitVec 32) (j : Fin 128) :
    varOf S SS w (ix2 (0 : Fin 1) j)
      = max (Ideal.div (SS (ix2 (0 : Fin 16) j) + SS (ix2 (8 : Fin 16) j)) (Ideal.ofBits .f32 w)
              - Ideal.div (S (ix2 (0 : Fin 16) j) + S (ix2 (8 : Fin 16) j)) (Ideal.ofBits .f32 w)
                * Ideal.div (S (ix2 (0 : Fin 16) j) + S (ix2 (8 : Fin 16) j)) (Ideal.ofBits .f32 w)) 0 := by
  unfold varOf
  rw [maximumf_apply, subf_apply, mulf_apply, meanOf_apply, meanOf_apply, Cert.Lay.scalar_apply, constant_apply, ofBits_zero]

theorem row1_apply (g : FVec Ideal S128 .f32) (j : Fin 128) : row1 g (ix2 (0 : Fin 1) j) = g (ix1 j) := by
  unfold row1
  exact shapeCast_a_1a_apply g _ 0 j

theorem wT_apply (W : FVec Ideal S128x128 .f32) (k j : Fin 128) : wT W (ix2 k j) = W (ix2 j k) := by
  unfold wT
  rw [truncf_apply]
  exact transpose_ix2_apply W _ k j

theorem gath_apply (x : FVec Ideal S50000x128 .f32) (col : IVec S640000x1 32) (e : Fin 640000) (k : Fin 128) :
    gath x col (ix2 e k) = x (ix2 (Cert.RowIndex.clampRow 50000 (by norm_num) (col (ix2 e (0 : Fin 1)))) k) := by
  unfold gath
  exact (Cert.RowIndex.rowGather_apply (N := 50000) (E := 640000) (C := 128) (by norm_num)
    gather_S50000x128_S640000x1_S640000x128_1_0_n_n_0_1_1128.wf (truncf .bf16 x bitsLt_bf16_f32) col e k).trans (truncf_apply _ _ _)

end Cert.KernelIdeal.KChain

end
-- ==== Proof.LibVarLaw.lean ====
/-
  Batch statistics over the extended reals.

  For real numbers a_1, …, a_n with mean μ = (Σ a_r)/n, the mean of the squares minus the squared mean is the mean
  of the squared deviations, (Σ a_r²)/n − μ² = (Σ (a_r − μ)²)/n, and this number is not negative, so taking its
  maximum with zero changes nothing. On the extended reals the law needs every a_r to be real: an infinite entry
  makes the left side ∞ − ∞. This module states it in the form the two programs compute it (sums started from
  zero, quotients by the real n), and reads the f32 word of 150000.
-/
import proofs.«137949_j58935541236529_2_alg».proof.Proof.LibReal

noncomputable section

namespace Cert.Bridge.VarLaw

open Idealize.ShloMosaic Cert.GinMath
open scoped BigOperators

/-- The real identity: with μ the mean, Σ (a − μ)² / N = Σ a² / N − μ², and it is nonnegative. -/
theorem real_var {ι : Type*} [Fintype ι] (a : ι → ℝ) (N : ℝ) (hN : N = (Fintype.card ι : ℝ)) (hpos : 0 < N) :
    max ((∑ r, a r * a r) / N - (∑ r, a r) / N * ((∑ r, a r) / N)) 0
      = (∑ r, (a r - (∑ r, a r) / N) * (a r - (∑ r, a r) / N)) / N := by
  set S := ∑ r, a r with hS
  set μ := S / N with hμ
  have hne : N ≠ 0 := ne_of_gt hpos
  have hexp : ∑ r, (a r - μ) * (a r - μ) = (∑ r, a r * a r) - N * μ * μ := by
    have h1 : ∀ r, (a r - μ) * (a r - μ) = a r * a r - 2 * μ * a r + μ * μ := fun r => by ring
    simp only [h1]
    rw [Finset.sum_add_distrib, Finset.sum_sub_distrib, ← Finset.mul_sum, Finset.sum_const, Finset.card_univ,
      nsmul_eq_mul, ← hN, ← hS]
    have : S = N * μ := by rw [hμ]; field_simp
    rw [this]; ring
  have hEq : (∑ r, (a r - μ) * (a r - μ)) / N = (∑ r, a r * a r) / N - μ * μ := by
    rw [hexp]; field_simp
  rw [hEq]
  apply max_eq_left
  rw [← hEq]
  exact div_nonneg (Finset.sum_nonneg fun r _ => mul_self_nonneg _) hpos.le

/-- The law on the extended reals, all entries real: sums started from zero, quotients by the real N = n. -/
theorem var_law {ι : Type*} [Fintype ι] (a : ι → EReal) (ha : ∀ r, IsReal (a r)) (N : ℝ)
    (hN : N = (Fintype.card ι : ℝ)) (hpos : 0 < N) :
    max (Ideal.div (0 + ∑ r, a r * a r) (N : EReal)
          - Ideal.div (0 + ∑ r, a r) (N : EReal) * Ideal.div (0 + ∑ r, a r) (N : EReal)) 0
      = Ideal.div (0 + ∑ r, (a r - Ideal.div (0 + ∑ r, a r) (N : EReal)) * (a r - Ideal.div (0 + ∑ r, a r) (N : EReal)))
          (N : EReal) := by
  obtain ⟨a', ha'⟩ := exists_real_fun ha
  have hne : N ≠ 0 := ne_of_gt hpos
  simp only [ha', zero_add, ← EReal.coe_mul, ← coe_sum, div_coe_coe _ hne, ← EReal.coe_sub]
  have hm : ∀ x : ℝ, max (x : EReal) ((0 : ℝ) : EReal) = ((max x 0 : ℝ) : EReal) := fun x =>
    (EReal.coe_strictMono.monotone.map_max).symm
  rw [← EReal.coe_zero, hm, real_var a' N hN hpos]

/-- The mean of real entries is real. -/
theorem isReal_mean {ι : Type*} [Fintype ι] (a : ι → EReal) (ha : ∀ r, IsReal (a r)) (N : ℝ) (hne : N ≠ 0) :
    IsReal (Ideal.div (0 + ∑ r, a r) (N : EReal)) :=
  IsReal.div_coe hne (isReal_zero.add (IsReal.sum fun r _ => ha r))

/-- The f32 word 0x48127C00 denotes 150000 = (2^23 + 1211392) · 2^(-6). -/
theorem ofBits_150000 : Ideal.ofBits .f32 0x48127C00#32 = ((150000 : ℝ) : EReal) := by
  simp [Ideal.ofBits, Ideal.ieee, -EReal.coe_mul]; norm_num

end Cert.Bridge.VarLaw

end
-- ==== Proof.Spec.lean ====
/-
  The arithmetic that joins the two programs, stated over abstract arrays of extended reals.

  * A sum over all rows of an array is the sum over the cores, over a core's blocks and over a block's rows: the
    rows are numbered (blocks-per-core · core + block) · rows-per-block + row.
  * Batch normalisation. With μ the column mean and σ² the column mean of the squared deviations, the reference
    computes max (((P − μ) · rsqrt (σ² + ε)) · γ + β, 0); the kernel computes the same expression with
    max (Σ P² / N − μ², 0) for σ². For real entries the two variances are one number (the law of LibVarLaw).
-/
import proofs.«137949_j58935541236529_2_alg».proof.Proof.LibReal
import proofs.«137949_j58935541236529_2_alg».proof.Proof.LibVarLaw

noncomputable section

namespace Cert.Spec

open Idealize.ShloMosaic Cert.GinMath
open scoped BigOperators

/-- The small constant added to a variance before the reciprocal square root (the f32 word of 1e-5). -/
abbrev eps : EReal := Ideal.ofBits .f32 0x3727C5AC#32

/-- A sum over all N = A·B·R rows, read core by core, block by block, row by row. -/
theorem sum_three {M : Type*} [AddCommMonoid M] (A B R N : ℕ) (hN : A * B * R = N) (f : Fin N → M)
    (g : Fin A → Fin B → Fin R → Fin N) (hg : ∀ a b r, (g a b r).val = (B * a.val + b.val) * R + r.val) :
    ∑ a, ∑ b, ∑ r, f (g a b r) = ∑ e, f e := by
  subst hN
  rw [← (finProdFinEquiv (m := A * B) (n := R)).sum_comp, Fintype.sum_prod_type,
    ← (finProdFinEquiv (m := A) (n := B)).sum_comp, Fintype.sum_prod_type]
  refine Finset.sum_congr rfl fun a _ => Finset.sum_congr rfl fun b _ => Finset.sum_congr rfl fun r _ => ?_
  refine congrArg f (Fin.ext ?_)
  rw [hg]
  simp only [finProdFinEquiv_apply_val]
  ring

/-- The column mean, from the column sum started at zero. -/
def mu {n : ℕ} (P : Fin n → Fin 128 → EReal) (N : EReal) (j : Fin 128) : EReal := Ideal.div (0 + ∑ v, P v j) N

/-- The column mean of the squared deviations from the column mean. -/
def var {n : ℕ} (P : Fin n → Fin 128 → EReal) (N : EReal) (j : Fin 128) : EReal :=
  Ideal.div (0 + ∑ v, (P v j - mu P N j) * (P v j - mu P N j)) N

/-- One entry normalised, scaled, shifted and clipped at zero. -/
def bn {n : ℕ} (P : Fin n → Fin 128 → EReal) (N : EReal) (g b : Fin 128 → EReal) (v : Fin n) (j : Fin 128) : EReal :=
  max (((P v j - mu P N j) * Ideal.rsqrt (var P N j + eps)) * g j + b j) 0

/-- The kernel's form of the same entry, from the column sum `S` and the column sum of squares `SS`: the variance is
    the mean square minus the squared mean, clipped at zero. For real entries it is the reference's. -/
theorem bn_of_sums {n : ℕ} (P : Fin n → Fin 128 → EReal) (hP : ∀ v j, IsReal (P v j)) (N : ℝ) (hN : N = (n : ℝ)) (hpos : 0 < N)
    (g b : Fin 128 → EReal) (S SS : EReal) (v : Fin n) (j : Fin 128) (hS : S = ∑ v, P v j) (hSS : SS = ∑ v, P v j * P v j) :
    max (((P v j - Ideal.div S (N : EReal)) * Ideal.rsqrt (max (Ideal.div SS (N : EReal) - Ideal.div S (N : EReal) * Ideal.div S (N : EReal)) 0 + eps)) * g j + b j) 0
      = bn P (N : EReal) g b v j := by
  have h := Cert.Bridge.VarLaw.var_law (fun r => P r j) (fun r => hP r j) N (by rw [hN, Fintype.card_fin]) hpos
  unfold bn var mu
  rw [hS, hSS, ← zero_add (∑ v, P v j), ← zero_add (∑ v, P v j * P v j)]
  simp only [zero_add] at h ⊢
  rw [h]

end Cert.Spec

end
-- ==== Proof.KCore.lean ====
import proofs.«137949_j58935541236529_2_alg».proof.Proof.Gen.KernelIdeal.Frame
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import proofs.«137949_j58935541236529_2_alg».proof.Proof.KStage
import proofs.«137949_j58935541236529_2_alg».proof.Proof.Spec
import proofs.«137949_j58935541236529_2_alg».proof.Proof.LibReal
set_option maxRecDepth 16384

noncomputable section

namespace Cert.KernelIdeal.KChain

open Idealize.ShloMosaic Idealize.ShloMosaic.TcCoe Idealize.ShloMosaic.Tactic Idealize.ShloMosaic.StableHlo Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

open Cert.GinMath
open scoped BigOperators

/-! ## The finalizing expression over the host statistics is the batch normalisation of the pre-activations

The rows are spread over two cores, `B` blocks of `R` rows each; rows 0 and 8 of the statistics arrays hold each core's
sum (of the entries, of their squares) over its blocks. Added, they are the sums over all rows; divided by the row
count they give the mean and the mean square, and for real entries the clipped difference is the variance. -/

theorem core {n B R : ℕ} (hn : 2 * B * R = n) (N : ℝ) (hN : N = (n : ℝ)) (hpos : 0 < N) (w : BitVec 32)
    (hw : Ideal.ofBits .f32 w = ((N : ℝ) : EReal))
    (X P : (⟨2, ![n, 128]⟩ : Shape).Idx → EReal) (S SS : FVec Ideal S16x128 .f32) (g b : FVec Ideal S128 .f32)
    (Pf : Fin n → Fin 128 → EReal) (hreal : ∀ v j, IsReal (Pf v j))
    (idx : Fin 2 → Fin B → Fin R → Fin n) (hidx : ∀ a i r, (idx a i r).val = (B * a.val + i.val) * R + r.val)
    (hP : ∀ v j, P (ix2 v j) = Pf v j)
    (hS0 : ∀ j, S (ix2 (0 : Fin 16) j) = ∑ i, ∑ r, Pf (idx 0 i r) j)
    (hS8 : ∀ j, S (ix2 (8 : Fin 16) j) = ∑ i, ∑ r, Pf (idx 1 i r) j)
    (hSS0 : ∀ j, SS (ix2 (0 : Fin 16) j) = ∑ i, ∑ r, Pf (idx 0 i r) j * Pf (idx 0 i r) j)
    (hSS8 : ∀ j, SS (ix2 (8 : Fin 16) j) = ∑ i, ∑ r, Pf (idx 1 i r) j * Pf (idx 1 i r) j)
    (v : Fin n) (j : Fin 128) :
    X (ix2 v j) + max (((P (ix2 v j) - meanOf S w (ix2 (0 : Fin 1) j))
          * Ideal.rsqrt (varOf S SS w (ix2 (0 : Fin 1) j) + Ideal.ofBits .f32 0x3727C5AC#32)) * row1 g (ix2 (0 : Fin 1) j)
        + row1 b (ix2 (0 : Fin 1) j)) 0
      = X (ix2 v j) + Cert.Spec.bn Pf ((N : ℝ) : EReal) (fun j => g (ix1 j)) (fun j => b (ix1 j)) v j := by
  have hsum : S (ix2 (0 : Fin 16) j) + S (ix2 (8 : Fin 16) j) = ∑ e, Pf e j := by
    rw [hS0, hS8, ← Cert.Spec.sum_three 2 B R n hn (fun e => Pf e j) idx hidx, Fin.sum_univ_two]
  have hsumsq : SS (ix2 (0 : Fin 16) j) + SS (ix2 (8 : Fin 16) j) = ∑ e, Pf e j * Pf e j := by
    rw [hSS0, hSS8, ← Cert.Spec.sum_three 2 B R n hn (fun e => Pf e j * Pf e j) idx hidx, Fin.sum_univ_two]
  rw [meanOf_apply, varOf_apply, row1_apply, row1_apply, hP, hw, hsum, hsumsq]
  exact congrArg (X (ix2 v j) + ·) (Cert.Spec.bn_of_sums Pf hreal N hN hpos (fun j => g (ix1 j)) (fun j => b (ix1 j)) _ _ v j rfl rfl)

end Cert.KernelIdeal.KChain

end
-- ==== Proof.NodeFinalValue.lean ====
/- The value of the node-finalizing region (ten grid points, blocks of 5000 rows of a [50000,128] array).
   Each point stores, over its whole block, x + max(((p - mean) * rsqrt(var + eps)) * gamma + beta, 0): x and p are the
   point's blocks of the two [50000,128] inputs, mean, var, gamma, beta are [1,128] rows broadcast down the block's rows,
   eps is the f32 word 0x3727C5AC and the zero of the maximum is the f32 zero word. Read at an entry (r, j) of the block
   this is the same expression of the entries at (r, j) and of the rows at column j. Point t's blocks of the two big
   inputs and of the output are rows 5000 t .. 5000 t + 4999, and the rows' one block is the row itself, so what point t
   writes back is block t of ONE function of the six arrays; row v lies in the block of point v / 5000, so the ten blocks
   cover the array, which therefore ends holding that function — for any contents the region is entered at. -/
import proofs.«137949_j58935541236529_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NodeFinal

open Cert.KernelIdeal Cert.KernelIdeal.Gen Idealize.ShloMosaic Idealize.ShloMosaic.TcCoe Idealize.SL.Sem Idealize.ShloMosaic.ValueIdx
open Idealize.ShloMosaic.Pipeline (Dat)

/-- A reciprocal square root of a vector, read at an index, is the reciprocal square root of the element. -/
theorem rsqrt_apply {s : Shape} {φ : FTy} (a : FVec Ideal s φ) (i : s.Idx) : rsqrt a i = Ideal.rsqrt (a i) := rfl

/-- One entry of the finalized block: the residual input plus the rectified, normalized, scaled and shifted
    pre-activation; the four per-column statistics are rows of length 128 read at the entry's column. -/
theorem pay_apply (x0 x1 : FVec Ideal S5000x128 .f32) (x2 x3 x4 x5 : FVec Ideal S1x128 .f32) (r : Fin 5000) (j : Fin 128) :
    k2_pay1 (F := Ideal) x1 x2 x3 x4 x5 x0 (ix2 r j)
      = x0 (ix2 r j) + max (((x1 (ix2 r j) - x2 (ix2 0 j)) * Ideal.rsqrt (x3 (ix2 0 j) + Ideal.ofBits .f32 0x3727C5AC#32)) * x4 (ix2 0 j) + x5 (ix2 0 j)) 0 := by
  unfold k2_pay1
  simp only [shapeCast_self]
  simp only [addf_apply, maximumf_apply, mulf_apply, subf_apply, broadcast_apply, broadcastTo_1b_ab_apply]
  simp only [rsqrt_apply, addf_apply, broadcast_apply, Ideal.ofBits_def, Ideal.ofBits_zero_f32]

/-- The column of an entry of a block, and of an entry of the array. -/
def colB (y : S5000x128.Idx) : Fin 128 := y 1
def colA (i : S50000x128.Idx) : Fin 128 := i 1

/-- The same at any index of the block, the statistics read at the index's column. -/
theorem pay_at (x0 x1 : FVec Ideal S5000x128 .f32) (x2 x3 x4 x5 : FVec Ideal S1x128 .f32) (y : S5000x128.Idx) :
    k2_pay1 (F := Ideal) x1 x2 x3 x4 x5 x0 y
      = x0 y + max (((x1 y - x2 (ix2 0 (colB y))) * Ideal.rsqrt (x3 (ix2 0 (colB y)) + Ideal.ofBits .f32 0x3727C5AC#32)) * x4 (ix2 0 (colB y)) + x5 (ix2 0 (colB y))) 0 := by
  obtain ⟨r, j, rfl⟩ : ∃ (r : Fin 5000) (j : Fin 128), y = ix2 r j := ⟨y 0, y 1, eq_ix2 y⟩
  exact pay_apply x0 x1 x2 x3 x4 x5 r j

/-- The finalized array as one function of the six arrays the region reads: entry (v, j) is
    x + max(((p - mean_j) * rsqrt(var_j + eps)) * gamma_j + beta_j, 0). -/
def whole (X P : S50000x128.Idx → EReal) (M S G B : S1x128.Idx → EReal) : S50000x128.Idx → EReal := fun i =>
  X i + max (((P i - M (ix2 0 (colA i))) * Ideal.rsqrt (S (ix2 0 (colA i)) + Ideal.ofBits .f32 0x3727C5AC#32)) * G (ix2 0 (colA i)) + B (ix2 0 (colA i))) 0

theorem whole_apply (X P : S50000x128.Idx → EReal) (M S G B : S1x128.Idx → EReal) (v : Fin 50000) (j : Fin 128) :
    whole X P M S G B (ix2 v j)
      = X (ix2 v j) + max (((P (ix2 v j) - M (ix2 0 j)) * Ideal.rsqrt (S (ix2 0 j) + Ideal.ofBits .f32 0x3727C5AC#32)) * G (ix2 0 j) + B (ix2 0 j)) 0 := rfl

theorem hz : (![0, 0] : Fin 2 → Nat) = fun _ => 0 := funext fun a => by fin_cases a <;> rfl

variable (V : (c : Dev nD) → (b : Ref sig .tc) → Buf (Elt Ideal) ((c : Thread nD τ).loc b))

/-- The printed index maps over the ten points: the two block-row windows and the output move together down
    the rows, point t at block t; the four statistics rows stay at their one block. -/
theorem idx_facts : ∀ t : Fin cfg2.N,
    win2_6.index t (0 : Fin 2) = t.val ∧ win2_6.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Every block row is some point's. -/
theorem idx_onto : ∀ q : Fin 10, ∃ t : Fin cfg2.N, win2_6.index t = ![q.val, 0] :=
  (by decide +kernel : ∀ q : Fin 10, ∃ t : Fin grid2.N, win2_6.index t = ![q.val, 0])

/-- An entry of a block-row window's block at a point is the array's entry under the output's block there. -/
theorem blk0 (c : Dev nD) (t : Fin cfg2.N) (y : S5000x128.Idx) :
    iblk2 V c 0 t y = (V c main_arg0 : S50000x128.Idx → EReal) (((cfg2.win 6).blk t).view.emb y) := by
  obtain ⟨e60, e61, e00, e01, -⟩ := idx_facts t
  show V c main_arg0 (((cfg2.win 0).blk t).view.emb y) = V c main_arg0 (((cfg2.win 6).blk t).view.emb y)
  refine congrArg _ (funext fun a => Fin.ext ?_)
  match a with
  | ⟨0, _⟩ => show win2_0.index t (0 : Fin 2) * 5000 + 1 * (y 0).val = win2_6.index t (0 : Fin 2) * 5000 + 1 * (y 0).val; omega
  | ⟨1, _⟩ => show win2_0.index t (1 : Fin 2) * 128 + 1 * (y 1).val = win2_6.index t (1 : Fin 2) * 128 + 1 * (y 1).val; omega

theorem blk1 (c : Dev nD) (t : Fin cfg2.N) (y : S5000x128.Idx) :
    iblk2 V c 1 t y = (V c main_v52_0 : S50000x128.Idx → EReal) (((cfg2.win 6).blk t).view.emb y) := by
  obtain ⟨e60, e61, -, -, e10, e11, -⟩ := idx_facts t
  show V c main_v52_0 (((cfg2.win 1).blk t).view.emb y) = V c main_v52_0 (((cfg2.win 6).blk t).view.emb y)
  refine congrArg _ (funext fun a => Fin.ext ?_)
  match a with
  | ⟨0, _⟩ => show win2_1.index t (0 : Fin 2) * 5000 + 1 * (y 0).val = win2_6.index t (0 : Fin 2) * 5000 + 1 * (y 0).val; omega
  | ⟨1, _⟩ => show win2_1.index t (1 : Fin 2) * 128 + 1 * (y 1).val = win2_6.index t (1 : Fin 2) * 128 + 1 * (y 1).val; omega

/-- An entry of a statistics row's block at a point is the row's entry at the column the output's block
    puts the index on: the row's one block is the row, and the output's blocks start at column 0. -/
theorem row2 (c : Dev nD) (t : Fin cfg2.N) (y : S5000x128.Idx) :
    iblk2 V c 2 t (ix2 0 (colB y)) = (V c main_v60 : S1x128.Idx → EReal) (ix2 0 (colA (((cfg2.win 6).blk t).view.emb y))) := by
  obtain ⟨e60, e61, -, -, -, -, e20, e21, -⟩ := idx_facts t
  show V c main_v60 (((cfg2.win 2).blk t).view.emb (ix2 0 (colB y))) = V c main_v60 (ix2 0 (colA (((cfg2.win 6).blk t).view.emb y)))
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * (y 1).val = win2_6.index t (1 : Fin 2) * 128 + 1 * (y 1).val; omega

theorem row3 (c : Dev nD) (t : Fin cfg2.N) (y : S5000x128.Idx) :
    iblk2 V c 3 t (ix2 0 (colB y)) = (V c main_v66 : S1x128.Idx → EReal) (ix2 0 (colA (((cfg2.win 6).blk t).view.emb y))) := by
  obtain ⟨e60, e61, -, -, -, -, -, -, e30, e31, -⟩ := idx_facts t
  show V c main_v66 (((cfg2.win 3).blk t).view.emb (ix2 0 (colB y))) = V c main_v66 (ix2 0 (colA (((cfg2.win 6).blk t).view.emb y)))
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * (y 1).val = win2_6.index t (1 : Fin 2) * 128 + 1 * (y 1).val; omega

theorem row4 (c : Dev nD) (t : Fin cfg2.N) (y : S5000x128.Idx) :
    iblk2 V c 4 t (ix2 0 (colB y)) = (V c main_v67 : S1x128.Idx → EReal) (ix2 0 (colA (((cfg2.win 6).blk t).view.emb y))) := by
  obtain ⟨e60, e61, -, -, -, -, -, -, -, -, e40, e41, -⟩ := idx_facts t
  show V c main_v67 (((cfg2.win 4).blk t).view.emb (ix2 0 (colB y))) = V c main_v67 (ix2 0 (colA (((cfg2.win 6).blk t).view.emb y)))
  refine congrArg _ (funext fun a => Fin.ext ?_)
  match a with
  | ⟨0, _⟩ => show win2_4.index t (0 : Fin 2) * 1 + 1 * 0 = 0; omega
  | ⟨1, _⟩ => show win2_4.index t (1 : Fin 2) * 128 + 1 * (y 1).val = win2_6.index t (1 : Fin 2) * 128 + 1 * (y 1).val; omega

theorem row5 (c : Dev nD) (t : Fin cfg2.N) (y : S5000x128.Idx) :
    iblk2 V c 5 t (ix2 0 (colB y)) = (V c main_v68 : S1x128.Idx → EReal) (ix2 0 (colA (((cfg2.win 6).blk t).view.emb y))) := by
  obtain ⟨e60, e61, -, -, -, -, -, -, -, -, -, -, e50, e51⟩ := idx_facts t
  show V c main_v68 (((cfg2.win 5).blk t).view.emb (ix2 0 (colB y))) = V c main_v68 (ix2 0 (colA (((cfg2.win 6).blk t).view.emb y)))
  refine congrArg _ (funext fun a => Fin.ext ?_)
  match a with
  | ⟨0, _⟩ => show win2_5.index t (0 : Fin 2) * 1 + 1 * 0 = 0; omega
  | ⟨1, _⟩ => show win2_5.index t (1 : Fin 2) * 128 + 1 * (y 1).val = win2_6.index t (1 : Fin 2) * 128 + 1 * (y 1).val; omega

/-- What point t writes back is block t of the finalized array of the six arrays as the region finds them. -/
theorem flushed_eq (c : Dev nD) (t : Fin cfg2.N) :
    (dat2 (F := Ideal) V c).flushed 6 t = ((cfg2.win 6).blk t).view.read (Elt Ideal)
      (whole (V c main_arg0) (V c main_v52_0) (V c main_v60) (V c main_v66) (V c main_v67) (V c main_v68)) := by
  show (cfg2.win 6).cut (grid2.coords t) ((dat2 V c).after 6 t) = _
  rw [after2_6]
  unfold out2_6
  rw [View.canon_unit_zero hz]
  simp only [View.ld_unit_zero (S := S5000x128) hz, View.ld_unit_zero (S := S1x128) hz]
  funext y
  rw [View.read_apply]
  refine (pay_at (iblk2 V c 0 t) (iblk2 V c 1 t) (iblk2 V c 2 t) (iblk2 V c 3 t) (iblk2 V c 4 t) (iblk2 V c 5 t) y).trans ?_
  rw [blk0 V c t y, blk1 V c t y, row2 V c t y, row3 V c t y, row4 V c t y, row5 V c t y]
  rfl

/-- An index of the array is in point t's block iff each coordinate is in the block's range on its axis. -/
theorem mem_blk (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v71).slice (win2_6.rect t)).set ↔ _
  rw [View.set_slice_whole, Rect.mem_set_unit]
  exact Iff.rfl

/-- Row r of the array is in the block of point r / 5000: the ten blocks of 5000 rows tile the 50000 rows. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ := idx_onto ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The output array after the region's ten write-backs is the finalized array. -/
theorem final (c : Dev nD) : (dat2 (F := Ideal) V c).arrAt 6 cfg2.N
    = whole (V c main_arg0) (V c main_v52_0) (V c main_v60) (V c main_v66) (V c main_v67) (V c main_v68) :=
  (dat2 V c).arrAt_eq_of_cover 6 _ (fun t _ => flushed_eq V c t) cover

/-- Entry (v, j) of the finalized array, as a function of the six arrays and the two coordinates. -/
def entry (X P : S50000x128.Idx → EReal) (M S G B : S1x128.Idx → EReal) (v : Fin 50000) (j : Fin 128) : EReal :=
  X (ix2 v j) + max (((P (ix2 v j) - M (ix2 0 j)) * Ideal.rsqrt (S (ix2 0 j) + Ideal.ofBits .f32 0x3727C5AC#32)) * G (ix2 0 j) + B (ix2 0 j)) 0

theorem entry_def (X P : S50000x128.Idx → EReal) (M S G B : S1x128.Idx → EReal) (v : Fin 50000) (j : Fin 128) :
    entry X P M S G B v j
      = X (ix2 v j) + max (((P (ix2 v j) - M (ix2 0 j)) * Ideal.rsqrt (S (ix2 0 j) + Ideal.ofBits .f32 0x3727C5AC#32)) * G (ix2 0 j) + B (ix2 0 j)) 0 := rfl

/-- Entry (v, j) of the region's output array after its run, for any contents V the region is entered at:
    the residual input plus the rectified normalized pre-activation, of the six arrays the region's windows stage. -/
theorem node_final (c : Dev nD) (v : Fin 50000) (j : Fin 128) :
    (dat2 (F := Ideal) V c).arrAt 6 cfg2.N (ix2 v j)
      = entry (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) v j :=
  congrFun (final V c) (ix2 v j)

/-- The same with the six arrays under their buffers' names. -/
theorem node_final_named (c : Dev nD) (v : Fin 50000) (j : Fin 128) :
    (dat2 (F := Ideal) V c).arrAt 6 cfg2.N (ix2 v j)
      = entry (V c main_arg0) (V c main_v52_0) (V c main_v60) (V c main_v66) (V c main_v67) (V c main_v68) v j :=
  congrFun (final V c) (ix2 v j)

end Cert.KernelIdeal.NodeFinal
end
-- ==== Proof.EdgeFinalValue.lean ====
/- The value of the edge-finalizing region (160 grid points, blocks of 4000 rows of a [640000,128] array).
   Each point stores, over its whole block, e + max(((p - mean) * rsqrt(var + eps)) * gamma + beta, 0): e and p are the
   point's blocks of the two [640000,128] inputs, mean, var, gamma, beta are [1,128] rows broadcast down the block's rows,
   eps is the f32 word 0x3727C5AC and the zero of the maximum is the f32 zero word. Read at an entry (r, j) of the block
   this is the same expression of the entries at (r, j) and of the rows at column j. Point t's blocks of the two big
   inputs and of the output are rows 4000 t .. 4000 t + 3999, and the rows' one block is the row itself, so what point t
   writes back is block t of ONE function of the six arrays; row v lies in the block of point v / 4000, so the 160 blocks
   cover the array, which therefore ends holding that function — for any contents the region is entered at. -/
import proofs.«137949_j58935541236529_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EdgeFinal

open Cert.KernelIdeal Cert.KernelIdeal.Gen Idealize.ShloMosaic Idealize.ShloMosaic.TcCoe Idealize.SL.Sem Idealize.ShloMosaic.ValueIdx
open Idealize.ShloMosaic.Pipeline (Dat)

/-- A reciprocal square root of a vector, read at an index, is the reciprocal square root of the element. -/
theorem rsqrt_apply {s : Shape} {φ : FTy} (a : FVec Ideal s φ) (i : s.Idx) : rsqrt a i = Ideal.rsqrt (a i) := rfl

/-- One entry of the finalized block: the residual input plus the rectified, normalized, scaled and shifted
    pre-activation; the four per-column statistics are rows of length 128 read at the entry's column. -/
theorem pay_apply (x0 x1 : FVec Ideal S4000x128 .f32) (x2 x3 x4 x5 : FVec Ideal S1x128 .f32) (r : Fin 4000) (j : Fin 128) :
    k3_pay1 (F := Ideal) x1 x2 x3 x4 x5 x0 (ix2 r j)
      = x0 (ix2 r j) + max (((x1 (ix2 r j) - x2 (ix2 0 j)) * Ideal.rsqrt (x3 (ix2 0 j) + Ideal.ofBits .f32 0x3727C5AC#32)) * x4 (ix2 0 j) + x5 (ix2 0 j)) 0 := by
  unfold k3_pay1
  simp only [shapeCast_self]
  simp only [addf_apply, maximumf_apply, mulf_apply, subf_apply, broadcast_apply, broadcastTo_1b_ab_apply]
  simp only [rsqrt_apply, addf_apply, broadcast_apply, Ideal.ofBits_def, Ideal.ofBits_zero_f32]

/-- The column of an entry of a block, and of an entry of the array. -/
def colB (y : S4000x128.Idx) : Fin 128 := y 1
def colA (i : S640000x128.Idx) : Fin 128 := i 1

/-- The same at any index of the block, the statistics read at the index's column. -/
theorem pay_at (x0 x1 : FVec Ideal S4000x128 .f32) (x2 x3 x4 x5 : FVec Ideal S1x128 .f32) (y : S4000x128.Idx) :
    k3_pay1 (F := Ideal) x1 x2 x3 x4 x5 x0 y
      = x0 y + max (((x1 y - x2 (ix2 0 (colB y))) * Ideal.rsqrt (x3 (ix2 0 (colB y)) + Ideal.ofBits .f32 0x3727C5AC#32)) * x4 (ix2 0 (colB y)) + x5 (ix2 0 (colB y))) 0 := by
  obtain ⟨r, j, rfl⟩ : ∃ (r : Fin 4000) (j : Fin 128), y = ix2 r j := ⟨y 0, y 1, eq_ix2 y⟩
  exact pay_apply x0 x1 x2 x3 x4 x5 r j

/-- The finalized array as one function of the six arrays the region reads: entry (v, j) is
    x + max(((p - mean_j) * rsqrt(var_j + eps)) * gamma_j + beta_j, 0). -/
def whole (X P : S640000x128.Idx → EReal) (M S G B : S1x128.Idx → EReal) : S640000x128.Idx → EReal := fun i =>
  X i + max (((P i - M (ix2 0 (colA i))) * Ideal.rsqrt (S (ix2 0 (colA i)) + Ideal.ofBits .f32 0x3727C5AC#32)) * G (ix2 0 (colA i)) + B (ix2 0 (colA i))) 0

theorem whole_apply (X P : S640000x128.Idx → EReal) (M S G B : S1x128.Idx → EReal) (v : Fin 640000) (j : Fin 128) :
    whole X P M S G B (ix2 v j)
      = X (ix2 v j) + max (((P (ix2 v j) - M (ix2 0 j)) * Ideal.rsqrt (S (ix2 0 j) + Ideal.ofBits .f32 0x3727C5AC#32)) * G (ix2 0 j) + B (ix2 0 j)) 0 := rfl

theorem hz : (![0, 0] : Fin 2 → Nat) = fun _ => 0 := funext fun a => by fin_cases a <;> rfl

variable (V : (c : Dev nD) → (b : Ref sig .tc) → Buf (Elt Ideal) ((c : Thread nD τ).loc b))

/-- The printed index maps over the 160 points: the two block-row windows and the output move together down
    the rows, point t at block t; the four statistics rows stay at their one block. -/
theorem idx_facts : ∀ t : Fin cfg3.N,
    win3_6.index t (0 : Fin 2) = t.val ∧ win3_6.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Every block row is some point's. -/
theorem idx_onto : ∀ q : Fin 160, ∃ t : Fin cfg3.N, win3_6.index t = ![q.val, 0] :=
  (by decide +kernel : ∀ q : Fin 160, ∃ t : Fin grid3.N, win3_6.index t = ![q.val, 0])

/-- An entry of a block-row window's block at a point is the array's entry under the output's block there. -/
theorem blk0 (c : Dev nD) (t : Fin cfg3.N) (y : S4000x128.Idx) :
    iblk3 V c 0 t y = (V c main_arg1 : S640000x128.Idx → EReal) (((cfg3.win 6).blk t).view.emb y) := by
  obtain ⟨e60, e61, e00, e01, -⟩ := idx_facts t
  show V c main_arg1 (((cfg3.win 0).blk t).view.emb y) = V c main_arg1 (((cfg3.win 6).blk t).view.emb y)
  refine congrArg _ (funext fun a => Fin.ext ?_)
  match a with
  | ⟨0, _⟩ => show win3_0.index t (0 : Fin 2) * 4000 + 1 * (y 0).val = win3_6.index t (0 : Fin 2) * 4000 + 1 * (y 0).val; omega
  | ⟨1, _⟩ => show win3_0.index t (1 : Fin 2) * 128 + 1 * (y 1).val = win3_6.index t (1 : Fin 2) * 128 + 1 * (y 1).val; omega

theorem blk1 (c : Dev nD) (t : Fin cfg3.N) (y : S4000x128.Idx) :
    iblk3 V c 1 t y = (V c main_v29_1 : S640000x128.Idx → EReal) (((cfg3.win 6).blk t).view.emb y) := by
  obtain ⟨e60, e61, -, -, e10, e11, -⟩ := idx_facts t
  show V c main_v29_1 (((cfg3.win 1).blk t).view.emb y) = V c main_v29_1 (((cfg3.win 6).blk t).view.emb y)
  refine congrArg _ (funext fun a => Fin.ext ?_)
  match a with
  | ⟨0, _⟩ => show win3_1.index t (0 : Fin 2) * 4000 + 1 * (y 0).val = win3_6.index t (0 : Fin 2) * 4000 + 1 * (y 0).val; omega
  | ⟨1, _⟩ => show win3_1.index t (1 : Fin 2) * 128 + 1 * (y 1).val = win3_6.index t (1 : Fin 2) * 128 + 1 * (y 1).val; omega

/-- An entry of a statistics row's block at a point is the row's entry at the column the output's block
    puts the index on: the row's one block is the row, and the output's blocks start at column 0. -/
theorem row2 (c : Dev nD) (t : Fin cfg3.N) (y : S4000x128.Idx) :
    iblk3 V c 2 t (ix2 0 (colB y)) = (V c main_v37 : S1x128.Idx → EReal) (ix2 0 (colA (((cfg3.win 6).blk t).view.emb y))) := by
  obtain ⟨e60, e61, -, -, -, -, e20, e21, -⟩ := idx_facts t
  show V c main_v37 (((cfg3.win 2).blk t).view.emb (ix2 0 (colB y))) = V c main_v37 (ix2 0 (colA (((cfg3.win 6).blk t).view.emb y)))
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * (y 1).val = win3_6.index t (1 : Fin 2) * 128 + 1 * (y 1).val; omega

theorem row3 (c : Dev nD) (t : Fin cfg3.N) (y : S4000x128.Idx) :
    iblk3 V c 3 t (ix2 0 (colB y)) = (V c main_v43 : S1x128.Idx → EReal) (ix2 0 (colA (((cfg3.win 6).blk t).view.emb y))) := by
  obtain ⟨e60, e61, -, -, -, -, -, -, e30, e31, -⟩ := idx_facts t
  show V c main_v43 (((cfg3.win 3).blk t).view.emb (ix2 0 (colB y))) = V c main_v43 (ix2 0 (colA (((cfg3.win 6).blk t).view.emb y)))
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * (y 1).val = win3_6.index t (1 : Fin 2) * 128 + 1 * (y 1).val; omega

theorem row4 (c : Dev nD) (t : Fin cfg3.N) (y : S4000x128.Idx) :
    iblk3 V c 4 t (ix2 0 (colB y)) = (V c main_v69 : S1x128.Idx → EReal) (ix2 0 (colA (((cfg3.win 6).blk t).view.emb y))) := by
  obtain ⟨e60, e61, -, -, -, -, -, -, -, -, e40, e41, -⟩ := idx_facts t
  show V c main_v69 (((cfg3.win 4).blk t).view.emb (ix2 0 (colB y))) = V c main_v69 (ix2 0 (colA (((cfg3.win 6).blk t).view.emb y)))
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * (y 1).val = win3_6.index t (1 : Fin 2) * 128 + 1 * (y 1).val; omega

theorem row5 (c : Dev nD) (t : Fin cfg3.N) (y : S4000x128.Idx) :
    iblk3 V c 5 t (ix2 0 (colB y)) = (V c main_v70 : S1x128.Idx → EReal) (ix2 0 (colA (((cfg3.win 6).blk t).view.emb y))) := by
  obtain ⟨e60, e61, -, -, -, -, -, -, -, -, -, -, e50, e51⟩ := idx_facts t
  show V c main_v70 (((cfg3.win 5).blk t).view.emb (ix2 0 (colB y))) = V c main_v70 (ix2 0 (colA (((cfg3.win 6).blk t).view.emb y)))
  refine congrArg _ (funext fun a => Fin.ext ?_)
  match a with
  | ⟨0, _⟩ => show win3_5.index t (0 : Fin 2) * 1 + 1 * 0 = 0; omega
  | ⟨1, _⟩ => show win3_5.index t (1 : Fin 2) * 128 + 1 * (y 1).val = win3_6.index t (1 : Fin 2) * 128 + 1 * (y 1).val; omega

/-- What point t writes back is block t of the finalized array of the six arrays as the region finds them. -/
theorem flushed_eq (c : Dev nD) (t : Fin cfg3.N) :
    (dat3 (F := Ideal) V c).flushed 6 t = ((cfg3.win 6).blk t).view.read (Elt Ideal)
      (whole (V c main_arg1) (V c main_v29_1) (V c main_v37) (V c main_v43) (V c main_v69) (V c main_v70)) := by
  show (cfg3.win 6).cut (grid3.coords t) ((dat3 V c).after 6 t) = _
  rw [after3_6]
  unfold out3_6
  rw [View.canon_unit_zero hz]
  simp only [View.ld_unit_zero (S := S4000x128) hz, View.ld_unit_zero (S := S1x128) hz]
  funext y
  rw [View.read_apply]
  refine (pay_at (iblk3 V c 0 t) (iblk3 V c 1 t) (iblk3 V c 2 t) (iblk3 V c 3 t) (iblk3 V c 4 t) (iblk3 V c 5 t) y).trans ?_
  rw [blk0 V c t y, blk1 V c t y, row2 V c t y, row3 V c t y, row4 V c t y, row5 V c t y]
  rfl

/-- An index of the array is in point t's block iff each coordinate is in the block's range on its axis. -/
theorem mem_blk (t : Fin cfg3.N) (i : S640000x128.Idx) :
    i ∈ ((cfg3.win 6).blk t).view.set ↔ ∀ a : Fin 2, win3_6.index t a * S4000x128.size a ≤ (i a).val ∧ (i a).val < win3_6.index t a * S4000x128.size a + S4000x128.size a := by
  show i ∈ ((View.whole main_v72).slice (win3_6.rect t)).set ↔ _
  rw [View.set_slice_whole, Rect.mem_set_unit]
  exact Iff.rfl

/-- Row r of the array is in the block of point r / 4000: the 160 blocks of 4000 rows tile the 640000 rows. -/
theorem cover (i : S640000x128.Idx) :
    ∃ t : Fin cfg3.N, (cfg3.win 6).flush t = true ∧ i ∈ ((cfg3.win 6).blk t).view.set := by
  have hi0 : (i 0).val < 640000 := (i 0).isLt
  have hi1 : (i 1).val < 128 := (i 1).isLt
  obtain ⟨t, ht⟩ := idx_onto ⟨(i 0).val / 4000, by omega⟩
  have q0 : win3_6.index t (0 : Fin 2) = (i 0).val / 4000 := congrFun ht 0
  have q1 : win3_6.index t (1 : Fin 2) = 0 := congrFun ht 1
  refine ⟨t, flush3_6 t, ?_⟩
  rw [mem_blk]
  intro a
  match a with
  | ⟨0, _⟩ => show win3_6.index t (0 : Fin 2) * 4000 ≤ (i 0).val ∧ (i 0).val < win3_6.index t (0 : Fin 2) * 4000 + 4000; omega
  | ⟨1, _⟩ => show win3_6.index t (1 : Fin 2) * 128 ≤ (i 1).val ∧ (i 1).val < win3_6.index t (1 : Fin 2) * 128 + 128; omega

/-- The output array after the region's 160 write-backs is the finalized array. -/
theorem final (c : Dev nD) : (dat3 (F := Ideal) V c).arrAt 6 cfg3.N
    = whole (V c main_arg1) (V c main_v29_1) (V c main_v37) (V c main_v43) (V c main_v69) (V c main_v70) :=
  (dat3 V c).arrAt_eq_of_cover 6 _ (fun t _ => flushed_eq V c t) cover

/-- Entry (v, j) of the finalized array, as a function of the six arrays and the two coordinates. -/
def entry (X P : S640000x128.Idx → EReal) (M S G B : S1x128.Idx → EReal) (v : Fin 640000) (j : Fin 128) : EReal :=
  X (ix2 v j) + max (((P (ix2 v j) - M (ix2 0 j)) * Ideal.rsqrt (S (ix2 0 j) + Ideal.ofBits .f32 0x3727C5AC#32)) * G (ix2 0 j) + B (ix2 0 j)) 0

theorem entry_def (X P : S640000x128.Idx → EReal) (M S G B : S1x128.Idx → EReal) (v : Fin 640000) (j : Fin 128) :
    entry X P M S G B v j
      = X (ix2 v j) + max (((P (ix2 v j) - M (ix2 0 j)) * Ideal.rsqrt (S (ix2 0 j) + Ideal.ofBits .f32 0x3727C5AC#32)) * G (ix2 0 j) + B (ix2 0 j)) 0 := rfl

/-- Entry (v, j) of the region's output array after its run, for any contents V the region is entered at:
    the residual input plus the rectified normalized pre-activation, of the six arrays the region's windows stage. -/
theorem edge_final (c : Dev nD) (v : Fin 640000) (j : Fin 128) :
    (dat3 (F := Ideal) V c).arrAt 6 cfg3.N (ix2 v j)
      = entry (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) v j :=
  congrFun (final V c) (ix2 v j)

/-- The same with the six arrays under their buffers' names. -/
theorem edge_final_named (c : Dev nD) (v : Fin 640000) (j : Fin 128) :
    (dat3 (F := Ideal) V c).arrAt 6 cfg3.N (ix2 v j)
      = entry (V c main_arg1) (V c main_v29_1) (V c main_v37) (V c main_v43) (V c main_v69) (V c main_v70) v j :=
  congrFun (final V c) (ix2 v j)

end Cert.KernelIdeal.EdgeFinal
end
-- ==== Proof.NodePrePieces.lean ====
/-
  The node pre-activation call: what each of its two control cases leaves in each output block.

  At the first point of a core (second grid coordinate zero) the body first clears the two running totals, then stores
  the block's pre-activation and adds the block's column sums to the totals; at every other point it only does the
  latter, over the totals the point before left. Each output block after the body is therefore one payload of the
  body's arithmetic, applied to the input blocks and (for the totals) to the zero block or to the previous totals.
-/
import proofs.«137949_j58935541236529_2_alg».proof.Proof.Gen.KernelIdeal.Frame
import Idealize.ShloMosaic.Lib.Pipeline.Value
import Idealize.ShloMosaic.Lib.Tactic

noncomputable section

namespace Cert.KernelIdeal.NodePre

open Idealize.ShloMosaic Idealize.ShloMosaic.TcCoe Idealize.ShloMosaic.Tactic Idealize.SL.Sem
open Cert.KernelIdeal Cert.KernelIdeal.Gen

variable {F : FTy → Type} [FloatOps F]

/-- Both offsets of a whole-block rectangle are zero. -/
theorem hz : (![0, 0] : Fin 2 → Nat) = fun _ => 0 := funext fun a => by fin_cases a <;> rfl

theorem out_A_3 (c : Dev nD) (i : grid1.Coords) (a2 : Memref sig .tc .vmem S5000x128 .f32) (h2 : a2.IsWhole) (a3 : Memref sig .tc .vmem S5000x128 .f32) (h3 : a3.IsWhole) (a4 : Memref sig .tc .vmem S128x128 .bf16) (h4 : a4.IsWhole) (a5 : Memref sig .tc .vmem S5000x128 .f32) (h5 : a5.IsWhole) (a6 : Memref sig .tc .vmem S8x128 .f32) (h6 : a6.IsWhole) (a7 : Memref sig .tc .vmem S8x128 .f32) (h7 : a7.IsWhole) (hc : cond1_0 i)
    (x0 x1 : Vec F S5000x128 .f32) (x2 : Vec F S128x128 .bf16) :
    out1_A_3 c i a2 h2 a3 h3 a4 h4 a5 h5 a6 h6 a7 h7 hc x0 x1 x2 = k1_pay3 x0 x1 x2 := by
  unfold out1_A_3
  rw [View.read_writes_eq_canon _ _ _ (cover1_A_3 c i a2 h2 a3 h3 a4 h4 a5 h5 a6 h6 a7 h7 hc x0 x1 x2)]
  unfold kernelRun1_A
  dsimp only
  sl_unfold_words
  rw [View.canon_unit_zero hz]
  simp only [View.readAt_eq_ld, h2.read_unread, h3.read_unread, h4.read_unread, View.ld_unit_zero (S := S5000x128) hz, View.ld_unit_zero (S := S128x128) hz]

theorem out_A_4 (c : Dev nD) (i : grid1.Coords) (a2 : Memref sig .tc .vmem S5000x128 .f32) (h2 : a2.IsWhole) (a3 : Memref sig .tc .vmem S5000x128 .f32) (h3 : a3.IsWhole) (a4 : Memref sig .tc .vmem S128x128 .bf16) (h4 : a4.IsWhole) (a5 : Memref sig .tc .vmem S5000x128 .f32) (h5 : a5.IsWhole) (a6 : Memref sig .tc .vmem S8x128 .f32) (h6 : a6.IsWhole) (a7 : Memref sig .tc .vmem S8x128 .f32) (h7 : a7.IsWhole) (hc : cond1_0 i)
    (x0 x1 : Vec F S5000x128 .f32) (x2 : Vec F S128x128 .bf16) :
    out1_A_4 c i a2 h2 a3 h3 a4 h4 a5 h5 a6 h6 a7 h7 hc x0 x1 x2 = k1_pay4 x0 x1 x2 (k1_pay1 (F := F)) := by
  unfold out1_A_4
  rw [View.read_writes_eq_canon _ _ _ (cover1_A_4 c i a2 h2 a3 h3 a4 h4 a5 h5 a6 h6 a7 h7 hc x0 x1 x2)]
  unfold kernelRun1_A
  dsimp only
  sl_unfold_words
  rw [View.canon_cons_unit_zero (S := S8x128) hz, View.readCov_unit_zero (S := S8x128) _ hz]
  simp only [View.readAt_eq_ld, h2.read_unread, h3.read_unread, h4.read_unread, View.ld_unit_zero (S := S5000x128) hz, View.ld_unit_zero (S := S128x128) hz]

theorem out_A_5 (c : Dev nD) (i : grid1.Coords) (a2 : Memref sig .tc .vmem S5000x128 .f32) (h2 : a2.IsWhole) (a3 : Memref sig .tc .vmem S5000x128 .f32) (h3 : a3.IsWhole) (a4 : Memref sig .tc .vmem S128x128 .bf16) (h4 : a4.IsWhole) (a5 : Memref sig .tc .vmem S5000x128 .f32) (h5 : a5.IsWhole) (a6 : Memref sig .tc .vmem S8x128 .f32) (h6 : a6.IsWhole) (a7 : Memref sig .tc .vmem S8x128 .f32) (h7 : a7.IsWhole) (hc : cond1_0 i)
    (x0 x1 : Vec F S5000x128 .f32) (x2 : Vec F S128x128 .bf16) :
    out1_A_5 c i a2 h2 a3 h3 a4 h4 a5 h5 a6 h6 a7 h7 hc x0 x1 x2 = k1_pay5 x0 x1 x2 (k1_pay2 (F := F)) := by
  unfold out1_A_5
  rw [View.read_writes_eq_canon _ _ _ (cover1_A_5 c i a2 h2 a3 h3 a4 h4 a5 h5 a6 h6 a7 h7 hc x0 x1 x2)]
  unfold kernelRun1_A
  dsimp only
  sl_unfold_words
  rw [View.canon_cons_unit_zero (S := S8x128) hz, View.readCov_unit_zero (S := S8x128) _ hz]
  simp only [View.readAt_eq_ld, h2.read_unread, h3.read_unread, h4.read_unread, View.ld_unit_zero (S := S5000x128) hz, View.ld_unit_zero (S := S128x128) hz]

theorem out_B_3 (c : Dev nD) (i : grid1.Coords) (a2 : Memref sig .tc .vmem S5000x128 .f32) (h2 : a2.IsWhole) (a3 : Memref sig .tc .vmem S5000x128 .f32) (h3 : a3.IsWhole) (a4 : Memref sig .tc .vmem S128x128 .bf16) (h4 : a4.IsWhole) (a5 : Memref sig .tc .vmem S5000x128 .f32) (h5 : a5.IsWhole) (a6 : Memref sig .tc .vmem S8x128 .f32) (h6 : a6.IsWhole) (a7 : Memref sig .tc .vmem S8x128 .f32) (h7 : a7.IsWhole) (hc : ¬cond1_0 i)
    (x0 x1 : Vec F S5000x128 .f32) (x2 : Vec F S128x128 .bf16) (xo4 xo5 : Vec F S8x128 .f32) :
    out1_B_3 c i a2 h2 a3 h3 a4 h4 a5 h5 a6 h6 a7 h7 hc x0 x1 x2 xo4 xo5 = k1_pay3 x0 x1 x2 := by
  unfold out1_B_3
  rw [View.read_writes_eq_canon _ _ _ (cover1_B_3 c i a2 h2 a3 h3 a4 h4 a5 h5 a6 h6 a7 h7 hc x0 x1 x2 xo4 xo5)]
  unfold kernelRun1_B
  dsimp only
  sl_unfold_words
  rw [View.canon_unit_zero hz]
  simp only [View.readAt_eq_ld, h2.read_unread, h3.read_unread, h4.read_unread, h6.read_unread, h7.read_unread, View.ld_unit_zero (S := S5000x128) hz, View.ld_unit_zero (S := S128x128) hz, View.ld_unit_zero (S := S8x128) hz]

theorem out_B_4 (c : Dev nD) (i : grid1.Coords) (a2 : Memref sig .tc .vmem S5000x128 .f32) (h2 : a2.IsWhole) (a3 : Memref sig .tc .vmem S5000x128 .f32) (h3 : a3.IsWhole) (a4 : Memref sig .tc .vmem S128x128 .bf16) (h4 : a4.IsWhole) (a5 : Memref sig .tc .vmem S5000x128 .f32) (h5 : a5.IsWhole) (a6 : Memref sig .tc .vmem S8x128 .f32) (h6 : a6.IsWhole) (a7 : Memref sig .tc .vmem S8x128 .f32) (h7 : a7.IsWhole) (hc : ¬cond1_0 i)
    (x0 x1 : Vec F S5000x128 .f32) (x2 : Vec F S128x128 .bf16) (xo4 xo5 : Vec F S8x128 .f32) :
    out1_B_4 c i a2 h2 a3 h3 a4 h4 a5 h5 a6 h6 a7 h7 hc x0 x1 x2 xo4 xo5 = k1_pay4 x0 x1 x2 xo4 := by
  unfold out1_B_4
  rw [View.read_writes_eq_canon _ _ _ (cover1_B_4 c i a2 h2 a3 h3 a4 h4 a5 h5 a6 h6 a7 h7 hc x0 x1 x2 xo4 xo5)]
  unfold kernelRun1_B
  dsimp only
  sl_unfold_words
  rw [View.canon_unit_zero hz]
  simp only [View.readAt_eq_ld, h2.read_unread, h3.read_unread, h4.read_unread, h6.read_unread, h7.read_unread, View.ld_unit_zero (S := S5000x128) hz, View.ld_unit_zero (S := S128x128) hz, View.ld_unit_zero (S := S8x128) hz]

theorem out_B_5 (c : Dev nD) (i : grid1.Coords) (a2 : Memref sig .tc .vmem S5000x128 .f32) (h2 : a2.IsWhole) (a3 : Memref sig .tc .vmem S5000x128 .f32) (h3 : a3.IsWhole) (a4 : Memref sig .tc .vmem S128x128 .bf16) (h4 : a4.IsWhole) (a5 : Memref sig .tc .vmem S5000x128 .f32) (h5 : a5.IsWhole) (a6 : Memref sig .tc .vmem S8x128 .f32) (h6 : a6.IsWhole) (a7 : Memref sig .tc .vmem S8x128 .f32) (h7 : a7.IsWhole) (hc : ¬cond1_0 i)
    (x0 x1 : Vec F S5000x128 .f32) (x2 : Vec F S128x128 .bf16) (xo4 xo5 : Vec F S8x128 .f32) :
    out1_B_5 c i a2 h2 a3 h3 a4 h4 a5 h5 a6 h6 a7 h7 hc x0 x1 x2 xo4 xo5 = k1_pay5 x0 x1 x2 xo5 := by
  unfold out1_B_5
  rw [View.read_writes_eq_canon _ _ _ (cover1_B_5 c i a2 h2 a3 h3 a4 h4 a5 h5 a6 h6 a7 h7 hc x0 x1 x2 xo4 xo5)]
  unfold kernelRun1_B
  dsimp only
  sl_unfold_words
  rw [View.canon_unit_zero hz]
  simp only [View.readAt_eq_ld, h2.read_unread, h3.read_unread, h4.read_unread, h6.read_unread, h7.read_unread, View.ld_unit_zero (S := S5000x128) hz, View.ld_unit_zero (S := S128x128) hz, View.ld_unit_zero (S := S8x128) hz]

variable (V : (c : Dev nD) → (b : Ref sig .tc) → Buf (Elt F) ((c : Thread nD τ).loc b))

/-- After the first point of a core: the block's pre-activation, and the two totals started from zero. -/
theorem outs_A (c : Dev nD) (t : Fin cfg1.N) (h0 : t.val % 5 = 0) :
    outsAt1 V c t.val t.isLt
      = (k1_pay3 (iblk1 V c 0 t) (iblk1 V c 1 t) (iblk1 V c 2 t),
         k1_pay4 (iblk1 V c 0 t) (iblk1 V c 1 t) (iblk1 V c 2 t) (k1_pay1 (F := F)),
         k1_pay5 (iblk1 V c 0 t) (iblk1 V c 1 t) (iblk1 V c 2 t) (k1_pay2 (F := F))) := by
  rw [outsAt1_A V c t h0, out_A_3, out_A_4, out_A_5]

/-- After any later point of a core: the block's pre-activation, and the two totals carried on from the point before. -/
theorem outs_B (c : Dev nD) (t : Fin cfg1.N) (h0 : ¬t.val % 5 = 0) :
    outsAt1 V c t.val t.isLt
      = (k1_pay3 (iblk1 V c 0 t) (iblk1 V c 1 t) (iblk1 V c 2 t),
         k1_pay4 (iblk1 V c 0 t) (iblk1 V c 1 t) (iblk1 V c 2 t)
           (outsAt1 V c (t.val - 1) (Nat.lt_of_le_of_lt (Nat.sub_le _ _) t.isLt)).2.1,
         k1_pay5 (iblk1 V c 0 t) (iblk1 V c 1 t) (iblk1 V c 2 t)
           (outsAt1 V c (t.val - 1) (Nat.lt_of_le_of_lt (Nat.sub_le _ _) t.isLt)).2.2) := by
  rw [outsAt1_B V c t h0, out_B_3, out_B_4, out_B_5]

end Cert.KernelIdeal.NodePre

end
-- ==== Proof.LibPlainDot.lean ====
import Idealize.ShloMosaic.PureOps.Ideal.Laws
import Idealize.ShloMosaic.Lib.ValueIdx

/-!
# A plain matrix product read at an entry

For the dimension numbers of an M×K by K×N product with no batch axis, entry (p, q) of the product into a
zero accumulator is the sum over k of left (p, k) times right (k, q), on the extended reals.
-/

noncomputable section

namespace Cert.PlainDot

open Idealize.ShloMosaic Idealize.ShloMosaic.ValueIdx
open scoped BigOperators

theorem contr_rank (M K N : Nat) : (DotDims.plain M K N).contr.rank = 1 := rfl

theorem contr_size (M K N : Nat) :
    (DotDims.plain M K N).contr.size ⟨0, by rw [contr_rank]; exact Nat.one_pos⟩ = K := rfl

/-- The left operand's index at output (p, q) and contraction coordinate k is (p, k). -/
theorem lhsIdx_eq (M K N : Nat) (p : Fin M) (q : Fin N) (k : Fin K) :
    (DotDims.plain M K N).lhsIdx (ix2 p q)
        ((contrEquiv1 (DotDims.plain M K N) K (contr_rank M K N) (contr_size M K N)).symm k) = ix2 p k := by
  have hk := contrEquiv1_symm_val (DotDims.plain M K N) K (contr_rank M K N) (contr_size M K N) k
  funext a
  refine Fin.ext ?_
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl _ _).trans hk

/-- The right operand's index at output (p, q) and contraction coordinate k is (k, q). -/
theorem rhsIdx_eq (M K N : Nat) (p : Fin M) (q : Fin N) (k : Fin K) :
    (DotDims.plain M K N).rhsIdx (ix2 p q)
        ((contrEquiv1 (DotDims.plain M K N) K (contr_rank M K N) (contr_size M K N)).symm k) = ix2 k q := by
  have hk := contrEquiv1_symm_val (DotDims.plain M K N) K (contr_rank M K N) (contr_size M K N) k
  funext a
  refine Fin.ext ?_
  match a with
  | ⟨0, _⟩ =>
    exact ((DotDims.plain M K N).rhsIdx_val_of_single (cr := (0 : Fin 2)) rfl _ _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- A plain product into the zero accumulator, at entry (p, q). -/
theorem matmul_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    matmul (DotDims.plain M K N) prec l r (constant (F := Ideal) ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply,
    ← Equiv.sum_comp (contrEquiv1 (DotDims.plain M K N) K (contr_rank M K N) (contr_size M K N)).symm]
  refine Finset.sum_congr rfl fun k _ => ?_
  rw [lhsIdx_eq, rhsIdx_eq]

end Cert.PlainDot

end
-- ==== Proof.NodePrePay.lean ====
/-
  The node pre-activation call's arithmetic at an entry, over the extended reals.

  The pre-activation of a block is (block of x) times W plus (block of the aggregate); the two running totals gain, in
  every one of their eight rows, the column sums of that block and of its square.
-/
import proofs.«137949_j58935541236529_2_alg».proof.Proof.Gen.KernelIdeal.Skeleton
import proofs.«137949_j58935541236529_2_alg».proof.Proof.LibPlainDot
import Idealize.ShloMosaic.Lib.Pipeline.Value
import Idealize.ShloMosaic.PureOps.Ideal.Laws
import Idealize.ShloMosaic.Lib.ValueIdx

noncomputable section

namespace Cert.KernelIdeal.NodePre

open Idealize.ShloMosaic Idealize.ShloMosaic.ValueIdx Cert.KernelIdeal Cert.KernelIdeal.Gen
open scoped BigOperators

/-- The product's dimension numbers are those of a plain 5000 x 128 by 128 x 128 product. -/
theorem dot_plain : dot_S5000x128_S128x128_S5000x128_1_0_0_1_n_n = DotDims.plain 5000 128 128 := rfl

/-- The pre-activation block at an entry: row p of the block times column q of the weights, plus the aggregate. -/
theorem pay3_apply (x a : Vec Ideal S5000x128 .f32) (w : Vec Ideal S128x128 .bf16) (p : Fin 5000) (q : Fin 128) :
    k1_pay3 (F := Ideal) x a w (ix2 p q) = (∑ k : Fin 128, x (ix2 p k) * w (ix2 k q)) + a (ix2 p q) := by
  unfold k1_pay3
  show matmul dot_S5000x128_S128x128_S5000x128_1_0_0_1_n_n none (truncf .bf16 x bitsLt_bf16_f32)
        (shapeCast S128x128 w shapeCasts_S128x128_S128x128) (constant (F := Ideal) S5000x128 .f32 0x00000000#32) (ix2 p q)
      + shapeCast S5000x128 a shapeCasts_S5000x128_S5000x128 (ix2 p q) = _
  rw [shapeCast_self, shapeCast_self, dot_plain]
  exact congrArg (· + a (ix2 p q)) (Cert.PlainDot.matmul_zero_apply 5000 128 128 none (truncf .bf16 x bitsLt_bf16_f32) w p q)

/-- The sum of a 5000 x 128 array down its rows, read at column q. -/
theorem colsum_apply (src : FVec Ideal S5000x128 .f32) (q : Fin 128) :
    multiReduction (F := Ideal) .add [0] S128 src 0x00000000#32 reduces_S5000x128_S128 (.inl rfl) rfl (ix1 q)
      = ∑ r : Fin 5000, src (ix2 r q) := by
  refine (Ideal.multiReduction_add_single src 0x00000000#32 reduces_S5000x128_S128 (.inl rfl) rfl (ix1 q)).trans ?_
  show ∑ r : Fin 5000, src (reduces_S5000x128_S128.lift (ix1 q) r) = ∑ r : Fin 5000, src (ix2 r q)
  refine Finset.sum_congr rfl fun r _ => congrArg src ?_
  funext c
  refine Fin.ext ?_
  match c with
  | ⟨0, _⟩ => rfl
  | ⟨1, _⟩ => rfl

/-- A vector of 128 column totals, laid as one row and repeated over 8 rows, read at (s, q). -/
theorem rows8_apply (v : FVec Ideal S128 .f32) (s : Fin 8) (q : Fin 128) :
    broadcastTo S8x128 (shapeCast S1x128 (shapeCast S1x128 v shapeCasts_S128_S1x128) shapeCasts_S1x128_S1x128)
        broadcasts_S1x128_S8x128 (ix2 s q) = v (ix1 q) := by
  refine (broadcastTo_apply _ broadcasts_S1x128_S8x128 (ix2 s q) (ix2 (0 : Fin 1) q) (fun a => ?_)).trans ?_
  · match a with
    | ⟨0, _⟩ => rfl
    | ⟨1, _⟩ => rfl
  · rw [shapeCast_self]
    exact shapeCast_apply v shapeCasts_S128_S1x128 (ix2 (0 : Fin 1) q) (ix1 q) (by
      rw [Shape.rowMajor_val_two, Shape.rowMajor_val_one]
      show q.val = 0 * 128 + q.val
      omega)

/-- The zero block. -/
theorem pay1_apply (j : S8x128.Idx) : k1_pay1 (F := Ideal) j = 0 := by
  unfold k1_pay1
  exact Ideal.ofBits_zero_f32

theorem pay2_apply (j : S8x128.Idx) : k1_pay2 (F := Ideal) j = 0 := by
  unfold k1_pay2
  exact Ideal.ofBits_zero_f32

/-- The running column totals after one more block: the old total plus the block's column sum. -/
theorem pay4_apply (x a : Vec Ideal S5000x128 .f32) (w : Vec Ideal S128x128 .bf16) (acc : Vec Ideal S8x128 .f32)
    (s : Fin 8) (q : Fin 128) :
    k1_pay4 (F := Ideal) x a w acc (ix2 s q)
      = acc (ix2 s q) + ∑ r : Fin 5000, k1_pay3 (F := Ideal) x a w (ix2 r q) := by
  unfold k1_pay4
  show shapeCast S8x128 acc shapeCasts_S8x128_S8x128 (ix2 s q)
      + broadcastTo S8x128 (shapeCast S1x128 (shapeCast S1x128
          (multiReduction (F := Ideal) .add [0] S128 (k1_pay3 (F := Ideal) x a w) 0x00000000#32 reduces_S5000x128_S128 (.inl rfl) rfl)
          shapeCasts_S128_S1x128) shapeCasts_S1x128_S1x128) broadcasts_S1x128_S8x128 (ix2 s q) = _
  rw [shapeCast_self]
  exact congrArg (acc (ix2 s q) + ·) ((rows8_apply _ s q).trans (colsum_apply _ q))

/-- The running column totals of squares after one more block. -/
theorem pay5_apply (x a : Vec Ideal S5000x128 .f32) (w : Vec Ideal S128x128 .bf16) (acc : Vec Ideal S8x128 .f32)
    (s : Fin 8) (q : Fin 128) :
    k1_pay5 (F := Ideal) x a w acc (ix2 s q)
      = acc (ix2 s q) + ∑ r : Fin 5000, k1_pay3 (F := Ideal) x a w (ix2 r q) * k1_pay3 (F := Ideal) x a w (ix2 r q) := by
  unfold k1_pay5
  show shapeCast S8x128 acc shapeCasts_S8x128_S8x128 (ix2 s q)
      + broadcastTo S8x128 (shapeCast S1x128 (shapeCast S1x128
          (multiReduction (F := Ideal) .add [0] S128 (mulf (k1_pay3 (F := Ideal) x a w) (k1_pay3 (F := Ideal) x a w)) 0x00000000#32 reduces_S5000x128_S128 (.inl rfl) rfl)
          shapeCasts_S128_S1x128) shapeCasts_S1x128_S1x128) broadcasts_S1x128_S8x128 (ix2 s q) = _
  rw [shapeCast_self]
  exact congrArg (acc (ix2 s q) + ·) ((rows8_apply _ s q).trans (colsum_apply _ q))

end Cert.KernelIdeal.NodePre

end
-- ==== Proof.NodePreBlocks.lean ====
/-
  The node pre-activation call: its input blocks read at an entry, and the pre-activation payload on them.

  Point t of the ten reads rows 5000 t … 5000 t + 4999 of the node features and of the aggregate, and the whole weight
  matrix; so the body's pre-activation payload at (p, q) of point t is the pre-activation of node 5000 t + p at feature q.
-/
import proofs.«137949_j58935541236529_2_alg».proof.Proof.NodePrePieces
import proofs.«137949_j58935541236529_2_alg».proof.Proof.NodePrePay

noncomputable section

namespace Cert.KernelIdeal.NodePre

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The node features, the aggregate and the weights, as the call finds them. -/
abbrev Xa (c : Dev nD) : S50000x128.Idx → EReal := V c (Pipeline.arrRef spec1 0)
abbrev Aa (c : Dev nD) : S50000x128.Idx → EReal := V c (Pipeline.arrRef spec1 1)
abbrev Wa (c : Dev nD) : S128x128.Idx → EReal := V c (Pipeline.arrRef spec1 2)

/-- The pre-activation of node v at feature j: row v of x times column j of W, plus the aggregate. -/
def Pf (c : Dev nD) (v : Fin 50000) (j : Fin 128) : EReal :=
  (∑ k : Fin 128, Xa V c (ix2 v k) * Wa V c (ix2 k j)) + Aa V c (ix2 v j)

theorem Pf_def (c : Dev nD) (v : Fin 50000) (j : Fin 128) :
    Pf V c v j = (∑ k : Fin 128, Xa V c (ix2 v k) * Wa V c (ix2 k j)) + Aa V c (ix2 v j) := rfl

/-- The block index maps over the ten points: the three row-blocked arrays move with the point, the weights stay, and
    the two totals' block is the core's. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val / 5 ∧ win1_4.index t (1 : Fin 2) = 0
    ∧ win1_5.index t (0 : Fin 2) = t.val / 5 ∧ win1_5.index t (1 : Fin 2) = 0 :=
  (by decide +kernel : ∀ t : Fin grid1.N, _)

theorem lt10 (t : Fin cfg1.N) : t.val < 10 := lt_of_lt_of_eq t.isLt N_1

/-! ## The input blocks at an entry -/

theorem iblk0_apply (c : Dev nD) (t : Fin cfg1.N) (p : Fin 5000) (q : Fin 128) (hb : t.val * 5000 + p.val < 50000) :
    (iblk1 V c 0 t : Vec Ideal S5000x128 .f32) (ix2 p q) = Xa V c (ix2 ⟨t.val * 5000 + p.val, hb⟩ q) := by
  obtain ⟨e0, e1, -⟩ := idx_facts t
  show V c (Pipeline.arrRef spec1 0) (((cfg1.win 0).blk t).view.emb (ix2 p q)) = V c (Pipeline.arrRef spec1 0) (ix2 ⟨t.val * 5000 + p.val, hb⟩ q)
  refine congrArg _ (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * q.val = q.val; rw [e1]; omega

theorem iblk1_apply (c : Dev nD) (t : Fin cfg1.N) (p : Fin 5000) (q : Fin 128) (hb : t.val * 5000 + p.val < 50000) :
    (iblk1 V c 1 t : Vec Ideal S5000x128 .f32) (ix2 p q) = Aa V c (ix2 ⟨t.val * 5000 + p.val, hb⟩ q) := by
  obtain ⟨-, -, e0, e1, -⟩ := idx_facts t
  show V c (Pipeline.arrRef spec1 1) (((cfg1.win 1).blk t).view.emb (ix2 p q)) = V c (Pipeline.arrRef spec1 1) (ix2 ⟨t.val * 5000 + p.val, hb⟩ q)
  refine congrArg _ (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 128 + 1 * q.val = q.val; rw [e1]; omega

theorem iblk2_apply (c : Dev nD) (t : Fin cfg1.N) (k : Fin 128) (q : Fin 128) :
    (iblk1 V c 2 t : Vec Ideal S128x128 .bf16) (ix2 k q) = Wa V c (ix2 k q) := by
  obtain ⟨-, -, -, -, e0, e1, -⟩ := idx_facts t
  show V c (Pipeline.arrRef spec1 2) (((cfg1.win 2).blk t).view.emb (ix2 k q)) = V c (Pipeline.arrRef spec1 2) (ix2 k q)
  refine congrArg _ (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The body's pre-activation payload on point t's blocks is the pre-activation of the block's nodes. -/
theorem pre_blk_apply (c : Dev nD) (t : Fin cfg1.N) (p : Fin 5000) (q : Fin 128) (hb : t.val * 5000 + p.val < 50000) :
    k1_pay3 (F := Ideal) (iblk1 V c 0 t) (iblk1 V c 1 t) (iblk1 V c 2 t) (ix2 p q) = Pf V c ⟨t.val * 5000 + p.val, hb⟩ q := by
  rw [pay3_apply]
  unfold Pf
  exact congrArg₂ (· + ·) (Finset.sum_congr rfl fun k _ => congrArg₂ (· * ·) (iblk0_apply V c t p k hb) (iblk2_apply V c t k q))
    (iblk1_apply V c t p q hb)

end Cert.KernelIdeal.NodePre

end
-- ==== Proof.NodePreTotals.lean ====
/-
  The node pre-activation call: its two running totals, point by point.

  Within a core's five points the first one starts each total at the column sums of its block (of the pre-activation,
  and of its square) and every later one adds its own block's; so after point n a total holds, in each of its eight
  rows, the sum of the column sums of the blocks from the start of n's core up to n.
-/
import proofs.«137949_j58935541236529_2_alg».proof.Proof.NodePreBlocks

noncomputable section

namespace Cert.KernelIdeal.NodePre

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-! ## The two running totals -/

/-- The column sums of block n of the pre-activation (zero past the tenth block). -/
def bsum (c : Dev nD) (n : ℕ) (q : Fin 128) : EReal :=
  if h : n < 10 then ∑ r : Fin 5000, Pf V c ⟨n * 5000 + r.val, by have := r.isLt; omega⟩ q else 0

/-- The column sums of block n of the squared pre-activation (zero past the tenth block). -/
def bsq (c : Dev nD) (n : ℕ) (q : Fin 128) : EReal :=
  if h : n < 10 then ∑ r : Fin 5000, Pf V c ⟨n * 5000 + r.val, by have := r.isLt; omega⟩ q * Pf V c ⟨n * 5000 + r.val, by have := r.isLt; omega⟩ q else 0

/-- One more block: every row of the total gains the block's column sums. -/
theorem pay4_blk (c : Dev nD) (t : Fin cfg1.N) (acc : Vec Ideal S8x128 .f32) (s : Fin 8) (q : Fin 128) :
    k1_pay4 (F := Ideal) (iblk1 V c 0 t) (iblk1 V c 1 t) (iblk1 V c 2 t) acc (ix2 s q) = acc (ix2 s q) + bsum V c t.val q := by
  have ht := lt10 t
  rw [pay4_apply]
  unfold bsum
  rw [dif_pos ht]
  exact congrArg (acc (ix2 s q) + ·) (Finset.sum_congr rfl fun r _ => pre_blk_apply V c t r q (by have := r.isLt; omega))

theorem pay5_blk (c : Dev nD) (t : Fin cfg1.N) (acc : Vec Ideal S8x128 .f32) (s : Fin 8) (q : Fin 128) :
    k1_pay5 (F := Ideal) (iblk1 V c 0 t) (iblk1 V c 1 t) (iblk1 V c 2 t) acc (ix2 s q) = acc (ix2 s q) + bsq V c t.val q := by
  have ht := lt10 t
  rw [pay5_apply]
  unfold bsq
  rw [dif_pos ht]
  exact congrArg (acc (ix2 s q) + ·) (Finset.sum_congr rfl fun r _ =>
    congrArg₂ (· * ·) (pre_blk_apply V c t r q (by have := r.isLt; omega)) (pre_blk_apply V c t r q (by have := r.isLt; omega)))

/-- The pre-activation output block after any point. -/
theorem pre_blk (c : Dev nD) (t : Fin cfg1.N) :
    (outsAt1 V c t.val t.isLt).1 = k1_pay3 (iblk1 V c 0 t) (iblk1 V c 1 t) (iblk1 V c 2 t) := by
  by_cases h0 : t.val % 5 = 0
  · rw [outs_A V c t h0]
  · rw [outs_B V c t h0]

/-- At a core's first point the totals are the first block's column sums … -/
theorem tot4_first (c : Dev nD) (t : Fin cfg1.N) (h0 : t.val % 5 = 0) (s : Fin 8) (q : Fin 128) :
    ((outsAt1 V c t.val t.isLt).2.1 : Vec Ideal S8x128 .f32) (ix2 s q) = bsum V c t.val q := by
  rw [outs_A V c t h0]
  dsimp only
  rw [pay4_blk, pay1_apply, zero_add]

theorem tot5_first (c : Dev nD) (t : Fin cfg1.N) (h0 : t.val % 5 = 0) (s : Fin 8) (q : Fin 128) :
    ((outsAt1 V c t.val t.isLt).2.2 : Vec Ideal S8x128 .f32) (ix2 s q) = bsq V c t.val q := by
  rw [outs_A V c t h0]
  dsimp only
  rw [pay5_blk, pay2_apply, zero_add]

/-- … and at every later point they gain that point's block. -/
theorem tot4_next (c : Dev nD) (t : Fin cfg1.N) (h0 : ¬t.val % 5 = 0) (s : Fin 8) (q : Fin 128) :
    ((outsAt1 V c t.val t.isLt).2.1 : Vec Ideal S8x128 .f32) (ix2 s q)
      = ((outsAt1 V c (t.val - 1) (Nat.lt_of_le_of_lt (Nat.sub_le _ _) t.isLt)).2.1 : Vec Ideal S8x128 .f32) (ix2 s q) + bsum V c t.val q := by
  rw [outs_B V c t h0]
  dsimp only
  rw [pay4_blk]

theorem tot5_next (c : Dev nD) (t : Fin cfg1.N) (h0 : ¬t.val % 5 = 0) (s : Fin 8) (q : Fin 128) :
    ((outsAt1 V c t.val t.isLt).2.2 : Vec Ideal S8x128 .f32) (ix2 s q)
      = ((outsAt1 V c (t.val - 1) (Nat.lt_of_le_of_lt (Nat.sub_le _ _) t.isLt)).2.2 : Vec Ideal S8x128 .f32) (ix2 s q) + bsq V c t.val q := by
  rw [outs_B V c t h0]
  dsimp only
  rw [pay5_blk]

/-- A total that restarts at the multiples of five and gains f n at every other point is, after point n, the sum of
    f over the points of n's run of five up to n. -/
theorem run_sum (g f : ℕ → EReal) (N : ℕ)
    (h0 : ∀ n, n < N → n % 5 = 0 → g n = f n)
    (hs : ∀ n, n + 1 < N → ¬(n + 1) % 5 = 0 → g (n + 1) = g n + f (n + 1)) :
    ∀ n, n < N → g n = ∑ k ∈ Finset.range (n % 5 + 1), f (n - n % 5 + k) := by
  intro n
  induction n with
  | zero => intro h; rw [h0 0 h rfl]; simp
  | succ n ih =>
    intro h
    by_cases hm : (n + 1) % 5 = 0
    · rw [h0 (n + 1) h hm, hm]; simp
    · have e1 : (n + 1) % 5 = n % 5 + 1 := by omega
      have e2 : n + 1 - (n + 1) % 5 = n - n % 5 := by omega
      have e3 : n - n % 5 + (n % 5 + 1) = n + 1 := by omega
      rw [hs n h hm, ih (Nat.lt_of_succ_lt h), e2, e1, Finset.sum_range_succ _ (n % 5 + 1), e3]

/-- The running totals after point n: the column sums of the blocks of n's core up to n. -/
theorem tot4 (c : Dev nD) (s : Fin 8) (q : Fin 128) (n : ℕ) (h : n < cfg1.N) :
    ((outsAt1 V c n h).2.1 : Vec Ideal S8x128 .f32) (ix2 s q) = ∑ k ∈ Finset.range (n % 5 + 1), bsum V c (n - n % 5 + k) q := by
  have key := run_sum (fun n => if h : n < cfg1.N then ((outsAt1 V c n h).2.1 : Vec Ideal S8x128 .f32) (ix2 s q) else 0)
    (fun n => bsum V c n q) cfg1.N
    (fun n hn hm => by rw [dif_pos hn]; exact tot4_first V c ⟨n, hn⟩ hm s q)
    (fun n hn hm => by
      rw [dif_pos hn, dif_pos (Nat.lt_of_succ_lt hn)]
      exact tot4_next V c ⟨n + 1, hn⟩ hm s q) n h
  rw [dif_pos h] at key
  exact key

theorem tot5 (c : Dev nD) (s : Fin 8) (q : Fin 128) (n : ℕ) (h : n < cfg1.N) :
    ((outsAt1 V c n h).2.2 : Vec Ideal S8x128 .f32) (ix2 s q) = ∑ k ∈ Finset.range (n % 5 + 1), bsq V c (n - n % 5 + k) q := by
  have key := run_sum (fun n => if h : n < cfg1.N then ((outsAt1 V c n h).2.2 : Vec Ideal S8x128 .f32) (ix2 s q) else 0)
    (fun n => bsq V c n q) cfg1.N
    (fun n hn hm => by rw [dif_pos hn]; exact tot5_first V c ⟨n, hn⟩ hm s q)
    (fun n hn hm => by
      rw [dif_pos hn, dif_pos (Nat.lt_of_succ_lt hn)]
      exact tot5_next V c ⟨n + 1, hn⟩ hm s q) n h
  rw [dif_pos h] at key
  exact key

end Cert.KernelIdeal.NodePre

end
-- ==== Proof.NodePreValue.lean ====
/-
  The node pre-activation call: the three output arrays after the call, entry by entry.

  Every point writes back its block of the pre-activation, and the ten blocks tile the array. A core's block of each
  totals array is written back once, after the core's fifth point, when it holds the column sums over all five of the
  core's blocks; the two cores' blocks tile the sixteen rows.
-/
import proofs.«137949_j58935541236529_2_alg».proof.Proof.NodePreTotals

noncomputable section

namespace Cert.KernelIdeal.NodePre

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-! ## From blocks to the arrays -/

/-- The pre-activation array. -/
def G3 (c : Dev nD) : S50000x128.Idx → EReal := fun i => Pf V c (i 0) (i 1)

/-- The totals array: rows 8 cc … 8 cc + 7 all hold the column sums over core cc's five blocks. -/
def G4 (c : Dev nD) : S16x128.Idx → EReal := fun i => ∑ k ∈ Finset.range 5, bsum V c (5 * ((i 0).val / 8) + k) (i 1)

def G5 (c : Dev nD) : S16x128.Idx → EReal := fun i => ∑ k ∈ Finset.range 5, bsq V c (5 * ((i 0).val / 8) + k) (i 1)

/-- What point t writes back to the pre-activation array is block t of it. -/
theorem flushed3_eq (c : Dev nD) (t : Fin cfg1.N) :
    (dat1 V c).flushed 3 t = ((cfg1.win 3).blk t).view.read (Elt Ideal) (G3 V c) := by
  have ht := lt10 t
  obtain ⟨-, -, -, -, -, -, e0, e1, -⟩ := idx_facts t
  show (cfg1.win 3).cut (grid1.coords t) ((dat1 V c).after 3 t) = _
  rw [after1_3, pre_blk V c t]
  funext j
  obtain ⟨p, q, rfl⟩ : ∃ (p : Fin 5000) (q : Fin 128), j = ix2 p q := ⟨j 0, j 1, eq_ix2 j⟩
  have hp := p.isLt
  show k1_pay3 (F := Ideal) (iblk1 V c 0 t) (iblk1 V c 1 t) (iblk1 V c 2 t) (ix2 p q) = G3 V c (((cfg1.win 3).blk t).view.emb (ix2 p q))
  rw [pre_blk_apply V c t p q (by omega)]
  unfold G3
  refine congrArg₂ (Pf V c) (Fin.ext ?_) (Fin.ext ?_)
  · show t.val * 5000 + p.val = win1_3.index t (0 : Fin 2) * 5000 + 1 * p.val
    rw [e0]; omega
  · show q.val = win1_3.index t (1 : Fin 2) * 128 + 1 * q.val
    rw [e1]; omega

/-- Membership in point t's block of the pre-activation array, by coordinates. -/
theorem mem_blk3 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v52_0).slice (win1_3.rect t)).set ↔ _
  rw [View.set_slice_whole, Rect.mem_set_unit]
  exact Iff.rfl

/-- The pre-activation array after the call. -/
theorem final3 (c : Dev nD) : (dat1 V c).arrAt 3 cfg1.N = G3 V c :=
  (dat1 V c).arrAt_eq_of_cover 3 (G3 V c) (fun t _ => flushed3_eq V c t) fun i => by
    have h0 : (i 0).val < 50000 := (i 0).isLt
    have h1 : (i 1).val < 128 := (i 1).isLt
    have hlt : (i 0).val / 5000 < cfg1.N := by rw [show cfg1.N = 10 from N_1]; omega
    refine ⟨⟨(i 0).val / 5000, hlt⟩, flush1_3 _, ?_⟩
    rw [mem_blk3]
    obtain ⟨-, -, -, -, -, -, e0, e1, -⟩ := idx_facts ⟨(i 0).val / 5000, hlt⟩
    intro a
    match a with
    | ⟨0, _⟩ =>
      show win1_3.index _ (0 : Fin 2) * 5000 ≤ (i 0).val ∧ (i 0).val < win1_3.index _ (0 : Fin 2) * 5000 + 5000
      rw [e0]; dsimp only; omega
    | ⟨1, _⟩ =>
      show win1_3.index _ (1 : Fin 2) * 128 ≤ (i 1).val ∧ (i 1).val < win1_3.index _ (1 : Fin 2) * 128 + 128
      rw [e1]; omega

/-- The pre-activation array after the call, at an entry. -/
theorem pre_val (c : Dev nD) (v : Fin 50000) (j : Fin 128) :
    ((dat1 V c).arrAt 3 cfg1.N : S50000x128.Idx → EReal) (ix2 v j) = Pf V c v j := by
  rw [final3]; rfl

/-- What a core's last point writes back to the totals array (window 4) is that core's block of it. -/
theorem flushed4_eq (c : Dev nD) (t : Fin cfg1.N) (hf : (cfg1.win 4).flush t = true) :
    (dat1 V c).flushed 4 t = ((cfg1.win 4).blk t).view.read (Elt Ideal) (G4 V c) := by
  have ht := lt10 t
  have h4 : t.val % 5 = 4 := (flush1_4 t).mp hf
  have e0 : win1_4.index t (0 : Fin 2) = t.val / 5 := by
    obtain ⟨-, -, -, -, -, -, -, -, a0, a1, b0, b1⟩ := idx_facts t; exact a0
  have e1 : win1_4.index t (1 : Fin 2) = 0 := by
    obtain ⟨-, -, -, -, -, -, -, -, a0, a1, b0, b1⟩ := idx_facts t; exact a1
  show (cfg1.win 4).cut (grid1.coords t) ((dat1 V c).after 4 t) = _
  rw [after1_4]
  funext j
  obtain ⟨s, q, rfl⟩ : ∃ (s : Fin 8) (q : Fin 128), j = ix2 s q := ⟨j 0, j 1, eq_ix2 j⟩
  have hs := s.isLt
  show ((outsAt1 V c t.val t.isLt).2.1 : Vec Ideal S8x128 .f32) (ix2 s q) = G4 V c (((cfg1.win 4).blk t).view.emb (ix2 s q))
  rw [tot4 V c s q t.val t.isLt, h4]
  unfold G4
  have r0 : ((((cfg1.win 4).blk t).view.emb (ix2 s q)) 0).val = t.val / 5 * 8 + s.val := by
    show win1_4.index t (0 : Fin 2) * 8 + 1 * s.val = _
    rw [e0]; omega
  have r1 : (((cfg1.win 4).blk t).view.emb (ix2 s q)) 1 = q := Fin.ext (by
    show win1_4.index t (1 : Fin 2) * 128 + 1 * q.val = q.val
    rw [e1]; omega)
  rw [r0, r1]
  refine Finset.sum_congr rfl fun k _ => congrArg (fun n => bsum V c n q) ?_
  omega

/-- Membership in point t's block of the totals array (window 4), by coordinates. -/
theorem mem_blk4 (t : Fin cfg1.N) (i : S16x128.Idx) :
    i ∈ ((cfg1.win 4).blk t).view.set ↔ ∀ a : Fin 2, win1_4.index t a * S8x128.size a ≤ (i a).val ∧ (i a).val < win1_4.index t a * S8x128.size a + S8x128.size a := by
  show i ∈ ((View.whole main_v52_1).slice (win1_4.rect t)).set ↔ _
  rw [View.set_slice_whole, Rect.mem_set_unit]
  exact Iff.rfl

/-- The totals array (window 4) after the call: each core's last point covers that core's eight rows. -/
theorem final4 (c : Dev nD) : (dat1 V c).arrAt 4 cfg1.N = G4 V c :=
  (dat1 V c).arrAt_eq_of_cover 4 (G4 V c) (flushed4_eq V c) fun i => by
    have h0 : (i 0).val < 16 := (i 0).isLt
    have h1 : (i 1).val < 128 := (i 1).isLt
    have hlt : 5 * ((i 0).val / 8) + 4 < cfg1.N := by rw [show cfg1.N = 10 from N_1]; omega
    have e0 : win1_4.index ⟨5 * ((i 0).val / 8) + 4, hlt⟩ (0 : Fin 2) = (5 * ((i 0).val / 8) + 4) / 5 := by
      obtain ⟨-, -, -, -, -, -, -, -, a0, a1, b0, b1⟩ := idx_facts ⟨5 * ((i 0).val / 8) + 4, hlt⟩; exact a0
    have e1 : win1_4.index ⟨5 * ((i 0).val / 8) + 4, hlt⟩ (1 : Fin 2) = 0 := by
      obtain ⟨-, -, -, -, -, -, -, -, a0, a1, b0, b1⟩ := idx_facts ⟨5 * ((i 0).val / 8) + 4, hlt⟩; exact a1
    refine ⟨⟨5 * ((i 0).val / 8) + 4, hlt⟩, (flush1_4 _).mpr (by dsimp only; omega), ?_⟩
    rw [mem_blk4]
    intro a
    match a with
    | ⟨0, _⟩ =>
      show win1_4.index _ (0 : Fin 2) * 8 ≤ (i 0).val ∧ (i 0).val < win1_4.index _ (0 : Fin 2) * 8 + 8
      rw [e0]; omega
    | ⟨1, _⟩ =>
      show win1_4.index _ (1 : Fin 2) * 128 ≤ (i 1).val ∧ (i 1).val < win1_4.index _ (1 : Fin 2) * 128 + 128
      rw [e1]; omega

/-- What a core's last point writes back to the totals array (window 5) is that core's block of it. -/
theorem flushed5_eq (c : Dev nD) (t : Fin cfg1.N) (hf : (cfg1.win 5).flush t = true) :
    (dat1 V c).flushed 5 t = ((cfg1.win 5).blk t).view.read (Elt Ideal) (G5 V c) := by
  have ht := lt10 t
  have h4 : t.val % 5 = 4 := (flush1_5 t).mp hf
  have e0 : win1_5.index t (0 : Fin 2) = t.val / 5 := by
    obtain ⟨-, -, -, -, -, -, -, -, a0, a1, b0, b1⟩ := idx_facts t; exact b0
  have e1 : win1_5.index t (1 : Fin 2) = 0 := by
    obtain ⟨-, -, -, -, -, -, -, -, a0, a1, b0, b1⟩ := idx_facts t; exact b1
  show (cfg1.win 5).cut (grid1.coords t) ((dat1 V c).after 5 t) = _
  rw [after1_5]
  funext j
  obtain ⟨s, q, rfl⟩ : ∃ (s : Fin 8) (q : Fin 128), j = ix2 s q := ⟨j 0, j 1, eq_ix2 j⟩
  have hs := s.isLt
  show ((outsAt1 V c t.val t.isLt).2.2 : Vec Ideal S8x128 .f32) (ix2 s q) = G5 V c (((cfg1.win 5).blk t).view.emb (ix2 s q))
  rw [tot5 V c s q t.val t.isLt, h4]
  unfold G5
  have r0 : ((((cfg1.win 5).blk t).view.emb (ix2 s q)) 0).val = t.val / 5 * 8 + s.val := by
    show win1_5.index t (0 : Fin 2) * 8 + 1 * s.val = _
    rw [e0]; omega
  have r1 : (((cfg1.win 5).blk t).view.emb (ix2 s q)) 1 = q := Fin.ext (by
    show win1_5.index t (1 : Fin 2) * 128 + 1 * q.val = q.val
    rw [e1]; omega)
  rw [r0, r1]
  refine Finset.sum_congr rfl fun k _ => congrArg (fun n => bsq V c n q) ?_
  omega

/-- Membership in point t's block of the totals array (window 5), by coordinates. -/
theorem mem_blk5 (t : Fin cfg1.N) (i : S16x128.Idx) :
    i ∈ ((cfg1.win 5).blk t).view.set ↔ ∀ a : Fin 2, win1_5.index t a * S8x128.size a ≤ (i a).val ∧ (i a).val < win1_5.index t a * S8x128.size a + S8x128.size a := by
  show i ∈ ((View.whole main_v52_2).slice (win1_5.rect t)).set ↔ _
  rw [View.set_slice_whole, Rect.mem_set_unit]
  exact Iff.rfl

/-- The totals array (window 5) after the call: each core's last point covers that core's eight rows. -/
theorem final5 (c : Dev nD) : (dat1 V c).arrAt 5 cfg1.N = G5 V c :=
  (dat1 V c).arrAt_eq_of_cover 5 (G5 V c) (flushed5_eq V c) fun i => by
    have h0 : (i 0).val < 16 := (i 0).isLt
    have h1 : (i 1).val < 128 := (i 1).isLt
    have hlt : 5 * ((i 0).val / 8) + 4 < cfg1.N := by rw [show cfg1.N = 10 from N_1]; omega
    have e0 : win1_5.index ⟨5 * ((i 0).val / 8) + 4, hlt⟩ (0 : Fin 2) = (5 * ((i 0).val / 8) + 4) / 5 := by
      obtain ⟨-, -, -, -, -, -, -, -, a0, a1, b0, b1⟩ := idx_facts ⟨5 * ((i 0).val / 8) + 4, hlt⟩; exact b0
    have e1 : win1_5.index ⟨5 * ((i 0).val / 8) + 4, hlt⟩ (1 : Fin 2) = 0 := by
      obtain ⟨-, -, -, -, -, -, -, -, a0, a1, b0, b1⟩ := idx_facts ⟨5 * ((i 0).val / 8) + 4, hlt⟩; exact b1
    refine ⟨⟨5 * ((i 0).val / 8) + 4, hlt⟩, (flush1_5 _).mpr (by dsimp only; omega), ?_⟩
    rw [mem_blk5]
    intro a
    match a with
    | ⟨0, _⟩ =>
      show win1_5.index _ (0 : Fin 2) * 8 ≤ (i 0).val ∧ (i 0).val < win1_5.index _ (0 : Fin 2) * 8 + 8
      rw [e0]; omega
    | ⟨1, _⟩ =>
      show win1_5.index _ (1 : Fin 2) * 128 ≤ (i 1).val ∧ (i 1).val < win1_5.index _ (1 : Fin 2) * 128 + 128
      rw [e1]; omega

/-- The sums array after the call: row 8 cc + s holds, at feature j, the sum of the pre-activation over core cc's
    25000 nodes. -/
theorem sum_val (c : Dev nD) (cc : Fin 2) (s : Fin 8) (j : Fin 128) :
    ((dat1 V c).arrAt 4 cfg1.N : S16x128.Idx → EReal) (ix2 (⟨8 * cc.val + s.val, by have := cc.isLt; have := s.isLt; omega⟩ : Fin 16) j)
      = ∑ i : Fin 5, ∑ r : Fin 5000,
          Pf V c ⟨(5 * cc.val + i.val) * 5000 + r.val, by have := cc.isLt; have := i.isLt; have := r.isLt; omega⟩ j := by
  have hc := cc.isLt
  have hs := s.isLt
  rw [final4]
  show ∑ k ∈ Finset.range 5, bsum V c (5 * ((8 * cc.val + s.val) / 8) + k) j = _
  rw [Finset.sum_range]
  refine Finset.sum_congr rfl fun i _ => ?_
  have hi := i.isLt
  have e : (8 * cc.val + s.val) / 8 = cc.val := by omega
  rw [e]
  unfold bsum
  rw [dif_pos (by omega)]

/-- The sums-of-squares array after the call. -/
theorem sumsq_val (c : Dev nD) (cc : Fin 2) (s : Fin 8) (j : Fin 128) :
    ((dat1 V c).arrAt 5 cfg1.N : S16x128.Idx → EReal) (ix2 (⟨8 * cc.val + s.val, by have := cc.isLt; have := s.isLt; omega⟩ : Fin 16) j)
      = ∑ i : Fin 5, ∑ r : Fin 5000,
          Pf V c ⟨(5 * cc.val + i.val) * 5000 + r.val, by have := cc.isLt; have := i.isLt; have := r.isLt; omega⟩ j
            * Pf V c ⟨(5 * cc.val + i.val) * 5000 + r.val, by have := cc.isLt; have := i.isLt; have := r.isLt; omega⟩ j := by
  have hc := cc.isLt
  have hs := s.isLt
  rw [final5]
  show ∑ k ∈ Finset.range 5, bsq V c (5 * ((8 * cc.val + s.val) / 8) + k) j = _
  rw [Finset.sum_range]
  refine Finset.sum_congr rfl fun i _ => ?_
  have hi := i.isLt
  have e : (8 * cc.val + s.val) / 8 = cc.val := by omega
  rw [e]
  unfold bsq
  rw [dif_pos (by omega)]

end Cert.KernelIdeal.NodePre

end
-- ==== Proof.EdgePayload.lean ====
import proofs.«137949_j58935541236529_2_alg».proof.Proof.Gen.KernelIdeal.Skeleton
import proofs.«137949_j58935541236529_2_alg».proof.Proof.LibPlainDot
import Idealize.ShloMosaic.Lib.Pipeline.Value
import Idealize.ShloMosaic.Lib.ValueIdx
import Idealize.ShloMosaic.PureOps.Ideal.Laws

/-!
# The edge kernel's arithmetic, entry by entry, on the extended reals

One block of 4000 edges: the message block is the edge features times the projected source rows; the
pre-activation block is the sum of three projections (edge features, destination rows, source rows); the two
running statistics add, to every one of their eight rows, the column sums of the pre-activation block and of its
square.
-/

noncomputable section

namespace Cert.KernelIdeal.EdgePayload

open Idealize.ShloMosaic Idealize.ShloMosaic.ValueIdx Cert.KernelIdeal Cert.KernelIdeal.Gen
open scoped BigOperators

/-- The printed dimension numbers are those of a plain 4000×128 by 128×128 product. -/
theorem dot_plain : dot_S4000x128_S128x128_S4000x128_1_0_0_1_n_n = DotDims.plain 4000 128 128 := rfl

/-- A block times a weight matrix into the zero accumulator, at entry (p, q). -/
theorem mm_apply {φ₁ φ₂ : FTy} (l : FVec Ideal S4000x128 φ₁) (r : FVec Ideal S128x128 φ₂) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := by
  rw [dot_plain]
  exact Cert.PlainDot.matmul_zero_apply 4000 128 128 none l r p q

/-- The three projections summed, at entry (p, q). -/
def pre (xs xd : FVec Ideal S4000x128 .bf16) (e : FVec Ideal S4000x128 .f32) (w3 w4 w5 : FVec Ideal S128x128 .bf16)
    (p : Fin 4000) (q : Fin 128) : EReal :=
  ((∑ k : Fin 128, e (ix2 p k) * w3 (ix2 k q)) + ∑ k : Fin 128, xd (ix2 p k) * w4 (ix2 k q))
    + ∑ k : Fin 128, xs (ix2 p k) * w5 (ix2 k q)

/-- The message block at entry (p, q): the edge feature times the projected source row. -/
theorem pay6_apply (x0 : Vec Ideal S4000x128 .bf16) (x2 : Vec Ideal S4000x128 .f32) (x3 : Vec Ideal S128x128 .bf16)
    (p : Fin 4000) (q : Fin 128) :
    k0_pay6 (F := Ideal) x0 x2 x3 (ix2 p q) = x2 (ix2 p q) * ∑ k : Fin 128, x0 (ix2 p k) * x3 (ix2 k q) := by
  unfold k0_pay6 k0_pay5
  simp only [shapeCast_self]
  exact congrArg (x2 (ix2 p q) * ·) (mm_apply x0 x3 p q)

/-- The pre-activation block at entry (p, q). -/
theorem pay7_apply (x0 x1 : Vec Ideal S4000x128 .bf16) (x2 : Vec Ideal S4000x128 .f32) (x4 x5 x6 : Vec Ideal S128x128 .bf16)
    (p : Fin 4000) (q : Fin 128) :
    k0_pay7 (F := Ideal) x0 x1 x2 x4 x5 x6 (ix2 p q) = pre x0 x1 x2 x4 x5 x6 p q := by
  unfold k0_pay7 k0_pay5 pre
  simp only [shapeCast_self, addf_apply]
  rw [mm_apply, mm_apply, mm_apply]
  rfl

/-- The column sums of a block laid as one row: entry (0, q) is the sum down column q. -/
theorem colsum_row (v : FVec Ideal S4000x128 .f32) (h : S4000x128.Reduces [0] S128) (hφ : FKind.Formats FTy.f32)
    (hacc : (0x00000000#32 : BitVec FTy.f32.bits) = FKind.add.neutral .f32 hφ) (hc : S128.ShapeCasts S1x128)
    (u : Fin 1) (q : Fin 128) :
    shapeCast S1x128 (multiReduction .add [0] S128 v 0x00000000#32 h hφ hacc) hc (ix2 u q) = ∑ r : Fin 4000, v (ix2 r q) := by
  refine (shapeCast_apply _ hc (ix2 u q) (ix1 q) ?_).trans ?_
  · rw [Shape.rowMajor_val_one, Shape.rowMajor_val_two]
    show q.val = u.val * 128 + q.val
    have := u.isLt
    omega
  · refine (Ideal.multiReduction_add_single v _ h hφ hacc (ix1 q)).trans ?_
    refine Finset.sum_congr rfl fun r _ => congrArg v ?_
    funext a
    match a with
    | ⟨0, _⟩ => rfl
    | ⟨1, _⟩ => rfl

/-- One row repeated down the eight rows of a statistic block. -/
theorem rep8_apply (v : FVec Ideal S1x128 .f32) (h : S1x128.Broadcasts S8x128) (s : Fin 8) (q : Fin 128) :
    broadcastTo S8x128 v h (ix2 s q) = v (ix2 (0 : Fin 1) q) := by
  refine broadcastTo_apply v h (ix2 s q) (ix2 (0 : Fin 1) q) fun a => ?_
  match a with
  | ⟨0, _⟩ => rfl
  | ⟨1, _⟩ => rfl

/-- The zero block the first point of a core stores into the running sum. -/
theorem pay3_apply (s : Fin 8) (q : Fin 128) : k0_pay3 (F := Ideal) (ix2 s q) = 0 := by
  show Ideal.ofBits .f32 0x00000000#32 = 0
  exact Ideal.ofBits_zero_f32

/-- The zero block the first point of a core stores into the running sum of squares. -/
theorem pay4_apply (s : Fin 8) (q : Fin 128) : k0_pay4 (F := Ideal) (ix2 s q) = 0 := by
  show Ideal.ofBits .f32 0x00000000#32 = 0
  exact Ideal.ofBits_zero_f32

/-- The pre-activation block's column sums, as one row. -/
theorem pay8_apply (x0 x1 : Vec Ideal S4000x128 .bf16) (x2 : Vec Ideal S4000x128 .f32) (x4 x5 x6 : Vec Ideal S128x128 .bf16)
    (u : Fin 1) (q : Fin 128) :
    k0_pay8 (F := Ideal) x0 x1 x2 x4 x5 x6 (ix2 u q) = ∑ r : Fin 4000, pre x0 x1 x2 x4 x5 x6 r q := by
  unfold k0_pay8
  refine (colsum_row _ _ _ _ _ u q).trans ?_
  exact Finset.sum_congr rfl fun r _ => pay7_apply x0 x1 x2 x4 x5 x6 r q

/-- The square of the pre-activation block. -/
theorem pay9_apply (x0 x1 : Vec Ideal S4000x128 .bf16) (x2 : Vec Ideal S4000x128 .f32) (x4 x5 x6 : Vec Ideal S128x128 .bf16)
    (p : Fin 4000) (q : Fin 128) :
    k0_pay9 (F := Ideal) x0 x1 x2 x4 x5 x6 (ix2 p q) = pre x0 x1 x2 x4 x5 x6 p q * pre x0 x1 x2 x4 x5 x6 p q := by
  unfold k0_pay9
  show k0_pay7 (F := Ideal) x0 x1 x2 x4 x5 x6 (ix2 p q) * k0_pay7 (F := Ideal) x0 x1 x2 x4 x5 x6 (ix2 p q) = _
  rw [pay7_apply]

/-- The running sum after a point: what it held plus the row of column sums, on every one of its eight rows. -/
theorem pay1_apply (v27 : FVec Ideal S1x128 .f32) (acc : Vec Ideal S8x128 .f32) (s : Fin 8) (q : Fin 128) :
    k0_pay1 (F := Ideal) v27 acc (ix2 s q) = acc (ix2 s q) + v27 (ix2 (0 : Fin 1) q) := by
  unfold k0_pay1
  simp only [shapeCast_self, addf_apply]
  exact congrArg (acc (ix2 s q) + ·) (rep8_apply v27 _ s q)

/-- The running sum of squares after a point: what it held plus the column sums of the squared block. -/
theorem pay2_apply (v28 : FVec Ideal S4000x128 .f32) (acc : Vec Ideal S8x128 .f32) (s : Fin 8) (q : Fin 128) :
    k0_pay2 (F := Ideal) v28 acc (ix2 s q) = acc (ix2 s q) + ∑ r : Fin 4000, v28 (ix2 r q) := by
  unfold k0_pay2
  simp only [shapeCast_self, addf_apply]
  exact congrArg (acc (ix2 s q) + ·) ((rep8_apply _ _ s q).trans (colsum_row v28 _ _ _ _ 0 q))

/-- The running sum block after a point, entry (s, q), over what it held before. -/
theorem sum_step (x0 x1 : Vec Ideal S4000x128 .bf16) (x2 : Vec Ideal S4000x128 .f32) (x4 x5 x6 : Vec Ideal S128x128 .bf16)
    (acc : Vec Ideal S8x128 .f32) (s : Fin 8) (q : Fin 128) :
    k0_pay1 (F := Ideal) (k0_pay8 x0 x1 x2 x4 x5 x6) acc (ix2 s q)
      = acc (ix2 s q) + ∑ r : Fin 4000, pre x0 x1 x2 x4 x5 x6 r q := by
  rw [pay1_apply, pay8_apply]

/-- The running sum-of-squares block after a point, entry (s, q), over what it held before. -/
theorem sumsq_step (x0 x1 : Vec Ideal S4000x128 .bf16) (x2 : Vec Ideal S4000x128 .f32) (x4 x5 x6 : Vec Ideal S128x128 .bf16)
    (acc : Vec Ideal S8x128 .f32) (s : Fin 8) (q : Fin 128) :
    k0_pay2 (F := Ideal) (k0_pay9 x0 x1 x2 x4 x5 x6) acc (ix2 s q)
      = acc (ix2 s q) + ∑ r : Fin 4000, pre x0 x1 x2 x4 x5 x6 r q * pre x0 x1 x2 x4 x5 x6 r q := by
  rw [pay2_apply]
  exact congrArg (acc (ix2 s q) + ·) (Finset.sum_congr rfl fun r _ => pay9_apply x0 x1 x2 x4 x5 x6 r q)

end Cert.KernelIdeal.EdgePayload

end
-- ==== Proof.EdgeBlocks.lean ====
import proofs.«137949_j58935541236529_2_alg».proof.Proof.Gen.KernelIdeal.Frame
import proofs.«137949_j58935541236529_2_alg».proof.Proof.EdgePayload
import Idealize.ShloMosaic.Lib.Pipeline.Value
import Idealize.ShloMosaic.Lib.ValueIdx

/-!
# The edge kernel's blocks, read off the arrays

Grid point t (of 160) works on edge rows 4000·t … 4000·t + 3999 of the three edge-indexed inputs and of the two
edge-indexed outputs, on the whole of each of the four weight matrices, and on rows 8·(t / 80) … 8·(t / 80) + 7 of
each of the two statistics arrays. The pre-activation of edge row e, column j, is the sum of three projections.
-/

noncomputable section

namespace Cert.KernelIdeal.EdgeBlocks

open Idealize.ShloMosaic Idealize.ShloMosaic.TcCoe Idealize.ShloMosaic.ValueIdx Idealize.SL.Sem
open Cert.KernelIdeal Cert.KernelIdeal.Gen Cert.KernelIdeal.EdgePayload
open scoped BigOperators

variable (V : (c : Dev nD) → (b : Ref sig .tc) → Buf (Elt Ideal) ((c : Thread nD τ).loc b))

/-- The source rows, the destination rows and the edge features, one row per edge; the four weight matrices. -/
abbrev XS (c : Dev nD) : FVec Ideal S640000x128 .bf16 := V c (Pipeline.arrRef spec0 0)
abbrev XD (c : Dev nD) : FVec Ideal S640000x128 .bf16 := V c (Pipeline.arrRef spec0 1)
abbrev EF (c : Dev nD) : FVec Ideal S640000x128 .f32 := V c (Pipeline.arrRef spec0 2)
abbrev W2 (c : Dev nD) : FVec Ideal S128x128 .bf16 := V c (Pipeline.arrRef spec0 3)
abbrev W3 (c : Dev nD) : FVec Ideal S128x128 .bf16 := V c (Pipeline.arrRef spec0 4)
abbrev W4 (c : Dev nD) : FVec Ideal S128x128 .bf16 := V c (Pipeline.arrRef spec0 5)
abbrev W5 (c : Dev nD) : FVec Ideal S128x128 .bf16 := V c (Pipeline.arrRef spec0 6)

/-- The pre-activation of edge e, column j: the edge features, the destination row and the source row, each
    projected by its weight matrix, added in this order. -/
def Qf (xs xd : FVec Ideal S640000x128 .bf16) (ef : FVec Ideal S640000x128 .f32) (w3 w4 w5 : FVec Ideal S128x128 .bf16)
    (e : Fin 640000) (j : Fin 128) : EReal :=
  ((∑ k : Fin 128, ef (ix2 e k) * w3 (ix2 k j)) + ∑ k : Fin 128, xd (ix2 e k) * w4 (ix2 k j))
    + ∑ k : Fin 128, xs (ix2 e k) * w5 (ix2 k j)

/-- The message of edge e, column j: the edge feature times the projected source row. -/
def Mf (xs : FVec Ideal S640000x128 .bf16) (ef : FVec Ideal S640000x128 .f32) (w2 : FVec Ideal S128x128 .bf16)
    (e : Fin 640000) (j : Fin 128) : EReal :=
  ef (ix2 e j) * ∑ k : Fin 128, xs (ix2 e k) * w2 (ix2 k j)

theorem N160 : cfg0.N = 160 := N_0

/-- Row r of point t's block is edge row 4000·t + r. -/
theorem row_lt (t : Fin cfg0.N) (r : Fin 4000) : t.val * 4000 + r.val < 640000 := by
  have := lt_of_lt_of_eq t.isLt N160
  have := r.isLt
  omega

/-- The printed index maps of the edge-indexed windows, decided over the grid: block t. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- The weight windows stay on their one block; the statistics windows are on block t / 80. -/
theorem idx_rest : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_9.index t (0 : Fin 2) = t.val / 80 ∧ win0_9.index t (1 : Fin 2) = 0)
    ∧ (win0_10.index t (0 : Fin 2) = t.val / 80 ∧ win0_10.index t (1 : Fin 2) = 0) :=
  (by decide +kernel : ∀ t : Fin grid0.N, _)

/-! ## Where an entry of a block sits in its array -/

theorem emb0 (t : Fin cfg0.N) (r : Fin 4000) (q : Fin 128) :
    ((cfg0.win 0).blk t).view.emb (ix2 r q) = (ix2 ⟨t.val * 4000 + r.val, row_lt t r⟩ q : S640000x128.Idx) := by
  funext a; apply Fin.ext
  match a with
  | ⟨0, _⟩ => show win0_0.index t (0 : Fin 2) * 4000 + 1 * r.val = t.val * 4000 + r.val; rw [(idx_rows t).1.1]; omega
  | ⟨1, _⟩ => show win0_0.index t (1 : Fin 2) * 128 + 1 * q.val = q.val; rw [(idx_rows t).1.2]; omega

theorem emb1 (t : Fin cfg0.N) (r : Fin 4000) (q : Fin 128) :
    ((cfg0.win 1).blk t).view.emb (ix2 r q) = (ix2 ⟨t.val * 4000 + r.val, row_lt t r⟩ q : S640000x128.Idx) := by
  funext a; apply Fin.ext
  match a with
  | ⟨0, _⟩ => show win0_1.index t (0 : Fin 2) * 4000 + 1 * r.val = t.val * 4000 + r.val; rw [(idx_rows t).2.1.1]; omega
  | ⟨1, _⟩ => show win0_1.index t (1 : Fin 2) * 128 + 1 * q.val = q.val; rw [(idx_rows t).2.1.2]; omega

theorem emb2 (t : Fin cfg0.N) (r : Fin 4000) (q : Fin 128) :
    ((cfg0.win 2).blk t).view.emb (ix2 r q) = (ix2 ⟨t.val * 4000 + r.val, row_lt t r⟩ q : S640000x128.Idx) := by
  funext a; apply Fin.ext
  match a with
  | ⟨0, _⟩ => show win0_2.index t (0 : Fin 2) * 4000 + 1 * r.val = t.val * 4000 + r.val; rw [(idx_rows t).2.2.1.1]; omega
  | ⟨1, _⟩ => show win0_2.index t (1 : Fin 2) * 128 + 1 * q.val = q.val; rw [(idx_rows t).2.2.1.2]; omega

theorem emb7 (t : Fin cfg0.N) (r : Fin 4000) (q : Fin 128) :
    ((cfg0.win 7).blk t).view.emb (ix2 r q) = (ix2 ⟨t.val * 4000 + r.val, row_lt t r⟩ q : S640000x128.Idx) := by
  funext a; apply Fin.ext
  match a with
  | ⟨0, _⟩ => show win0_7.index t (0 : Fin 2) * 4000 + 1 * r.val = t.val * 4000 + r.val; rw [(idx_rows t).2.2.2.1.1]; omega
  | ⟨1, _⟩ => show win0_7.index t (1 : Fin 2) * 128 + 1 * q.val = q.val; rw [(idx_rows t).2.2.2.1.2]; omega

theorem emb8 (t : Fin cfg0.N) (r : Fin 4000) (q : Fin 128) :
    ((cfg0.win 8).blk t).view.emb (ix2 r q) = (ix2 ⟨t.val * 4000 + r.val, row_lt t r⟩ q : S640000x128.Idx) := by
  funext a; apply Fin.ext
  match a with
  | ⟨0, _⟩ => show win0_8.index t (0 : Fin 2) * 4000 + 1 * r.val = t.val * 4000 + r.val; rw [(idx_rows t).2.2.2.2.1]; omega
  | ⟨1, _⟩ => show win0_8.index t (1 : Fin 2) * 128 + 1 * q.val = q.val; rw [(idx_rows t).2.2.2.2.2]; omega

theorem emb3 (t : Fin cfg0.N) (k : Fin 128) (q : Fin 128) :
    ((cfg0.win 3).blk t).view.emb (ix2 k q) = (ix2 k q : S128x128.Idx) := by
  funext a; apply Fin.ext
  match a with
  | ⟨0, _⟩ => show win0_3.index t (0 : Fin 2) * 128 + 1 * k.val = k.val; rw [(idx_rest t).1.1]; omega
  | ⟨1, _⟩ => show win0_3.index t (1 : Fin 2) * 128 + 1 * q.val = q.val; rw [(idx_rest t).1.2]; omega

theorem emb4 (t : Fin cfg0.N) (k : Fin 128) (q : Fin 128) :
    ((cfg0.win 4).blk t).view.emb (ix2 k q) = (ix2 k q : S128x128.Idx) := by
  funext a; apply Fin.ext
  match a with
  | ⟨0, _⟩ => show win0_4.index t (0 : Fin 2) * 128 + 1 * k.val = k.val; rw [(idx_rest t).2.1.1]; omega
  | ⟨1, _⟩ => show win0_4.index t (1 : Fin 2) * 128 + 1 * q.val = q.val; rw [(idx_rest t).2.1.2]; omega

theorem emb5 (t : Fin cfg0.N) (k : Fin 128) (q : Fin 128) :
    ((cfg0.win 5).blk t).view.emb (ix2 k q) = (ix2 k q : S128x128.Idx) := by
  funext a; apply Fin.ext
  match a with
  | ⟨0, _⟩ => show win0_5.index t (0 : Fin 2) * 128 + 1 * k.val = k.val; rw [(idx_rest t).2.2.1.1]; omega
  | ⟨1, _⟩ => show win0_5.index t (1 : Fin 2) * 128 + 1 * q.val = q.val; rw [(idx_rest t).2.2.1.2]; omega

theorem emb6 (t : Fin cfg0.N) (k : Fin 128) (q : Fin 128) :
    ((cfg0.win 6).blk t).view.emb (ix2 k q) = (ix2 k q : S128x128.Idx) := by
  funext a; apply Fin.ext
  match a with
  | ⟨0, _⟩ => show win0_6.index t (0 : Fin 2) * 128 + 1 * k.val = k.val; rw [(idx_rest t).2.2.2.1.1]; omega
  | ⟨1, _⟩ => show win0_6.index t (1 : Fin 2) * 128 + 1 * q.val = q.val; rw [(idx_rest t).2.2.2.1.2]; omega

/-! ## The input blocks at a point, entry by entry -/

theorem blk0_apply (c : Dev nD) (t : Fin cfg0.N) (r : Fin 4000) (q : Fin 128) :
    (iblk0 V c 0 t : Vec Ideal S4000x128 .bf16) (ix2 r q) = XS V c (ix2 ⟨t.val * 4000 + r.val, row_lt t r⟩ q) := by
  show V c (Pipeline.arrRef spec0 0) (((cfg0.win 0).blk t).view.emb (ix2 r q)) = _
  rw [emb0]

theorem blk1_apply (c : Dev nD) (t : Fin cfg0.N) (r : Fin 4000) (q : Fin 128) :
    (iblk0 V c 1 t : Vec Ideal S4000x128 .bf16) (ix2 r q) = XD V c (ix2 ⟨t.val * 4000 + r.val, row_lt t r⟩ q) := by
  show V c (Pipeline.arrRef spec0 1) (((cfg0.win 1).blk t).view.emb (ix2 r q)) = _
  rw [emb1]

theorem blk2_apply (c : Dev nD) (t : Fin cfg0.N) (r : Fin 4000) (q : Fin 128) :
    (iblk0 V c 2 t : Vec Ideal S4000x128 .f32) (ix2 r q) = EF V c (ix2 ⟨t.val * 4000 + r.val, row_lt t r⟩ q) := by
  show V c (Pipeline.arrRef spec0 2) (((cfg0.win 2).blk t).view.emb (ix2 r q)) = _
  rw [emb2]

theorem blk3_apply (c : Dev nD) (t : Fin cfg0.N) (k : Fin 128) (q : Fin 128) :
    (iblk0 V c 3 t : Vec Ideal S128x128 .bf16) (ix2 k q) = W2 V c (ix2 k q) := by
  show V c (Pipeline.arrRef spec0 3) (((cfg0.win 3).blk t).view.emb (ix2 k q)) = _
  rw [emb3]

theorem blk4_apply (c : Dev nD) (t : Fin cfg0.N) (k : Fin 128) (q : Fin 128) :
    (iblk0 V c 4 t : Vec Ideal S128x128 .bf16) (ix2 k q) = W3 V c (ix2 k q) := by
  show V c (Pipeline.arrRef spec0 4) (((cfg0.win 4).blk t).view.emb (ix2 k q)) = _
  rw [emb4]

theorem blk5_apply (c : Dev nD) (t : Fin cfg0.N) (k : Fin 128) (q : Fin 128) :
    (iblk0 V c 5 t : Vec Ideal S128x128 .bf16) (ix2 k q) = W4 V c (ix2 k q) := by
  show V c (Pipeline.arrRef spec0 5) (((cfg0.win 5).blk t).view.emb (ix2 k q)) = _
  rw [emb5]

theorem blk6_apply (c : Dev nD) (t : Fin cfg0.N) (k : Fin 128) (q : Fin 128) :
    (iblk0 V c 6 t : Vec Ideal S128x128 .bf16) (ix2 k q) = W5 V c (ix2 k q) := by
  show V c (Pipeline.arrRef spec0 6) (((cfg0.win 6).blk t).view.emb (ix2 k q)) = _
  rw [emb6]

/-- The pre-activation block of point t is rows 4000·t … of the pre-activation of the edges. -/
theorem pre_blk (c : Dev nD) (t : Fin cfg0.N) (r : Fin 4000) (q : Fin 128) :
    pre (iblk0 V c 0 t) (iblk0 V c 1 t) (iblk0 V c 2 t) (iblk0 V c 4 t) (iblk0 V c 5 t) (iblk0 V c 6 t) r q
      = Qf (XS V c) (XD V c) (EF V c) (W3 V c) (W4 V c) (W5 V c) ⟨t.val * 4000 + r.val, row_lt t r⟩ q := by
  unfold pre Qf
  refine congrArg₂ (· + ·) (congrArg₂ (· + ·) ?_ ?_) ?_
  · exact Finset.sum_congr rfl fun k _ => congrArg₂ (· * ·) (blk2_apply V c t r k) (blk4_apply V c t k q)
  · exact Finset.sum_congr rfl fun k _ => congrArg₂ (· * ·) (blk1_apply V c t r k) (blk5_apply V c t k q)
  · exact Finset.sum_congr rfl fun k _ => congrArg₂ (· * ·) (blk0_apply V c t r k) (blk6_apply V c t k q)

/-- The message block of point t is rows 4000·t … of the messages of the edges. -/
theorem msg_blk (c : Dev nD) (t : Fin cfg0.N) (r : Fin 4000) (q : Fin 128) :
    k0_pay6 (F := Ideal) (iblk0 V c 0 t) (iblk0 V c 2 t) (iblk0 V c 3 t) (ix2 r q)
      = Mf (XS V c) (EF V c) (W2 V c) ⟨t.val * 4000 + r.val, row_lt t r⟩ q := by
  refine (pay6_apply (iblk0 V c 0 t) (iblk0 V c 2 t) (iblk0 V c 3 t) r q).trans ?_
  unfold Mf
  refine congrArg₂ (· * ·) (blk2_apply V c t r q) ?_
  exact Finset.sum_congr rfl fun k _ => congrArg₂ (· * ·) (blk0_apply V c t r k) (blk3_apply V c t k q)

end Cert.KernelIdeal.EdgeBlocks

end
-- ==== Proof.EdgePieces.lean ====
import proofs.«137949_j58935541236529_2_alg».proof.Proof.Gen.KernelIdeal.Frame
import Idealize.ShloMosaic.Lib.Pipeline.Value
import Idealize.ShloMosaic.Lib.Tactic

/-!
# What one grid point of the edge kernel leaves in each output block

At the first point of a core the two running statistics are zeroed and then receive the point's column sums;
at every other point they receive the column sums on top of what the point before left. The message block and
the pre-activation block are written whole at every point.
-/

noncomputable section

namespace Cert.KernelIdeal.EdgePieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

theorem out_A_7 (c : Dev nD) (i : grid0.Coords) (a2 : Memref sig .tc .vmem S4000x128 .bf16) (h2 : a2.IsWhole) (a3 : Memref sig .tc .vmem S4000x128 .bf16) (h3 : a3.IsWhole) (a4 : Memref sig .tc .vmem S4000x128 .f32) (h4 : a4.IsWhole) (a5 : Memref sig .tc .vmem S128x128 .bf16) (h5 : a5.IsWhole) (a6 : Memref sig .tc .vmem S128x128 .bf16) (h6 : a6.IsWhole) (a7 : Memref sig .tc .vmem S128x128 .bf16) (h7 : a7.IsWhole) (a8 : Memref sig .tc .vmem S128x128 .bf16) (h8 : a8.IsWhole) (a9 : Memref sig .tc .vmem S4000x128 .f32) (h9 : a9.IsWhole) (a10 : Memref sig .tc .vmem S4000x128 .f32) (h10 : a10.IsWhole) (a11 : Memref sig .tc .vmem S8x128 .f32) (h11 : a11.IsWhole) (a12 : Memref sig .tc .vmem S8x128 .f32) (h12 : a12.IsWhole) (hc : cond0_0 i)
    (x0 : Vec F S4000x128 .bf16) (x1 : Vec F S4000x128 .bf16) (x2 : Vec F S4000x128 .f32) (x3 : Vec F S128x128 .bf16) (x4 : Vec F S128x128 .bf16) (x5 : Vec F S128x128 .bf16) (x6 : Vec F S128x128 .bf16) :
    out0_A_7 c i a2 h2 a3 h3 a4 h4 a5 h5 a6 h6 a7 h7 a8 h8 a9 h9 a10 h10 a11 h11 a12 h12 hc x0 x1 x2 x3 x4 x5 x6 = k0_pay6 x0 x2 x3 := by
  unfold out0_A_7
  rw [View.read_writes_eq_canon _ _ _ (cover0_A_7 c i a2 h2 a3 h3 a4 h4 a5 h5 a6 h6 a7 h7 a8 h8 a9 h9 a10 h10 a11 h11 a12 h12 hc x0 x1 x2 x3 x4 x5 x6)]
  unfold kernelRun0_A
  dsimp only
  sl_unfold_words
  rw [View.canon_unit_zero (S := S4000x128) hz]
  simp only [View.readCov_unit_zero (S := S8x128) _ hz, View.readAt_eq_ld, h2.read_unread, h3.read_unread, h4.read_unread, h5.read_unread, h6.read_unread, h7.read_unread, h8.read_unread, h11.read_unread, h12.read_unread, View.ld_unit_zero (S := S4000x128) hz, View.ld_unit_zero (S := S128x128) hz, View.ld_unit_zero (S := S8x128) hz]

theorem out_A_8 (c : Dev nD) (i : grid0.Coords) (a2 : Memref sig .tc .vmem S4000x128 .bf16) (h2 : a2.IsWhole) (a3 : Memref sig .tc .vmem S4000x128 .bf16) (h3 : a3.IsWhole) (a4 : Memref sig .tc .vmem S4000x128 .f32) (h4 : a4.IsWhole) (a5 : Memref sig .tc .vmem S128x128 .bf16) (h5 : a5.IsWhole) (a6 : Memref sig .tc .vmem S128x128 .bf16) (h6 : a6.IsWhole) (a7 : Memref sig .tc .vmem S128x128 .bf16) (h7 : a7.IsWhole) (a8 : Memref sig .tc .vmem S128x128 .bf16) (h8 : a8.IsWhole) (a9 : Memref sig .tc .vmem S4000x128 .f32) (h9 : a9.IsWhole) (a10 : Memref sig .tc .vmem S4000x128 .f32) (h10 : a10.IsWhole) (a11 : Memref sig .tc .vmem S8x128 .f32) (h11 : a11.IsWhole) (a12 : Memref sig .tc .vmem S8x128 .f32) (h12 : a12.IsWhole) (hc : cond0_0 i)
    (x0 : Vec F S4000x128 .bf16) (x1 : Vec F S4000x128 .bf16) (x2 : Vec F S4000x128 .f32) (x3 : Vec F S128x128 .bf16) (x4 : Vec F S128x128 .bf16) (x5 : Vec F S128x128 .bf16) (x6 : Vec F S128x128 .bf16) :
    out0_A_8 c i a2 h2 a3 h3 a4 h4 a5 h5 a6 h6 a7 h7 a8 h8 a9 h9 a10 h10 a11 h11 a12 h12 hc x0 x1 x2 x3 x4 x5 x6 = k0_pay7 x0 x1 x2 x4 x5 x6 := by
  unfold out0_A_8
  rw [View.read_writes_eq_canon _ _ _ (cover0_A_8 c i a2 h2 a3 h3 a4 h4 a5 h5 a6 h6 a7 h7 a8 h8 a9 h9 a10 h10 a11 h11 a12 h12 hc x0 x1 x2 x3 x4 x5 x6)]
  unfold kernelRun0_A
  dsimp only
  sl_unfold_words
  rw [View.canon_unit_zero (S := S4000x128) hz]
  simp only [View.readCov_unit_zero (S := S8x128) _ hz, View.readAt_eq_ld, h2.read_unread, h3.read_unread, h4.read_unread, h5.read_unread, h6.read_unread, h7.read_unread, h8.read_unread, h11.read_unread, h12.read_unread, View.ld_unit_zero (S := S4000x128) hz, View.ld_unit_zero (S := S128x128) hz, View.ld_unit_zero (S := S8x128) hz]

theorem out_A_9 (c : Dev nD) (i : grid0.Coords) (a2 : Memref sig .tc .vmem S4000x128 .bf16) (h2 : a2.IsWhole) (a3 : Memref sig .tc .vmem S4000x128 .bf16) (h3 : a3.IsWhole) (a4 : Memref sig .tc .vmem S4000x128 .f32) (h4 : a4.IsWhole) (a5 : Memref sig .tc .vmem S128x128 .bf16) (h5 : a5.IsWhole) (a6 : Memref sig .tc .vmem S128x128 .bf16) (h6 : a6.IsWhole) (a7 : Memref sig .tc .vmem S128x128 .bf16) (h7 : a7.IsWhole) (a8 : Memref sig .tc .vmem S128x128 .bf16) (h8 : a8.IsWhole) (a9 : Memref sig .tc .vmem S4000x128 .f32) (h9 : a9.IsWhole) (a10 : Memref sig .tc .vmem S4000x128 .f32) (h10 : a10.IsWhole) (a11 : Memref sig .tc .vmem S8x128 .f32) (h11 : a11.IsWhole) (a12 : Memref sig .tc .vmem S8x128 .f32) (h12 : a12.IsWhole) (hc : cond0_0 i)
    (x0 : Vec F S4000x128 .bf16) (x1 : Vec F S4000x128 .bf16) (x2 : Vec F S4000x128 .f32) (x3 : Vec F S128x128 .bf16) (x4 : Vec F S128x128 .bf16) (x5 : Vec F S128x128 .bf16) (x6 : Vec F S128x128 .bf16) :
    out0_A_9 c i a2 h2 a3 h3 a4 h4 a5 h5 a6 h6 a7 h7 a8 h8 a9 h9 a10 h10 a11 h11 a12 h12 hc x0 x1 x2 x3 x4 x5 x6 = k0_pay1 (k0_pay8 x0 x1 x2 x4 x5 x6) (k0_pay3 (F := F)) := by
  unfold out0_A_9
  rw [View.read_writes_eq_canon _ _ _ (cover0_A_9 c i a2 h2 a3 h3 a4 h4 a5 h5 a6 h6 a7 h7 a8 h8 a9 h9 a10 h10 a11 h11 a12 h12 hc x0 x1 x2 x3 x4 x5 x6)]
  unfold kernelRun0_A
  dsimp only
  sl_unfold_words
  rw [View.canon_cons_unit_zero (S := S8x128) hz]
  simp only [View.readCov_unit_zero (S := S8x128) _ hz, View.readAt_eq_ld, h2.read_unread, h3.read_unread, h4.read_unread, h5.read_unread, h6.read_unread, h7.read_unread, h8.read_unread, h11.read_unread, h12.read_unread, View.ld_unit_zero (S := S4000x128) hz, View.ld_unit_zero (S := S128x128) hz, View.ld_unit_zero (S := S8x128) hz]

theorem out_A_10 (c : Dev nD) (i : grid0.Coords) (a2 : Memref sig .tc .vmem S4000x128 .bf16) (h2 : a2.IsWhole) (a3 : Memref sig .tc .vmem S4000x128 .bf16) (h3 : a3.IsWhole) (a4 : Memref sig .tc .vmem S4000x128 .f32) (h4 : a4.IsWhole) (a5 : Memref sig .tc .vmem S128x128 .bf16) (h5 : a5.IsWhole) (a6 : Memref sig .tc .vmem S128x128 .bf16) (h6 : a6.IsWhole) (a7 : Memref sig .tc .vmem S128x128 .bf16) (h7 : a7.IsWhole) (a8 : Memref sig .tc .vmem S128x128 .bf16) (h8 : a8.IsWhole) (a9 : Memref sig .tc .vmem S4000x128 .f32) (h9 : a9.IsWhole) (a10 : Memref sig .tc .vmem S4000x128 .f32) (h10 : a10.IsWhole) (a11 : Memref sig .tc .vmem S8x128 .f32) (h11 : a11.IsWhole) (a12 : Memref sig .tc .vmem S8x128 .f32) (h12 : a12.IsWhole) (hc : cond0_0 i)
    (x0 : Vec F S4000x128 .bf16) (x1 : Vec F S4000x128 .bf16) (x2 : Vec F S4000x128 .f32) (x3 : Vec F S128x128 .bf16) (x4 : Vec F S128x128 .bf16) (x5 : Vec F S128x128 .bf16) (x6 : Vec F S128x128 .bf16) :
    out0_A_10 c i a2 h2 a3 h3 a4 h4 a5 h5 a6 h6 a7 h7 a8 h8 a9 h9 a10 h10 a11 h11 a12 h12 hc x0 x1 x2 x3 x4 x5 x6 = k0_pay2 (k0_pay9 x0 x1 x2 x4 x5 x6) (k0_pay4 (F := F)) := by
  unfold out0_A_10
  rw [View.read_writes_eq_canon _ _ _ (cover0_A_10 c i a2 h2 a3 h3 a4 h4 a5 h5 a6 h6 a7 h7 a8 h8 a9 h9 a10 h10 a11 h11 a12 h12 hc x0 x1 x2 x3 x4 x5 x6)]
  unfold kernelRun0_A
  dsimp only
  sl_unfold_words
  rw [View.canon_cons_unit_zero (S := S8x128) hz]
  simp only [View.readCov_unit_zero (S := S8x128) _ hz, View.readAt_eq_ld, h2.read_unread, h3.read_unread, h4.read_unread, h5.read_unread, h6.read_unread, h7.read_unread, h8.read_unread, h11.read_unread, h12.read_unread, View.ld_unit_zero (S := S4000x128) hz, View.ld_unit_zero (S := S128x128) hz, View.ld_unit_zero (S := S8x128) hz]

theorem out_B_7 (c : Dev nD) (i : grid0.Coords) (a2 : Memref sig .tc .vmem S4000x128 .bf16) (h2 : a2.IsWhole) (a3 : Memref sig .tc .vmem S4000x128 .bf16) (h3 : a3.IsWhole) (a4 : Memref sig .tc .vmem S4000x128 .f32) (h4 : a4.IsWhole) (a5 : Memref sig .tc .vmem S128x128 .bf16) (h5 : a5.IsWhole) (a6 : Memref sig .tc .vmem S128x128 .bf16) (h6 : a6.IsWhole) (a7 : Memref sig .tc .vmem S128x128 .bf16) (h7 : a7.IsWhole) (a8 : Memref sig .tc .vmem S128x128 .bf16) (h8 : a8.IsWhole) (a9 : Memref sig .tc .vmem S4000x128 .f32) (h9 : a9.IsWhole) (a10 : Memref sig .tc .vmem S4000x128 .f32) (h10 : a10.IsWhole) (a11 : Memref sig .tc .vmem S8x128 .f32) (h11 : a11.IsWhole) (a12 : Memref sig .tc .vmem S8x128 .f32) (h12 : a12.IsWhole) (hc : ¬cond0_0 i)
    (x0 : Vec F S4000x128 .bf16) (x1 : Vec F S4000x128 .bf16) (x2 : Vec F S4000x128 .f32) (x3 : Vec F S128x128 .bf16) (x4 : Vec F S128x128 .bf16) (x5 : Vec F S128x128 .bf16) (x6 : Vec F S128x128 .bf16) (xo9 : Vec F S8x128 .f32) (xo10 : Vec F S8x128 .f32) :
    out0_B_7 c i a2 h2 a3 h3 a4 h4 a5 h5 a6 h6 a7 h7 a8 h8 a9 h9 a10 h10 a11 h11 a12 h12 hc x0 x1 x2 x3 x4 x5 x6 xo9 xo10 = k0_pay6 x0 x2 x3 := by
  unfold out0_B_7
  rw [View.read_writes_eq_canon _ _ _ (cover0_B_7 c i a2 h2 a3 h3 a4 h4 a5 h5 a6 h6 a7 h7 a8 h8 a9 h9 a10 h10 a11 h11 a12 h12 hc x0 x1 x2 x3 x4 x5 x6 xo9 xo10)]
  unfold kernelRun0_B
  dsimp only
  sl_unfold_words
  rw [View.canon_unit_zero (S := S4000x128) hz]
  simp only [View.readCov_unit_zero (S := S8x128) _ hz, View.readAt_eq_ld, h2.read_unread, h3.read_unread, h4.read_unread, h5.read_unread, h6.read_unread, h7.read_unread, h8.read_unread, h11.read_unread, h12.read_unread, View.ld_unit_zero (S := S4000x128) hz, View.ld_unit_zero (S := S128x128) hz, View.ld_unit_zero (S := S8x128) hz]

theorem out_B_8 (c : Dev nD) (i : grid0.Coords) (a2 : Memref sig .tc .vmem S4000x128 .bf16) (h2 : a2.IsWhole) (a3 : Memref sig .tc .vmem S4000x128 .bf16) (h3 : a3.IsWhole) (a4 : Memref sig .tc .vmem S4000x128 .f32) (h4 : a4.IsWhole) (a5 : Memref sig .tc .vmem S128x128 .bf16) (h5 : a5.IsWhole) (a6 : Memref sig .tc .vmem S128x128 .bf16) (h6 : a6.IsWhole) (a7 : Memref sig .tc .vmem S128x128 .bf16) (h7 : a7.IsWhole) (a8 : Memref sig .tc .vmem S128x128 .bf16) (h8 : a8.IsWhole) (a9 : Memref sig .tc .vmem S4000x128 .f32) (h9 : a9.IsWhole) (a10 : Memref sig .tc .vmem S4000x128 .f32) (h10 : a10.IsWhole) (a11 : Memref sig .tc .vmem S8x128 .f32) (h11 : a11.IsWhole) (a12 : Memref sig .tc .vmem S8x128 .f32) (h12 : a12.IsWhole) (hc : ¬cond0_0 i)
    (x0 : Vec F S4000x128 .bf16) (x1 : Vec F S4000x128 .bf16) (x2 : Vec F S4000x128 .f32) (x3 : Vec F S128x128 .bf16) (x4 : Vec F S128x128 .bf16) (x5 : Vec F S128x128 .bf16) (x6 : Vec F S128x128 .bf16) (xo9 : Vec F S8x128 .f32) (xo10 : Vec F S8x128 .f32) :
    out0_B_8 c i a2 h2 a3 h3 a4 h4 a5 h5 a6 h6 a7 h7 a8 h8 a9 h9 a10 h10 a11 h11 a12 h12 hc x0 x1 x2 x3 x4 x5 x6 xo9 xo10 = k0_pay7 x0 x1 x2 x4 x5 x6 := by
  unfold out0_B_8
  rw [View.read_writes_eq_canon _ _ _ (cover0_B_8 c i a2 h2 a3 h3 a4 h4 a5 h5 a6 h6 a7 h7 a8 h8 a9 h9 a10 h10 a11 h11 a12 h12 hc x0 x1 x2 x3 x4 x5 x6 xo9 xo10)]
  unfold kernelRun0_B
  dsimp only
  sl_unfold_words
  rw [View.canon_unit_zero (S := S4000x128) hz]
  simp only [View.readCov_unit_zero (S := S8x128) _ hz, View.readAt_eq_ld, h2.read_unread, h3.read_unread, h4.read_unread, h5.read_unread, h6.read_unread, h7.read_unread, h8.read_unread, h11.read_unread, h12.read_unread, View.ld_unit_zero (S := S4000x128) hz, View.ld_unit_zero (S := S128x128) hz, View.ld_unit_zero (S := S8x128) hz]

theorem out_B_9 (c : Dev nD) (i : grid0.Coords) (a2 : Memref sig .tc .vmem S4000x128 .bf16) (h2 : a2.IsWhole) (a3 : Memref sig .tc .vmem S4000x128 .bf16) (h3 : a3.IsWhole) (a4 : Memref sig .tc .vmem S4000x128 .f32) (h4 : a4.IsWhole) (a5 : Memref sig .tc .vmem S128x128 .bf16) (h5 : a5.IsWhole) (a6 : Memref sig .tc .vmem S128x128 .bf16) (h6 : a6.IsWhole) (a7 : Memref sig .tc .vmem S128x128 .bf16) (h7 : a7.IsWhole) (a8 : Memref sig .tc .vmem S128x128 .bf16) (h8 : a8.IsWhole) (a9 : Memref sig .tc .vmem S4000x128 .f32) (h9 : a9.IsWhole) (a10 : Memref sig .tc .vmem S4000x128 .f32) (h10 : a10.IsWhole) (a11 : Memref sig .tc .vmem S8x128 .f32) (h11 : a11.IsWhole) (a12 : Memref sig .tc .vmem S8x128 .f32) (h12 : a12.IsWhole) (hc : ¬cond0_0 i)
    (x0 : Vec F S4000x128 .bf16) (x1 : Vec F S4000x128 .bf16) (x2 : Vec F S4000x128 .f32) (x3 : Vec F S128x128 .bf16) (x4 : Vec F S128x128 .bf16) (x5 : Vec F S128x128 .bf16) (x6 : Vec F S128x128 .bf16) (xo9 : Vec F S8x128 .f32) (xo10 : Vec F S8x128 .f32) :
    out0_B_9 c i a2 h2 a3 h3 a4 h4 a5 h5 a6 h6 a7 h7 a8 h8 a9 h9 a10 h10 a11 h11 a12 h12 hc x0 x1 x2 x3 x4 x5 x6 xo9 xo10 = k0_pay1 (k0_pay8 x0 x1 x2 x4 x5 x6) xo9 := by
  unfold out0_B_9
  rw [View.read_writes_eq_canon _ _ _ (cover0_B_9 c i a2 h2 a3 h3 a4 h4 a5 h5 a6 h6 a7 h7 a8 h8 a9 h9 a10 h10 a11 h11 a12 h12 hc x0 x1 x2 x3 x4 x5 x6 xo9 xo10)]
  unfold kernelRun0_B
  dsimp only
  sl_unfold_words
  rw [View.canon_unit_zero (S := S8x128) hz]
  simp only [View.readCov_unit_zero (S := S8x128) _ hz, View.readAt_eq_ld, h2.read_unread, h3.read_unread, h4.read_unread, h5.read_unread, h6.read_unread, h7.read_unread, h8.read_unread, h11.read_unread, h12.read_unread, View.ld_unit_zero (S := S4000x128) hz, View.ld_unit_zero (S := S128x128) hz, View.ld_unit_zero (S := S8x128) hz]

theorem out_B_10 (c : Dev nD) (i : grid0.Coords) (a2 : Memref sig .tc .vmem S4000x128 .bf16) (h2 : a2.IsWhole) (a3 : Memref sig .tc .vmem S4000x128 .bf16) (h3 : a3.IsWhole) (a4 : Memref sig .tc .vmem S4000x128 .f32) (h4 : a4.IsWhole) (a5 : Memref sig .tc .vmem S128x128 .bf16) (h5 : a5.IsWhole) (a6 : Memref sig .tc .vmem S128x128 .bf16) (h6 : a6.IsWhole) (a7 : Memref sig .tc .vmem S128x128 .bf16) (h7 : a7.IsWhole) (a8 : Memref sig .tc .vmem S128x128 .bf16) (h8 : a8.IsWhole) (a9 : Memref sig .tc .vmem S4000x128 .f32) (h9 : a9.IsWhole) (a10 : Memref sig .tc .vmem S4000x128 .f32) (h10 : a10.IsWhole) (a11 : Memref sig .tc .vmem S8x128 .f32) (h11 : a11.IsWhole) (a12 : Memref sig .tc .vmem S8x128 .f32) (h12 : a12.IsWhole) (hc : ¬cond0_0 i)
    (x0 : Vec F S4000x128 .bf16) (x1 : Vec F S4000x128 .bf16) (x2 : Vec F S4000x128 .f32) (x3 : Vec F S128x128 .bf16) (x4 : Vec F S128x128 .bf16) (x5 : Vec F S128x128 .bf16) (x6 : Vec F S128x128 .bf16) (xo9 : Vec F S8x128 .f32) (xo10 : Vec F S8x128 .f32) :
    out0_B_10 c i a2 h2 a3 h3 a4 h4 a5 h5 a6 h6 a7 h7 a8 h8 a9 h9 a10 h10 a11 h11 a12 h12 hc x0 x1 x2 x3 x4 x5 x6 xo9 xo10 = k0_pay2 (k0_pay9 x0 x1 x2 x4 x5 x6) xo10 := by
  unfold out0_B_10
  rw [View.read_writes_eq_canon _ _ _ (cover0_B_10 c i a2 h2 a3 h3 a4 h4 a5 h5 a6 h6 a7 h7 a8 h8 a9 h9 a10 h10 a11 h11 a12 h12 hc x0 x1 x2 x3 x4 x5 x6 xo9 xo10)]
  unfold kernelRun0_B
  dsimp only
  sl_unfold_words
  rw [View.canon_unit_zero (S := S8x128) hz]
  simp only [View.readCov_unit_zero (S := S8x128) _ hz, View.readAt_eq_ld, h2.read_unread, h3.read_unread, h4.read_unread, h5.read_unread, h6.read_unread, h7.read_unread, h8.read_unread, h11.read_unread, h12.read_unread, View.ld_unit_zero (S := S4000x128) hz, View.ld_unit_zero (S := S128x128) hz, View.ld_unit_zero (S := S8x128) hz]

end Cert.KernelIdeal.EdgePieces

end
-- ==== Proof.EdgeAcc.lean ====
import proofs.«137949_j58935541236529_2_alg».proof.Proof.Gen.KernelIdeal.Frame
import proofs.«137949_j58935541236529_2_alg».proof.Proof.EdgePayload
import proofs.«137949_j58935541236529_2_alg».proof.Proof.EdgePieces
import proofs.«137949_j58935541236529_2_alg».proof.Proof.EdgeBlocks
import Idealize.ShloMosaic.Lib.Pipeline.Value
import Idealize.ShloMosaic.Lib.ValueIdx

/-!
# The edge kernel's output blocks after each grid point

After point t the message block and the pre-activation block hold rows 4000·t … of the messages and of the
pre-activations. The two statistics blocks of a core hold, on every one of their eight rows, the column sums of
the pre-activations (and of their squares) over all the edge rows the core has seen since its first point:
the first point of a core (t divisible by 80) starts them from zero, every other point adds to what the point
before left.
-/

noncomputable section

namespace Cert.KernelIdeal.EdgeAcc

open Idealize.ShloMosaic Idealize.ShloMosaic.TcCoe Idealize.ShloMosaic.ValueIdx Idealize.SL.Sem
open Cert.KernelIdeal Cert.KernelIdeal.Gen Cert.KernelIdeal.EdgePayload Cert.KernelIdeal.EdgeBlocks
open scoped BigOperators

variable (V : (c : Dev nD) → (b : Ref sig .tc) → Buf (Elt Ideal) ((c : Thread nD τ).loc b))

/-! ## The two edge-indexed outputs: written whole at every point -/

theorem msg_at (c : Dev nD) (t : Fin cfg0.N) :
    (outsAt0 V c t.val t.isLt).1 = k0_pay6 (F := Ideal) (iblk0 V c 0 t) (iblk0 V c 2 t) (iblk0 V c 3 t) := by
  by_cases h0 : t.val % 80 = 0
  · rw [outsAt0_A V c t h0]
    dsimp only
    exact EdgePieces.out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk0 V c 0 t) (iblk0 V c 1 t) (iblk0 V c 2 t) (iblk0 V c 3 t) (iblk0 V c 4 t) (iblk0 V c 5 t) (iblk0 V c 6 t)
  · rw [outsAt0_B V c t h0]
    dsimp only
    exact EdgePieces.out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2

theorem pre_at (c : Dev nD) (t : Fin cfg0.N) :
    (outsAt0 V c t.val t.isLt).2.1 = k0_pay7 (F := Ideal) (iblk0 V c 0 t) (iblk0 V c 1 t) (iblk0 V c 2 t) (iblk0 V c 4 t) (iblk0 V c 5 t) (iblk0 V c 6 t) := by
  by_cases h0 : t.val % 80 = 0
  · rw [outsAt0_A V c t h0]
    dsimp only
    exact EdgePieces.out_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk0 V c 0 t) (iblk0 V c 1 t) (iblk0 V c 2 t) (iblk0 V c 3 t) (iblk0 V c 4 t) (iblk0 V c 5 t) (iblk0 V c 6 t)
  · rw [outsAt0_B V c t h0]
    dsimp only
    exact EdgePieces.out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2

/-! ## The two statistics: one step -/

/-- The pre-activation of edge row n, the rows counted by natural numbers (zero past the last edge). -/
def Qn (c : Dev nD) (n : Nat) (q : Fin 128) : EReal :=
  if h : n < 640000 then Qf (XS V c) (XD V c) (EF V c) (W3 V c) (W4 V c) (W5 V c) ⟨n, h⟩ q else 0

theorem Qn_of_lt (c : Dev nD) (n : Nat) (h : n < 640000) (q : Fin 128) :
    Qn V c n q = Qf (XS V c) (XD V c) (EF V c) (W3 V c) (W4 V c) (W5 V c) ⟨n, h⟩ q := dif_pos h

theorem pre_blk_n (c : Dev nD) (t : Fin cfg0.N) (r : Fin 4000) (q : Fin 128) :
    pre (iblk0 V c 0 t) (iblk0 V c 1 t) (iblk0 V c 2 t) (iblk0 V c 4 t) (iblk0 V c 5 t) (iblk0 V c 6 t) r q = Qn V c (t.val * 4000 + r.val) q :=
  (pre_blk V c t r q).trans (Qn_of_lt V c _ (row_lt t r) q).symm

theorem sum_first (c : Dev nD) (t : Fin cfg0.N) (h0 : t.val % 80 = 0) (s : Fin 8) (q : Fin 128) :
    (outsAt0 V c t.val t.isLt).2.2.1 (ix2 s q) = ∑ r : Fin 4000, Qn V c (t.val * 4000 + r.val) q := by
  have e := (congrArg (fun p => p.2.2.1) (outsAt0_A V c t h0)).trans
    (EdgePieces.out_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk0 V c 0 t) (iblk0 V c 1 t) (iblk0 V c 2 t) (iblk0 V c 3 t) (iblk0 V c 4 t) (iblk0 V c 5 t) (iblk0 V c 6 t))
  refine (congrFun e (ix2 s q)).trans ?_
  refine (sum_step (iblk0 V c 0 t) (iblk0 V c 1 t) (iblk0 V c 2 t) (iblk0 V c 4 t) (iblk0 V c 5 t) (iblk0 V c 6 t) (k0_pay3 (F := Ideal)) s q).trans ?_
  rw [pay3_apply, zero_add]
  exact Finset.sum_congr rfl fun r _ => pre_blk_n V c t r q

theorem sum_next (c : Dev nD) (t : Fin cfg0.N) (h0 : ¬t.val % 80 = 0) (s : Fin 8) (q : Fin 128) :
    (outsAt0 V c t.val t.isLt).2.2.1 (ix2 s q)
      = (outsAt0 V c (t.val - 1) (Nat.lt_of_le_of_lt (Nat.sub_le _ _) t.isLt)).2.2.1 (ix2 s q) + ∑ r : Fin 4000, Qn V c (t.val * 4000 + r.val) q := by
  have e := (congrArg (fun p => p.2.2.1) (outsAt0_B V c t h0)).trans
    (EdgePieces.out_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2)
  refine (congrFun e (ix2 s q)).trans ?_
  refine (sum_step (iblk0 V c 0 t) (iblk0 V c 1 t) (iblk0 V c 2 t) (iblk0 V c 4 t) (iblk0 V c 5 t) (iblk0 V c 6 t) (outsAt0 V c (t.val - 1) (Nat.lt_of_le_of_lt (Nat.sub_le _ _) t.isLt)).2.2.1 s q).trans ?_
  exact congrArg (_ + ·) (Finset.sum_congr rfl fun r _ => pre_blk_n V c t r q)

theorem sumsq_first (c : Dev nD) (t : Fin cfg0.N) (h0 : t.val % 80 = 0) (s : Fin 8) (q : Fin 128) :
    (outsAt0 V c t.val t.isLt).2.2.2 (ix2 s q)
      = ∑ r : Fin 4000, Qn V c (t.val * 4000 + r.val) q * Qn V c (t.val * 4000 + r.val) q := by
  have e := (congrArg (fun p => p.2.2.2) (outsAt0_A V c t h0)).trans
    (EdgePieces.out_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk0 V c 0 t) (iblk0 V c 1 t) (iblk0 V c 2 t) (iblk0 V c 3 t) (iblk0 V c 4 t) (iblk0 V c 5 t) (iblk0 V c 6 t))
  refine (congrFun e (ix2 s q)).trans ?_
  refine (sumsq_step (iblk0 V c 0 t) (iblk0 V c 1 t) (iblk0 V c 2 t) (iblk0 V c 4 t) (iblk0 V c 5 t) (iblk0 V c 6 t) (k0_pay4 (F := Ideal)) s q).trans ?_
  rw [pay4_apply, zero_add]
  exact Finset.sum_congr rfl fun r _ => by rw [pre_blk_n V c t r q]

theorem sumsq_next (c : Dev nD) (t : Fin cfg0.N) (h0 : ¬t.val % 80 = 0) (s : Fin 8) (q : Fin 128) :
    (outsAt0 V c t.val t.isLt).2.2.2 (ix2 s q)
      = (outsAt0 V c (t.val - 1) (Nat.lt_of_le_of_lt (Nat.sub_le _ _) t.isLt)).2.2.2 (ix2 s q)
        + ∑ r : Fin 4000, Qn V c (t.val * 4000 + r.val) q * Qn V c (t.val * 4000 + r.val) q := by
  have e := (congrArg (fun p => p.2.2.2) (outsAt0_B V c t h0)).trans
    (EdgePieces.out_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2)
  refine (congrFun e (ix2 s q)).trans ?_
  refine (sumsq_step (iblk0 V c 0 t) (iblk0 V c 1 t) (iblk0 V c 2 t) (iblk0 V c 4 t) (iblk0 V c 5 t) (iblk0 V c 6 t) (outsAt0 V c (t.val - 1) (Nat.lt_of_le_of_lt (Nat.sub_le _ _) t.isLt)).2.2.2 s q).trans ?_
  exact congrArg (_ + ·) (Finset.sum_congr rfl fun r _ => by rw [pre_blk_n V c t r q])

/-! ## The two statistics: the running sums, by induction on the point -/

/-- After point n the running sum holds the column sums over the blocks of n's core up to n. -/
theorem sum_inv (c : Dev nD) : ∀ (n : Nat) (h : n < cfg0.N) (s : Fin 8) (q : Fin 128),
    (outsAt0 V c n h).2.2.1 (ix2 s q)
      = ∑ i ∈ Finset.range (n % 80 + 1), ∑ r : Fin 4000, Qn V c ((n / 80 * 80 + i) * 4000 + r.val) q
  | 0, h, s, q => by
    refine (sum_first V c ⟨0, h⟩ rfl s q).trans ?_
    rw [show 0 % 80 + 1 = 1 from rfl, Finset.sum_range_one]
  | n + 1, h, s, q => by
    by_cases h0 : (n + 1) % 80 = 0
    · refine (sum_first V c ⟨n + 1, h⟩ h0 s q).trans ?_
      rw [h0, Finset.sum_range_one]
      refine Finset.sum_congr rfl fun r _ => congrArg (fun e => Qn V c e q) ?_
      show (n + 1) * 4000 + r.val = ((n + 1) / 80 * 80 + 0) * 4000 + r.val
      omega
    · refine (sum_next V c ⟨n + 1, h⟩ h0 s q).trans ?_
      show (outsAt0 V c n _).2.2.1 (ix2 s q) + _ = _
      rw [sum_inv c n (Nat.lt_of_succ_lt h) s q, show (n + 1) % 80 = n % 80 + 1 from by omega,
        show (n + 1) / 80 = n / 80 from by omega, Finset.sum_range_succ _ (n % 80 + 1)]
      refine congrArg (_ + ·) (Finset.sum_congr rfl fun r _ => congrArg (fun e => Qn V c e q) ?_)
      show (n + 1) * 4000 + r.val = (n / 80 * 80 + (n % 80 + 1)) * 4000 + r.val
      omega

/-- After point n the running sum of squares holds the column sums of the squares over the same blocks. -/
theorem sumsq_inv (c : Dev nD) : ∀ (n : Nat) (h : n < cfg0.N) (s : Fin 8) (q : Fin 128),
    (outsAt0 V c n h).2.2.2 (ix2 s q)
      = ∑ i ∈ Finset.range (n % 80 + 1), ∑ r : Fin 4000,
          Qn V c ((n / 80 * 80 + i) * 4000 + r.val) q * Qn V c ((n / 80 * 80 + i) * 4000 + r.val) q
  | 0, h, s, q => by
    refine (sumsq_first V c ⟨0, h⟩ rfl s q).trans ?_
    rw [show 0 % 80 + 1 = 1 from rfl, Finset.sum_range_one]
  | n + 1, h, s, q => by
    by_cases h0 : (n + 1) % 80 = 0
    · refine (sumsq_first V c ⟨n + 1, h⟩ h0 s q).trans ?_
      rw [h0, Finset.sum_range_one]
      refine Finset.sum_congr rfl fun r _ => ?_
      have e : (n + 1) * 4000 + r.val = ((n + 1) / 80 * 80 + 0) * 4000 + r.val := by omega
      show Qn V c ((n + 1) * 4000 + r.val) q * Qn V c ((n + 1) * 4000 + r.val) q = _
      rw [e]
    · refine (sumsq_next V c ⟨n + 1, h⟩ h0 s q).trans ?_
      show (outsAt0 V c n _).2.2.2 (ix2 s q) + _ = _
      rw [sumsq_inv c n (Nat.lt_of_succ_lt h) s q, show (n + 1) % 80 = n % 80 + 1 from by omega,
        show (n + 1) / 80 = n / 80 from by omega, Finset.sum_range_succ _ (n % 80 + 1)]
      refine congrArg (_ + ·) (Finset.sum_congr rfl fun r _ => ?_)
      have e : (n + 1) * 4000 + r.val = (n / 80 * 80 + (n % 80 + 1)) * 4000 + r.val := by omega
      show Qn V c ((n + 1) * 4000 + r.val) q * Qn V c ((n + 1) * 4000 + r.val) q = _
      rw [e]

end Cert.KernelIdeal.EdgeAcc

end
-- ==== Proof.EdgeValue.lean ====
import proofs.«137949_j58935541236529_2_alg».proof.Proof.Gen.KernelIdeal.Frame
import proofs.«137949_j58935541236529_2_alg».proof.Proof.EdgePayload
import proofs.«137949_j58935541236529_2_alg».proof.Proof.EdgeBlocks
import proofs.«137949_j58935541236529_2_alg».proof.Proof.EdgeAcc
import Idealize.ShloMosaic.Lib.Pipeline.Value
import Idealize.ShloMosaic.Lib.ValueIdx

/-!
# The four output arrays of the edge kernel

Every grid point writes its message block and its pre-activation block back, and the 160 blocks tile the two
edge-indexed arrays: entry (e, j) of the messages is the edge feature times the projected source row, entry (e, j) of
the pre-activations is the sum of the three projections. A core's statistics block is written back once, after the
core's last point (t = 79 and t = 159), when it holds the column sums over all 80 blocks of the core: rows 8·cc … 8·cc + 7
of the two statistics arrays all hold, in column j, the sum over the core's 320000 edge rows of the pre-activation
(of its square).
-/

noncomputable section

namespace Cert.KernelIdeal.EdgeValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.EdgePayload Cert.KernelIdeal.EdgeBlocks Cert.KernelIdeal.EdgeAcc
open scoped BigOperators

variable (V : (c : Dev nD) → (b : Ref sig .tc) → Buf (Elt Ideal) ((c : Thread nD τ).loc b))

/-- Two blocks of 4000 rows agree when they agree entry by entry. -/
theorem ext4000 (f g : Vec Ideal S4000x128 .f32) (h : ∀ (r : Fin 4000) (q : Fin 128), f (ix2 r q) = g (ix2 r q)) : f = g :=
  funext fun y => (congrArg f (eq_ix2 y)).trans ((h (y 0) (y 1)).trans (congrArg g (eq_ix2 y)).symm)

/-- Two blocks of 8 rows agree when they agree entry by entry. -/
theorem ext8 (f g : Vec Ideal S8x128 .f32) (h : ∀ (s : Fin 8) (q : Fin 128), f (ix2 s q) = g (ix2 s q)) : f = g :=
  funext fun y => (congrArg f (eq_ix2 y)).trans ((h (y 0) (y 1)).trans (congrArg g (eq_ix2 y)).symm)

/-! ## The messages and the pre-activations -/

/-- The messages as one array. -/
def msgArr (c : Dev nD) : S640000x128.Idx → EReal := fun i =>
  Mf (XS V c) (EF V c) (W2 V c) ⟨(i 0).val, idx2_lt0 i⟩ ⟨(i 1).val, idx2_lt1 i⟩

/-- The pre-activations as one array. -/
def preArr (c : Dev nD) : S640000x128.Idx → EReal := fun i =>
  Qf (XS V c) (XD V c) (EF V c) (W3 V c) (W4 V c) (W5 V c) ⟨(i 0).val, idx2_lt0 i⟩ ⟨(i 1).val, idx2_lt1 i⟩

theorem flushed7_eq (c : Dev nD) (t : Fin cfg0.N) :
    (dat0 V c).flushed 7 t = ((cfg0.win 7).blk t).view.read (Elt Ideal) (msgArr V c) := by
  show (cfg0.win 7).cut (grid0.coords t) ((dat0 V c).after 7 t) = _
  rw [after0_7, msg_at]
  refine ext4000 _ _ fun r q => ?_
  show k0_pay6 (F := Ideal) (iblk0 V c 0 t) (iblk0 V c 2 t) (iblk0 V c 3 t) (ix2 r q)
    = msgArr V c (((cfg0.win 7).blk t).view.emb (ix2 r q))
  rw [emb7, msg_blk]
  rfl

theorem flushed8_eq (c : Dev nD) (t : Fin cfg0.N) :
    (dat0 V c).flushed 8 t = ((cfg0.win 8).blk t).view.read (Elt Ideal) (preArr V c) := by
  show (cfg0.win 8).cut (grid0.coords t) ((dat0 V c).after 8 t) = _
  rw [after0_8, pre_at]
  refine ext4000 _ _ fun r q => ?_
  show k0_pay7 (F := Ideal) (iblk0 V c 0 t) (iblk0 V c 1 t) (iblk0 V c 2 t) (iblk0 V c 4 t) (iblk0 V c 5 t) (iblk0 V c 6 t) (ix2 r q)
    = preArr V c (((cfg0.win 8).blk t).view.emb (ix2 r q))
  rw [emb8]
  refine (pay7_apply (iblk0 V c 0 t) (iblk0 V c 1 t) (iblk0 V c 2 t) (iblk0 V c 4 t) (iblk0 V c 5 t) (iblk0 V c 6 t) r q).trans ?_
  rw [pre_blk]
  rfl

/-- An index of an edge-indexed array is in point t's block iff each coordinate is in the block's range. -/
theorem mem_blk7 (t : Fin cfg0.N) (i : S640000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v29_0).slice (win0_7.rect t)).set ↔ _
  rw [View.set_slice_whole, Rect.mem_set_unit]
  exact Iff.rfl

theorem mem_blk8 (t : Fin cfg0.N) (i : S640000x128.Idx) :
    i ∈ ((cfg0.win 8).blk t).view.set ↔ ∀ a : Fin 2, win0_8.index t a * S4000x128.size a ≤ (i a).val ∧ (i a).val < win0_8.index t a * S4000x128.size a + S4000x128.size a := by
  show i ∈ ((View.whole main_v29_1).slice (win0_8.rect t)).set ↔ _
  rw [View.set_slice_whole, Rect.mem_set_unit]
  exact Iff.rfl

/-- Edge row e lies in the block of point e / 4000. -/
theorem cover7 (i : S640000x128.Idx) :
    ∃ t : Fin cfg0.N, (cfg0.win 7).flush t = true ∧ i ∈ ((cfg0.win 7).blk t).view.set := by
  have hi0 : (i 0).val < 640000 := idx2_lt0 i
  have hi1 : (i 1).val < 128 := idx2_lt1 i
  have ht : (i 0).val / 4000 < cfg0.N := by rw [N160]; omega
  refine ⟨⟨(i 0).val / 4000, ht⟩, flush0_7 _, ?_⟩
  rw [mem_blk7]
  intro a
  match a with
  | ⟨0, _⟩ =>
    show win0_7.index ⟨(i 0).val / 4000, ht⟩ (0 : Fin 2) * 4000 ≤ (i 0).val ∧ (i 0).val < win0_7.index ⟨(i 0).val / 4000, ht⟩ (0 : Fin 2) * 4000 + 4000
    rw [(idx_rows ⟨(i 0).val / 4000, ht⟩).2.2.2.1.1]
    show (i 0).val / 4000 * 4000 ≤ (i 0).val ∧ (i 0).val < (i 0).val / 4000 * 4000 + 4000
    omega
  | ⟨1, _⟩ =>
    show win0_7.index ⟨(i 0).val / 4000, ht⟩ (1 : Fin 2) * 128 ≤ (i 1).val ∧ (i 1).val < win0_7.index ⟨(i 0).val / 4000, ht⟩ (1 : Fin 2) * 128 + 128
    rw [(idx_rows ⟨(i 0).val / 4000, ht⟩).2.2.2.1.2]
    omega

theorem cover8 (i : S640000x128.Idx) :
    ∃ t : Fin cfg0.N, (cfg0.win 8).flush t = true ∧ i ∈ ((cfg0.win 8).blk t).view.set := by
  have hi0 : (i 0).val < 640000 := idx2_lt0 i
  have hi1 : (i 1).val < 128 := idx2_lt1 i
  have ht : (i 0).val / 4000 < cfg0.N := by rw [N160]; omega
  refine ⟨⟨(i 0).val / 4000, ht⟩, flush0_8 _, ?_⟩
  rw [mem_blk8]
  intro a
  match a with
  | ⟨0, _⟩ =>
    show win0_8.index ⟨(i 0).val / 4000, ht⟩ (0 : Fin 2) * 4000 ≤ (i 0).val ∧ (i 0).val < win0_8.index ⟨(i 0).val / 4000, ht⟩ (0 : Fin 2) * 4000 + 4000
    rw [(idx_rows ⟨(i 0).val / 4000, ht⟩).2.2.2.2.1]
    show (i 0).val / 4000 * 4000 ≤ (i 0).val ∧ (i 0).val < (i 0).val / 4000 * 4000 + 4000
    omega
  | ⟨1, _⟩ =>
    show win0_8.index ⟨(i 0).val / 4000, ht⟩ (1 : Fin 2) * 128 ≤ (i 1).val ∧ (i 1).val < win0_8.index ⟨(i 0).val / 4000, ht⟩ (1 : Fin 2) * 128 + 128
    rw [(idx_rows ⟨(i 0).val / 4000, ht⟩).2.2.2.2.2]
    omega

/-- The message array after the region. -/
theorem final7 (c : Dev nD) : (dat0 V c).arrAt 7 cfg0.N = msgArr V c :=
  (dat0 V c).arrAt_eq_of_cover 7 (msgArr V c) (fun t _ => flushed7_eq V c t) cover7

/-- The pre-activation array after the region. -/
theorem final8 (c : Dev nD) : (dat0 V c).arrAt 8 cfg0.N = preArr V c :=
  (dat0 V c).arrAt_eq_of_cover 8 (preArr V c) (fun t _ => flushed8_eq V c t) cover8

/-- THE MESSAGES: entry (e, j) is the edge feature times the projected source row. -/
theorem msg_val (c : Dev nD) (e : Fin 640000) (j : Fin 128) :
    ((dat0 (F := Ideal) V c).arrAt 7 cfg0.N : S640000x128.Idx → EReal) (ix2 e j)
      = EF V c (ix2 e j) * ∑ k : Fin 128, XS V c (ix2 e k) * W2 V c (ix2 k j) :=
  (congrFun (final7 V c) (ix2 e j)).trans rfl

/-- THE PRE-ACTIVATIONS: entry (e, j) is the sum of the three projections. -/
theorem pre_val (c : Dev nD) (e : Fin 640000) (j : Fin 128) :
    ((dat0 (F := Ideal) V c).arrAt 8 cfg0.N : S640000x128.Idx → EReal) (ix2 e j) = Qf (XS V c) (XD V c) (EF V c) (W3 V c) (W4 V c) (W5 V c) e j :=
  (congrFun (final8 V c) (ix2 e j)).trans rfl

/-! ## The two statistics -/

theorem core_lt (cc : Fin 2) (i : Fin 80) (r : Fin 4000) : (80 * cc.val + i.val) * 4000 + r.val < 640000 := by
  have := cc.isLt; have := i.isLt; have := r.isLt; omega

theorem stat_core (i : S16x128.Idx) : (i 0).val / 8 < 2 := by
  have := idx2_lt0 i; omega

theorem stat_row (t : Fin cfg0.N) (s : Fin 8) : t.val / 80 * 8 + s.val < 16 := by
  have := lt_of_lt_of_eq t.isLt N160; have := s.isLt; omega

theorem stat_lt (cc : Fin 2) (s : Fin 8) : 8 * cc.val + s.val < 16 := by
  have := cc.isLt; have := s.isLt; omega

/-- The statistic of core cc, column q. -/
def coreSum (c : Dev nD) (cc : Fin 2) (q : Fin 128) : EReal :=
  ∑ i : Fin 80, ∑ r : Fin 4000, Qf (XS V c) (XD V c) (EF V c) (W3 V c) (W4 V c) (W5 V c) ⟨(80 * cc.val + i.val) * 4000 + r.val, core_lt cc i r⟩ q

/-- The statistics array: rows 8·cc … 8·cc + 7 all hold core cc's statistic. -/
def sumArr (c : Dev nD) : S16x128.Idx → EReal := fun i =>
  coreSum V c ⟨(i 0).val / 8, stat_core i⟩ ⟨(i 1).val, idx2_lt1 i⟩

theorem emb9 (t : Fin cfg0.N) (s : Fin 8) (q : Fin 128) :
    ((cfg0.win 9).blk t).view.emb (ix2 s q) = (ix2 ⟨t.val / 80 * 8 + s.val, stat_row t s⟩ q : S16x128.Idx) := by
  funext a; apply Fin.ext
  match a with
  | ⟨0, _⟩ => show win0_9.index t (0 : Fin 2) * 8 + 1 * s.val = t.val / 80 * 8 + s.val; rw [(idx_rest t).2.2.2.2.1.1]; omega
  | ⟨1, _⟩ => show win0_9.index t (1 : Fin 2) * 128 + 1 * q.val = q.val; rw [(idx_rest t).2.2.2.2.1.2]; omega

/-- What the one write-back of a core writes: the whole core's statistic on each of the eight rows. -/
theorem flushed9_eq (c : Dev nD) (t : Fin cfg0.N) (hf : (cfg0.win 9).flush t = true) :
    (dat0 V c).flushed 9 t = ((cfg0.win 9).blk t).view.read (Elt Ideal) (sumArr V c) := by
  have h79 : t.val % 80 = 79 := (flush0_9 t).mp hf
  have hN : t.val < 160 := lt_of_lt_of_eq t.isLt N160
  have h80 : t.val % 80 + 1 = 80 := by omega
  show (cfg0.win 9).cut (grid0.coords t) ((dat0 V c).after 9 t) = _
  rw [after0_9]
  refine ext8 _ _ fun s q => ?_
  show (outsAt0 V c t.val t.isLt).2.2.1 (ix2 s q) = sumArr V c (((cfg0.win 9).blk t).view.emb (ix2 s q))
  rw [emb9, sum_inv V c t.val t.isLt s q, h80, Finset.sum_range]
  have hcc : (t.val / 80 * 8 + s.val) / 8 < 2 := by have := s.isLt; omega
  show _ = coreSum V c ⟨(t.val / 80 * 8 + s.val) / 8, hcc⟩ q
  unfold coreSum
  refine Finset.sum_congr rfl fun i _ => Finset.sum_congr rfl fun r _ => ?_
  have hlt : (t.val / 80 * 80 + i.val) * 4000 + r.val < 640000 := by have := i.isLt; have := r.isLt; omega
  have hs := s.isLt
  have e1 : (⟨(t.val / 80 * 80 + i.val) * 4000 + r.val, hlt⟩ : Fin 640000) = ⟨(80 * ((t.val / 80 * 8 + s.val) / 8) + i.val) * 4000 + r.val, core_lt ⟨(t.val / 80 * 8 + s.val) / 8, hcc⟩ i r⟩ :=
    Fin.ext (by show (t.val / 80 * 80 + i.val) * 4000 + r.val = (80 * ((t.val / 80 * 8 + s.val) / 8) + i.val) * 4000 + r.val; omega)
  have e2 : Qn V c ((t.val / 80 * 80 + i.val) * 4000 + r.val) q
      = Qf (XS V c) (XD V c) (EF V c) (W3 V c) (W4 V c) (W5 V c) ⟨(80 * ((t.val / 80 * 8 + s.val) / 8) + i.val) * 4000 + r.val, core_lt ⟨(t.val / 80 * 8 + s.val) / 8, hcc⟩ i r⟩ q :=
    (Qn_of_lt V c _ hlt q).trans (congrArg (fun e => Qf (XS V c) (XD V c) (EF V c) (W3 V c) (W4 V c) (W5 V c) e q) e1)
  exact e2

theorem mem_blk9 (t : Fin cfg0.N) (i : S16x128.Idx) :
    i ∈ ((cfg0.win 9).blk t).view.set ↔ ∀ a : Fin 2, win0_9.index t a * S8x128.size a ≤ (i a).val ∧ (i a).val < win0_9.index t a * S8x128.size a + S8x128.size a := by
  show i ∈ ((View.whole main_v29_2).slice (win0_9.rect t)).set ↔ _
  rw [View.set_slice_whole, Rect.mem_set_unit]
  exact Iff.rfl

/-- Row p of a statistics array lies in the block the last point of core p / 8 writes back. -/
theorem cover9 (i : S16x128.Idx) :
    ∃ t : Fin cfg0.N, (cfg0.win 9).flush t = true ∧ i ∈ ((cfg0.win 9).blk t).view.set := by
  have hi0 : (i 0).val < 16 := idx2_lt0 i
  have hi1 : (i 1).val < 128 := idx2_lt1 i
  have ht : (i 0).val / 8 * 80 + 79 < cfg0.N := by rw [N160]; omega
  refine ⟨⟨(i 0).val / 8 * 80 + 79, ht⟩, (flush0_9 _).mpr (by show ((i 0).val / 8 * 80 + 79) % 80 = 79; omega), ?_⟩
  rw [mem_blk9]
  intro a
  match a with
  | ⟨0, _⟩ =>
    show win0_9.index ⟨(i 0).val / 8 * 80 + 79, ht⟩ (0 : Fin 2) * 8 ≤ (i 0).val ∧ (i 0).val < win0_9.index ⟨(i 0).val / 8 * 80 + 79, ht⟩ (0 : Fin 2) * 8 + 8
    rw [(idx_rest ⟨(i 0).val / 8 * 80 + 79, ht⟩).2.2.2.2.1.1]
    show ((i 0).val / 8 * 80 + 79) / 80 * 8 ≤ (i 0).val ∧ (i 0).val < ((i 0).val / 8 * 80 + 79) / 80 * 8 + 8
    omega
  | ⟨1, _⟩ =>
    show win0_9.index ⟨(i 0).val / 8 * 80 + 79, ht⟩ (1 : Fin 2) * 128 ≤ (i 1).val ∧ (i 1).val < win0_9.index ⟨(i 0).val / 8 * 80 + 79, ht⟩ (1 : Fin 2) * 128 + 128
    rw [(idx_rest ⟨(i 0).val / 8 * 80 + 79, ht⟩).2.2.2.2.1.2]
    omega

theorem final9 (c : Dev nD) : (dat0 V c).arrAt 9 cfg0.N = sumArr V c :=
  (dat0 V c).arrAt_eq_of_cover 9 (sumArr V c) (flushed9_eq V c) cover9

/-- The statistic of core cc, column q. -/
def coreSumSq (c : Dev nD) (cc : Fin 2) (q : Fin 128) : EReal :=
  ∑ i : Fin 80, ∑ r : Fin 4000, Qf (XS V c) (XD V c) (EF V c) (W3 V c) (W4 V c) (W5 V c) ⟨(80 * cc.val + i.val) * 4000 + r.val, core_lt cc i r⟩ q * Qf (XS V c) (XD V c) (EF V c) (W3 V c) (W4 V c) (W5 V c) ⟨(80 * cc.val + i.val) * 4000 + r.val, core_lt cc i r⟩ q

/-- The statistics array: rows 8·cc … 8·cc + 7 all hold core cc's statistic. -/
def sumsqArr (c : Dev nD) : S16x128.Idx → EReal := fun i =>
  coreSumSq V c ⟨(i 0).val / 8, stat_core i⟩ ⟨(i 1).val, idx2_lt1 i⟩

theorem emb10 (t : Fin cfg0.N) (s : Fin 8) (q : Fin 128) :
    ((cfg0.win 10).blk t).view.emb (ix2 s q) = (ix2 ⟨t.val / 80 * 8 + s.val, stat_row t s⟩ q : S16x128.Idx) := by
  funext a; apply Fin.ext
  match a with
  | ⟨0, _⟩ => show win0_10.index t (0 : Fin 2) * 8 + 1 * s.val = t.val / 80 * 8 + s.val; rw [(idx_rest t).2.2.2.2.2.1]; omega
  | ⟨1, _⟩ => show win0_10.index t (1 : Fin 2) * 128 + 1 * q.val = q.val; rw [(idx_rest t).2.2.2.2.2.2]; omega

/-- What the one write-back of a core writes: the whole core's statistic on each of the eight rows. -/
theorem flushed10_eq (c : Dev nD) (t : Fin cfg0.N) (hf : (cfg0.win 10).flush t = true) :
    (dat0 V c).flushed 10 t = ((cfg0.win 10).blk t).view.read (Elt Ideal) (sumsqArr V c) := by
  have h79 : t.val % 80 = 79 := (flush0_10 t).mp hf
  have hN : t.val < 160 := lt_of_lt_of_eq t.isLt N160
  have h80 : t.val % 80 + 1 = 80 := by omega
  show (cfg0.win 10).cut (grid0.coords t) ((dat0 V c).after 10 t) = _
  rw [after0_10]
  refine ext8 _ _ fun s q => ?_
  show (outsAt0 V c t.val t.isLt).2.2.2 (ix2 s q) = sumsqArr V c (((cfg0.win 10).blk t).view.emb (ix2 s q))
  rw [emb10, sumsq_inv V c t.val t.isLt s q, h80, Finset.sum_range]
  have hcc : (t.val / 80 * 8 + s.val) / 8 < 2 := by have := s.isLt; omega
  show _ = coreSumSq V c ⟨(t.val / 80 * 8 + s.val) / 8, hcc⟩ q
  unfold coreSumSq
  refine Finset.sum_congr rfl fun i _ => Finset.sum_congr rfl fun r _ => ?_
  have hlt : (t.val / 80 * 80 + i.val) * 4000 + r.val < 640000 := by have := i.isLt; have := r.isLt; omega
  have hs := s.isLt
  have e1 : (⟨(t.val / 80 * 80 + i.val) * 4000 + r.val, hlt⟩ : Fin 640000) = ⟨(80 * ((t.val / 80 * 8 + s.val) / 8) + i.val) * 4000 + r.val, core_lt ⟨(t.val / 80 * 8 + s.val) / 8, hcc⟩ i r⟩ :=
    Fin.ext (by show (t.val / 80 * 80 + i.val) * 4000 + r.val = (80 * ((t.val / 80 * 8 + s.val) / 8) + i.val) * 4000 + r.val; omega)
  have e2 : Qn V c ((t.val / 80 * 80 + i.val) * 4000 + r.val) q
      = Qf (XS V c) (XD V c) (EF V c) (W3 V c) (W4 V c) (W5 V c) ⟨(80 * ((t.val / 80 * 8 + s.val) / 8) + i.val) * 4000 + r.val, core_lt ⟨(t.val / 80 * 8 + s.val) / 8, hcc⟩ i r⟩ q :=
    (Qn_of_lt V c _ hlt q).trans (congrArg (fun e => Qf (XS V c) (XD V c) (EF V c) (W3 V c) (W4 V c) (W5 V c) e q) e1)
  exact congrArg₂ (· * ·) e2 e2

theorem mem_blk10 (t : Fin cfg0.N) (i : S16x128.Idx) :
    i ∈ ((cfg0.win 10).blk t).view.set ↔ ∀ a : Fin 2, win0_10.index t a * S8x128.size a ≤ (i a).val ∧ (i a).val < win0_10.index t a * S8x128.size a + S8x128.size a := by
  show i ∈ ((View.whole main_v29_3).slice (win0_10.rect t)).set ↔ _
  rw [View.set_slice_whole, Rect.mem_set_unit]
  exact Iff.rfl

/-- Row p of a statistics array lies in the block the last point of core p / 8 writes back. -/
theorem cover10 (i : S16x128.Idx) :
    ∃ t : Fin cfg0.N, (cfg0.win 10).flush t = true ∧ i ∈ ((cfg0.win 10).blk t).view.set := by
  have hi0 : (i 0).val < 16 := idx2_lt0 i
  have hi1 : (i 1).val < 128 := idx2_lt1 i
  have ht : (i 0).val / 8 * 80 + 79 < cfg0.N := by rw [N160]; omega
  refine ⟨⟨(i 0).val / 8 * 80 + 79, ht⟩, (flush0_10 _).mpr (by show ((i 0).val / 8 * 80 + 79) % 80 = 79; omega), ?_⟩
  rw [mem_blk10]
  intro a
  match a with
  | ⟨0, _⟩ =>
    show win0_10.index ⟨(i 0).val / 8 * 80 + 79, ht⟩ (0 : Fin 2) * 8 ≤ (i 0).val ∧ (i 0).val < win0_10.index ⟨(i 0).val / 8 * 80 + 79, ht⟩ (0 : Fin 2) * 8 + 8
    rw [(idx_rest ⟨(i 0).val / 8 * 80 + 79, ht⟩).2.2.2.2.2.1]
    show ((i 0).val / 8 * 80 + 79) / 80 * 8 ≤ (i 0).val ∧ (i 0).val < ((i 0).val / 8 * 80 + 79) / 80 * 8 + 8
    omega
  | ⟨1, _⟩ =>
    show win0_10.index ⟨(i 0).val / 8 * 80 + 79, ht⟩ (1 : Fin 2) * 128 ≤ (i 1).val ∧ (i 1).val < win0_10.index ⟨(i 0).val / 8 * 80 + 79, ht⟩ (1 : Fin 2) * 128 + 128
    rw [(idx_rest ⟨(i 0).val / 8 * 80 + 79, ht⟩).2.2.2.2.2.2]
    omega

theorem final10 (c : Dev nD) : (dat0 V c).arrAt 10 cfg0.N = sumsqArr V c :=
  (dat0 V c).arrAt_eq_of_cover 10 (sumsqArr V c) (flushed10_eq V c) cover10

/-- THE SUMS: rows 8·cc … 8·cc + 7 of the first statistics array hold, in column j, the sum of the pre-activations over
    the 80 blocks (320000 edge rows) of core cc. -/
theorem sum_val (c : Dev nD) (cc : Fin 2) (s : Fin 8) (j : Fin 128) :
    ((dat0 (F := Ideal) V c).arrAt 9 cfg0.N : S16x128.Idx → EReal) (ix2 ⟨8 * cc.val + s.val, stat_lt cc s⟩ j)
      = ∑ i : Fin 80, ∑ r : Fin 4000, Qf (XS V c) (XD V c) (EF V c) (W3 V c) (W4 V c) (W5 V c) ⟨(80 * cc.val + i.val) * 4000 + r.val, core_lt cc i r⟩ j := by
  refine (congrFun (final9 V c) (ix2 ⟨8 * cc.val + s.val, stat_lt cc s⟩ j)).trans ?_
  have hcc : (8 * cc.val + s.val) / 8 = cc.val := by have := s.isLt; omega
  have e : (⟨(8 * cc.val + s.val) / 8, by have := s.isLt; have := cc.isLt; omega⟩ : Fin 2) = cc := Fin.ext hcc
  show coreSum V c ⟨(8 * cc.val + s.val) / 8, _⟩ j = _
  rw [e]
  rfl

/-- THE SUMS OF SQUARES: the same rows of the second statistics array hold the sum of the squared pre-activations. -/
theorem sumsq_val (c : Dev nD) (cc : Fin 2) (s : Fin 8) (j : Fin 128) :
    ((dat0 (F := Ideal) V c).arrAt 10 cfg0.N : S16x128.Idx → EReal) (ix2 ⟨8 * cc.val + s.val, stat_lt cc s⟩ j)
      = ∑ i : Fin 80, ∑ r : Fin 4000,
          Qf (XS V c) (XD V c) (EF V c) (W3 V c) (W4 V c) (W5 V c) ⟨(80 * cc.val + i.val) * 4000 + r.val, core_lt cc i r⟩ j
            * Qf (XS V c) (XD V c) (EF V c) (W3 V c) (W4 V c) (W5 V c) ⟨(80 * cc.val + i.val) * 4000 + r.val, core_lt cc i r⟩ j := by
  refine (congrFun (final10 V c) (ix2 ⟨8 * cc.val + s.val, stat_lt cc s⟩ j)).trans ?_
  have hcc : (8 * cc.val + s.val) / 8 = cc.val := by have := s.isLt; omega
  have e : (⟨(8 * cc.val + s.val) / 8, by have := s.isLt; have := cc.isLt; omega⟩ : Fin 2) = cc := Fin.ext hcc
  show coreSumSq V c ⟨(8 * cc.val + s.val) / 8, _⟩ j = _
  rw [e]
  rfl

end Cert.KernelIdeal.EdgeValue

end
-- ==== Proof.LibScaleSum.lean ====
import proofs.«137949_j58935541236529_2_alg».proof.Proof.LibReal
import proofs.«137949_j58935541236529_2_alg».proof.Proof.LibRowIndex

/-!
# A row scale passes through a scatter-add of rows

Let every row p of an [N, C] array collect the updates e whose scatter index is p. If each update is a product
h_e · s_e with a further factor depending only on the target row, that factor can be taken out of the sum —
provided every number in sight is real, since on the extended reals a product does not distribute over a sum
that meets both infinities.
-/

noncomputable section

namespace Cert.ScaleSum

open Idealize.ShloMosaic Idealize.ShloMosaic.ValueIdx Cert.GinMath Cert.RowIndex
open scoped BigOperators

/-- A real factor goes inside a finite sum of real extended reals. -/
private theorem mul_sum_of_isReal {ι : Type*} (s : Finset ι) (a : EReal) (ha : IsReal a) (f : ι → EReal)
    (hf : ∀ i ∈ s, IsReal (f i)) : a * ∑ i ∈ s, f i = ∑ i ∈ s, a * f i := by
  classical
  obtain ⟨r, rfl⟩ := ha
  induction s using Finset.induction_on with
  | empty => simp
  | insert b s hb ih =>
    rw [Finset.sum_insert hb, Finset.sum_insert hb, ← ih (fun i hi => hf i (Finset.mem_insert_of_mem hi))]
    obtain ⟨x, hx⟩ := hf b (Finset.mem_insert_self b s)
    obtain ⟨y, hy⟩ := IsReal.sum (fun i hi => hf i (Finset.mem_insert_of_mem hi))
    rw [hx, hy, ← EReal.coe_add, ← EReal.coe_mul, ← EReal.coe_mul, ← EReal.coe_mul, ← EReal.coe_add, mul_add]

/-- A scatter-add of real updates into a real array is real. -/
theorem isReal_scatterAdd {s si su : Shape} {w : Nat} (ds : ScatterDims s si su)
    (z : s.Idx → EReal) (hz : ∀ i, IsReal (z i)) (idx : IVec si w) (u : su.Idx → EReal) (hu : ∀ j, IsReal (u j)) (i : s.Idx) :
    IsReal (Host.scatterAdd (F := Ideal) (φ := .f32) ds z idx u i) := by
  show IsReal (Ideal.hostScatterAdd ds z idx u i)
  unfold Ideal.hostScatterAdd
  exact (hz i).add (IsReal.sum fun j _ => hu j)

/-- The p-th scale times what a scatter-add of rows collects on (p, q), the updates being h · s with s the
    scale at the update's source row, is what the scatter-add collects when every update carries the product
    of both scales: the source row's and the (wrapped, clamped) target row's. Updates land on row p only if
    their scatter index is p, where wrapping a nonnegative index and clamping an index below N change nothing. -/
theorem scale_through_scatterAdd {N E C : Nat} (hN : 0 < N)
    (wfs : ScatterDims.WF ⟨2, ![N, C]⟩ ⟨2, ![E, 1]⟩ ⟨2, ![E, C]⟩ [1] [0] [0] 1)
    (H : (⟨2, ![N, C]⟩ : Shape).Idx → EReal) (hH : ∀ i, IsReal (H i))
    (d : (⟨1, ![N]⟩ : Shape).Idx → EReal) (hd : ∀ n, IsReal (d n))
    (z : (⟨2, ![N, C]⟩ : Shape).Idx → EReal) (hz : ∀ i, z i = 0)
    (src dst dstW : IVec ⟨2, ![E, 1]⟩ 32)
    (hW : ∀ e : Fin E, 0 ≤ (dst (ix2 e (0 : Fin 1))).toInt → dstW (ix2 e (0 : Fin 1)) = dst (ix2 e (0 : Fin 1)))
    (updK updR : (⟨2, ![E, C]⟩ : Shape).Idx → EReal)
    (hK : ∀ (e : Fin E) (c : Fin C), updK (ix2 e c)
        = H (ix2 (clampRow N hN (src (ix2 e (0 : Fin 1)))) c) * d (ix1 (clampRow N hN (src (ix2 e (0 : Fin 1))))))
    (hR : ∀ (e : Fin E) (c : Fin C), updR (ix2 e c)
        = H (ix2 (clampRow N hN (src (ix2 e (0 : Fin 1)))) c)
            * (d (ix1 (clampRow N hN (src (ix2 e (0 : Fin 1))))) * d (ix1 (clampRow N hN (dstW (ix2 e (0 : Fin 1)))))))
    (p : Fin N) (q : Fin C) :
    d (ix1 p) * Host.scatterAdd (F := Ideal) (φ := .f32) (rowScatterDims N E C wfs) z dst updK (ix2 p q)
      = Host.scatterAdd (F := Ideal) (φ := .f32) (rowScatterDims N E C wfs) z dst updR (ix2 p q) := by
  show d (ix1 p) * Ideal.hostScatterAdd (rowScatterDims N E C wfs) z dst updK (ix2 p q)
    = Ideal.hostScatterAdd (rowScatterDims N E C wfs) z dst updR (ix2 p q)
  unfold Ideal.hostScatterAdd
  rw [hz, zero_add, zero_add]
  have hKreal : ∀ j, IsReal (updK j) := by
    intro j
    obtain ⟨e, c, rfl⟩ : ∃ (e : Fin E) (c : Fin C), j = ix2 e c := ⟨j 0, j 1, eq_ix2 j⟩
    rw [hK]; exact (hH _).mul (hd _)
  rw [mul_sum_of_isReal _ _ (hd (ix1 p)) _ (fun j _ => hKreal j)]
  refine Finset.sum_congr rfl ?_
  intro j hj
  obtain ⟨e, c, rfl⟩ : ∃ (e : Fin E) (c : Fin C), j = ix2 e c := ⟨j 0, j 1, eq_ix2 j⟩
  obtain ⟨hp, -⟩ := (rowScatter_resultIdx wfs dst e c p q).mp (Finset.mem_filter.mp hj).2
  have hnn : 0 ≤ (dst (ix2 e (0 : Fin 1))).toInt := by rw [hp]; exact Int.natCast_nonneg _
  have hcl : clampRow N hN (dst (ix2 e (0 : Fin 1))) = p := by
    apply Fin.ext
    show min (dst (ix2 e (0 : Fin 1))).toInt.toNat (N - 1) = p.val
    rw [hp, Int.toNat_natCast]
    have := p.isLt
    omega
  rw [hK, hR, hW e hnn, hcl, mul_comm (d (ix1 p)), mul_assoc]

end Cert.ScaleSum

end
-- ==== Proof.KValue.lean ====
import proofs.«137949_j58935541236529_2_alg».proof.Proof.Gen.KernelIdeal.Frame
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import proofs.«137949_j58935541236529_2_alg».proof.Proof.KChainAll
import proofs.«137949_j58935541236529_2_alg».proof.Proof.KStage
import proofs.«137949_j58935541236529_2_alg».proof.Proof.KCore
import proofs.«137949_j58935541236529_2_alg».proof.Proof.NodeFinalValue
import proofs.«137949_j58935541236529_2_alg».proof.Proof.EdgeFinalValue
import proofs.«137949_j58935541236529_2_alg».proof.Proof.NodePreValue
import proofs.«137949_j58935541236529_2_alg».proof.Proof.EdgeValue
import proofs.«137949_j58935541236529_2_alg».proof.Proof.LibScaleSum
import proofs.«137949_j58935541236529_2_alg».proof.Proof.LibReal
import proofs.«137949_j58935541236529_2_alg».proof.Proof.LibLay
import proofs.«137949_j58935541236529_2_alg».proof.Proof.LibRowIndex
import proofs.«137949_j58935541236529_2_alg».proof.Proof.Spec
set_option maxRecDepth 16384

noncomputable section

namespace Cert.KernelIdeal.KChain

open Idealize.ShloMosaic Idealize.ShloMosaic.TcCoe Idealize.ShloMosaic.Tactic Idealize.ShloMosaic.StableHlo Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

open Cert.GinMath Cert.KernelIdeal.EdgeBlocks
open scoped BigOperators

/-! ## The launch arrays -/

abbrev aX : S50000x128.Idx → EReal := W0 m ρ c (Proc.devRef .tc main_arg0)
abbrev aE : S640000x128.Idx → EReal := W0 m ρ c (Proc.devRef .tc main_arg1)
abbrev aI : IVec S2x640000 32 := W0 m ρ c (Proc.devRef .tc main_arg2)
abbrev aW1 : S128x128.Idx → EReal := W0 m ρ c (Proc.devRef .tc main_arg3)
abbrev aW2 : S128x128.Idx → EReal := W0 m ρ c (Proc.devRef .tc main_arg4)
abbrev aW3 : S128x128.Idx → EReal := W0 m ρ c (Proc.devRef .tc main_arg5)
abbrev aW4 : S128x128.Idx → EReal := W0 m ρ c (Proc.devRef .tc main_arg6)
abbrev aW5 : S128x128.Idx → EReal := W0 m ρ c (Proc.devRef .tc main_arg7)
abbrev aGx : S128.Idx → EReal := W0 m ρ c (Proc.devRef .tc main_arg8)
abbrev aBx : S128.Idx → EReal := W0 m ρ c (Proc.devRef .tc main_arg9)
abbrev aGe : S128.Idx → EReal := W0 m ρ c (Proc.devRef .tc main_arg10)
abbrev aBe : S128.Idx → EReal := W0 m ρ c (Proc.devRef .tc main_arg11)

/-! ## The kernel's intermediate arrays in terms of the launch arrays -/

/-- The gathered source and destination rows. -/
def xsK : FVec Ideal S640000x128 .bf16 := gath (aX m ρ c) (wrapCol (vec0 (aI m ρ c)))
def xdK : FVec Ideal S640000x128 .bf16 := gath (aX m ρ c) (wrapCol (vec1 (aI m ρ c)))
/-- The edge pre-activation, entry by entry. -/
def QK (e : Fin 640000) (j : Fin 128) : EReal :=
  Qf (xsK m ρ c) (xdK m ρ c) (aE m ρ c) (wT (aW3 m ρ c)) (wT (aW4 m ρ c)) (wT (aW5 m ρ c)) e j
/-- The messages, entry by entry. -/
def MK (e : Fin 640000) (j : Fin 128) : EReal := Mf (xsK m ρ c) (aE m ρ c) (wT (aW2 m ρ c)) e j
/-- The messages as the first region leaves them. -/
abbrev msgArr : S640000x128.Idx → EReal := (dat0 (V1 m ρ) c).arrAt 7 cfg0.N
/-- The node pre-activation, entry by entry. -/
def PK (v : Fin 50000) (j : Fin 128) : EReal :=
  (∑ k : Fin 128, aX m ρ c (ix2 v k) * aW1 m ρ c (ix2 j k)) + aggOf (wrapCol (vec1 (aI m ρ c))) (msgArr m ρ c) (ix2 v j)

theorem hXS : XS (V1 m ρ) c = xsK m ρ c := W1_v11 m ρ c
theorem hXD : XD (V1 m ρ) c = xdK m ρ c := W1_v18 m ρ c
theorem hEF : EF (V1 m ρ) c = aE m ρ c := W1_main_arg1 m ρ c
theorem hW2 : W2 (V1 m ρ) c = wT (aW2 m ρ c) := W1_main_v22 m ρ c
theorem hW3 : W3 (V1 m ρ) c = wT (aW3 m ρ c) := W1_main_v24 m ρ c
theorem hW4 : W4 (V1 m ρ) c = wT (aW4 m ρ c) := W1_main_v26 m ρ c
theorem hW5 : W5 (V1 m ρ) c = wT (aW5 m ρ c) := W1_main_v28 m ρ c

theorem Qf_V1 : Qf (XS (V1 m ρ) c) (XD (V1 m ρ) c) (EF (V1 m ρ) c) (W3 (V1 m ρ) c) (W4 (V1 m ρ) c) (W5 (V1 m ρ) c) = QK m ρ c := by
  rw [hXS, hXD, hEF, hW3, hW4, hW5]; rfl

theorem msgArr_apply (e : Fin 640000) (j : Fin 128) : msgArr m ρ c (ix2 e j) = MK m ρ c e j := by
  have h := Cert.KernelIdeal.EdgeValue.msg_val (V1 m ρ) c e j
  rw [hXS, hEF, hW2] at h
  exact h

theorem PK_eq (v : Fin 50000) (j : Fin 128) : Cert.KernelIdeal.NodePre.Pf (V3 m ρ) c v j = PK m ρ c v j := by
  have hX : Cert.KernelIdeal.NodePre.Xa (V3 m ρ) c = aX m ρ c := at3_arg0 m ρ c
  have hA : Cert.KernelIdeal.NodePre.Aa (V3 m ρ) c = aggOf (wrapCol (vec1 (aI m ρ c))) (msgArr m ρ c) := at3_v51 m ρ c
  have hW : Cert.KernelIdeal.NodePre.Wa (V3 m ρ) c = wT (aW1 m ρ c) := at3_v20 m ρ c
  rw [Cert.KernelIdeal.NodePre.Pf_def, hX, hA, hW]
  unfold PK
  simp only [wT_apply]

/-! ## Real entries stay real -/

theorem isReal_gath (x : FVec Ideal S50000x128 .f32) (hx : ∀ i, IsReal (x i)) (col : IVec S640000x1 32) (e : Fin 640000) (k : Fin 128) :
    IsReal (gath x col (ix2 e k)) := by rw [gath_apply]; exact hx _

theorem isReal_wT (W : FVec Ideal S128x128 .f32) (hW : ∀ i, IsReal (W i)) (k j : Fin 128) : IsReal (wT W (ix2 k j)) := by
  rw [wT_apply]; exact hW _

theorem isReal_QK (hx : ∀ i, IsReal (aX m ρ c i)) (he : ∀ i, IsReal (aE m ρ c i)) (h3 : ∀ i, IsReal (aW3 m ρ c i))
    (h4 : ∀ i, IsReal (aW4 m ρ c i)) (h5 : ∀ i, IsReal (aW5 m ρ c i)) (e : Fin 640000) (j : Fin 128) : IsReal (QK m ρ c e j) := by
  unfold QK Qf
  exact ((IsReal.sum fun k _ => (he _).mul (isReal_wT _ h3 k j)).add
    (IsReal.sum fun k _ => (isReal_gath _ hx _ e k).mul (isReal_wT _ h4 k j))).add
    (IsReal.sum fun k _ => (isReal_gath _ hx _ e k).mul (isReal_wT _ h5 k j))

theorem isReal_MK (hx : ∀ i, IsReal (aX m ρ c i)) (he : ∀ i, IsReal (aE m ρ c i)) (h2 : ∀ i, IsReal (aW2 m ρ c i))
    (e : Fin 640000) (j : Fin 128) : IsReal (MK m ρ c e j) := by
  unfold MK Mf
  exact (he _).mul (IsReal.sum fun k _ => (isReal_gath _ hx _ e k).mul (isReal_wT _ h2 k j))

theorem isReal_PK (hx : ∀ i, IsReal (aX m ρ c i)) (he : ∀ i, IsReal (aE m ρ c i)) (h1 : ∀ i, IsReal (aW1 m ρ c i))
    (h2 : ∀ i, IsReal (aW2 m ρ c i)) (v : Fin 50000) (j : Fin 128) : IsReal (PK m ρ c v j) := by
  unfold PK aggOf
  refine (IsReal.sum fun k _ => (hx _).mul (h1 _)).add ?_
  refine Cert.ScaleSum.isReal_scatterAdd _ _ (fun i => ?_) _ _ (fun i => ?_) _
  · rw [Cert.Lay.scalar_apply, constant_apply, ofBits_zero]; exact isReal_zero
  · obtain ⟨e, q, rfl⟩ : ∃ (e : Fin 640000) (q : Fin 128), i = ix2 e q := ⟨i 0, i 1, eq_ix2 i⟩
    rw [msgArr_apply]; exact isReal_MK m ρ c hx he h2 e q

/-! ## The two results, entry by entry -/

set_option maxHeartbeats 4000000 in
/-- The edge result: the edge features plus the rectified batch normalisation of the edge pre-activations. -/
theorem edge_entry (hx : ∀ i, IsReal (aX m ρ c i)) (he : ∀ i, IsReal (aE m ρ c i)) (h3 : ∀ i, IsReal (aW3 m ρ c i))
    (h4 : ∀ i, IsReal (aW4 m ρ c i)) (h5 : ∀ i, IsReal (aW5 m ρ c i)) (e : Fin 640000) (j : Fin 128) :
    ((dat3 (V6 m ρ) c).arrAt 6 cfg3.N : S640000x128.Idx → EReal) (ix2 e j)
      = aE m ρ c (ix2 e j) + Cert.Spec.bn (QK m ρ c) ((640000 : ℝ) : EReal) (fun j => aGe m ρ c (ix1 j)) (fun j => aBe m ρ c (ix1 j)) e j := by
  have h0 : V6 m ρ c main_arg1 = aE m ρ c := at6_arg1 m ρ c
  have h1 : V6 m ρ c main_v29_1 = (dat0 (V1 m ρ) c).arrAt 8 cfg0.N := at6_v29_1 m ρ c
  have h2 : V6 m ρ c main_v37 = meanOf ((dat0 (V1 m ρ) c).arrAt 9 cfg0.N) 0x491C4000#32 := at6_v37 m ρ c
  have h3' : V6 m ρ c main_v43 = varOf ((dat0 (V1 m ρ) c).arrAt 9 cfg0.N) ((dat0 (V1 m ρ) c).arrAt 10 cfg0.N) 0x491C4000#32 := at6_v43 m ρ c
  have h4' : V6 m ρ c main_v69 = row1 (aGe m ρ c) := at6_v69 m ρ c
  have h5' : V6 m ρ c main_v70 = row1 (aBe m ρ c) := at6_v70 m ρ c
  rw [Cert.KernelIdeal.EdgeFinal.edge_final_named (V6 m ρ) c e j, Cert.KernelIdeal.EdgeFinal.entry_def, h0, h1, h2, h3', h4', h5']
  refine core (n := 640000) (B := 80) (R := 4000) rfl 640000 (by norm_num) (by norm_num) 0x491C4000#32 ofBits_640000
    (aE m ρ c) ((dat0 (V1 m ρ) c).arrAt 8 cfg0.N) ((dat0 (V1 m ρ) c).arrAt 9 cfg0.N) ((dat0 (V1 m ρ) c).arrAt 10 cfg0.N)
    (aGe m ρ c) (aBe m ρ c) (QK m ρ c) (isReal_QK m ρ c hx he h3 h4 h5)
    (fun a i r => ⟨(80 * a.val + i.val) * 4000 + r.val, Cert.KernelIdeal.EdgeValue.core_lt a i r⟩) (fun _ _ _ => rfl)
    (fun e j => ?_) (fun j => ?_) (fun j => ?_) (fun j => ?_) (fun j => ?_) e j
  · rw [Cert.KernelIdeal.EdgeValue.pre_val (V1 m ρ) c e j, Qf_V1]
  · have h := Cert.KernelIdeal.EdgeValue.sum_val (V1 m ρ) c 0 0 j; rw [Qf_V1] at h; exact h
  · have h := Cert.KernelIdeal.EdgeValue.sum_val (V1 m ρ) c 1 0 j; rw [Qf_V1] at h; exact h
  · have h := Cert.KernelIdeal.EdgeValue.sumsq_val (V1 m ρ) c 0 0 j; rw [Qf_V1] at h; exact h
  · have h := Cert.KernelIdeal.EdgeValue.sumsq_val (V1 m ρ) c 1 0 j; rw [Qf_V1] at h; exact h

set_option maxHeartbeats 4000000 in
/-- The node result: the node features plus the rectified batch normalisation of the node pre-activations. -/
theorem node_entry (hx : ∀ i, IsReal (aX m ρ c i)) (he : ∀ i, IsReal (aE m ρ c i)) (h1 : ∀ i, IsReal (aW1 m ρ c i))
    (h2 : ∀ i, IsReal (aW2 m ρ c i)) (v : Fin 50000) (j : Fin 128) :
    ((dat2 (V5 m ρ) c).arrAt 6 cfg2.N : S50000x128.Idx → EReal) (ix2 v j)
      = aX m ρ c (ix2 v j) + Cert.Spec.bn (PK m ρ c) ((50000 : ℝ) : EReal) (fun j => aGx m ρ c (ix1 j)) (fun j => aBx m ρ c (ix1 j)) v j := by
  have g0 : V5 m ρ c main_arg0 = aX m ρ c := at5_arg0 m ρ c
  have g1 : V5 m ρ c main_v52_0 = (dat1 (V3 m ρ) c).arrAt 3 cfg1.N := at5_v52_0 m ρ c
  have g2 : V5 m ρ c main_v60 = meanOf ((dat1 (V3 m ρ) c).arrAt 4 cfg1.N) 0x47435000#32 := at5_v60 m ρ c
  have g3 : V5 m ρ c main_v66 = varOf ((dat1 (V3 m ρ) c).arrAt 4 cfg1.N) ((dat1 (V3 m ρ) c).arrAt 5 cfg1.N) 0x47435000#32 := at5_v66 m ρ c
  have g4 : V5 m ρ c main_v67 = row1 (aGx m ρ c) := at5_v67 m ρ c
  have g5 : V5 m ρ c main_v68 = row1 (aBx m ρ c) := at5_v68 m ρ c
  rw [Cert.KernelIdeal.NodeFinal.node_final_named (V5 m ρ) c v j, Cert.KernelIdeal.NodeFinal.entry_def, g0, g1, g2, g3, g4, g5]
  refine core (n := 50000) (B := 5) (R := 5000) rfl 50000 (by norm_num) (by norm_num) 0x47435000#32 ofBits_50000
    (aX m ρ c) ((dat1 (V3 m ρ) c).arrAt 3 cfg1.N) ((dat1 (V3 m ρ) c).arrAt 4 cfg1.N) ((dat1 (V3 m ρ) c).arrAt 5 cfg1.N)
    (aGx m ρ c) (aBx m ρ c) (PK m ρ c) (isReal_PK m ρ c hx he h1 h2)
    (fun a i r => ⟨(5 * a.val + i.val) * 5000 + r.val, by have := a.isLt; have := i.isLt; have := r.isLt; omega⟩) (fun _ _ _ => rfl)
    (fun v j => ?_) (fun j => ?_) (fun j => ?_) (fun j => ?_) (fun j => ?_) v j
  · rw [Cert.KernelIdeal.NodePre.pre_val (V3 m ρ) c v j, PK_eq]
  · have h := Cert.KernelIdeal.NodePre.sum_val (V3 m ρ) c 0 0 j; simp only [PK_eq] at h; exact h
  · have h := Cert.KernelIdeal.NodePre.sum_val (V3 m ρ) c 1 0 j; simp only [PK_eq] at h; exact h
  · have h := Cert.KernelIdeal.NodePre.sumsq_val (V3 m ρ) c 0 0 j; simp only [PK_eq] at h; exact h
  · have h := Cert.KernelIdeal.NodePre.sumsq_val (V3 m ρ) c 1 0 j; simp only [PK_eq] at h; exact h

end Cert.KernelIdeal.KChain

end
-- ==== Proof.RefStages.lean ====
/-
  The reference's stages as pure functions of the argument arrays: the two index columns cut from the edge table, the
  row gathers, the gated messages and their scatter-add, the two pre-activations, and for each of them the batch
  normalisation (column mean, the variance function with its guarded divisor, scale and shift), the rectifier and the
  residual sum. Every later statement about the reference is a statement about these terms.
-/
import proofs.«137949_j58935541236529_2_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Index columns -/

/-- Row 0 of the edge table (sources), as a vector of 640000 node numbers. -/
def srcRow (a2 : IVec S2x640000 32) : IVec S640000 32 :=
  shapeCast S640000 (extractStridedSlice S1x640000 ![0, 0] a2 slices_S2x640000_S1x640000_0_0) shapeCasts_S1x640000_S640000

/-- Row 1 of the edge table (destinations). -/
def destRow (a2 : IVec S2x640000 32) : IVec S640000 32 :=
  shapeCast S640000 (extractStridedSlice S1x640000 ![1, 0] a2 slices_S2x640000_S1x640000_1_0) shapeCasts_S1x640000_S640000

/-- Node numbers with negative entries wrapped once (+50000), as an index column [640000,1]. -/
def wrapCol (r : IVec S640000 32) : IVec S640000x1 32 :=
  broadcastInDim S640000x1 ![0] bcast_S640000_S640000x1_0
    (select (cmpi .slt r (broadcastInDim S640000 ![] bcast_S_S640000 (constantI S_ 32 0#32)))
      (addi r (broadcastInDim S640000 ![] bcast_S_S640000 (constantI S_ 32 50000#32))) r)

/-- The source index column (buffers %9 and %63). -/
def res_v9 (a2 : IVec S2x640000 32) : IVec S640000x1 32 := wrapCol (srcRow a2)
/-- The destination index column (buffers %20 and %53). -/
def res_v20 (a2 : IVec S2x640000 32) : IVec S640000x1 32 := wrapCol (destRow a2)
abbrev res_v63 (a2 : IVec S2x640000 32) : IVec S640000x1 32 := res_v9 a2
abbrev res_v53 (a2 : IVec S2x640000 32) : IVec S640000x1 32 := res_v20 a2

/-! ## Gathers, messages, scatter -/

/-- Rows of `x` gathered by an index column. -/
def gath (x : FVec F S50000x128 .f32) (col : IVec S640000x1 32) : FVec F S640000x128 .f32 :=
  Host.gather gather_S50000x128_S640000x1_S640000x128_1_0_n_n_0_1_1128 x col

/-- Source rows (buffers %10 and %64). -/
def res_v10 (a0 : FVec F S50000x128 .f32) (a2 : IVec S2x640000 32) : FVec F S640000x128 .f32 := gath a0 (res_v9 a2)
abbrev res_v64 (a0 : FVec F S50000x128 .f32) (a2 : IVec S2x640000 32) : FVec F S640000x128 .f32 := res_v10 a0 a2
/-- Destination rows (buffer %54). -/
def res_v54 (a0 : FVec F S50000x128 .f32) (a2 : IVec S2x640000 32) : FVec F S640000x128 .f32 := gath a0 (res_v20 a2)

/-- A weight matrix transposed. -/
def tr (w : FVec F S128x128 .f32) : FVec F S128x128 .f32 :=
  transpose S128x128 [1, 0] w transposes_S128x128_S128x128_1_0

/-- An edge array times a transposed weight: contraction of axis 1 with axis 0. -/
def dotE (l : FVec F S640000x128 .f32) (r : FVec F S128x128 .f32) : FVec F S640000x128 .f32 :=
  Host.dotGeneral dot_S640000x128_S128x128_S640000x128_1_0_0_1_n_n none l r
/-- A node array times a transposed weight. -/
def dotX (l : FVec F S50000x128 .f32) (r : FVec F S128x128 .f32) : FVec F S50000x128 .f32 :=
  Host.dotGeneral dot_S50000x128_S128x128_S50000x128_1_0_0_1_n_n none l r

/-- Gated messages: edge features times the projected source rows. -/
def msgOf (e : FVec F S640000x128 .f32) (xs : FVec F S640000x128 .f32) (w2 : FVec F S128x128 .f32) : FVec F S640000x128 .f32 :=
  mulf e (dotE xs (tr w2))

/-- Scatter-add of an update array into zeros along an index column. -/
def aggOf (col : IVec S640000x1 32) (u : FVec F S640000x128 .f32) : FVec F S50000x128 .f32 :=
  Host.scatterAdd scatter_S50000x128_S640000x1_S640000x128_1_0_0_1
    (broadcastInDim S50000x128 ![] bcast_S_S50000x128 (constant S_ .f32 0x00000000#32)) col u

/-- The messages (buffer %13). -/
def res_v13 (a0 : FVec F S50000x128 .f32) (a1 : FVec F S640000x128 .f32) (a2 : IVec S2x640000 32) (a4 : FVec F S128x128 .f32) :
    FVec F S640000x128 .f32 := msgOf a1 (res_v10 a0 a2) a4
/-- The aggregated messages (buffer %21). -/
def res_v21 (a0 : FVec F S50000x128 .f32) (a1 : FVec F S640000x128 .f32) (a2 : IVec S2x640000 32) (a4 : FVec F S128x128 .f32) :
    FVec F S50000x128 .f32 := aggOf (res_v20 a2) (res_v13 a0 a1 a2 a4)

/-- Node pre-activation from the aggregate. -/
def preXOf (x : FVec F S50000x128 .f32) (w1 : FVec F S128x128 .f32) (ag : FVec F S50000x128 .f32) : FVec F S50000x128 .f32 :=
  addf (dotX x (tr w1)) ag
/-- The node pre-activation (buffer %24). -/
def res_v24 (a0 : FVec F S50000x128 .f32) (a1 : FVec F S640000x128 .f32) (a2 : IVec S2x640000 32) (a3 a4 : FVec F S128x128 .f32) :
    FVec F S50000x128 .f32 := preXOf a0 a3 (res_v21 a0 a1 a2 a4)

/-- The edge pre-activation (buffer %67). -/
def res_v67 (a0 : FVec F S50000x128 .f32) (a1 : FVec F S640000x128 .f32) (a2 : IVec S2x640000 32) (a5 a6 a7 : FVec F S128x128 .f32) :
    FVec F S640000x128 .f32 :=
  addf (addf (dotE a1 (tr a5)) (dotE (res_v54 a0 a2) (tr a6))) (dotE (res_v64 a0 a2) (tr a7))

/-! ## Normalisation, node side (50000 rows) -/

/-- Column sums of a [50000,128] array: the zero word plus the sum over the rows. -/
def sumX (P : FVec F S50000x128 .f32) : FVec F S128 .f32 :=
  Host.reduceAdd P (constant S_ .f32 0x00000000#32) reducesTo_S50000x128_S128_d0 h_S_

/-- Column means: the column sums divided by the row count (the word of 50000.0). -/
def meanX (P : FVec F S50000x128 .f32) : FVec F S128 .f32 :=
  Host.divf (sumX P) (broadcastInDim S128 ![] bcast_S_S128 (constant S_ .f32 0x47435000#32))

/-- A row vector [128] laid over every row of a [50000,128] array. -/
def rowX (u : FVec F S128 .f32) : FVec F S50000x128 .f32 :=
  broadcastInDim S50000x128 ![0, 1] bcast_S1x128_S50000x128_0_1 (broadcastInDim S1x128 ![1] bcast_S128_S1x128_1 u)

/-- Deviations from the column means, as the variance function computes them (mean through a [1,128] row). -/
def devX (P : FVec F S50000x128 .f32) : FVec F S50000x128 .f32 :=
  subf P (broadcastInDim S50000x128 ![0, 1] bcast_S1x128_S50000x128_0_1
    (Host.divf (broadcastInDim S1x128 ![1] bcast_S128_S1x128_1 (sumX P))
      (broadcastInDim S1x128 ![] bcast_S_S1x128 (constant S_ .f32 0x47435000#32))))

/-- The variance divisor: the row count minus the converted correction `n`. -/
def cntX (n : IVec S_ 32) : FVec F S_ .f32 :=
  subf (constant S_ .f32 0x47435000#32) (sitofp .f32 n)

/-- The variance function: mean of squared deviations over `cnt`, where `cnt > 0`; otherwise the NaN word. -/
def varOfX (P : FVec F S50000x128 .f32) (n : IVec S_ 32) : FVec F S128 .f32 :=
  select (broadcastInDim S128 ![] bcast_S_S128 (cmpf .ogt (cntX (F := F) n) (constant S_ .f32 0x00000000#32)))
    (Host.divf (Host.reduceAdd (mulf (devX P) (devX P)) (constant S_ .f32 0x00000000#32) reducesTo_S50000x128_S128_d0 h_S_)
      (broadcastInDim S128 ![] bcast_S_S128 (cntX (F := F) n)))
    (broadcastInDim S128 ![] bcast_S_S128 (id (constant S_ .f32 0x7FC00000#32)))

/-- The variance with correction 0, as @main calls it. -/
def varX (P : FVec F S50000x128 .f32) : FVec F S128 .f32 := varOfX P (constantI S_ 32 0#32)

/-- Normalisation: ((P − mean) · rsqrt(var + eps)) · gamma + beta, with mean, var, gamma, beta laid over the rows. -/
def bnX (P : FVec F S50000x128 .f32) (mu vr g b : FVec F S128 .f32) : FVec F S50000x128 .f32 :=
  addf (mulf (mulf (subf P (rowX mu))
      (rowX (Host.rsqrt (addf vr (broadcastInDim S128 ![] bcast_S_S128 (constant S_ .f32 0x3727C5AC#32))))))
    (rowX g)) (rowX b)

/-- The maximum with the zero word. -/
def reluX (y : FVec F S50000x128 .f32) : FVec F S50000x128 .f32 :=
  maximumf y (broadcastInDim S50000x128 ![] bcast_S_S50000x128 (constant S_ .f32 0x00000000#32))

/-- Residual update: the input plus the rectified normalisation of the pre-activation `P`. -/
def outX (x P : FVec F S50000x128 .f32) (g b : FVec F S128 .f32) : FVec F S50000x128 .f32 :=
  addf x (reluX (bnX P (meanX P) (varX P) g b))

/-! ## Normalisation, edge side (640000 rows) -/

/-- Column sums of a [640000,128] array: the zero word plus the sum over the rows. -/
def sumE (P : FVec F S640000x128 .f32) : FVec F S128 .f32 :=
  Host.reduceAdd P (constant S_ .f32 0x00000000#32) reducesTo_S640000x128_S128_d0 h_S_

/-- Column means: the column sums divided by the row count (the word of 640000.0). -/
def meanE (P : FVec F S640000x128 .f32) : FVec F S128 .f32 :=
  Host.divf (sumE P) (broadcastInDim S128 ![] bcast_S_S128 (constant S_ .f32 0x491C4000#32))

/-- A row vector [128] laid over every row of a [640000,128] array. -/
def rowE (u : FVec F S128 .f32) : FVec F S640000x128 .f32 :=
  broadcastInDim S640000x128 ![0, 1] bcast_S1x128_S640000x128_0_1 (broadcastInDim S1x128 ![1] bcast_S128_S1x128_1 u)

/-- Deviations from the column means, as the variance function computes them (mean through a [1,128] row). -/
def devE (P : FVec F S640000x128 .f32) : FVec F S640000x128 .f32 :=
  subf P (broadcastInDim S640000x128 ![0, 1] bcast_S1x128_S640000x128_0_1
    (Host.divf (broadcastInDim S1x128 ![1] bcast_S128_S1x128_1 (sumE P))
      (broadcastInDim S1x128 ![] bcast_S_S1x128 (constant S_ .f32 0x491C4000#32))))

/-- The variance divisor: the row count minus the converted correction `n`. -/
def cntE (n : IVec S_ 32) : FVec F S_ .f32 :=
  subf (constant S_ .f32 0x491C4000#32) (sitofp .f32 n)

/-- The variance function: mean of squared deviations over `cnt`, where `cnt > 0`; otherwise the NaN word. -/
def varOfE (P : FVec F S640000x128 .f32) (n : IVec S_ 32) : FVec F S128 .f32 :=
  select (broadcastInDim S128 ![] bcast_S_S128 (cmpf .ogt (cntE (F := F) n) (constant S_ .f32 0x00000000#32)))
    (Host.divf (Host.reduceAdd (mulf (devE P) (devE P)) (constant S_ .f32 0x00000000#32) reducesTo_S640000x128_S128_d0 h_S_)
      (broadcastInDim S128 ![] bcast_S_S128 (cntE (F := F) n)))
    (broadcastInDim S128 ![] bcast_S_S128 (id (constant S_ .f32 0x7FC00000#32)))

/-- The variance with correction 0, as @main calls it. -/
def varE (P : FVec F S640000x128 .f32) : FVec F S128 .f32 := varOfE P (constantI S_ 32 0#32)

/-- Normalisation: ((P − mean) · rsqrt(var + eps)) · gamma + beta, with mean, var, gamma, beta laid over the rows. -/
def bnE (P : FVec F S640000x128 .f32) (mu vr g b : FVec F S128 .f32) : FVec F S640000x128 .f32 :=
  addf (mulf (mulf (subf P (rowE mu))
      (rowE (Host.rsqrt (addf vr (broadcastInDim S128 ![] bcast_S_S128 (constant S_ .f32 0x3727C5AC#32))))))
    (rowE g)) (rowE b)

/-- The maximum with the zero word. -/
def reluE (y : FVec F S640000x128 .f32) : FVec F S640000x128 .f32 :=
  maximumf y (broadcastInDim S640000x128 ![] bcast_S_S640000x128 (constant S_ .f32 0x00000000#32))

/-- Residual update: the input plus the rectified normalisation of the pre-activation `P`. -/
def outE (x P : FVec F S640000x128 .f32) (g b : FVec F S128 .f32) : FVec F S640000x128 .f32 :=
  addf x (reluE (bnE P (meanE P) (varE P) g b))

/-! ## The stages by buffer, and the two results -/

def res_v27 (a0 : FVec F S50000x128 .f32) (a1 : FVec F S640000x128 .f32) (a2 : IVec S2x640000 32) (a3 a4 : FVec F S128x128 .f32) :
    FVec F S128 .f32 := meanX (res_v24 a0 a1 a2 a3 a4)
def res_v28 (a0 : FVec F S50000x128 .f32) (a1 : FVec F S640000x128 .f32) (a2 : IVec S2x640000 32) (a3 a4 : FVec F S128x128 .f32) :
    FVec F S128 .f32 := varX (res_v24 a0 a1 a2 a3 a4)
def res_v70 (a0 : FVec F S50000x128 .f32) (a1 : FVec F S640000x128 .f32) (a2 : IVec S2x640000 32) (a5 a6 a7 : FVec F S128x128 .f32) :
    FVec F S128 .f32 := meanE (res_v67 a0 a1 a2 a5 a6 a7)
def res_v71 (a0 : FVec F S50000x128 .f32) (a1 : FVec F S640000x128 .f32) (a2 : IVec S2x640000 32) (a5 a6 a7 : FVec F S128x128 .f32) :
    FVec F S128 .f32 := varE (res_v67 a0 a1 a2 a5 a6 a7)

/-- The node result (buffer %45) of the twelve argument arrays. -/
def resX (a0 : FVec F S50000x128 .f32) (a1 : FVec F S640000x128 .f32) (a2 : IVec S2x640000 32)
    (a3 a4 a5 a6 a7 : FVec F S128x128 .f32) (a8 a9 a10 a11 : FVec F S128 .f32) : FVec F S50000x128 .f32 :=
  outX a0 (res_v24 a0 a1 a2 a3 a4) a8 a9

/-- The edge result (buffer %88) of the twelve argument arrays. -/
def resE (a0 : FVec F S50000x128 .f32) (a1 : FVec F S640000x128 .f32) (a2 : IVec S2x640000 32)
    (a3 a4 a5 a6 a7 : FVec F S128x128 .f32) (a8 a9 a10 a11 : FVec F S128 .f32) : FVec F S640000x128 .f32 :=
  outE a1 (res_v67 a0 a1 a2 a5 a6 a7) a10 a11

end Cert.ReferenceIdeal.RefRun

end
-- ==== Proof.RefOps.lean ====
import Idealize.ShloMosaic.PureOps.Ideal.Laws
import Idealize.ShloMosaic.Lib.ValueIdx
import Idealize.ShloMosaic.Lib.ValueLayout
import Idealize.ShloMosaic.Lib.IdealHost
import proofs.«137949_j58935541236529_2_alg».proof.Proof.RefStages
import proofs.«137949_j58935541236529_2_alg».proof.Proof.LibPlainDot
import proofs.«137949_j58935541236529_2_alg».proof.Proof.LibLay
import proofs.«137949_j58935541236529_2_alg».proof.Proof.LibReal

/-!
# The reference's operations read at an entry, on the extended reals

Each stage of the reference is read at one entry as ordinary arithmetic:

* a product of an [n,128] array with a transposed [128,128] weight, at (e, j), is the sum over k of
  A (e, k) · W (j, k);
* a sum down the rows from the zero word, at column j, is 0 plus the sum over the rows of the entries of
  column j; the column mean divides it by the row count, whose f32 word denotes 50000 (or 640000);
* a vector laid over every row reads its own entry j at (v, j);
* the variance function subtracts from each entry its column mean, squares, sums down the rows and divides
  by the row count minus the correction; with correction 0 the divisor is the row count, which is positive,
  so the guarded choice takes the quotient and never the not-a-number word;
* the rectifier is the maximum with 0.
-/

noncomputable section

namespace Cert.RefOps

open Cert.ReferenceIdeal Cert.ReferenceIdeal.Gen Cert.ReferenceIdeal.RefRun Idealize.ShloMosaic Idealize.ShloMosaic.ValueIdx Cert.GinMath
open scoped BigOperators

/-! ## Products against a transposed weight -/

theorem dotE_eq_plain : dot_S640000x128_S128x128_S640000x128_1_0_0_1_n_n = DotDims.plain 640000 128 128 := rfl
theorem dotX_eq_plain : dot_S50000x128_S128x128_S50000x128_1_0_0_1_n_n = DotDims.plain 50000 128 128 := rfl

/-- A plain [n,128] by [128,128] product against a transposed weight, at (e, j): the sum over k of A (e, k) W (j, k). -/
theorem plain_tr_apply (n : Nat) (A : FVec Ideal ⟨2, ![n, 128]⟩ .f32) (W : FVec Ideal S128x128 .f32)
    (e : Fin n) (j : Fin 128) :
    Host.dotGeneral (F := Ideal) (DotDims.plain n 128 128) none A
        (transpose S128x128 [1, 0] W transposes_S128x128_S128x128_1_0) (ix2 e j)
      = ∑ k : Fin 128, A (ix2 e k) * W (ix2 j k) := by
  show FloatOps.dotGeneral (DotDims.plain n 128 128) none .single A _ (ix2 e j) = _
  rw [Ideal.dotGeneral_apply,
    ← Equiv.sum_comp (contrEquiv1 (DotDims.plain n 128 128) 128 (PlainDot.contr_rank n 128 128)
        (PlainDot.contr_size n 128 128)).symm]
  refine Finset.sum_congr rfl fun k _ => ?_
  rw [PlainDot.lhsIdx_eq, PlainDot.rhsIdx_eq]
  exact congrArg (A (ix2 e k) * ·) (transpose_ix2_apply W transposes_S128x128_S128x128_1_0 k j)

theorem dotE_tr_apply (A : FVec Ideal S640000x128 .f32) (W : FVec Ideal S128x128 .f32) (e : Fin 640000) (j : Fin 128) :
    Host.dotGeneral (F := Ideal) dot_S640000x128_S128x128_S640000x128_1_0_0_1_n_n none A
        (transpose S128x128 [1, 0] W transposes_S128x128_S128x128_1_0) (ix2 e j)
      = ∑ k : Fin 128, A (ix2 e k) * W (ix2 j k) :=
  plain_tr_apply 640000 A W e j

theorem dotX_tr_apply (A : FVec Ideal S50000x128 .f32) (W : FVec Ideal S128x128 .f32) (v : Fin 50000) (j : Fin 128) :
    Host.dotGeneral (F := Ideal) dot_S50000x128_S128x128_S50000x128_1_0_0_1_n_n none A
        (transpose S128x128 [1, 0] W transposes_S128x128_S128x128_1_0) (ix2 v j)
      = ∑ k : Fin 128, A (ix2 v k) * W (ix2 j k) :=
  plain_tr_apply 50000 A W v j

/-- An edge array times a transposed weight, at (e, j). -/
theorem dotE_apply (A : FVec Ideal S640000x128 .f32) (W : FVec Ideal S128x128 .f32) (e : Fin 640000) (j : Fin 128) :
    dotE A (tr W) (ix2 e j) = ∑ k : Fin 128, A (ix2 e k) * W (ix2 j k) :=
  dotE_tr_apply A W e j

/-- A node array times a transposed weight, at (v, j). -/
theorem dotX_apply (A : FVec Ideal S50000x128 .f32) (W : FVec Ideal S128x128 .f32) (v : Fin 50000) (j : Fin 128) :
    dotX A (tr W) (ix2 v j) = ∑ k : Fin 128, A (ix2 v k) * W (ix2 j k) :=
  dotX_tr_apply A W v j

/-! ## Column sums -/

theorem red50k : S50000x128.Reduces [0] S128 := by decide
theorem red640k : S640000x128.Reduces [0] S128 := by decide

theorem lift50k (j : Fin 128) (v : Fin 50000) : red50k.lift (ix1 j) v = ix2 v j := by
  funext c
  refine Fin.ext ?_
  match c with
  | ⟨0, _⟩ => rfl
  | ⟨1, _⟩ => rfl

theorem lift640k (j : Fin 128) (v : Fin 640000) : red640k.lift (ix1 j) v = ix2 v j := by
  funext c
  refine Fin.ext ?_
  match c with
  | ⟨0, _⟩ => rfl
  | ⟨1, _⟩ => rfl

/-- The sum down the 50000 rows, from an initial scalar. -/
theorem colSum50k_apply (X : FVec Ideal S50000x128 .f32) (init : FVec Ideal S_ .f32) (j : Fin 128) :
    Host.reduceAdd X init reducesTo_S50000x128_S128_d0 h_S_ (ix1 j) = init ix0 + ∑ v : Fin 50000, X (ix2 v j) := by
  rw [hostReduceAdd_apply, Ideal.hostReduceAdd_single reducesTo_S50000x128_S128_d0 red50k, eq_ix0 (Shape.Idx.first h_S_)]
  refine congrArg (init ix0 + ·) (Finset.sum_congr rfl fun v _ => ?_)
  exact congrArg X (lift50k j v)

/-- The sum down the 640000 rows, from an initial scalar. -/
theorem colSum640k_apply (X : FVec Ideal S640000x128 .f32) (init : FVec Ideal S_ .f32) (j : Fin 128) :
    Host.reduceAdd X init reducesTo_S640000x128_S128_d0 h_S_ (ix1 j) = init ix0 + ∑ v : Fin 640000, X (ix2 v j) := by
  rw [hostReduceAdd_apply, Ideal.hostReduceAdd_single reducesTo_S640000x128_S128_d0 red640k, eq_ix0 (Shape.Idx.first h_S_)]
  refine congrArg (init ix0 + ·) (Finset.sum_congr rfl fun v _ => ?_)
  exact congrArg X (lift640k j v)

/-! ## Words -/

theorem ofBits_50000 : Ideal.ofBits .f32 0x47435000#32 = ((50000 : ℝ) : EReal) := by
  simp [Ideal.ofBits, Ideal.ieee, -EReal.coe_mul]; norm_num

theorem ofBits_640000 : Ideal.ofBits .f32 0x491C4000#32 = ((640000 : ℝ) : EReal) := by
  simp [Ideal.ofBits, Ideal.ieee, -EReal.coe_mul]; norm_num

/-! ## Rows and scalars laid over an array -/

/-- A vector laid over every row of a [50000,128] array (through a [1,128] row), at (v, j). -/
theorem rowX_apply (u : FVec Ideal S128 .f32) (v : Fin 50000) (j : Fin 128) : rowX u (ix2 v j) = u (ix1 j) := by
  unfold rowX
  rw [Lay.rowRep_apply, Lay.vecRow_apply]

/-- A vector laid over every row of a [640000,128] array, at (e, j). -/
theorem rowE_apply (u : FVec Ideal S128 .f32) (e : Fin 640000) (j : Fin 128) : rowE u (ix2 e j) = u (ix1 j) := by
  unfold rowE
  rw [Lay.rowRep_apply, Lay.vecRow_apply]

/-! ## Column sums and means -/

theorem sumX_apply (P : FVec Ideal S50000x128 .f32) (j : Fin 128) :
    sumX P (ix1 j) = 0 + ∑ v : Fin 50000, P (ix2 v j) := by
  unfold sumX
  rw [colSum50k_apply, constant_apply, Ideal.ofBits_zero_f32]

theorem sumE_apply (P : FVec Ideal S640000x128 .f32) (j : Fin 128) :
    sumE P (ix1 j) = 0 + ∑ e : Fin 640000, P (ix2 e j) := by
  unfold sumE
  rw [colSum640k_apply, constant_apply, Ideal.ofBits_zero_f32]

theorem meanX_apply (P : FVec Ideal S50000x128 .f32) (j : Fin 128) :
    meanX P (ix1 j) = Ideal.div (0 + ∑ v : Fin 50000, P (ix2 v j)) ((50000 : ℝ) : EReal) := by
  unfold meanX
  rw [hostDivf_apply, sumX_apply, Lay.scalar_apply, constant_apply, ofBits_50000]

theorem meanE_apply (P : FVec Ideal S640000x128 .f32) (j : Fin 128) :
    meanE P (ix1 j) = Ideal.div (0 + ∑ e : Fin 640000, P (ix2 e j)) ((640000 : ℝ) : EReal) := by
  unfold meanE
  rw [hostDivf_apply, sumE_apply, Lay.scalar_apply, constant_apply, ofBits_640000]

/-! ## Deviations, the divisor, the variance function -/

theorem devX_apply (P : FVec Ideal S50000x128 .f32) (v : Fin 50000) (j : Fin 128) :
    devX P (ix2 v j) = P (ix2 v j) - Ideal.div (0 + ∑ v : Fin 50000, P (ix2 v j)) ((50000 : ℝ) : EReal) := by
  unfold devX
  rw [subf_apply, Lay.rowRep_apply, hostDivf_apply, Lay.vecRow_apply, sumX_apply, Lay.scalar_apply, constant_apply,
    ofBits_50000]

theorem devE_apply (P : FVec Ideal S640000x128 .f32) (e : Fin 640000) (j : Fin 128) :
    devE P (ix2 e j) = P (ix2 e j) - Ideal.div (0 + ∑ e : Fin 640000, P (ix2 e j)) ((640000 : ℝ) : EReal) := by
  unfold devE
  rw [subf_apply, Lay.rowRep_apply, hostDivf_apply, Lay.vecRow_apply, sumE_apply, Lay.scalar_apply, constant_apply,
    ofBits_640000]

/-- The divisor with correction 0 is the row count. -/
theorem cntX_zero : cntX (F := Ideal) (constantI S_ 32 0#32) ix0 = ((50000 : ℝ) : EReal) := by
  show Ideal.ofBits .f32 0x47435000#32 - (((0#32 : BitVec 32).toInt : ℝ) : EReal) = _
  rw [ofBits_50000]
  simp

theorem cntE_zero : cntE (F := Ideal) (constantI S_ 32 0#32) ix0 = ((640000 : ℝ) : EReal) := by
  show Ideal.ofBits .f32 0x491C4000#32 - (((0#32 : BitVec 32).toInt : ℝ) : EReal) = _
  rw [ofBits_640000]
  simp

/-- The variance function with correction 0, at column j: the divisor 50000 is positive, so the quotient is taken. -/
theorem varX_apply (P : FVec Ideal S50000x128 .f32) (j : Fin 128) :
    varX P (ix1 j)
      = Ideal.div (0 + ∑ v : Fin 50000,
            (P (ix2 v j) - Ideal.div (0 + ∑ v : Fin 50000, P (ix2 v j)) ((50000 : ℝ) : EReal))
              * (P (ix2 v j) - Ideal.div (0 + ∑ v : Fin 50000, P (ix2 v j)) ((50000 : ℝ) : EReal)))
          ((50000 : ℝ) : EReal) := by
  unfold varX varOfX
  rw [select_apply, Lay.scalar_apply, cmpf_apply, cntX_zero]
  have hc : FloatOps.cmpf (F := Ideal) .ogt (((50000 : ℝ) : EReal)) (constant (F := Ideal) S_ .f32 0x00000000#32 ix0) = 1#1 := by
    show Ideal.cmp .ogt ((50000 : ℝ) : EReal) (Ideal.ofBits .f32 0x00000000#32) = 1#1
    rw [Ideal.ofBits_zero_f32]
    show BitVec.ofBool (decide ((0 : EReal) < ((50000 : ℝ) : EReal))) = 1#1
    rw [decide_eq_true (by exact_mod_cast (by norm_num : (0 : ℝ) < 50000))]
    rfl
  rw [hc, select_one, hostDivf_apply, Lay.scalar_apply, cntX_zero, colSum50k_apply, constant_apply,
    Ideal.ofBits_zero_f32]
  simp only [mulf_apply, devX_apply]

theorem varE_apply (P : FVec Ideal S640000x128 .f32) (j : Fin 128) :
    varE P (ix1 j)
      = Ideal.div (0 + ∑ e : Fin 640000,
            (P (ix2 e j) - Ideal.div (0 + ∑ e : Fin 640000, P (ix2 e j)) ((640000 : ℝ) : EReal))
              * (P (ix2 e j) - Ideal.div (0 + ∑ e : Fin 640000, P (ix2 e j)) ((640000 : ℝ) : EReal)))
          ((640000 : ℝ) : EReal) := by
  unfold varE varOfE
  rw [select_apply, Lay.scalar_apply, cmpf_apply, cntE_zero]
  have hc : FloatOps.cmpf (F := Ideal) .ogt (((640000 : ℝ) : EReal)) (constant (F := Ideal) S_ .f32 0x00000000#32 ix0) = 1#1 := by
    show Ideal.cmp .ogt ((640000 : ℝ) : EReal) (Ideal.ofBits .f32 0x00000000#32) = 1#1
    rw [Ideal.ofBits_zero_f32]
    show BitVec.ofBool (decide ((0 : EReal) < ((640000 : ℝ) : EReal))) = 1#1
    rw [decide_eq_true (by exact_mod_cast (by norm_num : (0 : ℝ) < 640000))]
    rfl
  rw [hc, select_one, hostDivf_apply, Lay.scalar_apply, cntE_zero, colSum640k_apply, constant_apply,
    Ideal.ofBits_zero_f32]
  simp only [mulf_apply, devE_apply]

/-! ## The rectifier -/

theorem reluX_apply (y : FVec Ideal S50000x128 .f32) (i : S50000x128.Idx) : reluX y i = max (y i) 0 := by
  unfold reluX
  rw [maximumf_apply, Lay.scalar_apply, constant_apply, Ideal.ofBits_zero_f32]

theorem reluE_apply (y : FVec Ideal S640000x128 .f32) (i : S640000x128.Idx) : reluE y i = max (y i) 0 := by
  unfold reluE
  rw [maximumf_apply, Lay.scalar_apply, constant_apply, Ideal.ofBits_zero_f32]

end Cert.RefOps

end
-- ==== Proof.RefBn.lean ====
import proofs.«137949_j58935541236529_2_alg».proof.Proof.RefOps
import proofs.«137949_j58935541236529_2_alg».proof.Proof.Spec

/-!
# The reference's normalised, rectified and residual stages at an entry

With P a pre-activation array, the reference's result at (v, j) is the input entry plus the batch-normalised
entry clipped at zero: the entry minus its column mean, times the reciprocal square root of the column's mean
squared deviation plus the small constant, times the scale of column j, plus the shift of column j, and then
the maximum with 0. The column mean and the mean squared deviation are exactly the two functions of the
specification, taken over the array read as a function of a row and a column.
-/

noncomputable section

namespace Cert.RefOps

open Cert.ReferenceIdeal Cert.ReferenceIdeal.Gen Cert.ReferenceIdeal.RefRun Idealize.ShloMosaic
  Idealize.ShloMosaic.ValueIdx Cert.GinMath
open scoped BigOperators

/-- A [50000,128] array as a function of a row and a column. -/
def gridX (P : FVec Ideal S50000x128 .f32) : Fin 50000 → Fin 128 → EReal := fun v j => P (ix2 v j)
/-- A [640000,128] array as a function of a row and a column. -/
def gridE (P : FVec Ideal S640000x128 .f32) : Fin 640000 → Fin 128 → EReal := fun e j => P (ix2 e j)
/-- A vector of 128 entries as a function of a column. -/
def colOf (u : FVec Ideal S128 .f32) : Fin 128 → EReal := fun j => u (ix1 j)

theorem meanX_eq_mu (P : FVec Ideal S50000x128 .f32) (j : Fin 128) :
    meanX P (ix1 j) = Spec.mu (gridX P) ((50000 : ℝ) : EReal) j := meanX_apply P j

theorem meanE_eq_mu (P : FVec Ideal S640000x128 .f32) (j : Fin 128) :
    meanE P (ix1 j) = Spec.mu (gridE P) ((640000 : ℝ) : EReal) j := meanE_apply P j

theorem varX_eq_var (P : FVec Ideal S50000x128 .f32) (j : Fin 128) :
    varX P (ix1 j) = Spec.var (gridX P) ((50000 : ℝ) : EReal) j := varX_apply P j

theorem varE_eq_var (P : FVec Ideal S640000x128 .f32) (j : Fin 128) :
    varE P (ix1 j) = Spec.var (gridE P) ((640000 : ℝ) : EReal) j := varE_apply P j

/-- The normalisation of the node side at (v, j), before the clip. -/
theorem bnX_apply (P : FVec Ideal S50000x128 .f32) (mu vr g b : FVec Ideal S128 .f32) (v : Fin 50000) (j : Fin 128) :
    bnX P mu vr g b (ix2 v j)
      = ((P (ix2 v j) - mu (ix1 j)) * Ideal.rsqrt (vr (ix1 j) + Spec.eps)) * g (ix1 j) + b (ix1 j) := by
  unfold bnX
  rw [addf_apply, mulf_apply, mulf_apply, subf_apply, rowX_apply, rowX_apply, rowX_apply, rowX_apply]
  show _ * FloatOps.hostUnary .rsqrt (addf vr _ (ix1 j)) * _ + _ = _
  rw [Ideal.hostUnary_rsqrt_def, addf_apply, Lay.scalar_apply, constant_apply]

/-- The normalisation of the edge side at (e, j), before the clip. -/
theorem bnE_apply (P : FVec Ideal S640000x128 .f32) (mu vr g b : FVec Ideal S128 .f32) (e : Fin 640000) (j : Fin 128) :
    bnE P mu vr g b (ix2 e j)
      = ((P (ix2 e j) - mu (ix1 j)) * Ideal.rsqrt (vr (ix1 j) + Spec.eps)) * g (ix1 j) + b (ix1 j) := by
  unfold bnE
  rw [addf_apply, mulf_apply, mulf_apply, subf_apply, rowE_apply, rowE_apply, rowE_apply, rowE_apply]
  show _ * FloatOps.hostUnary .rsqrt (addf vr _ (ix1 j)) * _ + _ = _
  rw [Ideal.hostUnary_rsqrt_def, addf_apply, Lay.scalar_apply, constant_apply]

/-- The node result at (v, j): the input entry plus the specification's normalised, clipped entry. -/
theorem outX_apply (x P : FVec Ideal S50000x128 .f32) (g b : FVec Ideal S128 .f32) (v : Fin 50000) (j : Fin 128) :
    outX x P g b (ix2 v j)
      = x (ix2 v j) + Spec.bn (gridX P) ((50000 : ℝ) : EReal) (colOf g) (colOf b) v j := by
  unfold outX
  rw [addf_apply, reluX_apply, bnX_apply, meanX_eq_mu, varX_eq_var]
  rfl

/-- The edge result at (e, j): the input entry plus the specification's normalised, clipped entry. -/
theorem outE_apply (x P : FVec Ideal S640000x128 .f32) (g b : FVec Ideal S128 .f32) (e : Fin 640000) (j : Fin 128) :
    outE x P g b (ix2 e j)
      = x (ix2 e j) + Spec.bn (gridE P) ((640000 : ℝ) : EReal) (colOf g) (colOf b) e j := by
  unfold outE
  rw [addf_apply, reluE_apply, bnE_apply, meanE_eq_mu, varE_eq_var]
  rfl

end Cert.RefOps

end
-- ==== Proof.Bridge.lean ====
import proofs.«137949_j58935541236529_2_alg».proof.Proof.Gen.KernelIdeal.Frame
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import proofs.«137949_j58935541236529_2_alg».proof.Proof.KValue
import proofs.«137949_j58935541236529_2_alg».proof.Proof.RefStages
import proofs.«137949_j58935541236529_2_alg».proof.Proof.RefOps
import proofs.«137949_j58935541236529_2_alg».proof.Proof.RefBn
import proofs.«137949_j58935541236529_2_alg».proof.Proof.LibRowIndex
import proofs.«137949_j58935541236529_2_alg».proof.Proof.LibReal
import proofs.«137949_j58935541236529_2_alg».proof.Proof.Spec
set_option maxRecDepth 16384

noncomputable section

namespace Cert.Bridge

open Idealize.ShloMosaic Idealize.ShloMosaic.TcCoe Idealize.ShloMosaic.Tactic Idealize.ShloMosaic.StableHlo Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

open Cert.GinMath Cert.KernelIdeal.KChain
open scoped BigOperators

/-! ## The two programs' host stages are the same functions

Both programs cut the two index columns from the edge table, gather rows of the node features and add the
messages up at their destinations with the same operations; only the names of the shapes differ between the two
printed files. -/

theorem vec0_eq (I : IVec Cert.KernelIdeal.S2x640000 32) : vec0 I = Cert.ReferenceIdeal.RefRun.srcRow I := rfl
theorem vec1_eq (I : IVec Cert.KernelIdeal.S2x640000 32) : vec1 I = Cert.ReferenceIdeal.RefRun.destRow I := rfl
theorem wrapCol_eq (v : IVec Cert.KernelIdeal.S640000 32) : wrapCol v = Cert.ReferenceIdeal.RefRun.wrapCol v := rfl
theorem aggOf_eq (col : IVec Cert.KernelIdeal.S640000x1 32) (u : FVec Ideal Cert.KernelIdeal.S640000x128 .f32) :
    aggOf col u = Cert.ReferenceIdeal.RefRun.aggOf (F := Ideal) col u := rfl

/-- The reference's row gather at an entry: the operand at the clamped row of the index column's entry. -/
theorem refGath_apply (x : FVec Ideal Cert.ReferenceIdeal.S50000x128 .f32) (col : IVec Cert.ReferenceIdeal.S640000x1 32)
    (e : Fin 640000) (k : Fin 128) :
    Cert.ReferenceIdeal.RefRun.gath (F := Ideal) x col (ix2 e k)
      = x (ix2 (Cert.RowIndex.clampRow 50000 (by norm_num) (col (ix2 e (0 : Fin 1)))) k) := by
  unfold Cert.ReferenceIdeal.RefRun.gath
  exact Cert.RowIndex.rowGather_apply (N := 50000) (E := 640000) (C := 128) (by norm_num)
    Cert.ReferenceIdeal.gather_S50000x128_S640000x1_S640000x128_1_0_n_n_0_1_1128.wf x col e k

/-- The kernel's messages are the reference's. -/
theorem msg_eq : msgArr m ρ c
    = Cert.ReferenceIdeal.RefRun.res_v13 (F := Ideal) (aX m ρ c) (aE m ρ c) (aI m ρ c) (aW2 m ρ c) := by
  funext i
  obtain ⟨e, j, rfl⟩ : ∃ (e : Fin 640000) (j : Fin 128), i = ix2 e j := ⟨i 0, i 1, eq_ix2 i⟩
  rw [msgArr_apply]
  unfold MK Cert.KernelIdeal.EdgeBlocks.Mf Cert.ReferenceIdeal.RefRun.res_v13 Cert.ReferenceIdeal.RefRun.msgOf
  rw [mulf_apply, Cert.RefOps.dotE_apply]
  refine congrArg (aE m ρ c (ix2 e j) * ·) (Finset.sum_congr rfl fun k _ => ?_)
  unfold xsK Cert.ReferenceIdeal.RefRun.res_v10 Cert.ReferenceIdeal.RefRun.res_v9
  rw [gath_apply, wT_apply, refGath_apply]
  rfl

/-- The kernel's node pre-activation is the reference's. -/
theorem PK_ref (v : Fin 50000) (j : Fin 128) :
    PK m ρ c v j = Cert.ReferenceIdeal.RefRun.res_v24 (F := Ideal) (aX m ρ c) (aE m ρ c) (aI m ρ c) (aW1 m ρ c) (aW2 m ρ c) (ix2 v j) := by
  unfold PK Cert.ReferenceIdeal.RefRun.res_v24 Cert.ReferenceIdeal.RefRun.preXOf Cert.ReferenceIdeal.RefRun.res_v21 Cert.ReferenceIdeal.RefRun.res_v20
  rw [addf_apply, Cert.RefOps.dotX_apply, msg_eq]
  rfl

/-- The kernel's edge pre-activation is the reference's. -/
theorem QK_ref (e : Fin 640000) (j : Fin 128) :
    QK m ρ c e j = Cert.ReferenceIdeal.RefRun.res_v67 (F := Ideal) (aX m ρ c) (aE m ρ c) (aI m ρ c) (aW3 m ρ c) (aW4 m ρ c) (aW5 m ρ c) (ix2 e j) := by
  unfold QK Cert.KernelIdeal.EdgeBlocks.Qf Cert.ReferenceIdeal.RefRun.res_v67 Cert.ReferenceIdeal.RefRun.res_v54 Cert.ReferenceIdeal.RefRun.res_v64
    Cert.ReferenceIdeal.RefRun.res_v10 Cert.ReferenceIdeal.RefRun.res_v20 Cert.ReferenceIdeal.RefRun.res_v9
  rw [addf_apply, addf_apply, Cert.RefOps.dotE_apply, Cert.RefOps.dotE_apply, Cert.RefOps.dotE_apply]
  refine congrArg₂ (· + ·) (congrArg₂ (· + ·) (Finset.sum_congr rfl fun k _ => ?_) (Finset.sum_congr rfl fun k _ => ?_))
    (Finset.sum_congr rfl fun k _ => ?_)
  · rw [wT_apply]
  · unfold xdK; rw [gath_apply, wT_apply, refGath_apply]; rfl
  · unfold xsK; rw [gath_apply, wT_apply, refGath_apply]; rfl

/-! ## The two results -/

theorem node_result (hx : ∀ i, IsReal (aX m ρ c i)) (he : ∀ i, IsReal (aE m ρ c i)) (h1 : ∀ i, IsReal (aW1 m ρ c i))
    (h2 : ∀ i, IsReal (aW2 m ρ c i)) :
    ((dat2 (V5 m ρ) c).arrAt 6 cfg2.N : Cert.KernelIdeal.S50000x128.Idx → EReal)
      = Cert.ReferenceIdeal.RefRun.resX (F := Ideal) (aX m ρ c) (aE m ρ c) (aI m ρ c) (aW1 m ρ c) (aW2 m ρ c) (aW3 m ρ c) (aW4 m ρ c)
          (aW5 m ρ c) (aGx m ρ c) (aBx m ρ c) (aGe m ρ c) (aBe m ρ c) := by
  funext i
  obtain ⟨v, j, rfl⟩ : ∃ (v : Fin 50000) (j : Fin 128), i = ix2 v j := ⟨i 0, i 1, eq_ix2 i⟩
  rw [node_entry m ρ c hx he h1 h2 v j]
  unfold Cert.ReferenceIdeal.RefRun.resX
  rw [Cert.RefOps.outX_apply]
  refine congrArg (aX m ρ c (ix2 v j) + ·) ?_
  have hP : PK m ρ c = Cert.RefOps.gridX (Cert.ReferenceIdeal.RefRun.res_v24 (F := Ideal) (aX m ρ c) (aE m ρ c) (aI m ρ c) (aW1 m ρ c) (aW2 m ρ c)) :=
    funext fun v => funext fun j => PK_ref m ρ c v j
  rw [hP]
  rfl

theorem edge_result (hx : ∀ i, IsReal (aX m ρ c i)) (he : ∀ i, IsReal (aE m ρ c i)) (h3 : ∀ i, IsReal (aW3 m ρ c i))
    (h4 : ∀ i, IsReal (aW4 m ρ c i)) (h5 : ∀ i, IsReal (aW5 m ρ c i)) :
    ((dat3 (V6 m ρ) c).arrAt 6 cfg3.N : Cert.KernelIdeal.S640000x128.Idx → EReal)
      = Cert.ReferenceIdeal.RefRun.resE (F := Ideal) (aX m ρ c) (aE m ρ c) (aI m ρ c) (aW1 m ρ c) (aW2 m ρ c) (aW3 m ρ c) (aW4 m ρ c)
          (aW5 m ρ c) (aGx m ρ c) (aBx m ρ c) (aGe m ρ c) (aBe m ρ c) := by
  funext i
  obtain ⟨e, j, rfl⟩ : ∃ (e : Fin 640000) (j : Fin 128), i = ix2 e j := ⟨i 0, i 1, eq_ix2 i⟩
  rw [edge_entry m ρ c hx he h3 h4 h5 e j]
  unfold Cert.ReferenceIdeal.RefRun.resE
  rw [Cert.RefOps.outE_apply]
  refine congrArg (aE m ρ c (ix2 e j) + ·) ?_
  have hQ : QK m ρ c = Cert.RefOps.gridE (Cert.ReferenceIdeal.RefRun.res_v67 (F := Ideal) (aX m ρ c) (aE m ρ c) (aI m ρ c) (aW3 m ρ c) (aW4 m ρ c) (aW5 m ρ c)) :=
    funext fun e => funext fun j => QK_ref m ρ c e j
  rw [hQ]
  rfl

end Cert.Bridge

end
-- ==== Proof.RefLine.lean ====
/-
  The reference's @main as a line of host operations: the four called functions' operations written out at their
  call sites over each call's buffers (a call runs the callee's body on the operands), in program order, and the same
  line cut into twelve consecutive stretches, one per stage of the computation, each with the list of buffers it
  writes (a buffer outside that list keeps its contents through the stretch).
-/
import proofs.«137949_j58935541236529_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 152 operations, in order, the calls unfolded. -/
abbrev ops : List (HloOp τ sig (Elt F)) :=
  [ StableHlo.unary main_arg2 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg2 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.nullary main_c (constantI S_ 32 0#32),
    StableHlo.unary main_c main_v4 (broadcastInDim S640000 ![] bcast_S_S640000 : (⟨S_, .i32⟩ : BufTy).Contents (Elt F) → (⟨S640000, .i32⟩ : BufTy).Contents (Elt F)),
    StableHlo.binary main_v1 main_v4 main_v5 (cmpi .slt : (⟨S640000, .i32⟩ : BufTy).Contents (Elt F) → (⟨S640000, .i32⟩ : BufTy).Contents (Elt F) → (⟨S640000, .i1⟩ : BufTy).Contents (Elt F)),
    StableHlo.nullary main_c_0 (constantI S_ 32 50000#32),
    StableHlo.unary main_c_0 main_v6 (broadcastInDim S640000 ![] bcast_S_S640000 : (⟨S_, .i32⟩ : BufTy).Contents (Elt F) → (⟨S640000, .i32⟩ : BufTy).Contents (Elt F)),
    StableHlo.binary main_v1 main_v6 main_v7 (addi : (⟨S640000, .i32⟩ : BufTy).Contents (Elt F) → (⟨S640000, .i32⟩ : BufTy).Contents (Elt F) → (⟨S640000, .i32⟩ : BufTy).Contents (Elt F)),
    StableHlo.ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v8 main_v9 (broadcastInDim S640000x1 ![0] bcast_S640000_S640000x1_0 : (⟨S640000, .i32⟩ : BufTy).Contents (Elt F) → (⟨S640000x1, .i32⟩ : BufTy).Contents (Elt F)),
    StableHlo.binary main_arg0 main_v9 main_v10 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.unary main_arg4 main_v11 ((transpose S128x128 [1, 0] · transposes_S128x128_S128x128_1_0) : (⟨S128x128, .f32⟩ : BufTy).Contents (Elt F) → (⟨S128x128, .f32⟩ : BufTy).Contents (Elt F)),
    StableHlo.binary main_v10 main_v11 main_v12 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    StableHlo.binary main_arg1 main_v12 main_v13 (mulf : (⟨S640000x128, .f32⟩ : BufTy).Contents (Elt F) → (⟨S640000x128, .f32⟩ : BufTy).Contents (Elt F) → (⟨S640000x128, .f32⟩ : BufTy).Contents (Elt F)),
    StableHlo.nullary main_cst (constant S_ .f32 0x00000000#32),
    StableHlo.unary main_cst main_v14 (broadcastInDim S50000x128 ![] bcast_S_S50000x128 : (⟨S_, .f32⟩ : BufTy).Contents (Elt F) → (⟨S50000x128, .f32⟩ : BufTy).Contents (Elt F)),
    StableHlo.nullary main_c_1 (constantI S_ 32 0#32),
    StableHlo.unary main_c_1 main_v15 (broadcastInDim S640000 ![] bcast_S_S640000 : (⟨S_, .i32⟩ : BufTy).Contents (Elt F) → (⟨S640000, .i32⟩ : BufTy).Contents (Elt F)),
    StableHlo.binary main_v3 main_v15 main_v16 (cmpi .slt : (⟨S640000, .i32⟩ : BufTy).Contents (Elt F) → (⟨S640000, .i32⟩ : BufTy).Contents (Elt F) → (⟨S640000, .i1⟩ : BufTy).Contents (Elt F)),
    StableHlo.nullary main_c_2 (constantI S_ 32 50000#32),
    StableHlo.unary main_c_2 main_v17 (broadcastInDim S640000 ![] bcast_S_S640000 : (⟨S_, .i32⟩ : BufTy).Contents (Elt F) → (⟨S640000, .i32⟩ : BufTy).Contents (Elt F)),
    StableHlo.binary main_v3 main_v17 main_v18 (addi : (⟨S640000, .i32⟩ : BufTy).Contents (Elt F) → (⟨S640000, .i32⟩ : BufTy).Contents (Elt F) → (⟨S640000, .i32⟩ : BufTy).Contents (Elt F)),
    StableHlo.ternary main_v16 main_v18 main_v3 main_v19 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v19 main_v20 (broadcastInDim S640000x1 ![0] bcast_S640000_S640000x1_0 : (⟨S640000, .i32⟩ : BufTy).Contents (Elt F) → (⟨S640000x1, .i32⟩ : BufTy).Contents (Elt F)),
    StableHlo.ternary main_v14 main_v20 main_v13 main_v21 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.unary main_arg3 main_v22 ((transpose S128x128 [1, 0] · transposes_S128x128_S128x128_1_0) : (⟨S128x128, .f32⟩ : BufTy).Contents (Elt F) → (⟨S128x128, .f32⟩ : BufTy).Contents (Elt F)),
    StableHlo.binary main_arg0 main_v22 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v23 main_v21 main_v24 (addf : (⟨S50000x128, .f32⟩ : BufTy).Contents (Elt F) → (⟨S50000x128, .f32⟩ : BufTy).Contents (Elt F) → (⟨S50000x128, .f32⟩ : BufTy).Contents (Elt F)),
    StableHlo.nullary main_cst_3 (constant S_ .f32 0x00000000#32),
    StableHlo.binary main_v24 main_cst_3 main_v25 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_4 (constant S_ .f32 0x47435000#32),
    StableHlo.unary main_cst_4 main_v26 (broadcastInDim S128 ![] bcast_S_S128 : (⟨S_, .f32⟩ : BufTy).Contents (Elt F) → (⟨S128, .f32⟩ : BufTy).Contents (Elt F)),
    StableHlo.binary main_v25 main_v26 main_v27 (Host.divf : (⟨S128, .f32⟩ : BufTy).Contents (Elt F) → (⟨S128, .f32⟩ : BufTy).Contents (Elt F) → (⟨S128, .f32⟩ : BufTy).Contents (Elt F)),
    StableHlo.nullary main_c_5 (constantI S_ 32 0#32),
    StableHlo.TRef.nullary main_call0.cst (constant S_ .f32 0x00000000#32),
    StableHlo.TRef.binary (.of main_v24) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v24) main_call0.v4 main_call0.v5 subf,
    StableHlo.TRef.binary main_call0.v5 main_call0.v5 main_call0.v6 mulf,
    StableHlo.TRef.unary (.of main_c_5) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v27 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S50000x128 ![0, 1] bcast_S1x128_S50000x128_0_1 : (⟨S1x128, .f32⟩ : BufTy).Contents (Elt F) → (⟨S50000x128, .f32⟩ : BufTy).Contents (Elt F)),
    StableHlo.binary main_v24 main_v30 main_v31 (subf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x3727C5AC#32),
    StableHlo.unary main_cst_6 main_v32 (broadcastInDim S128 ![] bcast_S_S128 : (⟨S_, .f32⟩ : BufTy).Contents (Elt F) → (⟨S128, .f32⟩ : BufTy).Contents (Elt F)),
    StableHlo.binary main_v28 main_v32 main_v33 (addf : (⟨S128, .f32⟩ : BufTy).Contents (Elt F) → (⟨S128, .f32⟩ : BufTy).Contents (Elt F) → (⟨S128, .f32⟩ : BufTy).Contents (Elt F)),
    StableHlo.unary main_v33 main_v34 (Host.rsqrt : (⟨S128, .f32⟩ : BufTy).Contents (Elt F) → (⟨S128, .f32⟩ : BufTy).Contents (Elt F)),
    StableHlo.unary main_v34 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S50000x128 ![0, 1] bcast_S1x128_S50000x128_0_1 : (⟨S1x128, .f32⟩ : BufTy).Contents (Elt F) → (⟨S50000x128, .f32⟩ : BufTy).Contents (Elt F)),
    StableHlo.binary main_v31 main_v36 main_v37 (mulf : (⟨S50000x128, .f32⟩ : BufTy).Contents (Elt F) → (⟨S50000x128, .f32⟩ : BufTy).Contents (Elt F) → (⟨S50000x128, .f32⟩ : BufTy).Contents (Elt F)),
    StableHlo.unary main_arg8 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S50000x128 ![0, 1] bcast_S1x128_S50000x128_0_1 : (⟨S1x128, .f32⟩ : BufTy).Contents (Elt F) → (⟨S50000x128, .f32⟩ : BufTy).Contents (Elt F)),
    StableHlo.binary main_v37 main_v39 main_v40 (mulf : (⟨S50000x128, .f32⟩ : BufTy).Contents (Elt F) → (⟨S50000x128, .f32⟩ : BufTy).Contents (Elt F) → (⟨S50000x128, .f32⟩ : BufTy).Contents (Elt F)),
    StableHlo.unary main_arg9 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v42 main_v43 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v43) main_call1.v0 main_call1.v1 maximumf,
    StableHlo.binary main_arg0 main_v44 main_v45 (addf : (⟨S50000x128, .f32⟩ : BufTy).Contents (Elt F) → (⟨S50000x128, .f32⟩ : BufTy).Contents (Elt F) → (⟨S50000x128, .f32⟩ : BufTy).Contents (Elt F)),
    StableHlo.unary main_arg5 main_v46 ((transpose S128x128 [1, 0] · transposes_S128x128_S128x128_1_0) : (⟨S128x128, .f32⟩ : BufTy).Contents (Elt F) → (⟨S128x128, .f32⟩ : BufTy).Contents (Elt F)),
    StableHlo.binary main_arg1 main_v46 main_v47 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    StableHlo.nullary main_c_7 (constantI S_ 32 0#32),
    StableHlo.unary main_c_7 main_v48 (broadcastInDim S640000 ![] bcast_S_S640000 : (⟨S_, .i32⟩ : BufTy).Contents (Elt F) → (⟨S640000, .i32⟩ : BufTy).Contents (Elt F)),
    StableHlo.binary main_v3 main_v48 main_v49 (cmpi .slt : (⟨S640000, .i32⟩ : BufTy).Contents (Elt F) → (⟨S640000, .i32⟩ : BufTy).Contents (Elt F) → (⟨S640000, .i1⟩ : BufTy).Contents (Elt F)),
    StableHlo.nullary main_c_8 (constantI S_ 32 50000#32),
    StableHlo.unary main_c_8 main_v50 (broadcastInDim S640000 ![] bcast_S_S640000 : (⟨S_, .i32⟩ : BufTy).Contents (Elt F) → (⟨S640000, .i32⟩ : BufTy).Contents (Elt F)),
    StableHlo.binary main_v3 main_v50 main_v51 (addi : (⟨S640000, .i32⟩ : BufTy).Contents (Elt F) → (⟨S640000, .i32⟩ : BufTy).Contents (Elt F) → (⟨S640000, .i32⟩ : BufTy).Contents (Elt F)),
    StableHlo.ternary main_v49 main_v51 main_v3 main_v52 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v52 main_v53 (broadcastInDim S640000x1 ![0] bcast_S640000_S640000x1_0 : (⟨S640000, .i32⟩ : BufTy).Contents (Elt F) → (⟨S640000x1, .i32⟩ : BufTy).Contents (Elt F)),
    StableHlo.binary main_arg0 main_v53 main_v54 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.unary main_arg6 main_v55 ((transpose S128x128 [1, 0] · transposes_S128x128_S128x128_1_0) : (⟨S128x128, .f32⟩ : BufTy).Contents (Elt F) → (⟨S128x128, .f32⟩ : BufTy).Contents (Elt F)),
    StableHlo.binary main_v54 main_v55 main_v56 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    StableHlo.binary main_v47 main_v56 main_v57 (addf : (⟨S640000x128, .f32⟩ : BufTy).Contents (Elt F) → (⟨S640000x128, .f32⟩ : BufTy).Contents (Elt F) → (⟨S640000x128, .f32⟩ : BufTy).Contents (Elt F)),
    StableHlo.nullary main_c_9 (constantI S_ 32 0#32),
    StableHlo.unary main_c_9 main_v58 (broadcastInDim S640000 ![] bcast_S_S640000 : (⟨S_, .i32⟩ : BufTy).Contents (Elt F) → (⟨S640000, .i32⟩ : BufTy).Contents (Elt F)),
    StableHlo.binary main_v1 main_v58 main_v59 (cmpi .slt : (⟨S640000, .i32⟩ : BufTy).Contents (Elt F) → (⟨S640000, .i32⟩ : BufTy).Contents (Elt F) → (⟨S640000, .i1⟩ : BufTy).Contents (Elt F)),
    StableHlo.nullary main_c_10 (constantI S_ 32 50000#32),
    StableHlo.unary main_c_10 main_v60 (broadcastInDim S640000 ![] bcast_S_S640000 : (⟨S_, .i32⟩ : BufTy).Contents (Elt F) → (⟨S640000, .i32⟩ : BufTy).Contents (Elt F)),
    StableHlo.binary main_v1 main_v60 main_v61 (addi : (⟨S640000, .i32⟩ : BufTy).Contents (Elt F) → (⟨S640000, .i32⟩ : BufTy).Contents (Elt F) → (⟨S640000, .i32⟩ : BufTy).Contents (Elt F)),
    StableHlo.ternary main_v59 main_v61 main_v1 main_v62 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v62 main_v63 (broadcastInDim S640000x1 ![0] bcast_S640000_S640000x1_0 : (⟨S640000, .i32⟩ : BufTy).Contents (Elt F) → (⟨S640000x1, .i32⟩ : BufTy).Contents (Elt F)),
    StableHlo.binary main_arg0 main_v63 main_v64 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.unary main_arg7 main_v65 ((transpose S128x128 [1, 0] · transposes_S128x128_S128x128_1_0) : (⟨S128x128, .f32⟩ : BufTy).Contents (Elt F) → (⟨S128x128, .f32⟩ : BufTy).Contents (Elt F)),
    StableHlo.binary main_v64 main_v65 main_v66 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    StableHlo.binary main_v57 main_v66 main_v67 (addf : (⟨S640000x128, .f32⟩ : BufTy).Contents (Elt F) → (⟨S640000x128, .f32⟩ : BufTy).Contents (Elt F) → (⟨S640000x128, .f32⟩ : BufTy).Contents (Elt F)),
    StableHlo.nullary main_cst_11 (constant S_ .f32 0x00000000#32),
    StableHlo.binary main_v67 main_cst_11 main_v68 ((fun x v => Host.reduceAdd x v reducesTo_S640000x128_S128_d0 h_S_) : (⟨S640000x128, .f32⟩ : BufTy).Contents (Elt F) → (⟨S_, .f32⟩ : BufTy).Contents (Elt F) → (⟨S128, .f32⟩ : BufTy).Contents (Elt F)),
    StableHlo.nullary main_cst_12 (constant S_ .f32 0x491C4000#32),
    StableHlo.unary main_cst_12 main_v69 (broadcastInDim S128 ![] bcast_S_S128 : (⟨S_, .f32⟩ : BufTy).Contents (Elt F) → (⟨S128, .f32⟩ : BufTy).Contents (Elt F)),
    StableHlo.binary main_v68 main_v69 main_v70 (Host.divf : (⟨S128, .f32⟩ : BufTy).Contents (Elt F) → (⟨S128, .f32⟩ : BufTy).Contents (Elt F) → (⟨S128, .f32⟩ : BufTy).Contents (Elt F)),
    StableHlo.nullary main_c_13 (constantI S_ 32 0#32),
    StableHlo.TRef.nullary main_call2.cst (constant S_ .f32 0x00000000#32),
    StableHlo.TRef.binary (.of main_v67) main_call2.cst main_call2.v0 (fun x v => Host.reduceAdd x v reducesTo_S640000x128_S128_d0 h_S_),
    StableHlo.TRef.unary main_call2.v0 main_call2.v1 (broadcastInDim S1x128 ![1] bcast_S128_S1x128_1),
    StableHlo.TRef.nullary main_call2.cst_0 (constant S_ .f32 0x491C4000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S640000x128 ![0, 1] bcast_S1x128_S640000x128_0_1),
    StableHlo.TRef.binary (.of main_v67) main_call2.v4 main_call2.v5 subf,
    StableHlo.TRef.binary main_call2.v5 main_call2.v5 main_call2.v6 mulf,
    StableHlo.TRef.unary (.of main_c_13) main_call2.v7 (sitofp .f32),
    StableHlo.TRef.nullary main_call2.cst_1 (constant S_ .f32 0x491C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S640000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v70 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S640000x128 ![0, 1] bcast_S1x128_S640000x128_0_1 : (⟨S1x128, .f32⟩ : BufTy).Contents (Elt F) → (⟨S640000x128, .f32⟩ : BufTy).Contents (Elt F)),
    StableHlo.binary main_v67 main_v73 main_v74 (subf : (⟨S640000x128, .f32⟩ : BufTy).Contents (Elt F) → (⟨S640000x128, .f32⟩ : BufTy).Contents (Elt F) → (⟨S640000x128, .f32⟩ : BufTy).Contents (Elt F)),
    StableHlo.nullary main_cst_14 (constant S_ .f32 0x3727C5AC#32),
    StableHlo.unary main_cst_14 main_v75 (broadcastInDim S128 ![] bcast_S_S128 : (⟨S_, .f32⟩ : BufTy).Contents (Elt F) → (⟨S128, .f32⟩ : BufTy).Contents (Elt F)),
    StableHlo.binary main_v71 main_v75 main_v76 (addf : (⟨S128, .f32⟩ : BufTy).Contents (Elt F) → (⟨S128, .f32⟩ : BufTy).Contents (Elt F) → (⟨S128, .f32⟩ : BufTy).Contents (Elt F)),
    StableHlo.unary main_v76 main_v77 (Host.rsqrt : (⟨S128, .f32⟩ : BufTy).Contents (Elt F) → (⟨S128, .f32⟩ : BufTy).Contents (Elt F)),
    StableHlo.unary main_v77 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S640000x128 ![0, 1] bcast_S1x128_S640000x128_0_1 : (⟨S1x128, .f32⟩ : BufTy).Contents (Elt F) → (⟨S640000x128, .f32⟩ : BufTy).Contents (Elt F)),
    StableHlo.binary main_v74 main_v79 main_v80 (mulf : (⟨S640000x128, .f32⟩ : BufTy).Contents (Elt F) → (⟨S640000x128, .f32⟩ : BufTy).Contents (Elt F) → (⟨S640000x128, .f32⟩ : BufTy).Contents (Elt F)),
    StableHlo.unary main_arg10 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S640000x128 ![0, 1] bcast_S1x128_S640000x128_0_1 : (⟨S1x128, .f32⟩ : BufTy).Contents (Elt F) → (⟨S640000x128, .f32⟩ : BufTy).Contents (Elt F)),
    StableHlo.binary main_v80 main_v82 main_v83 (mulf : (⟨S640000x128, .f32⟩ : BufTy).Contents (Elt F) → (⟨S640000x128, .f32⟩ : BufTy).Contents (Elt F) → (⟨S640000x128, .f32⟩ : BufTy).Contents (Elt F)),
    StableHlo.unary main_arg11 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S640000x128 ![0, 1] bcast_S1x128_S640000x128_0_1 : (⟨S1x128, .f32⟩ : BufTy).Contents (Elt F) → (⟨S640000x128, .f32⟩ : BufTy).Contents (Elt F)),
    StableHlo.binary main_v83 main_v85 main_v86 (addf : (⟨S640000x128, .f32⟩ : BufTy).Contents (Elt F) → (⟨S640000x128, .f32⟩ : BufTy).Contents (Elt F) → (⟨S640000x128, .f32⟩ : BufTy).Contents (Elt F)),
    StableHlo.TRef.nullary main_call3.cst (constant S_ .f32 0x00000000#32),
    StableHlo.TRef.unary main_call3.cst main_call3.v0 (broadcastInDim S640000x128 ![] bcast_S_S640000x128),
    StableHlo.TRef.binary (.of main_v86) main_call3.v0 main_call3.v1 maximumf,
    StableHlo.binary main_arg1 main_v87 main_v88 (addf : (⟨S640000x128, .f32⟩ : BufTy).Contents (Elt F) → (⟨S640000x128, .f32⟩ : BufTy).Contents (Elt F) → (⟨S640000x128, .f32⟩ : BufTy).Contents (Elt F)) ]

/-- Operations 1 … 13. -/
abbrev opsA : List (HloOp τ sig (Elt F)) :=
  [ StableHlo.unary main_arg2 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg2 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.nullary main_c (constantI S_ 32 0#32),
    StableHlo.unary main_c main_v4 (broadcastInDim S640000 ![] bcast_S_S640000 : (⟨S_, .i32⟩ : BufTy).Contents (Elt F) → (⟨S640000, .i32⟩ : BufTy).Contents (Elt F)),
    StableHlo.binary main_v1 main_v4 main_v5 (cmpi .slt : (⟨S640000, .i32⟩ : BufTy).Contents (Elt F) → (⟨S640000, .i32⟩ : BufTy).Contents (Elt F) → (⟨S640000, .i1⟩ : BufTy).Contents (Elt F)),
    StableHlo.nullary main_c_0 (constantI S_ 32 50000#32),
    StableHlo.unary main_c_0 main_v6 (broadcastInDim S640000 ![] bcast_S_S640000 : (⟨S_, .i32⟩ : BufTy).Contents (Elt F) → (⟨S640000, .i32⟩ : BufTy).Contents (Elt F)),
    StableHlo.binary main_v1 main_v6 main_v7 (addi : (⟨S640000, .i32⟩ : BufTy).Contents (Elt F) → (⟨S640000, .i32⟩ : BufTy).Contents (Elt F) → (⟨S640000, .i32⟩ : BufTy).Contents (Elt F)),
    StableHlo.ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v8 main_v9 (broadcastInDim S640000x1 ![0] bcast_S640000_S640000x1_0 : (⟨S640000, .i32⟩ : BufTy).Contents (Elt F) → (⟨S640000x1, .i32⟩ : BufTy).Contents (Elt F)),
    StableHlo.binary main_arg0 main_v9 main_v10 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)) ]

/-- The buffers that stretch writes. -/
abbrev opsA_W : List (Ref sig .tc) := [main_v0, main_v1, main_v2, main_v3, main_c, main_v4, main_v5, main_c_0, main_v6, main_v7, main_v8, main_v9, main_v10]

theorem opsA_writes : (opsA : List (HloOp τ sig (Elt F))).Forall fun op => op.writes ⊆ (opsA_W.map (Proc.devRef (τ := τ) .tc)).toFinset := by
  simp only [List.Forall]
  exact ⟨by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide)⟩

/-- Operations 14 … 27. -/
abbrev opsB : List (HloOp τ sig (Elt F)) :=
  [ StableHlo.unary main_arg4 main_v11 ((transpose S128x128 [1, 0] · transposes_S128x128_S128x128_1_0) : (⟨S128x128, .f32⟩ : BufTy).Contents (Elt F) → (⟨S128x128, .f32⟩ : BufTy).Contents (Elt F)),
    StableHlo.binary main_v10 main_v11 main_v12 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    StableHlo.binary main_arg1 main_v12 main_v13 (mulf : (⟨S640000x128, .f32⟩ : BufTy).Contents (Elt F) → (⟨S640000x128, .f32⟩ : BufTy).Contents (Elt F) → (⟨S640000x128, .f32⟩ : BufTy).Contents (Elt F)),
    StableHlo.nullary main_cst (constant S_ .f32 0x00000000#32),
    StableHlo.unary main_cst main_v14 (broadcastInDim S50000x128 ![] bcast_S_S50000x128 : (⟨S_, .f32⟩ : BufTy).Contents (Elt F) → (⟨S50000x128, .f32⟩ : BufTy).Contents (Elt F)),
    StableHlo.nullary main_c_1 (constantI S_ 32 0#32),
    StableHlo.unary main_c_1 main_v15 (broadcastInDim S640000 ![] bcast_S_S640000 : (⟨S_, .i32⟩ : BufTy).Contents (Elt F) → (⟨S640000, .i32⟩ : BufTy).Contents (Elt F)),
    StableHlo.binary main_v3 main_v15 main_v16 (cmpi .slt : (⟨S640000, .i32⟩ : BufTy).Contents (Elt F) → (⟨S640000, .i32⟩ : BufTy).Contents (Elt F) → (⟨S640000, .i1⟩ : BufTy).Contents (Elt F)),
    StableHlo.nullary main_c_2 (constantI S_ 32 50000#32),
    StableHlo.unary main_c_2 main_v17 (broadcastInDim S640000 ![] bcast_S_S640000 : (⟨S_, .i32⟩ : BufTy).Contents (Elt F) → (⟨S640000, .i32⟩ : BufTy).Contents (Elt F)),
    StableHlo.binary main_v3 main_v17 main_v18 (addi : (⟨S640000, .i32⟩ : BufTy).Contents (Elt F) → (⟨S640000, .i32⟩ : BufTy).Contents (Elt F) → (⟨S640000, .i32⟩ : BufTy).Contents (Elt F)),
    StableHlo.ternary main_v16 main_v18 main_v3 main_v19 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v19 main_v20 (broadcastInDim S640000x1 ![0] bcast_S640000_S640000x1_0 : (⟨S640000, .i32⟩ : BufTy).Contents (Elt F) → (⟨S640000x1, .i32⟩ : BufTy).Contents (Elt F)),
    StableHlo.ternary main_v14 main_v20 main_v13 main_v21 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) ]

/-- The buffers that stretch writes. -/
abbrev opsB_W : List (Ref sig .tc) := [main_v11, main_v12, main_v13, main_cst, main_v14, main_c_1, main_v15, main_v16, main_c_2, main_v17, main_v18, main_v19, main_v20, main_v21]

theorem opsB_writes : (opsB : List (HloOp τ sig (Elt F))).Forall fun op => op.writes ⊆ (opsB_W.map (Proc.devRef (τ := τ) .tc)).toFinset := by
  simp only [List.Forall]
  exact ⟨by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide)⟩

/-- Operations 28 … 36. -/
abbrev opsC : List (HloOp τ sig (Elt F)) :=
  [ StableHlo.unary main_arg3 main_v22 ((transpose S128x128 [1, 0] · transposes_S128x128_S128x128_1_0) : (⟨S128x128, .f32⟩ : BufTy).Contents (Elt F) → (⟨S128x128, .f32⟩ : BufTy).Contents (Elt F)),
    StableHlo.binary main_arg0 main_v22 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v23 main_v21 main_v24 (addf : (⟨S50000x128, .f32⟩ : BufTy).Contents (Elt F) → (⟨S50000x128, .f32⟩ : BufTy).Contents (Elt F) → (⟨S50000x128, .f32⟩ : BufTy).Contents (Elt F)),
    StableHlo.nullary main_cst_3 (constant S_ .f32 0x00000000#32),
    StableHlo.binary main_v24 main_cst_3 main_v25 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_4 (constant S_ .f32 0x47435000#32),
    StableHlo.unary main_cst_4 main_v26 (broadcastInDim S128 ![] bcast_S_S128 : (⟨S_, .f32⟩ : BufTy).Contents (Elt F) → (⟨S128, .f32⟩ : BufTy).Contents (Elt F)),
    StableHlo.binary main_v25 main_v26 main_v27 (Host.divf : (⟨S128, .f32⟩ : BufTy).Contents (Elt F) → (⟨S128, .f32⟩ : BufTy).Contents (Elt F) → (⟨S128, .f32⟩ : BufTy).Contents (Elt F)),
    StableHlo.nullary main_c_5 (constantI S_ 32 0#32) ]

/-- The buffers that stretch writes. -/
abbrev opsC_W : List (Ref sig .tc) := [main_v22, main_v23, main_v24, main_cst_3, main_v25, main_cst_4, main_v26, main_v27, main_c_5]

theorem opsC_writes : (opsC : List (HloOp τ sig (Elt F))).Forall fun op => op.writes ⊆ (opsC_W.map (Proc.devRef (τ := τ) .tc)).toFinset := by
  simp only [List.Forall]
  exact ⟨by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide)⟩

/-- Operations 37 … 58. -/
abbrev opsD : List (HloOp τ sig (Elt F)) :=
  [ StableHlo.TRef.nullary main_call0.cst (constant S_ .f32 0x00000000#32),
    StableHlo.TRef.binary (.of main_v24) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v24) main_call0.v4 main_call0.v5 subf,
    StableHlo.TRef.binary main_call0.v5 main_call0.v5 main_call0.v6 mulf,
    StableHlo.TRef.unary (.of main_c_5) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

/-- The buffers that stretch writes. -/
abbrev opsD_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v28]

theorem opsD_writes : (opsD : List (HloOp τ sig (Elt F))).Forall fun op => op.writes ⊆ (opsD_W.map (Proc.devRef (τ := τ) .tc)).toFinset := by
  simp only [List.Forall]
  exact ⟨by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide)⟩

/-- Operations 59 … 74. -/
abbrev opsE : List (HloOp τ sig (Elt F)) :=
  [ StableHlo.unary main_v27 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S50000x128 ![0, 1] bcast_S1x128_S50000x128_0_1 : (⟨S1x128, .f32⟩ : BufTy).Contents (Elt F) → (⟨S50000x128, .f32⟩ : BufTy).Contents (Elt F)),
    StableHlo.binary main_v24 main_v30 main_v31 (subf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x3727C5AC#32),
    StableHlo.unary main_cst_6 main_v32 (broadcastInDim S128 ![] bcast_S_S128 : (⟨S_, .f32⟩ : BufTy).Contents (Elt F) → (⟨S128, .f32⟩ : BufTy).Contents (Elt F)),
    StableHlo.binary main_v28 main_v32 main_v33 (addf : (⟨S128, .f32⟩ : BufTy).Contents (Elt F) → (⟨S128, .f32⟩ : BufTy).Contents (Elt F) → (⟨S128, .f32⟩ : BufTy).Contents (Elt F)),
    StableHlo.unary main_v33 main_v34 (Host.rsqrt : (⟨S128, .f32⟩ : BufTy).Contents (Elt F) → (⟨S128, .f32⟩ : BufTy).Contents (Elt F)),
    StableHlo.unary main_v34 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S50000x128 ![0, 1] bcast_S1x128_S50000x128_0_1 : (⟨S1x128, .f32⟩ : BufTy).Contents (Elt F) → (⟨S50000x128, .f32⟩ : BufTy).Contents (Elt F)),
    StableHlo.binary main_v31 main_v36 main_v37 (mulf : (⟨S50000x128, .f32⟩ : BufTy).Contents (Elt F) → (⟨S50000x128, .f32⟩ : BufTy).Contents (Elt F) → (⟨S50000x128, .f32⟩ : BufTy).Contents (Elt F)),
    StableHlo.unary main_arg8 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S50000x128 ![0, 1] bcast_S1x128_S50000x128_0_1 : (⟨S1x128, .f32⟩ : BufTy).Contents (Elt F) → (⟨S50000x128, .f32⟩ : BufTy).Contents (Elt F)),
    StableHlo.binary main_v37 main_v39 main_v40 (mulf : (⟨S50000x128, .f32⟩ : BufTy).Contents (Elt F) → (⟨S50000x128, .f32⟩ : BufTy).Contents (Elt F) → (⟨S50000x128, .f32⟩ : BufTy).Contents (Elt F)),
    StableHlo.unary main_arg9 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v42 main_v43 (addf : (⟨S50000x128, .f32⟩ : BufTy).Contents (Elt F) → (⟨S50000x128, .f32⟩ : BufTy).Contents (Elt F) → (⟨S50000x128, .f32⟩ : BufTy).Contents (Elt F)) ]

/-- The buffers that stretch writes. -/
abbrev opsE_W : List (Ref sig .tc) := [main_v29, main_v30, main_v31, main_cst_6, main_v32, main_v33, main_v34, main_v35, main_v36, main_v37, main_v38, main_v39, main_v40, main_v41, main_v42, main_v43]

theorem opsE_writes : (opsE : List (HloOp τ sig (Elt F))).Forall fun op => op.writes ⊆ (opsE_W.map (Proc.devRef (τ := τ) .tc)).toFinset := by
  simp only [List.Forall]
  exact ⟨by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide)⟩

/-- Operations 75 … 78. -/
abbrev opsFw : List (HloOp τ sig (Elt F)) :=
  [ StableHlo.TRef.nullary main_call1.cst (constant S_ .f32 0x00000000#32),
    StableHlo.TRef.unary main_call1.cst main_call1.v0 (broadcastInDim S50000x128 ![] bcast_S_S50000x128),
    StableHlo.TRef.binary (.of main_v43) main_call1.v0 main_call1.v1 maximumf,
    StableHlo.binary main_arg0 main_v44 main_v45 (addf : (⟨S50000x128, .f32⟩ : BufTy).Contents (Elt F) → (⟨S50000x128, .f32⟩ : BufTy).Contents (Elt F) → (⟨S50000x128, .f32⟩ : BufTy).Contents (Elt F)) ]

/-- The buffers that stretch writes. -/
abbrev opsFw_W : List (Ref sig .tc) := [main_call1_cst, main_call1_v0, main_v44, main_v45]

theorem opsFw_writes : (opsFw : List (HloOp τ sig (Elt F))).Forall fun op => op.writes ⊆ (opsFw_W.map (Proc.devRef (τ := τ) .tc)).toFinset := by
  simp only [List.Forall]
  exact ⟨by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide)⟩

/-- Operations 79 … 92. -/
abbrev opsG : List (HloOp τ sig (Elt F)) :=
  [ StableHlo.unary main_arg5 main_v46 ((transpose S128x128 [1, 0] · transposes_S128x128_S128x128_1_0) : (⟨S128x128, .f32⟩ : BufTy).Contents (Elt F) → (⟨S128x128, .f32⟩ : BufTy).Contents (Elt F)),
    StableHlo.binary main_arg1 main_v46 main_v47 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    StableHlo.nullary main_c_7 (constantI S_ 32 0#32),
    StableHlo.unary main_c_7 main_v48 (broadcastInDim S640000 ![] bcast_S_S640000 : (⟨S_, .i32⟩ : BufTy).Contents (Elt F) → (⟨S640000, .i32⟩ : BufTy).Contents (Elt F)),
    StableHlo.binary main_v3 main_v48 main_v49 (cmpi .slt : (⟨S640000, .i32⟩ : BufTy).Contents (Elt F) → (⟨S640000, .i32⟩ : BufTy).Contents (Elt F) → (⟨S640000, .i1⟩ : BufTy).Contents (Elt F)),
    StableHlo.nullary main_c_8 (constantI S_ 32 50000#32),
    StableHlo.unary main_c_8 main_v50 (broadcastInDim S640000 ![] bcast_S_S640000 : (⟨S_, .i32⟩ : BufTy).Contents (Elt F) → (⟨S640000, .i32⟩ : BufTy).Contents (Elt F)),
    StableHlo.binary main_v3 main_v50 main_v51 (addi : (⟨S640000, .i32⟩ : BufTy).Contents (Elt F) → (⟨S640000, .i32⟩ : BufTy).Contents (Elt F) → (⟨S640000, .i32⟩ : BufTy).Contents (Elt F)),
    StableHlo.ternary main_v49 main_v51 main_v3 main_v52 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v52 main_v53 (broadcastInDim S640000x1 ![0] bcast_S640000_S640000x1_0 : (⟨S640000, .i32⟩ : BufTy).Contents (Elt F) → (⟨S640000x1, .i32⟩ : BufTy).Contents (Elt F)),
    StableHlo.binary main_arg0 main_v53 main_v54 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.unary main_arg6 main_v55 ((transpose S128x128 [1, 0] · transposes_S128x128_S128x128_1_0) : (⟨S128x128, .f32⟩ : BufTy).Contents (Elt F) → (⟨S128x128, .f32⟩ : BufTy).Contents (Elt F)),
    StableHlo.binary main_v54 main_v55 main_v56 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    StableHlo.binary main_v47 main_v56 main_v57 (addf : (⟨S640000x128, .f32⟩ : BufTy).Contents (Elt F) → (⟨S640000x128, .f32⟩ : BufTy).Contents (Elt F) → (⟨S640000x128, .f32⟩ : BufTy).Contents (Elt F)) ]

/-- The buffers that stretch writes. -/
abbrev opsG_W : List (Ref sig .tc) := [main_v46, main_v47, main_c_7, main_v48, main_v49, main_c_8, main_v50, main_v51, main_v52, main_v53, main_v54, main_v55, main_v56, main_v57]

theorem opsG_writes : (opsG : List (HloOp τ sig (Elt F))).Forall fun op => op.writes ⊆ (opsG_W.map (Proc.devRef (τ := τ) .tc)).toFinset := by
  simp only [List.Forall]
  exact ⟨by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide)⟩

/-- Operations 93 … 104. -/
abbrev opsH : List (HloOp τ sig (Elt F)) :=
  [ StableHlo.nullary main_c_9 (constantI S_ 32 0#32),
    StableHlo.unary main_c_9 main_v58 (broadcastInDim S640000 ![] bcast_S_S640000 : (⟨S_, .i32⟩ : BufTy).Contents (Elt F) → (⟨S640000, .i32⟩ : BufTy).Contents (Elt F)),
    StableHlo.binary main_v1 main_v58 main_v59 (cmpi .slt : (⟨S640000, .i32⟩ : BufTy).Contents (Elt F) → (⟨S640000, .i32⟩ : BufTy).Contents (Elt F) → (⟨S640000, .i1⟩ : BufTy).Contents (Elt F)),
    StableHlo.nullary main_c_10 (constantI S_ 32 50000#32),
    StableHlo.unary main_c_10 main_v60 (broadcastInDim S640000 ![] bcast_S_S640000 : (⟨S_, .i32⟩ : BufTy).Contents (Elt F) → (⟨S640000, .i32⟩ : BufTy).Contents (Elt F)),
    StableHlo.binary main_v1 main_v60 main_v61 (addi : (⟨S640000, .i32⟩ : BufTy).Contents (Elt F) → (⟨S640000, .i32⟩ : BufTy).Contents (Elt F) → (⟨S640000, .i32⟩ : BufTy).Contents (Elt F)),
    StableHlo.ternary main_v59 main_v61 main_v1 main_v62 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v62 main_v63 (broadcastInDim S640000x1 ![0] bcast_S640000_S640000x1_0 : (⟨S640000, .i32⟩ : BufTy).Contents (Elt F) → (⟨S640000x1, .i32⟩ : BufTy).Contents (Elt F)),
    StableHlo.binary main_arg0 main_v63 main_v64 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.unary main_arg7 main_v65 ((transpose S128x128 [1, 0] · transposes_S128x128_S128x128_1_0) : (⟨S128x128, .f32⟩ : BufTy).Contents (Elt F) → (⟨S128x128, .f32⟩ : BufTy).Contents (Elt F)),
    StableHlo.binary main_v64 main_v65 main_v66 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    StableHlo.binary main_v57 main_v66 main_v67 (addf : (⟨S640000x128, .f32⟩ : BufTy).Contents (Elt F) → (⟨S640000x128, .f32⟩ : BufTy).Contents (Elt F) → (⟨S640000x128, .f32⟩ : BufTy).Contents (Elt F)) ]

/-- The buffers that stretch writes. -/
abbrev opsH_W : List (Ref sig .tc) := [main_c_9, main_v58, main_v59, main_c_10, main_v60, main_v61, main_v62, main_v63, main_v64, main_v65, main_v66, main_v67]

theorem opsH_writes : (opsH : List (HloOp τ sig (Elt F))).Forall fun op => op.writes ⊆ (opsH_W.map (Proc.devRef (τ := τ) .tc)).toFinset := by
  simp only [List.Forall]
  exact ⟨by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide)⟩

/-- Operations 105 … 110. -/
abbrev opsI : List (HloOp τ sig (Elt F)) :=
  [ StableHlo.nullary main_cst_11 (constant S_ .f32 0x00000000#32),
    StableHlo.binary main_v67 main_cst_11 main_v68 ((fun x v => Host.reduceAdd x v reducesTo_S640000x128_S128_d0 h_S_) : (⟨S640000x128, .f32⟩ : BufTy).Contents (Elt F) → (⟨S_, .f32⟩ : BufTy).Contents (Elt F) → (⟨S128, .f32⟩ : BufTy).Contents (Elt F)),
    StableHlo.nullary main_cst_12 (constant S_ .f32 0x491C4000#32),
    StableHlo.unary main_cst_12 main_v69 (broadcastInDim S128 ![] bcast_S_S128 : (⟨S_, .f32⟩ : BufTy).Contents (Elt F) → (⟨S128, .f32⟩ : BufTy).Contents (Elt F)),
    StableHlo.binary main_v68 main_v69 main_v70 (Host.divf : (⟨S128, .f32⟩ : BufTy).Contents (Elt F) → (⟨S128, .f32⟩ : BufTy).Contents (Elt F) → (⟨S128, .f32⟩ : BufTy).Contents (Elt F)),
    StableHlo.nullary main_c_13 (constantI S_ 32 0#32) ]

/-- The buffers that stretch writes. -/
abbrev opsI_W : List (Ref sig .tc) := [main_cst_11, main_v68, main_cst_12, main_v69, main_v70, main_c_13]

theorem opsI_writes : (opsI : List (HloOp τ sig (Elt F))).Forall fun op => op.writes ⊆ (opsI_W.map (Proc.devRef (τ := τ) .tc)).toFinset := by
  simp only [List.Forall]
  exact ⟨by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide)⟩

/-- Operations 111 … 132. -/
abbrev opsJ : List (HloOp τ sig (Elt F)) :=
  [ StableHlo.TRef.nullary main_call2.cst (constant S_ .f32 0x00000000#32),
    StableHlo.TRef.binary (.of main_v67) main_call2.cst main_call2.v0 (fun x v => Host.reduceAdd x v reducesTo_S640000x128_S128_d0 h_S_),
    StableHlo.TRef.unary main_call2.v0 main_call2.v1 (broadcastInDim S1x128 ![1] bcast_S128_S1x128_1),
    StableHlo.TRef.nullary main_call2.cst_0 (constant S_ .f32 0x491C4000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S640000x128 ![0, 1] bcast_S1x128_S640000x128_0_1),
    StableHlo.TRef.binary (.of main_v67) main_call2.v4 main_call2.v5 subf,
    StableHlo.TRef.binary main_call2.v5 main_call2.v5 main_call2.v6 mulf,
    StableHlo.TRef.unary (.of main_c_13) main_call2.v7 (sitofp .f32),
    StableHlo.TRef.nullary main_call2.cst_1 (constant S_ .f32 0x491C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S640000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- The buffers that stretch writes. -/
abbrev opsJ_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v71]

theorem opsJ_writes : (opsJ : List (HloOp τ sig (Elt F))).Forall fun op => op.writes ⊆ (opsJ_W.map (Proc.devRef (τ := τ) .tc)).toFinset := by
  simp only [List.Forall]
  exact ⟨by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide)⟩

/-- Operations 133 … 148. -/
abbrev opsK : List (HloOp τ sig (Elt F)) :=
  [ StableHlo.unary main_v70 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S640000x128 ![0, 1] bcast_S1x128_S640000x128_0_1 : (⟨S1x128, .f32⟩ : BufTy).Contents (Elt F) → (⟨S640000x128, .f32⟩ : BufTy).Contents (Elt F)),
    StableHlo.binary main_v67 main_v73 main_v74 (subf : (⟨S640000x128, .f32⟩ : BufTy).Contents (Elt F) → (⟨S640000x128, .f32⟩ : BufTy).Contents (Elt F) → (⟨S640000x128, .f32⟩ : BufTy).Contents (Elt F)),
    StableHlo.nullary main_cst_14 (constant S_ .f32 0x3727C5AC#32),
    StableHlo.unary main_cst_14 main_v75 (broadcastInDim S128 ![] bcast_S_S128 : (⟨S_, .f32⟩ : BufTy).Contents (Elt F) → (⟨S128, .f32⟩ : BufTy).Contents (Elt F)),
    StableHlo.binary main_v71 main_v75 main_v76 (addf : (⟨S128, .f32⟩ : BufTy).Contents (Elt F) → (⟨S128, .f32⟩ : BufTy).Contents (Elt F) → (⟨S128, .f32⟩ : BufTy).Contents (Elt F)),
    StableHlo.unary main_v76 main_v77 (Host.rsqrt : (⟨S128, .f32⟩ : BufTy).Contents (Elt F) → (⟨S128, .f32⟩ : BufTy).Contents (Elt F)),
    StableHlo.unary main_v77 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S640000x128 ![0, 1] bcast_S1x128_S640000x128_0_1 : (⟨S1x128, .f32⟩ : BufTy).Contents (Elt F) → (⟨S640000x128, .f32⟩ : BufTy).Contents (Elt F)),
    StableHlo.binary main_v74 main_v79 main_v80 (mulf : (⟨S640000x128, .f32⟩ : BufTy).Contents (Elt F) → (⟨S640000x128, .f32⟩ : BufTy).Contents (Elt F) → (⟨S640000x128, .f32⟩ : BufTy).Contents (Elt F)),
    StableHlo.unary main_arg10 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S640000x128 ![0, 1] bcast_S1x128_S640000x128_0_1 : (⟨S1x128, .f32⟩ : BufTy).Contents (Elt F) → (⟨S640000x128, .f32⟩ : BufTy).Contents (Elt F)),
    StableHlo.binary main_v80 main_v82 main_v83 (mulf : (⟨S640000x128, .f32⟩ : BufTy).Contents (Elt F) → (⟨S640000x128, .f32⟩ : BufTy).Contents (Elt F) → (⟨S640000x128, .f32⟩ : BufTy).Contents (Elt F)),
    StableHlo.unary main_arg11 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S640000x128 ![0, 1] bcast_S1x128_S640000x128_0_1 : (⟨S1x128, .f32⟩ : BufTy).Contents (Elt F) → (⟨S640000x128, .f32⟩ : BufTy).Contents (Elt F)),
    StableHlo.binary main_v83 main_v85 main_v86 (addf : (⟨S640000x128, .f32⟩ : BufTy).Contents (Elt F) → (⟨S640000x128, .f32⟩ : BufTy).Contents (Elt F) → (⟨S640000x128, .f32⟩ : BufTy).Contents (Elt F)) ]

/-- The buffers that stretch writes. -/
abbrev opsK_W : List (Ref sig .tc) := [main_v72, main_v73, main_v74, main_cst_14, main_v75, main_v76, main_v77, main_v78, main_v79, main_v80, main_v81, main_v82, main_v83, main_v84, main_v85, main_v86]

theorem opsK_writes : (opsK : List (HloOp τ sig (Elt F))).Forall fun op => op.writes ⊆ (opsK_W.map (Proc.devRef (τ := τ) .tc)).toFinset := by
  simp only [List.Forall]
  exact ⟨by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide)⟩

/-- Operations 149 … 152. -/
abbrev opsL : List (HloOp τ sig (Elt F)) :=
  [ StableHlo.TRef.nullary main_call3.cst (constant S_ .f32 0x00000000#32),
    StableHlo.TRef.unary main_call3.cst main_call3.v0 (broadcastInDim S640000x128 ![] bcast_S_S640000x128),
    StableHlo.TRef.binary (.of main_v86) main_call3.v0 main_call3.v1 maximumf,
    StableHlo.binary main_arg1 main_v87 main_v88 (addf : (⟨S640000x128, .f32⟩ : BufTy).Contents (Elt F) → (⟨S640000x128, .f32⟩ : BufTy).Contents (Elt F) → (⟨S640000x128, .f32⟩ : BufTy).Contents (Elt F)) ]

/-- The buffers that stretch writes. -/
abbrev opsL_W : List (Ref sig .tc) := [main_call3_cst, main_call3_v0, main_v87, main_v88]

theorem opsL_writes : (opsL : List (HloOp τ sig (Elt F))).Forall fun op => op.writes ⊆ (opsL_W.map (Proc.devRef (τ := τ) .tc)).toFinset := by
  simp only [List.Forall]
  exact ⟨by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide),
    by simp only [StableHlo.TRef.nullary, StableHlo.TRef.unary, StableHlo.TRef.binary, StableHlo.TRef.ternary, nullary_writes, unary_writes, binary_writes, ternary_writes, reshape_writes, Finset.singleton_subset_iff, List.mem_toFinset]; exact List.mem_map_of_mem (by decide)⟩

/-- The line is its stretches in order. -/
theorem ops_split : (ops : List (HloOp τ sig (Elt F))) = opsA ++ (opsB ++ (opsC ++ (opsD ++ (opsE ++ (opsFw ++ (opsG ++ (opsH ++ (opsI ++ (opsJ ++ (opsK ++ (opsL))))))))))) := rfl

end Cert.ReferenceIdeal.RefRun

end
-- ==== Proof.RefMainEq.lean ====
/-
  @main is that line: with the called functions' bodies unfolded at their calls and sequencing reassociated, both
  sides are one chain of host steps. Also what the run theorem asks of the line: it touches TensorCore buffers only,
  and the signature scopes nothing.
-/
import proofs.«137949_j58935541236529_2_alg».proof.Proof.RefLine

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem main_eq (c : Dev nD) : main (F := F) c = seq ops := by
  simp only [main, main_part0, main_part1, fn_var.body, fn_var_0.body, fn_where.body, fn_relu.body, fn_relu_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

end Cert.ReferenceIdeal.RefRun

end
-- ==== Proof.LibTypedRef.lean ====
/-
  Typed references: carrying contents to the buffer's type and back is the identity.

  A host function called from @main is printed over TYPED references (a reference together with the fact that its
  buffer's type is the value's type); each of its operations carries its result to the buffer's type (`toBuf`) and
  each operand back (`ofBuf`), both transports along that fact. Read back, a line of such operations therefore leaves
  `x.ofBuf (x.toBuf v)` around every intermediate value. The pair is the identity for ANY typed reference, seen by
  taking the reference apart (the fact becomes `rfl` and both transports vanish) — no buffer type is ever computed.
  Rewriting with it collapses the pairs bottom-up, where comparing the two sides by unfolding has to open one transport
  inside the other at every level (a function of fifteen operations was out of reach that way).
-/
import Idealize.ShloMosaic.Lib.StableHlo

namespace Cert.LibTypedRef

open Idealize.ShloMosaic Idealize.ShloMosaic.StableHlo

/-- Contents carried to a typed reference's buffer type and back are unchanged. General: any signature, any value
    type, any element family. Use: `simp only [Cert.LibTypedRef.ofBuf_toBuf]` after reading a line of host operations
    that contains a called function's operations, before closing the equation. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTypedRef
-- ==== Proof.RefWin1.lean ====
/-
  Stretches 1–3: the index rows and source gather; the messages and their scatter-add; the node pre-activation and its column means.
  Each stretch of the line read from ANY buffer contents `W`: the buffers it leaves for later stretches, as the stage
  functions of the contents it found. (One pass over the stretch's operations: each operation's result at its own
  buffer is its function's value, at any other buffer what was there.)
-/
import proofs.«137949_j58935541236529_2_alg».proof.Proof.RefLine
import proofs.«137949_j58935541236529_2_alg».proof.Proof.RefStages
import proofs.«137949_j58935541236529_2_alg».proof.Proof.LibTypedRef

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 2000000 in
theorem winA_main_v1 (W : Valuation τ sig (Elt F)) :
    after opsA W (no_index (Proc.devRef .tc main_v1)) = srcRow (W (Proc.devRef .tc main_arg2)) := by
  simp only [opsA]
  after_results_simp
  all_goals rfl

set_option maxRecDepth 16384 in
set_option maxHeartbeats 2000000 in
theorem winA_main_v3 (W : Valuation τ sig (Elt F)) :
    after opsA W (no_index (Proc.devRef .tc main_v3)) = destRow (W (Proc.devRef .tc main_arg2)) := by
  simp only [opsA]
  after_results_simp
  all_goals rfl

set_option maxRecDepth 16384 in
set_option maxHeartbeats 2000000 in
theorem winA_main_v10 (W : Valuation τ sig (Elt F)) :
    after opsA W (no_index (Proc.devRef .tc main_v10)) = res_v10 (W (Proc.devRef .tc main_arg0)) (W (Proc.devRef .tc main_arg2)) := by
  simp only [opsA]
  after_results_simp
  all_goals rfl

set_option maxRecDepth 16384 in
set_option maxHeartbeats 2000000 in
theorem winB_main_v21 (W : Valuation τ sig (Elt F)) :
    after opsB W (no_index (Proc.devRef .tc main_v21)) = aggOf (wrapCol (W (Proc.devRef .tc main_v3))) (msgOf (W (Proc.devRef .tc main_arg1)) (W (Proc.devRef .tc main_v10)) (W (Proc.devRef .tc main_arg4))) := by
  simp only [opsB]
  after_results_simp
  all_goals rfl

set_option maxRecDepth 16384 in
set_option maxHeartbeats 2000000 in
theorem winC_main_v24 (W : Valuation τ sig (Elt F)) :
    after opsC W (no_index (Proc.devRef .tc main_v24)) = preXOf (W (Proc.devRef .tc main_arg0)) (W (Proc.devRef .tc main_arg3)) (W (Proc.devRef .tc main_v21)) := by
  simp only [opsC]
  after_results_simp
  all_goals rfl

set_option maxRecDepth 16384 in
set_option maxHeartbeats 2000000 in
theorem winC_main_v27 (W : Valuation τ sig (Elt F)) :
    after opsC W (no_index (Proc.devRef .tc main_v27)) = meanX (preXOf (W (Proc.devRef .tc main_arg0)) (W (Proc.devRef .tc main_arg3)) (W (Proc.devRef .tc main_v21))) := by
  simp only [opsC]
  after_results_simp
  all_goals rfl

set_option maxRecDepth 16384 in
set_option maxHeartbeats 2000000 in
theorem winC_main_c_5 (W : Valuation τ sig (Elt F)) :
    after opsC W (no_index (Proc.devRef .tc main_c_5)) = constantI S_ 32 0#32 := by
  simp only [opsC]
  after_results_simp
  all_goals rfl

end Cert.ReferenceIdeal.RefRun

end
-- ==== Proof.RefWin2.lean ====
/-
  Stretches 4–6: the variance function on the node pre-activation; the normalisation; the rectifier and residual sum.
  Each stretch of the line read from ANY buffer contents `W`: the buffers it leaves for later stretches, as the stage
  functions of the contents it found. (One pass over the stretch's operations: each operation's result at its own
  buffer is its function's value, at any other buffer what was there.)
-/
import proofs.«137949_j58935541236529_2_alg».proof.Proof.RefLine
import proofs.«137949_j58935541236529_2_alg».proof.Proof.RefStages
import proofs.«137949_j58935541236529_2_alg».proof.Proof.LibTypedRef

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 2000000 in
theorem winD_main_v28 (W : Valuation τ sig (Elt F)) :
    after opsD W (no_index (Proc.devRef .tc main_v28)) = varOfX (W (Proc.devRef .tc main_v24)) (W (Proc.devRef .tc main_c_5)) := by
  simp only [opsD]
  after_results_simp
  all_goals (try simp only [Cert.LibTypedRef.ofBuf_toBuf])
  all_goals rfl

set_option maxRecDepth 16384 in
set_option maxHeartbeats 2000000 in
theorem winE_main_v43 (W : Valuation τ sig (Elt F)) :
    after opsE W (no_index (Proc.devRef .tc main_v43)) = bnX (W (Proc.devRef .tc main_v24)) (W (Proc.devRef .tc main_v27)) (W (Proc.devRef .tc main_v28)) (W (Proc.devRef .tc main_arg8)) (W (Proc.devRef .tc main_arg9)) := by
  simp only [opsE]
  after_results_simp
  all_goals rfl

set_option maxRecDepth 16384 in
set_option maxHeartbeats 2000000 in
theorem winFw_main_v45 (W : Valuation τ sig (Elt F)) :
    after opsFw W (no_index (Proc.devRef .tc main_v45)) = addf (W (Proc.devRef .tc main_arg0)) (reluX (W (Proc.devRef .tc main_v43))) := by
  simp only [opsFw]
  after_results_simp
  all_goals (try simp only [Cert.LibTypedRef.ofBuf_toBuf])
  all_goals rfl

end Cert.ReferenceIdeal.RefRun

end
-- ==== Proof.RefWin3.lean ====
/-
  Stretches 7–9: the three edge products and their sum; its column means.
  Each stretch of the line read from ANY buffer contents `W`: the buffers it leaves for later stretches, as the stage
  functions of the contents it found. (One pass over the stretch's operations: each operation's result at its own
  buffer is its function's value, at any other buffer what was there.)
-/
import proofs.«137949_j58935541236529_2_alg».proof.Proof.RefLine
import proofs.«137949_j58935541236529_2_alg».proof.Proof.RefStages
import proofs.«137949_j58935541236529_2_alg».proof.Proof.LibTypedRef

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 2000000 in
theorem winG_main_v57 (W : Valuation τ sig (Elt F)) :
    after opsG W (no_index (Proc.devRef .tc main_v57)) = addf (dotE (W (Proc.devRef .tc main_arg1)) (tr (W (Proc.devRef .tc main_arg5)))) (dotE (gath (W (Proc.devRef .tc main_arg0)) (wrapCol (W (Proc.devRef .tc main_v3)))) (tr (W (Proc.devRef .tc main_arg6)))) := by
  simp only [opsG]
  after_results_simp
  all_goals rfl

set_option maxRecDepth 16384 in
set_option maxHeartbeats 2000000 in
theorem winH_main_v67 (W : Valuation τ sig (Elt F)) :
    after opsH W (no_index (Proc.devRef .tc main_v67)) = addf (W (Proc.devRef .tc main_v57)) (dotE (gath (W (Proc.devRef .tc main_arg0)) (wrapCol (W (Proc.devRef .tc main_v1)))) (tr (W (Proc.devRef .tc main_arg7)))) := by
  simp only [opsH]
  after_results_simp
  all_goals rfl

set_option maxRecDepth 16384 in
set_option maxHeartbeats 2000000 in
theorem winI_main_v70 (W : Valuation τ sig (Elt F)) :
    after opsI W (no_index (Proc.devRef .tc main_v70)) = meanE (W (Proc.devRef .tc main_v67)) := by
  simp only [opsI]
  after_results_simp
  all_goals rfl

set_option maxRecDepth 16384 in
set_option maxHeartbeats 2000000 in
theorem winI_main_c_13 (W : Valuation τ sig (Elt F)) :
    after opsI W (no_index (Proc.devRef .tc main_c_13)) = constantI S_ 32 0#32 := by
  simp only [opsI]
  after_results_simp
  all_goals rfl

end Cert.ReferenceIdeal.RefRun

end
-- ==== Proof.RefWin4.lean ====
/-
  Stretches 10–12: the variance function on the edge pre-activation; the normalisation; the rectifier and residual sum.
  Each stretch of the line read from ANY buffer contents `W`: the buffers it leaves for later stretches, as the stage
  functions of the contents it found. (One pass over the stretch's operations: each operation's result at its own
  buffer is its function's value, at any other buffer what was there.)
-/
import proofs.«137949_j58935541236529_2_alg».proof.Proof.RefLine
import proofs.«137949_j58935541236529_2_alg».proof.Proof.RefStages
import proofs.«137949_j58935541236529_2_alg».proof.Proof.LibTypedRef

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 2000000 in
theorem winJ_main_v71 (W : Valuation τ sig (Elt F)) :
    after opsJ W (no_index (Proc.devRef .tc main_v71)) = varOfE (W (Proc.devRef .tc main_v67)) (W (Proc.devRef .tc main_c_13)) := by
  simp only [opsJ]
  after_results_simp
  all_goals (try simp only [Cert.LibTypedRef.ofBuf_toBuf])
  all_goals rfl

set_option maxRecDepth 16384 in
set_option maxHeartbeats 2000000 in
theorem winK_main_v86 (W : Valuation τ sig (Elt F)) :
    after opsK W (no_index (Proc.devRef .tc main_v86)) = bnE (W (Proc.devRef .tc main_v67)) (W (Proc.devRef .tc main_v70)) (W (Proc.devRef .tc main_v71)) (W (Proc.devRef .tc main_arg10)) (W (Proc.devRef .tc main_arg11)) := by
  simp only [opsK]
  after_results_simp
  all_goals rfl

set_option maxRecDepth 16384 in
set_option maxHeartbeats 2000000 in
theorem winL_main_v88 (W : Valuation τ sig (Elt F)) :
    after opsL W (no_index (Proc.devRef .tc main_v88)) = addf (W (Proc.devRef .tc main_arg1)) (reluE (W (Proc.devRef .tc main_v86))) := by
  simp only [opsL]
  after_results_simp
  all_goals (try simp only [Cert.LibTypedRef.ofBuf_toBuf])
  all_goals rfl

end Cert.ReferenceIdeal.RefRun

end
-- ==== Proof.LibAfterAppend.lean ====
/-
  A line of host operations run in two stretches: the buffer contents after `l₁ ++ l₂` are the contents after `l₂` started
  from the contents after `l₁`. (Each operation rewrites the buffers it writes and leaves the rest, so running a list is a
  left fold, and a left fold over an append is the fold over the second list from the fold over the first.) It lets a
  long straight-line program be read stage by stage, the contents after an earlier stretch carried as one opaque value.
-/
import Idealize.ShloMosaic.Lib.StableHlo.Run

namespace Cert.Lib

open Idealize.ShloMosaic Idealize.ShloMosaic.StableHlo

/-- Running `l₁ ++ l₂` from `V` is running `l₂` from what `l₁` leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.Lib
-- ==== Proof.RefChain.lean ====
/-
  The line read stretch by stretch from any starting contents `V`: `valK V` is the contents after the first K
  stretches, and each buffer a later stretch (or the result) needs is, after K stretches, the named stage of `V`'s
  argument arrays. A buffer a stretch does not write is carried through it unchanged.
-/
import proofs.«137949_j58935541236529_2_alg».proof.Proof.RefWin1
import proofs.«137949_j58935541236529_2_alg».proof.Proof.RefWin2
import proofs.«137949_j58935541236529_2_alg».proof.Proof.RefWin3
import proofs.«137949_j58935541236529_2_alg».proof.Proof.RefWin4
import proofs.«137949_j58935541236529_2_alg».proof.Proof.LibAfterAppend

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents before the first stretch. -/
def val0 (V : Valuation τ sig (Elt F)) : Valuation τ sig (Elt F) := V
theorem val0_main_arg0 (V : Valuation τ sig (Elt F)) : val0 V (no_index (Proc.devRef .tc main_arg0)) = (V (Proc.devRef .tc main_arg0)) := rfl
theorem val0_main_arg1 (V : Valuation τ sig (Elt F)) : val0 V (no_index (Proc.devRef .tc main_arg1)) = (V (Proc.devRef .tc main_arg1)) := rfl
theorem val0_main_arg2 (V : Valuation τ sig (Elt F)) : val0 V (no_index (Proc.devRef .tc main_arg2)) = (V (Proc.devRef .tc main_arg2)) := rfl
theorem val0_main_arg3 (V : Valuation τ sig (Elt F)) : val0 V (no_index (Proc.devRef .tc main_arg3)) = (V (Proc.devRef .tc main_arg3)) := rfl
theorem val0_main_arg4 (V : Valuation τ sig (Elt F)) : val0 V (no_index (Proc.devRef .tc main_arg4)) = (V (Proc.devRef .tc main_arg4)) := rfl
theorem val0_main_arg5 (V : Valuation τ sig (Elt F)) : val0 V (no_index (Proc.devRef .tc main_arg5)) = (V (Proc.devRef .tc main_arg5)) := rfl
theorem val0_main_arg6 (V : Valuation τ sig (Elt F)) : val0 V (no_index (Proc.devRef .tc main_arg6)) = (V (Proc.devRef .tc main_arg6)) := rfl
theorem val0_main_arg7 (V : Valuation τ sig (Elt F)) : val0 V (no_index (Proc.devRef .tc main_arg7)) = (V (Proc.devRef .tc main_arg7)) := rfl
theorem val0_main_arg8 (V : Valuation τ sig (Elt F)) : val0 V (no_index (Proc.devRef .tc main_arg8)) = (V (Proc.devRef .tc main_arg8)) := rfl
theorem val0_main_arg9 (V : Valuation τ sig (Elt F)) : val0 V (no_index (Proc.devRef .tc main_arg9)) = (V (Proc.devRef .tc main_arg9)) := rfl
theorem val0_main_arg10 (V : Valuation τ sig (Elt F)) : val0 V (no_index (Proc.devRef .tc main_arg10)) = (V (Proc.devRef .tc main_arg10)) := rfl
theorem val0_main_arg11 (V : Valuation τ sig (Elt F)) : val0 V (no_index (Proc.devRef .tc main_arg11)) = (V (Proc.devRef .tc main_arg11)) := rfl

/-- The contents after the first 1 stretch. -/
def val1 (V : Valuation τ sig (Elt F)) : Valuation τ sig (Elt F) := after opsA (val0 V)
theorem val1_main_arg0 (V : Valuation τ sig (Elt F)) : val1 V (no_index (Proc.devRef .tc main_arg0)) = (V (Proc.devRef .tc main_arg0)) :=
  (after_of_writes_sub opsA _ opsA_writes (by decide)).trans (val0_main_arg0 V)
theorem val1_main_arg1 (V : Valuation τ sig (Elt F)) : val1 V (no_index (Proc.devRef .tc main_arg1)) = (V (Proc.devRef .tc main_arg1)) :=
  (after_of_writes_sub opsA _ opsA_writes (by decide)).trans (val0_main_arg1 V)
theorem val1_main_arg2 (V : Valuation τ sig (Elt F)) : val1 V (no_index (Proc.devRef .tc main_arg2)) = (V (Proc.devRef .tc main_arg2)) :=
  (after_of_writes_sub opsA _ opsA_writes (by decide)).trans (val0_main_arg2 V)
theorem val1_main_arg3 (V : Valuation τ sig (Elt F)) : val1 V (no_index (Proc.devRef .tc main_arg3)) = (V (Proc.devRef .tc main_arg3)) :=
  (after_of_writes_sub opsA _ opsA_writes (by decide)).trans (val0_main_arg3 V)
theorem val1_main_arg4 (V : Valuation τ sig (Elt F)) : val1 V (no_index (Proc.devRef .tc main_arg4)) = (V (Proc.devRef .tc main_arg4)) :=
  (after_of_writes_sub opsA _ opsA_writes (by decide)).trans (val0_main_arg4 V)
theorem val1_main_arg5 (V : Valuation τ sig (Elt F)) : val1 V (no_index (Proc.devRef .tc main_arg5)) = (V (Proc.devRef .tc main_arg5)) :=
  (after_of_writes_sub opsA _ opsA_writes (by decide)).trans (val0_main_arg5 V)
theorem val1_main_arg6 (V : Valuation τ sig (Elt F)) : val1 V (no_index (Proc.devRef .tc main_arg6)) = (V (Proc.devRef .tc main_arg6)) :=
  (after_of_writes_sub opsA _ opsA_writes (by decide)).trans (val0_main_arg6 V)
theorem val1_main_arg7 (V : Valuation τ sig (Elt F)) : val1 V (no_index (Proc.devRef .tc main_arg7)) = (V (Proc.devRef .tc main_arg7)) :=
  (after_of_writes_sub opsA _ opsA_writes (by decide)).trans (val0_main_arg7 V)
theorem val1_main_arg8 (V : Valuation τ sig (Elt F)) : val1 V (no_index (Proc.devRef .tc main_arg8)) = (V (Proc.devRef .tc main_arg8)) :=
  (after_of_writes_sub opsA _ opsA_writes (by decide)).trans (val0_main_arg8 V)
theorem val1_main_arg9 (V : Valuation τ sig (Elt F)) : val1 V (no_index (Proc.devRef .tc main_arg9)) = (V (Proc.devRef .tc main_arg9)) :=
  (after_of_writes_sub opsA _ opsA_writes (by decide)).trans (val0_main_arg9 V)
theorem val1_main_arg10 (V : Valuation τ sig (Elt F)) : val1 V (no_index (Proc.devRef .tc main_arg10)) = (V (Proc.devRef .tc main_arg10)) :=
  (after_of_writes_sub opsA _ opsA_writes (by decide)).trans (val0_main_arg10 V)
theorem val1_main_arg11 (V : Valuation τ sig (Elt F)) : val1 V (no_index (Proc.devRef .tc main_arg11)) = (V (Proc.devRef .tc main_arg11)) :=
  (after_of_writes_sub opsA _ opsA_writes (by decide)).trans (val0_main_arg11 V)
theorem val1_main_v1 (V : Valuation τ sig (Elt F)) : val1 V (no_index (Proc.devRef .tc main_v1)) = srcRow (V (Proc.devRef .tc main_arg2)) := by
  unfold val1
  simp only [winA_main_v1, val0_main_arg2] <;> rfl
theorem val1_main_v3 (V : Valuation τ sig (Elt F)) : val1 V (no_index (Proc.devRef .tc main_v3)) = destRow (V (Proc.devRef .tc main_arg2)) := by
  unfold val1
  simp only [winA_main_v3, val0_main_arg2] <;> rfl
theorem val1_main_v10 (V : Valuation τ sig (Elt F)) : val1 V (no_index (Proc.devRef .tc main_v10)) = res_v10 (V (Proc.devRef .tc main_arg0)) (V (Proc.devRef .tc main_arg2)) := by
  unfold val1
  simp only [winA_main_v10, val0_main_arg0, val0_main_arg2] <;> rfl

/-- The contents after the first 2 stretches. -/
def val2 (V : Valuation τ sig (Elt F)) : Valuation τ sig (Elt F) := after opsB (val1 V)
theorem val2_main_arg0 (V : Valuation τ sig (Elt F)) : val2 V (no_index (Proc.devRef .tc main_arg0)) = (V (Proc.devRef .tc main_arg0)) :=
  (after_of_writes_sub opsB _ opsB_writes (by decide)).trans (val1_main_arg0 V)
theorem val2_main_arg1 (V : Valuation τ sig (Elt F)) : val2 V (no_index (Proc.devRef .tc main_arg1)) = (V (Proc.devRef .tc main_arg1)) :=
  (after_of_writes_sub opsB _ opsB_writes (by decide)).trans (val1_main_arg1 V)
theorem val2_main_arg2 (V : Valuation τ sig (Elt F)) : val2 V (no_index (Proc.devRef .tc main_arg2)) = (V (Proc.devRef .tc main_arg2)) :=
  (after_of_writes_sub opsB _ opsB_writes (by decide)).trans (val1_main_arg2 V)
theorem val2_main_arg3 (V : Valuation τ sig (Elt F)) : val2 V (no_index (Proc.devRef .tc main_arg3)) = (V (Proc.devRef .tc main_arg3)) :=
  (after_of_writes_sub opsB _ opsB_writes (by decide)).trans (val1_main_arg3 V)
theorem val2_main_arg4 (V : Valuation τ sig (Elt F)) : val2 V (no_index (Proc.devRef .tc main_arg4)) = (V (Proc.devRef .tc main_arg4)) :=
  (after_of_writes_sub opsB _ opsB_writes (by decide)).trans (val1_main_arg4 V)
theorem val2_main_arg5 (V : Valuation τ sig (Elt F)) : val2 V (no_index (Proc.devRef .tc main_arg5)) = (V (Proc.devRef .tc main_arg5)) :=
  (after_of_writes_sub opsB _ opsB_writes (by decide)).trans (val1_main_arg5 V)
theorem val2_main_arg6 (V : Valuation τ sig (Elt F)) : val2 V (no_index (Proc.devRef .tc main_arg6)) = (V (Proc.devRef .tc main_arg6)) :=
  (after_of_writes_sub opsB _ opsB_writes (by decide)).trans (val1_main_arg6 V)
theorem val2_main_arg7 (V : Valuation τ sig (Elt F)) : val2 V (no_index (Proc.devRef .tc main_arg7)) = (V (Proc.devRef .tc main_arg7)) :=
  (after_of_writes_sub opsB _ opsB_writes (by decide)).trans (val1_main_arg7 V)
theorem val2_main_arg8 (V : Valuation τ sig (Elt F)) : val2 V (no_index (Proc.devRef .tc main_arg8)) = (V (Proc.devRef .tc main_arg8)) :=
  (after_of_writes_sub opsB _ opsB_writes (by decide)).trans (val1_main_arg8 V)
theorem val2_main_arg9 (V : Valuation τ sig (Elt F)) : val2 V (no_index (Proc.devRef .tc main_arg9)) = (V (Proc.devRef .tc main_arg9)) :=
  (after_of_writes_sub opsB _ opsB_writes (by decide)).trans (val1_main_arg9 V)
theorem val2_main_arg10 (V : Valuation τ sig (Elt F)) : val2 V (no_index (Proc.devRef .tc main_arg10)) = (V (Proc.devRef .tc main_arg10)) :=
  (after_of_writes_sub opsB _ opsB_writes (by decide)).trans (val1_main_arg10 V)
theorem val2_main_arg11 (V : Valuation τ sig (Elt F)) : val2 V (no_index (Proc.devRef .tc main_arg11)) = (V (Proc.devRef .tc main_arg11)) :=
  (after_of_writes_sub opsB _ opsB_writes (by decide)).trans (val1_main_arg11 V)
theorem val2_main_v1 (V : Valuation τ sig (Elt F)) : val2 V (no_index (Proc.devRef .tc main_v1)) = srcRow (V (Proc.devRef .tc main_arg2)) :=
  (after_of_writes_sub opsB _ opsB_writes (by decide)).trans (val1_main_v1 V)
theorem val2_main_v3 (V : Valuation τ sig (Elt F)) : val2 V (no_index (Proc.devRef .tc main_v3)) = destRow (V (Proc.devRef .tc main_arg2)) :=
  (after_of_writes_sub opsB _ opsB_writes (by decide)).trans (val1_main_v3 V)
theorem val2_main_v21 (V : Valuation τ sig (Elt F)) : val2 V (no_index (Proc.devRef .tc main_v21)) = res_v21 (V (Proc.devRef .tc main_arg0)) (V (Proc.devRef .tc main_arg1)) (V (Proc.devRef .tc main_arg2)) (V (Proc.devRef .tc main_arg4)) := by
  unfold val2
  simp only [winB_main_v21, val1_main_v3, val1_main_arg1, val1_main_v10, val1_main_arg4] <;> rfl

/-- The contents after the first 3 stretches. -/
def val3 (V : Valuation τ sig (Elt F)) : Valuation τ sig (Elt F) := after opsC (val2 V)
theorem val3_main_arg0 (V : Valuation τ sig (Elt F)) : val3 V (no_index (Proc.devRef .tc main_arg0)) = (V (Proc.devRef .tc main_arg0)) :=
  (after_of_writes_sub opsC _ opsC_writes (by decide)).trans (val2_main_arg0 V)
theorem val3_main_arg1 (V : Valuation τ sig (Elt F)) : val3 V (no_index (Proc.devRef .tc main_arg1)) = (V (Proc.devRef .tc main_arg1)) :=
  (after_of_writes_sub opsC _ opsC_writes (by decide)).trans (val2_main_arg1 V)
theorem val3_main_arg2 (V : Valuation τ sig (Elt F)) : val3 V (no_index (Proc.devRef .tc main_arg2)) = (V (Proc.devRef .tc main_arg2)) :=
  (after_of_writes_sub opsC _ opsC_writes (by decide)).trans (val2_main_arg2 V)
theorem val3_main_arg3 (V : Valuation τ sig (Elt F)) : val3 V (no_index (Proc.devRef .tc main_arg3)) = (V (Proc.devRef .tc main_arg3)) :=
  (after_of_writes_sub opsC _ opsC_writes (by decide)).trans (val2_main_arg3 V)
theorem val3_main_arg4 (V : Valuation τ sig (Elt F)) : val3 V (no_index (Proc.devRef .tc main_arg4)) = (V (Proc.devRef .tc main_arg4)) :=
  (after_of_writes_sub opsC _ opsC_writes (by decide)).trans (val2_main_arg4 V)
theorem val3_main_arg5 (V : Valuation τ sig (Elt F)) : val3 V (no_index (Proc.devRef .tc main_arg5)) = (V (Proc.devRef .tc main_arg5)) :=
  (after_of_writes_sub opsC _ opsC_writes (by decide)).trans (val2_main_arg5 V)
theorem val3_main_arg6 (V : Valuation τ sig (Elt F)) : val3 V (no_index (Proc.devRef .tc main_arg6)) = (V (Proc.devRef .tc main_arg6)) :=
  (after_of_writes_sub opsC _ opsC_writes (by decide)).trans (val2_main_arg6 V)
theorem val3_main_arg7 (V : Valuation τ sig (Elt F)) : val3 V (no_index (Proc.devRef .tc main_arg7)) = (V (Proc.devRef .tc main_arg7)) :=
  (after_of_writes_sub opsC _ opsC_writes (by decide)).trans (val2_main_arg7 V)
theorem val3_main_arg8 (V : Valuation τ sig (Elt F)) : val3 V (no_index (Proc.devRef .tc main_arg8)) = (V (Proc.devRef .tc main_arg8)) :=
  (after_of_writes_sub opsC _ opsC_writes (by decide)).trans (val2_main_arg8 V)
theorem val3_main_arg9 (V : Valuation τ sig (Elt F)) : val3 V (no_index (Proc.devRef .tc main_arg9)) = (V (Proc.devRef .tc main_arg9)) :=
  (after_of_writes_sub opsC _ opsC_writes (by decide)).trans (val2_main_arg9 V)
theorem val3_main_arg10 (V : Valuation τ sig (Elt F)) : val3 V (no_index (Proc.devRef .tc main_arg10)) = (V (Proc.devRef .tc main_arg10)) :=
  (after_of_writes_sub opsC _ opsC_writes (by decide)).trans (val2_main_arg10 V)
theorem val3_main_arg11 (V : Valuation τ sig (Elt F)) : val3 V (no_index (Proc.devRef .tc main_arg11)) = (V (Proc.devRef .tc main_arg11)) :=
  (after_of_writes_sub opsC _ opsC_writes (by decide)).trans (val2_main_arg11 V)
theorem val3_main_v1 (V : Valuation τ sig (Elt F)) : val3 V (no_index (Proc.devRef .tc main_v1)) = srcRow (V (Proc.devRef .tc main_arg2)) :=
  (after_of_writes_sub opsC _ opsC_writes (by decide)).trans (val2_main_v1 V)
theorem val3_main_v3 (V : Valuation τ sig (Elt F)) : val3 V (no_index (Proc.devRef .tc main_v3)) = destRow (V (Proc.devRef .tc main_arg2)) :=
  (after_of_writes_sub opsC _ opsC_writes (by decide)).trans (val2_main_v3 V)
theorem val3_main_v24 (V : Valuation τ sig (Elt F)) : val3 V (no_index (Proc.devRef .tc main_v24)) = res_v24 (V (Proc.devRef .tc main_arg0)) (V (Proc.devRef .tc main_arg1)) (V (Proc.devRef .tc main_arg2)) (V (Proc.devRef .tc main_arg3)) (V (Proc.devRef .tc main_arg4)) := by
  unfold val3
  simp only [winC_main_v24, val2_main_arg0, val2_main_arg3, val2_main_v21] <;> rfl
theorem val3_main_v27 (V : Valuation τ sig (Elt F)) : val3 V (no_index (Proc.devRef .tc main_v27)) = res_v27 (V (Proc.devRef .tc main_arg0)) (V (Proc.devRef .tc main_arg1)) (V (Proc.devRef .tc main_arg2)) (V (Proc.devRef .tc main_arg3)) (V (Proc.devRef .tc main_arg4)) := by
  unfold val3
  simp only [winC_main_v27, val2_main_arg0, val2_main_arg3, val2_main_v21] <;> rfl
theorem val3_main_c_5 (V : Valuation τ sig (Elt F)) : val3 V (no_index (Proc.devRef .tc main_c_5)) = constantI S_ 32 0#32 := by
  unfold val3
  simp only [winC_main_c_5] <;> rfl

/-- The contents after the first 4 stretches. -/
def val4 (V : Valuation τ sig (Elt F)) : Valuation τ sig (Elt F) := after opsD (val3 V)
theorem val4_main_arg0 (V : Valuation τ sig (Elt F)) : val4 V (no_index (Proc.devRef .tc main_arg0)) = (V (Proc.devRef .tc main_arg0)) :=
  (after_of_writes_sub opsD _ opsD_writes (by decide)).trans (val3_main_arg0 V)
theorem val4_main_arg1 (V : Valuation τ sig (Elt F)) : val4 V (no_index (Proc.devRef .tc main_arg1)) = (V (Proc.devRef .tc main_arg1)) :=
  (after_of_writes_sub opsD _ opsD_writes (by decide)).trans (val3_main_arg1 V)
theorem val4_main_arg2 (V : Valuation τ sig (Elt F)) : val4 V (no_index (Proc.devRef .tc main_arg2)) = (V (Proc.devRef .tc main_arg2)) :=
  (after_of_writes_sub opsD _ opsD_writes (by decide)).trans (val3_main_arg2 V)
theorem val4_main_arg3 (V : Valuation τ sig (Elt F)) : val4 V (no_index (Proc.devRef .tc main_arg3)) = (V (Proc.devRef .tc main_arg3)) :=
  (after_of_writes_sub opsD _ opsD_writes (by decide)).trans (val3_main_arg3 V)
theorem val4_main_arg4 (V : Valuation τ sig (Elt F)) : val4 V (no_index (Proc.devRef .tc main_arg4)) = (V (Proc.devRef .tc main_arg4)) :=
  (after_of_writes_sub opsD _ opsD_writes (by decide)).trans (val3_main_arg4 V)
theorem val4_main_arg5 (V : Valuation τ sig (Elt F)) : val4 V (no_index (Proc.devRef .tc main_arg5)) = (V (Proc.devRef .tc main_arg5)) :=
  (after_of_writes_sub opsD _ opsD_writes (by decide)).trans (val3_main_arg5 V)
theorem val4_main_arg6 (V : Valuation τ sig (Elt F)) : val4 V (no_index (Proc.devRef .tc main_arg6)) = (V (Proc.devRef .tc main_arg6)) :=
  (after_of_writes_sub opsD _ opsD_writes (by decide)).trans (val3_main_arg6 V)
theorem val4_main_arg7 (V : Valuation τ sig (Elt F)) : val4 V (no_index (Proc.devRef .tc main_arg7)) = (V (Proc.devRef .tc main_arg7)) :=
  (after_of_writes_sub opsD _ opsD_writes (by decide)).trans (val3_main_arg7 V)
theorem val4_main_arg8 (V : Valuation τ sig (Elt F)) : val4 V (no_index (Proc.devRef .tc main_arg8)) = (V (Proc.devRef .tc main_arg8)) :=
  (after_of_writes_sub opsD _ opsD_writes (by decide)).trans (val3_main_arg8 V)
theorem val4_main_arg9 (V : Valuation τ sig (Elt F)) : val4 V (no_index (Proc.devRef .tc main_arg9)) = (V (Proc.devRef .tc main_arg9)) :=
  (after_of_writes_sub opsD _ opsD_writes (by decide)).trans (val3_main_arg9 V)
theorem val4_main_arg10 (V : Valuation τ sig (Elt F)) : val4 V (no_index (Proc.devRef .tc main_arg10)) = (V (Proc.devRef .tc main_arg10)) :=
  (after_of_writes_sub opsD _ opsD_writes (by decide)).trans (val3_main_arg10 V)
theorem val4_main_arg11 (V : Valuation τ sig (Elt F)) : val4 V (no_index (Proc.devRef .tc main_arg11)) = (V (Proc.devRef .tc main_arg11)) :=
  (after_of_writes_sub opsD _ opsD_writes (by decide)).trans (val3_main_arg11 V)
theorem val4_main_v1 (V : Valuation τ sig (Elt F)) : val4 V (no_index (Proc.devRef .tc main_v1)) = srcRow (V (Proc.devRef .tc main_arg2)) :=
  (after_of_writes_sub opsD _ opsD_writes (by decide)).trans (val3_main_v1 V)
theorem val4_main_v3 (V : Valuation τ sig (Elt F)) : val4 V (no_index (Proc.devRef .tc main_v3)) = destRow (V (Proc.devRef .tc main_arg2)) :=
  (after_of_writes_sub opsD _ opsD_writes (by decide)).trans (val3_main_v3 V)
theorem val4_main_v24 (V : Valuation τ sig (Elt F)) : val4 V (no_index (Proc.devRef .tc main_v24)) = res_v24 (V (Proc.devRef .tc main_arg0)) (V (Proc.devRef .tc main_arg1)) (V (Proc.devRef .tc main_arg2)) (V (Proc.devRef .tc main_arg3)) (V (Proc.devRef .tc main_arg4)) :=
  (after_of_writes_sub opsD _ opsD_writes (by decide)).trans (val3_main_v24 V)
theorem val4_main_v27 (V : Valuation τ sig (Elt F)) : val4 V (no_index (Proc.devRef .tc main_v27)) = res_v27 (V (Proc.devRef .tc main_arg0)) (V (Proc.devRef .tc main_arg1)) (V (Proc.devRef .tc main_arg2)) (V (Proc.devRef .tc main_arg3)) (V (Proc.devRef .tc main_arg4)) :=
  (after_of_writes_sub opsD _ opsD_writes (by decide)).trans (val3_main_v27 V)
theorem val4_main_v28 (V : Valuation τ sig (Elt F)) : val4 V (no_index (Proc.devRef .tc main_v28)) = res_v28 (V (Proc.devRef .tc main_arg0)) (V (Proc.devRef .tc main_arg1)) (V (Proc.devRef .tc main_arg2)) (V (Proc.devRef .tc main_arg3)) (V (Proc.devRef .tc main_arg4)) := by
  unfold val4
  simp only [winD_main_v28, val3_main_v24, val3_main_c_5] <;> rfl

/-- The contents after the first 5 stretches. -/
def val5 (V : Valuation τ sig (Elt F)) : Valuation τ sig (Elt F) := after opsE (val4 V)
theorem val5_main_arg0 (V : Valuation τ sig (Elt F)) : val5 V (no_index (Proc.devRef .tc main_arg0)) = (V (Proc.devRef .tc main_arg0)) :=
  (after_of_writes_sub opsE _ opsE_writes (by decide)).trans (val4_main_arg0 V)
theorem val5_main_arg1 (V : Valuation τ sig (Elt F)) : val5 V (no_index (Proc.devRef .tc main_arg1)) = (V (Proc.devRef .tc main_arg1)) :=
  (after_of_writes_sub opsE _ opsE_writes (by decide)).trans (val4_main_arg1 V)
theorem val5_main_arg2 (V : Valuation τ sig (Elt F)) : val5 V (no_index (Proc.devRef .tc main_arg2)) = (V (Proc.devRef .tc main_arg2)) :=
  (after_of_writes_sub opsE _ opsE_writes (by decide)).trans (val4_main_arg2 V)
theorem val5_main_arg3 (V : Valuation τ sig (Elt F)) : val5 V (no_index (Proc.devRef .tc main_arg3)) = (V (Proc.devRef .tc main_arg3)) :=
  (after_of_writes_sub opsE _ opsE_writes (by decide)).trans (val4_main_arg3 V)
theorem val5_main_arg4 (V : Valuation τ sig (Elt F)) : val5 V (no_index (Proc.devRef .tc main_arg4)) = (V (Proc.devRef .tc main_arg4)) :=
  (after_of_writes_sub opsE _ opsE_writes (by decide)).trans (val4_main_arg4 V)
theorem val5_main_arg5 (V : Valuation τ sig (Elt F)) : val5 V (no_index (Proc.devRef .tc main_arg5)) = (V (Proc.devRef .tc main_arg5)) :=
  (after_of_writes_sub opsE _ opsE_writes (by decide)).trans (val4_main_arg5 V)
theorem val5_main_arg6 (V : Valuation τ sig (Elt F)) : val5 V (no_index (Proc.devRef .tc main_arg6)) = (V (Proc.devRef .tc main_arg6)) :=
  (after_of_writes_sub opsE _ opsE_writes (by decide)).trans (val4_main_arg6 V)
theorem val5_main_arg7 (V : Valuation τ sig (Elt F)) : val5 V (no_index (Proc.devRef .tc main_arg7)) = (V (Proc.devRef .tc main_arg7)) :=
  (after_of_writes_sub opsE _ opsE_writes (by decide)).trans (val4_main_arg7 V)
theorem val5_main_arg8 (V : Valuation τ sig (Elt F)) : val5 V (no_index (Proc.devRef .tc main_arg8)) = (V (Proc.devRef .tc main_arg8)) :=
  (after_of_writes_sub opsE _ opsE_writes (by decide)).trans (val4_main_arg8 V)
theorem val5_main_arg9 (V : Valuation τ sig (Elt F)) : val5 V (no_index (Proc.devRef .tc main_arg9)) = (V (Proc.devRef .tc main_arg9)) :=
  (after_of_writes_sub opsE _ opsE_writes (by decide)).trans (val4_main_arg9 V)
theorem val5_main_arg10 (V : Valuation τ sig (Elt F)) : val5 V (no_index (Proc.devRef .tc main_arg10)) = (V (Proc.devRef .tc main_arg10)) :=
  (after_of_writes_sub opsE _ opsE_writes (by decide)).trans (val4_main_arg10 V)
theorem val5_main_arg11 (V : Valuation τ sig (Elt F)) : val5 V (no_index (Proc.devRef .tc main_arg11)) = (V (Proc.devRef .tc main_arg11)) :=
  (after_of_writes_sub opsE _ opsE_writes (by decide)).trans (val4_main_arg11 V)
theorem val5_main_v1 (V : Valuation τ sig (Elt F)) : val5 V (no_index (Proc.devRef .tc main_v1)) = srcRow (V (Proc.devRef .tc main_arg2)) :=
  (after_of_writes_sub opsE _ opsE_writes (by decide)).trans (val4_main_v1 V)
theorem val5_main_v3 (V : Valuation τ sig (Elt F)) : val5 V (no_index (Proc.devRef .tc main_v3)) = destRow (V (Proc.devRef .tc main_arg2)) :=
  (after_of_writes_sub opsE _ opsE_writes (by decide)).trans (val4_main_v3 V)
theorem val5_main_v43 (V : Valuation τ sig (Elt F)) : val5 V (no_index (Proc.devRef .tc main_v43)) = bnX (res_v24 (V (Proc.devRef .tc main_arg0)) (V (Proc.devRef .tc main_arg1)) (V (Proc.devRef .tc main_arg2)) (V (Proc.devRef .tc main_arg3)) (V (Proc.devRef .tc main_arg4))) (res_v27 (V (Proc.devRef .tc main_arg0)) (V (Proc.devRef .tc main_arg1)) (V (Proc.devRef .tc main_arg2)) (V (Proc.devRef .tc main_arg3)) (V (Proc.devRef .tc main_arg4))) (res_v28 (V (Proc.devRef .tc main_arg0)) (V (Proc.devRef .tc main_arg1)) (V (Proc.devRef .tc main_arg2)) (V (Proc.devRef .tc main_arg3)) (V (Proc.devRef .tc main_arg4))) (V (Proc.devRef .tc main_arg8)) (V (Proc.devRef .tc main_arg9)) := by
  unfold val5
  simp only [winE_main_v43, val4_main_v24, val4_main_v27, val4_main_v28, val4_main_arg8, val4_main_arg9] <;> rfl

/-- The contents after the first 6 stretches. -/
def val6 (V : Valuation τ sig (Elt F)) : Valuation τ sig (Elt F) := after opsFw (val5 V)
theorem val6_main_arg0 (V : Valuation τ sig (Elt F)) : val6 V (no_index (Proc.devRef .tc main_arg0)) = (V (Proc.devRef .tc main_arg0)) :=
  (after_of_writes_sub opsFw _ opsFw_writes (by decide)).trans (val5_main_arg0 V)
theorem val6_main_arg1 (V : Valuation τ sig (Elt F)) : val6 V (no_index (Proc.devRef .tc main_arg1)) = (V (Proc.devRef .tc main_arg1)) :=
  (after_of_writes_sub opsFw _ opsFw_writes (by decide)).trans (val5_main_arg1 V)
theorem val6_main_arg2 (V : Valuation τ sig (Elt F)) : val6 V (no_index (Proc.devRef .tc main_arg2)) = (V (Proc.devRef .tc main_arg2)) :=
  (after_of_writes_sub opsFw _ opsFw_writes (by decide)).trans (val5_main_arg2 V)
theorem val6_main_arg3 (V : Valuation τ sig (Elt F)) : val6 V (no_index (Proc.devRef .tc main_arg3)) = (V (Proc.devRef .tc main_arg3)) :=
  (after_of_writes_sub opsFw _ opsFw_writes (by decide)).trans (val5_main_arg3 V)
theorem val6_main_arg4 (V : Valuation τ sig (Elt F)) : val6 V (no_index (Proc.devRef .tc main_arg4)) = (V (Proc.devRef .tc main_arg4)) :=
  (after_of_writes_sub opsFw _ opsFw_writes (by decide)).trans (val5_main_arg4 V)
theorem val6_main_arg5 (V : Valuation τ sig (Elt F)) : val6 V (no_index (Proc.devRef .tc main_arg5)) = (V (Proc.devRef .tc main_arg5)) :=
  (after_of_writes_sub opsFw _ opsFw_writes (by decide)).trans (val5_main_arg5 V)
theorem val6_main_arg6 (V : Valuation τ sig (Elt F)) : val6 V (no_index (Proc.devRef .tc main_arg6)) = (V (Proc.devRef .tc main_arg6)) :=
  (after_of_writes_sub opsFw _ opsFw_writes (by decide)).trans (val5_main_arg6 V)
theorem val6_main_arg7 (V : Valuation τ sig (Elt F)) : val6 V (no_index (Proc.devRef .tc main_arg7)) = (V (Proc.devRef .tc main_arg7)) :=
  (after_of_writes_sub opsFw _ opsFw_writes (by decide)).trans (val5_main_arg7 V)
theorem val6_main_arg8 (V : Valuation τ sig (Elt F)) : val6 V (no_index (Proc.devRef .tc main_arg8)) = (V (Proc.devRef .tc main_arg8)) :=
  (after_of_writes_sub opsFw _ opsFw_writes (by decide)).trans (val5_main_arg8 V)
theorem val6_main_arg9 (V : Valuation τ sig (Elt F)) : val6 V (no_index (Proc.devRef .tc main_arg9)) = (V (Proc.devRef .tc main_arg9)) :=
  (after_of_writes_sub opsFw _ opsFw_writes (by decide)).trans (val5_main_arg9 V)
theorem val6_main_arg10 (V : Valuation τ sig (Elt F)) : val6 V (no_index (Proc.devRef .tc main_arg10)) = (V (Proc.devRef .tc main_arg10)) :=
  (after_of_writes_sub opsFw _ opsFw_writes (by decide)).trans (val5_main_arg10 V)
theorem val6_main_arg11 (V : Valuation τ sig (Elt F)) : val6 V (no_index (Proc.devRef .tc main_arg11)) = (V (Proc.devRef .tc main_arg11)) :=
  (after_of_writes_sub opsFw _ opsFw_writes (by decide)).trans (val5_main_arg11 V)
theorem val6_main_v1 (V : Valuation τ sig (Elt F)) : val6 V (no_index (Proc.devRef .tc main_v1)) = srcRow (V (Proc.devRef .tc main_arg2)) :=
  (after_of_writes_sub opsFw _ opsFw_writes (by decide)).trans (val5_main_v1 V)
theorem val6_main_v3 (V : Valuation τ sig (Elt F)) : val6 V (no_index (Proc.devRef .tc main_v3)) = destRow (V (Proc.devRef .tc main_arg2)) :=
  (after_of_writes_sub opsFw _ opsFw_writes (by decide)).trans (val5_main_v3 V)
theorem val6_main_v45 (V : Valuation τ sig (Elt F)) : val6 V (no_index (Proc.devRef .tc main_v45)) = resX (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  unfold val6
  simp only [winFw_main_v45, val5_main_arg0, val5_main_v43] <;> rfl

/-- The contents after the first 7 stretches. -/
def val7 (V : Valuation τ sig (Elt F)) : Valuation τ sig (Elt F) := after opsG (val6 V)
theorem val7_main_arg0 (V : Valuation τ sig (Elt F)) : val7 V (no_index (Proc.devRef .tc main_arg0)) = (V (Proc.devRef .tc main_arg0)) :=
  (after_of_writes_sub opsG _ opsG_writes (by decide)).trans (val6_main_arg0 V)
theorem val7_main_arg1 (V : Valuation τ sig (Elt F)) : val7 V (no_index (Proc.devRef .tc main_arg1)) = (V (Proc.devRef .tc main_arg1)) :=
  (after_of_writes_sub opsG _ opsG_writes (by decide)).trans (val6_main_arg1 V)
theorem val7_main_arg2 (V : Valuation τ sig (Elt F)) : val7 V (no_index (Proc.devRef .tc main_arg2)) = (V (Proc.devRef .tc main_arg2)) :=
  (after_of_writes_sub opsG _ opsG_writes (by decide)).trans (val6_main_arg2 V)
theorem val7_main_arg3 (V : Valuation τ sig (Elt F)) : val7 V (no_index (Proc.devRef .tc main_arg3)) = (V (Proc.devRef .tc main_arg3)) :=
  (after_of_writes_sub opsG _ opsG_writes (by decide)).trans (val6_main_arg3 V)
theorem val7_main_arg4 (V : Valuation τ sig (Elt F)) : val7 V (no_index (Proc.devRef .tc main_arg4)) = (V (Proc.devRef .tc main_arg4)) :=
  (after_of_writes_sub opsG _ opsG_writes (by decide)).trans (val6_main_arg4 V)
theorem val7_main_arg5 (V : Valuation τ sig (Elt F)) : val7 V (no_index (Proc.devRef .tc main_arg5)) = (V (Proc.devRef .tc main_arg5)) :=
  (after_of_writes_sub opsG _ opsG_writes (by decide)).trans (val6_main_arg5 V)
theorem val7_main_arg6 (V : Valuation τ sig (Elt F)) : val7 V (no_index (Proc.devRef .tc main_arg6)) = (V (Proc.devRef .tc main_arg6)) :=
  (after_of_writes_sub opsG _ opsG_writes (by decide)).trans (val6_main_arg6 V)
theorem val7_main_arg7 (V : Valuation τ sig (Elt F)) : val7 V (no_index (Proc.devRef .tc main_arg7)) = (V (Proc.devRef .tc main_arg7)) :=
  (after_of_writes_sub opsG _ opsG_writes (by decide)).trans (val6_main_arg7 V)
theorem val7_main_arg8 (V : Valuation τ sig (Elt F)) : val7 V (no_index (Proc.devRef .tc main_arg8)) = (V (Proc.devRef .tc main_arg8)) :=
  (after_of_writes_sub opsG _ opsG_writes (by decide)).trans (val6_main_arg8 V)
theorem val7_main_arg9 (V : Valuation τ sig (Elt F)) : val7 V (no_index (Proc.devRef .tc main_arg9)) = (V (Proc.devRef .tc main_arg9)) :=
  (after_of_writes_sub opsG _ opsG_writes (by decide)).trans (val6_main_arg9 V)
theorem val7_main_arg10 (V : Valuation τ sig (Elt F)) : val7 V (no_index (Proc.devRef .tc main_arg10)) = (V (Proc.devRef .tc main_arg10)) :=
  (after_of_writes_sub opsG _ opsG_writes (by decide)).trans (val6_main_arg10 V)
theorem val7_main_arg11 (V : Valuation τ sig (Elt F)) : val7 V (no_index (Proc.devRef .tc main_arg11)) = (V (Proc.devRef .tc main_arg11)) :=
  (after_of_writes_sub opsG _ opsG_writes (by decide)).trans (val6_main_arg11 V)
theorem val7_main_v1 (V : Valuation τ sig (Elt F)) : val7 V (no_index (Proc.devRef .tc main_v1)) = srcRow (V (Proc.devRef .tc main_arg2)) :=
  (after_of_writes_sub opsG _ opsG_writes (by decide)).trans (val6_main_v1 V)
theorem val7_main_v45 (V : Valuation τ sig (Elt F)) : val7 V (no_index (Proc.devRef .tc main_v45)) = resX (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  (after_of_writes_sub opsG _ opsG_writes (by decide)).trans (val6_main_v45 V)
theorem val7_main_v57 (V : Valuation τ sig (Elt F)) : val7 V (no_index (Proc.devRef .tc main_v57)) = addf (dotE (V (Proc.devRef .tc main_arg1)) (tr (V (Proc.devRef .tc main_arg5)))) (dotE (res_v54 (V (Proc.devRef .tc main_arg0)) (V (Proc.devRef .tc main_arg2))) (tr (V (Proc.devRef .tc main_arg6)))) := by
  unfold val7
  simp only [winG_main_v57, val6_main_arg1, val6_main_arg5, val6_main_arg0, val6_main_v3, val6_main_arg6] <;> rfl

/-- The contents after the first 8 stretches. -/
def val8 (V : Valuation τ sig (Elt F)) : Valuation τ sig (Elt F) := after opsH (val7 V)
theorem val8_main_arg0 (V : Valuation τ sig (Elt F)) : val8 V (no_index (Proc.devRef .tc main_arg0)) = (V (Proc.devRef .tc main_arg0)) :=
  (after_of_writes_sub opsH _ opsH_writes (by decide)).trans (val7_main_arg0 V)
theorem val8_main_arg1 (V : Valuation τ sig (Elt F)) : val8 V (no_index (Proc.devRef .tc main_arg1)) = (V (Proc.devRef .tc main_arg1)) :=
  (after_of_writes_sub opsH _ opsH_writes (by decide)).trans (val7_main_arg1 V)
theorem val8_main_arg2 (V : Valuation τ sig (Elt F)) : val8 V (no_index (Proc.devRef .tc main_arg2)) = (V (Proc.devRef .tc main_arg2)) :=
  (after_of_writes_sub opsH _ opsH_writes (by decide)).trans (val7_main_arg2 V)
theorem val8_main_arg3 (V : Valuation τ sig (Elt F)) : val8 V (no_index (Proc.devRef .tc main_arg3)) = (V (Proc.devRef .tc main_arg3)) :=
  (after_of_writes_sub opsH _ opsH_writes (by decide)).trans (val7_main_arg3 V)
theorem val8_main_arg4 (V : Valuation τ sig (Elt F)) : val8 V (no_index (Proc.devRef .tc main_arg4)) = (V (Proc.devRef .tc main_arg4)) :=
  (after_of_writes_sub opsH _ opsH_writes (by decide)).trans (val7_main_arg4 V)
theorem val8_main_arg5 (V : Valuation τ sig (Elt F)) : val8 V (no_index (Proc.devRef .tc main_arg5)) = (V (Proc.devRef .tc main_arg5)) :=
  (after_of_writes_sub opsH _ opsH_writes (by decide)).trans (val7_main_arg5 V)
theorem val8_main_arg6 (V : Valuation τ sig (Elt F)) : val8 V (no_index (Proc.devRef .tc main_arg6)) = (V (Proc.devRef .tc main_arg6)) :=
  (after_of_writes_sub opsH _ opsH_writes (by decide)).trans (val7_main_arg6 V)
theorem val8_main_arg7 (V : Valuation τ sig (Elt F)) : val8 V (no_index (Proc.devRef .tc main_arg7)) = (V (Proc.devRef .tc main_arg7)) :=
  (after_of_writes_sub opsH _ opsH_writes (by decide)).trans (val7_main_arg7 V)
theorem val8_main_arg8 (V : Valuation τ sig (Elt F)) : val8 V (no_index (Proc.devRef .tc main_arg8)) = (V (Proc.devRef .tc main_arg8)) :=
  (after_of_writes_sub opsH _ opsH_writes (by decide)).trans (val7_main_arg8 V)
theorem val8_main_arg9 (V : Valuation τ sig (Elt F)) : val8 V (no_index (Proc.devRef .tc main_arg9)) = (V (Proc.devRef .tc main_arg9)) :=
  (after_of_writes_sub opsH _ opsH_writes (by decide)).trans (val7_main_arg9 V)
theorem val8_main_arg10 (V : Valuation τ sig (Elt F)) : val8 V (no_index (Proc.devRef .tc main_arg10)) = (V (Proc.devRef .tc main_arg10)) :=
  (after_of_writes_sub opsH _ opsH_writes (by decide)).trans (val7_main_arg10 V)
theorem val8_main_arg11 (V : Valuation τ sig (Elt F)) : val8 V (no_index (Proc.devRef .tc main_arg11)) = (V (Proc.devRef .tc main_arg11)) :=
  (after_of_writes_sub opsH _ opsH_writes (by decide)).trans (val7_main_arg11 V)
theorem val8_main_v45 (V : Valuation τ sig (Elt F)) : val8 V (no_index (Proc.devRef .tc main_v45)) = resX (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  (after_of_writes_sub opsH _ opsH_writes (by decide)).trans (val7_main_v45 V)
theorem val8_main_v67 (V : Valuation τ sig (Elt F)) : val8 V (no_index (Proc.devRef .tc main_v67)) = res_v67 (V (Proc.devRef .tc main_arg0)) (V (Proc.devRef .tc main_arg1)) (V (Proc.devRef .tc main_arg2)) (V (Proc.devRef .tc main_arg5)) (V (Proc.devRef .tc main_arg6)) (V (Proc.devRef .tc main_arg7)) := by
  unfold val8
  simp only [winH_main_v67, val7_main_v57, val7_main_arg0, val7_main_v1, val7_main_arg7] <;> rfl

/-- The contents after the first 9 stretches. -/
def val9 (V : Valuation τ sig (Elt F)) : Valuation τ sig (Elt F) := after opsI (val8 V)
theorem val9_main_arg0 (V : Valuation τ sig (Elt F)) : val9 V (no_index (Proc.devRef .tc main_arg0)) = (V (Proc.devRef .tc main_arg0)) :=
  (after_of_writes_sub opsI _ opsI_writes (by decide)).trans (val8_main_arg0 V)
theorem val9_main_arg1 (V : Valuation τ sig (Elt F)) : val9 V (no_index (Proc.devRef .tc main_arg1)) = (V (Proc.devRef .tc main_arg1)) :=
  (after_of_writes_sub opsI _ opsI_writes (by decide)).trans (val8_main_arg1 V)
theorem val9_main_arg2 (V : Valuation τ sig (Elt F)) : val9 V (no_index (Proc.devRef .tc main_arg2)) = (V (Proc.devRef .tc main_arg2)) :=
  (after_of_writes_sub opsI _ opsI_writes (by decide)).trans (val8_main_arg2 V)
theorem val9_main_arg3 (V : Valuation τ sig (Elt F)) : val9 V (no_index (Proc.devRef .tc main_arg3)) = (V (Proc.devRef .tc main_arg3)) :=
  (after_of_writes_sub opsI _ opsI_writes (by decide)).trans (val8_main_arg3 V)
theorem val9_main_arg4 (V : Valuation τ sig (Elt F)) : val9 V (no_index (Proc.devRef .tc main_arg4)) = (V (Proc.devRef .tc main_arg4)) :=
  (after_of_writes_sub opsI _ opsI_writes (by decide)).trans (val8_main_arg4 V)
theorem val9_main_arg5 (V : Valuation τ sig (Elt F)) : val9 V (no_index (Proc.devRef .tc main_arg5)) = (V (Proc.devRef .tc main_arg5)) :=
  (after_of_writes_sub opsI _ opsI_writes (by decide)).trans (val8_main_arg5 V)
theorem val9_main_arg6 (V : Valuation τ sig (Elt F)) : val9 V (no_index (Proc.devRef .tc main_arg6)) = (V (Proc.devRef .tc main_arg6)) :=
  (after_of_writes_sub opsI _ opsI_writes (by decide)).trans (val8_main_arg6 V)
theorem val9_main_arg7 (V : Valuation τ sig (Elt F)) : val9 V (no_index (Proc.devRef .tc main_arg7)) = (V (Proc.devRef .tc main_arg7)) :=
  (after_of_writes_sub opsI _ opsI_writes (by decide)).trans (val8_main_arg7 V)
theorem val9_main_arg8 (V : Valuation τ sig (Elt F)) : val9 V (no_index (Proc.devRef .tc main_arg8)) = (V (Proc.devRef .tc main_arg8)) :=
  (after_of_writes_sub opsI _ opsI_writes (by decide)).trans (val8_main_arg8 V)
theorem val9_main_arg9 (V : Valuation τ sig (Elt F)) : val9 V (no_index (Proc.devRef .tc main_arg9)) = (V (Proc.devRef .tc main_arg9)) :=
  (after_of_writes_sub opsI _ opsI_writes (by decide)).trans (val8_main_arg9 V)
theorem val9_main_arg10 (V : Valuation τ sig (Elt F)) : val9 V (no_index (Proc.devRef .tc main_arg10)) = (V (Proc.devRef .tc main_arg10)) :=
  (after_of_writes_sub opsI _ opsI_writes (by decide)).trans (val8_main_arg10 V)
theorem val9_main_arg11 (V : Valuation τ sig (Elt F)) : val9 V (no_index (Proc.devRef .tc main_arg11)) = (V (Proc.devRef .tc main_arg11)) :=
  (after_of_writes_sub opsI _ opsI_writes (by decide)).trans (val8_main_arg11 V)
theorem val9_main_v45 (V : Valuation τ sig (Elt F)) : val9 V (no_index (Proc.devRef .tc main_v45)) = resX (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  (after_of_writes_sub opsI _ opsI_writes (by decide)).trans (val8_main_v45 V)
theorem val9_main_v67 (V : Valuation τ sig (Elt F)) : val9 V (no_index (Proc.devRef .tc main_v67)) = res_v67 (V (Proc.devRef .tc main_arg0)) (V (Proc.devRef .tc main_arg1)) (V (Proc.devRef .tc main_arg2)) (V (Proc.devRef .tc main_arg5)) (V (Proc.devRef .tc main_arg6)) (V (Proc.devRef .tc main_arg7)) :=
  (after_of_writes_sub opsI _ opsI_writes (by decide)).trans (val8_main_v67 V)
theorem val9_main_v70 (V : Valuation τ sig (Elt F)) : val9 V (no_index (Proc.devRef .tc main_v70)) = res_v70 (V (Proc.devRef .tc main_arg0)) (V (Proc.devRef .tc main_arg1)) (V (Proc.devRef .tc main_arg2)) (V (Proc.devRef .tc main_arg5)) (V (Proc.devRef .tc main_arg6)) (V (Proc.devRef .tc main_arg7)) := by
  unfold val9
  simp only [winI_main_v70, val8_main_v67] <;> rfl
theorem val9_main_c_13 (V : Valuation τ sig (Elt F)) : val9 V (no_index (Proc.devRef .tc main_c_13)) = constantI S_ 32 0#32 := by
  unfold val9
  simp only [winI_main_c_13] <;> rfl

/-- The contents after the first 10 stretches. -/
def val10 (V : Valuation τ sig (Elt F)) : Valuation τ sig (Elt F) := after opsJ (val9 V)
theorem val10_main_arg0 (V : Valuation τ sig (Elt F)) : val10 V (no_index (Proc.devRef .tc main_arg0)) = (V (Proc.devRef .tc main_arg0)) :=
  (after_of_writes_sub opsJ _ opsJ_writes (by decide)).trans (val9_main_arg0 V)
theorem val10_main_arg1 (V : Valuation τ sig (Elt F)) : val10 V (no_index (Proc.devRef .tc main_arg1)) = (V (Proc.devRef .tc main_arg1)) :=
  (after_of_writes_sub opsJ _ opsJ_writes (by decide)).trans (val9_main_arg1 V)
theorem val10_main_arg2 (V : Valuation τ sig (Elt F)) : val10 V (no_index (Proc.devRef .tc main_arg2)) = (V (Proc.devRef .tc main_arg2)) :=
  (after_of_writes_sub opsJ _ opsJ_writes (by decide)).trans (val9_main_arg2 V)
theorem val10_main_arg3 (V : Valuation τ sig (Elt F)) : val10 V (no_index (Proc.devRef .tc main_arg3)) = (V (Proc.devRef .tc main_arg3)) :=
  (after_of_writes_sub opsJ _ opsJ_writes (by decide)).trans (val9_main_arg3 V)
theorem val10_main_arg4 (V : Valuation τ sig (Elt F)) : val10 V (no_index (Proc.devRef .tc main_arg4)) = (V (Proc.devRef .tc main_arg4)) :=
  (after_of_writes_sub opsJ _ opsJ_writes (by decide)).trans (val9_main_arg4 V)
theorem val10_main_arg5 (V : Valuation τ sig (Elt F)) : val10 V (no_index (Proc.devRef .tc main_arg5)) = (V (Proc.devRef .tc main_arg5)) :=
  (after_of_writes_sub opsJ _ opsJ_writes (by decide)).trans (val9_main_arg5 V)
theorem val10_main_arg6 (V : Valuation τ sig (Elt F)) : val10 V (no_index (Proc.devRef .tc main_arg6)) = (V (Proc.devRef .tc main_arg6)) :=
  (after_of_writes_sub opsJ _ opsJ_writes (by decide)).trans (val9_main_arg6 V)
theorem val10_main_arg7 (V : Valuation τ sig (Elt F)) : val10 V (no_index (Proc.devRef .tc main_arg7)) = (V (Proc.devRef .tc main_arg7)) :=
  (after_of_writes_sub opsJ _ opsJ_writes (by decide)).trans (val9_main_arg7 V)
theorem val10_main_arg8 (V : Valuation τ sig (Elt F)) : val10 V (no_index (Proc.devRef .tc main_arg8)) = (V (Proc.devRef .tc main_arg8)) :=
  (after_of_writes_sub opsJ _ opsJ_writes (by decide)).trans (val9_main_arg8 V)
theorem val10_main_arg9 (V : Valuation τ sig (Elt F)) : val10 V (no_index (Proc.devRef .tc main_arg9)) = (V (Proc.devRef .tc main_arg9)) :=
  (after_of_writes_sub opsJ _ opsJ_writes (by decide)).trans (val9_main_arg9 V)
theorem val10_main_arg10 (V : Valuation τ sig (Elt F)) : val10 V (no_index (Proc.devRef .tc main_arg10)) = (V (Proc.devRef .tc main_arg10)) :=
  (after_of_writes_sub opsJ _ opsJ_writes (by decide)).trans (val9_main_arg10 V)
theorem val10_main_arg11 (V : Valuation τ sig (Elt F)) : val10 V (no_index (Proc.devRef .tc main_arg11)) = (V (Proc.devRef .tc main_arg11)) :=
  (after_of_writes_sub opsJ _ opsJ_writes (by decide)).trans (val9_main_arg11 V)
theorem val10_main_v45 (V : Valuation τ sig (Elt F)) : val10 V (no_index (Proc.devRef .tc main_v45)) = resX (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  (after_of_writes_sub opsJ _ opsJ_writes (by decide)).trans (val9_main_v45 V)
theorem val10_main_v67 (V : Valuation τ sig (Elt F)) : val10 V (no_index (Proc.devRef .tc main_v67)) = res_v67 (V (Proc.devRef .tc main_arg0)) (V (Proc.devRef .tc main_arg1)) (V (Proc.devRef .tc main_arg2)) (V (Proc.devRef .tc main_arg5)) (V (Proc.devRef .tc main_arg6)) (V (Proc.devRef .tc main_arg7)) :=
  (after_of_writes_sub opsJ _ opsJ_writes (by decide)).trans (val9_main_v67 V)
theorem val10_main_v70 (V : Valuation τ sig (Elt F)) : val10 V (no_index (Proc.devRef .tc main_v70)) = res_v70 (V (Proc.devRef .tc main_arg0)) (V (Proc.devRef .tc main_arg1)) (V (Proc.devRef .tc main_arg2)) (V (Proc.devRef .tc main_arg5)) (V (Proc.devRef .tc main_arg6)) (V (Proc.devRef .tc main_arg7)) :=
  (after_of_writes_sub opsJ _ opsJ_writes (by decide)).trans (val9_main_v70 V)
theorem val10_main_v71 (V : Valuation τ sig (Elt F)) : val10 V (no_index (Proc.devRef .tc main_v71)) = res_v71 (V (Proc.devRef .tc main_arg0)) (V (Proc.devRef .tc main_arg1)) (V (Proc.devRef .tc main_arg2)) (V (Proc.devRef .tc main_arg5)) (V (Proc.devRef .tc main_arg6)) (V (Proc.devRef .tc main_arg7)) := by
  unfold val10
  simp only [winJ_main_v71, val9_main_v67, val9_main_c_13] <;> rfl

/-- The contents after the first 11 stretches. -/
def val11 (V : Valuation τ sig (Elt F)) : Valuation τ sig (Elt F) := after opsK (val10 V)
theorem val11_main_arg0 (V : Valuation τ sig (Elt F)) : val11 V (no_index (Proc.devRef .tc main_arg0)) = (V (Proc.devRef .tc main_arg0)) :=
  (after_of_writes_sub opsK _ opsK_writes (by decide)).trans (val10_main_arg0 V)
theorem val11_main_arg1 (V : Valuation τ sig (Elt F)) : val11 V (no_index (Proc.devRef .tc main_arg1)) = (V (Proc.devRef .tc main_arg1)) :=
  (after_of_writes_sub opsK _ opsK_writes (by decide)).trans (val10_main_arg1 V)
theorem val11_main_arg2 (V : Valuation τ sig (Elt F)) : val11 V (no_index (Proc.devRef .tc main_arg2)) = (V (Proc.devRef .tc main_arg2)) :=
  (after_of_writes_sub opsK _ opsK_writes (by decide)).trans (val10_main_arg2 V)
theorem val11_main_arg3 (V : Valuation τ sig (Elt F)) : val11 V (no_index (Proc.devRef .tc main_arg3)) = (V (Proc.devRef .tc main_arg3)) :=
  (after_of_writes_sub opsK _ opsK_writes (by decide)).trans (val10_main_arg3 V)
theorem val11_main_arg4 (V : Valuation τ sig (Elt F)) : val11 V (no_index (Proc.devRef .tc main_arg4)) = (V (Proc.devRef .tc main_arg4)) :=
  (after_of_writes_sub opsK _ opsK_writes (by decide)).trans (val10_main_arg4 V)
theorem val11_main_arg5 (V : Valuation τ sig (Elt F)) : val11 V (no_index (Proc.devRef .tc main_arg5)) = (V (Proc.devRef .tc main_arg5)) :=
  (after_of_writes_sub opsK _ opsK_writes (by decide)).trans (val10_main_arg5 V)
theorem val11_main_arg6 (V : Valuation τ sig (Elt F)) : val11 V (no_index (Proc.devRef .tc main_arg6)) = (V (Proc.devRef .tc main_arg6)) :=
  (after_of_writes_sub opsK _ opsK_writes (by decide)).trans (val10_main_arg6 V)
theorem val11_main_arg7 (V : Valuation τ sig (Elt F)) : val11 V (no_index (Proc.devRef .tc main_arg7)) = (V (Proc.devRef .tc main_arg7)) :=
  (after_of_writes_sub opsK _ opsK_writes (by decide)).trans (val10_main_arg7 V)
theorem val11_main_arg8 (V : Valuation τ sig (Elt F)) : val11 V (no_index (Proc.devRef .tc main_arg8)) = (V (Proc.devRef .tc main_arg8)) :=
  (after_of_writes_sub opsK _ opsK_writes (by decide)).trans (val10_main_arg8 V)
theorem val11_main_arg9 (V : Valuation τ sig (Elt F)) : val11 V (no_index (Proc.devRef .tc main_arg9)) = (V (Proc.devRef .tc main_arg9)) :=
  (after_of_writes_sub opsK _ opsK_writes (by decide)).trans (val10_main_arg9 V)
theorem val11_main_arg10 (V : Valuation τ sig (Elt F)) : val11 V (no_index (Proc.devRef .tc main_arg10)) = (V (Proc.devRef .tc main_arg10)) :=
  (after_of_writes_sub opsK _ opsK_writes (by decide)).trans (val10_main_arg10 V)
theorem val11_main_arg11 (V : Valuation τ sig (Elt F)) : val11 V (no_index (Proc.devRef .tc main_arg11)) = (V (Proc.devRef .tc main_arg11)) :=
  (after_of_writes_sub opsK _ opsK_writes (by decide)).trans (val10_main_arg11 V)
theorem val11_main_v45 (V : Valuation τ sig (Elt F)) : val11 V (no_index (Proc.devRef .tc main_v45)) = resX (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  (after_of_writes_sub opsK _ opsK_writes (by decide)).trans (val10_main_v45 V)
theorem val11_main_v86 (V : Valuation τ sig (Elt F)) : val11 V (no_index (Proc.devRef .tc main_v86)) = bnE (res_v67 (V (Proc.devRef .tc main_arg0)) (V (Proc.devRef .tc main_arg1)) (V (Proc.devRef .tc main_arg2)) (V (Proc.devRef .tc main_arg5)) (V (Proc.devRef .tc main_arg6)) (V (Proc.devRef .tc main_arg7))) (res_v70 (V (Proc.devRef .tc main_arg0)) (V (Proc.devRef .tc main_arg1)) (V (Proc.devRef .tc main_arg2)) (V (Proc.devRef .tc main_arg5)) (V (Proc.devRef .tc main_arg6)) (V (Proc.devRef .tc main_arg7))) (res_v71 (V (Proc.devRef .tc main_arg0)) (V (Proc.devRef .tc main_arg1)) (V (Proc.devRef .tc main_arg2)) (V (Proc.devRef .tc main_arg5)) (V (Proc.devRef .tc main_arg6)) (V (Proc.devRef .tc main_arg7))) (V (Proc.devRef .tc main_arg10)) (V (Proc.devRef .tc main_arg11)) := by
  unfold val11
  simp only [winK_main_v86, val10_main_v67, val10_main_v70, val10_main_v71, val10_main_arg10, val10_main_arg11] <;> rfl

/-- The contents after the first 12 stretches. -/
def val12 (V : Valuation τ sig (Elt F)) : Valuation τ sig (Elt F) := after opsL (val11 V)
theorem val12_main_arg0 (V : Valuation τ sig (Elt F)) : val12 V (no_index (Proc.devRef .tc main_arg0)) = (V (Proc.devRef .tc main_arg0)) :=
  (after_of_writes_sub opsL _ opsL_writes (by decide)).trans (val11_main_arg0 V)
theorem val12_main_arg1 (V : Valuation τ sig (Elt F)) : val12 V (no_index (Proc.devRef .tc main_arg1)) = (V (Proc.devRef .tc main_arg1)) :=
  (after_of_writes_sub opsL _ opsL_writes (by decide)).trans (val11_main_arg1 V)
theorem val12_main_arg2 (V : Valuation τ sig (Elt F)) : val12 V (no_index (Proc.devRef .tc main_arg2)) = (V (Proc.devRef .tc main_arg2)) :=
  (after_of_writes_sub opsL _ opsL_writes (by decide)).trans (val11_main_arg2 V)
theorem val12_main_arg3 (V : Valuation τ sig (Elt F)) : val12 V (no_index (Proc.devRef .tc main_arg3)) = (V (Proc.devRef .tc main_arg3)) :=
  (after_of_writes_sub opsL _ opsL_writes (by decide)).trans (val11_main_arg3 V)
theorem val12_main_arg4 (V : Valuation τ sig (Elt F)) : val12 V (no_index (Proc.devRef .tc main_arg4)) = (V (Proc.devRef .tc main_arg4)) :=
  (after_of_writes_sub opsL _ opsL_writes (by decide)).trans (val11_main_arg4 V)
theorem val12_main_arg5 (V : Valuation τ sig (Elt F)) : val12 V (no_index (Proc.devRef .tc main_arg5)) = (V (Proc.devRef .tc main_arg5)) :=
  (after_of_writes_sub opsL _ opsL_writes (by decide)).trans (val11_main_arg5 V)
theorem val12_main_arg6 (V : Valuation τ sig (Elt F)) : val12 V (no_index (Proc.devRef .tc main_arg6)) = (V (Proc.devRef .tc main_arg6)) :=
  (after_of_writes_sub opsL _ opsL_writes (by decide)).trans (val11_main_arg6 V)
theorem val12_main_arg7 (V : Valuation τ sig (Elt F)) : val12 V (no_index (Proc.devRef .tc main_arg7)) = (V (Proc.devRef .tc main_arg7)) :=
  (after_of_writes_sub opsL _ opsL_writes (by decide)).trans (val11_main_arg7 V)
theorem val12_main_arg8 (V : Valuation τ sig (Elt F)) : val12 V (no_index (Proc.devRef .tc main_arg8)) = (V (Proc.devRef .tc main_arg8)) :=
  (after_of_writes_sub opsL _ opsL_writes (by decide)).trans (val11_main_arg8 V)
theorem val12_main_arg9 (V : Valuation τ sig (Elt F)) : val12 V (no_index (Proc.devRef .tc main_arg9)) = (V (Proc.devRef .tc main_arg9)) :=
  (after_of_writes_sub opsL _ opsL_writes (by decide)).trans (val11_main_arg9 V)
theorem val12_main_arg10 (V : Valuation τ sig (Elt F)) : val12 V (no_index (Proc.devRef .tc main_arg10)) = (V (Proc.devRef .tc main_arg10)) :=
  (after_of_writes_sub opsL _ opsL_writes (by decide)).trans (val11_main_arg10 V)
theorem val12_main_arg11 (V : Valuation τ sig (Elt F)) : val12 V (no_index (Proc.devRef .tc main_arg11)) = (V (Proc.devRef .tc main_arg11)) :=
  (after_of_writes_sub opsL _ opsL_writes (by decide)).trans (val11_main_arg11 V)
theorem val12_main_v45 (V : Valuation τ sig (Elt F)) : val12 V (no_index (Proc.devRef .tc main_v45)) = resX (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  (after_of_writes_sub opsL _ opsL_writes (by decide)).trans (val11_main_v45 V)
theorem val12_main_v88 (V : Valuation τ sig (Elt F)) : val12 V (no_index (Proc.devRef .tc main_v88)) = resE (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  unfold val12
  simp only [winL_main_v88, val11_main_arg1, val11_main_v86] <;> rfl

/-- Running the whole line is running the twelve stretches in order. -/
theorem after_ops (V : Valuation τ sig (Elt F)) : after ops V = val12 V := by
  rw [ops_split]
  simp only [Cert.Lib.after_append]
  rfl

end Cert.ReferenceIdeal.RefRun

end
-- ==== Proof.RefRun.lean ====
/-
  The reference's run: from any memory with zero counters every weakly fair execution of @main terminates, without a
  fault, with the two result buffers at the stage functions `resX`, `resE` of the twelve argument arrays as @main found
  them, and the argument arrays unchanged.
-/
import proofs.«137949_j58935541236529_2_alg».proof.Proof.RefMainEq
import proofs.«137949_j58935541236529_2_alg».proof.Proof.RefChain

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45) = resX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v88) = resE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v45).trans (by simp only [after_ops]; exact val12_main_v45 (launchContents m c)),
      (h c main_v88).trans (by simp only [after_ops]; exact val12_main_v88 (launchContents m c)),
      (h c main_arg0).trans (by simp only [after_ops]; exact val12_main_arg0 (launchContents m c)),
      (h c main_arg1).trans (by simp only [after_ops]; exact val12_main_arg1 (launchContents m c)),
      (h c main_arg2).trans (by simp only [after_ops]; exact val12_main_arg2 (launchContents m c)),
      (h c main_arg3).trans (by simp only [after_ops]; exact val12_main_arg3 (launchContents m c)),
      (h c main_arg4).trans (by simp only [after_ops]; exact val12_main_arg4 (launchContents m c)),
      (h c main_arg5).trans (by simp only [after_ops]; exact val12_main_arg5 (launchContents m c)),
      (h c main_arg6).trans (by simp only [after_ops]; exact val12_main_arg6 (launchContents m c)),
      (h c main_arg7).trans (by simp only [after_ops]; exact val12_main_arg7 (launchContents m c)),
      (h c main_arg8).trans (by simp only [after_ops]; exact val12_main_arg8 (launchContents m c)),
      (h c main_arg9).trans (by simp only [after_ops]; exact val12_main_arg9 (launchContents m c)),
      (h c main_arg10).trans (by simp only [after_ops]; exact val12_main_arg10 (launchContents m c)),
      (h c main_arg11).trans (by simp only [after_ops]; exact val12_main_arg11 (launchContents m c))⟩)
    (run_seq scopedRefs_eq scopedSems_eq defs main (fun _ => ops) main_eq (fun _ => ops_sub) m ρ)

end Cert.ReferenceIdeal.RefRun

end
-- ==== Proof.Finite.lean ====
import Idealize.ShloMosaic.Lib.ReduceAll
import Idealize.ShloMosaic.Lib.ValueIdx
import Idealize.ShloMosaic.PureOps.Ideal
import proofs.«137949_j58935541236529_2_alg».proof.Pre_finite_inputs
import proofs.«137949_j58935541236529_2_alg».proof.Proof.LibReal

/-!
# Every float input is a real number

The precondition treats each of the eleven float argument arrays the same way: it takes the absolute value
of every entry, asks whether it is below +∞, and takes the conjunction of the answers over the whole array;
the eleven conjunctions are then conjoined into one bit. When that bit is 1 every conjunct is 1, so every
single comparison answered 1: each entry x has max x (-x) < ⊤, which excludes both infinities, and x is the
image of a real number. The integer array of edge endpoints is not tested and nothing is said of it.
-/

noncomputable section

namespace Cert.Finite

open Idealize.ShloMosaic
open Cert.GinMath
open Cert.Pre_finite_inputs

/-- The scalar shape has exactly one index. -/
local instance scalarIdx_subsingleton : Subsingleton S_.Idx := ⟨fun _ _ => funext fun d => d.elim0⟩

/-- A conjunction of two one-bit scalars, read at the scalar's index, is the conjunction of the two bits. -/
theorem andi_ix0 (x y : IVec S_ 1) :
    andi x y ValueIdx.ix0 = IntOp.andi (x ValueIdx.ix0) (y ValueIdx.ix0) := rfl

/-- One array's test. When the conjunction over all entries of "|x| < +∞" is 1, the comparison answered 1
    at every index, and an entry whose absolute value is below +∞ is real. -/
theorem all_real {s : Shape} {axes : List (Fin s.rank)} (x : FVec Ideal s .f32)
    (hb : S_.BroadcastsInDim s (![] : Fin 0 → Fin s.rank)) (hr : s.ReducesTo axes S_) (hpos : 0 < S_.numel)
    (e : Host.reduce IntOp.andi
          (cmpf .olt (Host.absf x) (broadcastInDim s ![] hb (constant (F := Ideal) S_ .f32 0x7F800000#32)))
          (constantI S_ 1 1#1) hr hpos ValueIdx.ix0 = 1#1) (i : s.Idx) : IsReal (x i) := by
  have hi := Host.reduce_andi_all _ _ hr hpos _ e i
  exact isReal_of_cmp_abs_lt_inf hi

/-- Under the precondition every entry of every float argument array is a real number. -/
theorem reals_of_pre [Facts]
    (a0 : FVec Ideal S50000x128 .f32) (a1 : FVec Ideal S640000x128 .f32) (a2 : IVec S2x640000 32)
    (a3 a4 a5 a6 a7 : FVec Ideal S128x128 .f32) (a8 a9 a10 a11 : FVec Ideal S128 .f32)
    (h : Cert.Pre_finite_inputs.fn (F := Ideal) a0 a1 a2 a3 a4 a5 a6 a7 a8 a9 a10 a11 = fun _ => 1#1) :
    (∀ i, IsReal (a0 i)) ∧ (∀ i, IsReal (a1 i)) ∧ (∀ i, IsReal (a3 i)) ∧ (∀ i, IsReal (a4 i)) ∧
    (∀ i, IsReal (a5 i)) ∧ (∀ i, IsReal (a6 i)) ∧ (∀ i, IsReal (a7 i)) ∧ (∀ i, IsReal (a8 i)) ∧
    (∀ i, IsReal (a9 i)) ∧ (∀ i, IsReal (a10 i)) ∧ (∀ i, IsReal (a11 i)) := by
  have h0 := congrFun h ValueIdx.ix0
  dsimp only [fn, fn_part1, fn_part2, fn_part3] at h0
  simp only [andi_ix0, IntOp.andi_eq_one] at h0
  obtain ⟨⟨⟨⟨⟨⟨⟨⟨⟨⟨e0, e1⟩, e3⟩, e4⟩, e5⟩, e6⟩, e7⟩, e8⟩, e9⟩, e10⟩, e11⟩ := h0
  exact ⟨all_real a0 _ _ _ e0, all_real a1 _ _ _ e1, all_real a3 _ _ _ e3, all_real a4 _ _ _ e4,
    all_real a5 _ _ _ e5, all_real a6 _ _ _ e6, all_real a7 _ _ _ e7, all_real a8 _ _ _ e8,
    all_real a9 _ _ _ e9, all_real a10 _ _ _ e10, all_real a11 _ _ _ e11⟩

end Cert.Finite

end
-- ==== Proof.lean ====
/-
  A graph-network layer: messages e · (x[src] W2ᵀ) are added up at their destination nodes, the node update is
  x + relu(BN(x W1ᵀ + aggregate)) and the edge update e + relu(BN(e W3ᵀ + x[dst] W4ᵀ + x[src] W5ᵀ)), BN the batch
  normalisation over the rows with learned scale and shift.

  The kernel computes it in four pipelined calls: the edge products together with per-core column sums and sums of
  squares of the edge pre-activation; the node pre-activation with the same statistics; and one finalizing call each
  for nodes and edges, which take mean and variance from small host computations on the statistics (the two cores'
  sums added, divided by the row count; the variance as the mean square minus the squared mean, clipped at zero). The
  reference is the textbook form with the variance as the mean squared deviation.

  At exact arithmetic the two agree: the matrix products, gathers and the scatter-add are the same functions of the
  arguments; the per-core, per-block column sums regroup to the sums over all rows; and for real entries the
  clipped mean-square form of the variance is the mean squared deviation. Finiteness of the inputs (the
  precondition) gives the real entries.
-/
import proofs.«137949_j58935541236529_2_alg».proof.Defs
import proofs.«137949_j58935541236529_2_alg».proof.Proof.Gen.Kernel
import proofs.«137949_j58935541236529_2_alg».proof.Proof.Gen.Kernel.Frame
import proofs.«137949_j58935541236529_2_alg».proof.Proof.Gen.KernelIdeal
import proofs.«137949_j58935541236529_2_alg».proof.Proof.Gen.KernelIdeal.Frame
import proofs.«137949_j58935541236529_2_alg».proof.Proof.Gen.ReferenceIdeal
import proofs.«137949_j58935541236529_2_alg».proof.Proof.Gen.Pre_finite_inputs
import proofs.«137949_j58935541236529_2_alg».proof.Proof.KRun
import proofs.«137949_j58935541236529_2_alg».proof.Proof.KChainAll
import proofs.«137949_j58935541236529_2_alg».proof.Proof.Bridge
import proofs.«137949_j58935541236529_2_alg».proof.Proof.RefRun
import proofs.«137949_j58935541236529_2_alg».proof.Proof.Finite
import Idealize.ShloMosaic.Adequacy
import Idealize.ShloMosaic.Init

set_option maxRecDepth 16384

noncomputable section

namespace Cert.Proof

open Idealize.ShloMosaic Idealize.SL.Sem Cert.GinMath

/-- The three frames: the two kernels' from their generated frame certificates, the reference's from its run. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.RefRun.run (F := Ideal) m ρ)

/-- From memories agreeing on the arguments, both idealized programs end with the reference's two stage functions of
    the argument arrays in their result buffers. -/
theorem algebraic : Cert.algebraic_KernelIdeal_ReferenceIdeal := by
  intro m ρ m' ρ' hpre hagree
  refine ⟨fun c => Cert.ReferenceIdeal.RefRun.resX (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.RefRun.resE (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.KRun.run_vals (F := Ideal) m ρ)
    obtain ⟨hx, he, h1, h2, h3, h4, h5, -, -, -, -⟩ := Cert.Finite.reals_of_pre _ _ _ _ _ _ _ _ _ _ _ _ (hpre c)
    exact ⟨(h c).1.trans ((Cert.KernelIdeal.KChain.res71 m ρ c).trans (Cert.Bridge.node_result m ρ c hx he h1 h2)),
      (h c).2.1.trans ((Cert.KernelIdeal.KChain.res72 m ρ c).trans (Cert.Bridge.edge_result m ρ c hx he h3 h4 h5)),
      (h c).2.2⟩
  · refine (θ_run Cert.ReferenceIdeal.defs _ _).mono (fun r h c => ?_) (Cert.ReferenceIdeal.RefRun.run (F := Ideal) m' ρ')
    obtain ⟨e0, e1, e2, e3, e4, e5, e6, e7, e8, e9, e10, e11⟩ := hagree c
    refine ⟨(h c).1.trans ?_, (h c).2.1.trans ?_, (h c).2.2⟩
    · rw [e0, e1, e2, e3, e4, e5, e6, e7, e8, e9, e10, e11]
    · rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
